-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  IdealRules.named_const.Statement Cert.KernelIdeal.κ "inv_bn_std" .f32 0x3F7FFFAC#32 ((4194304 / 4194325 : ℝ) : EReal)
  ∧ IdealRules.named_const.Statement Cert.KernelIdeal.κ "inv_bn_std" .f32 0x3F7FFFAC#32 ((4194304 / 4194325 : ℝ) : EReal)
  ∧ IdealRules.named_const.Statement Cert.KernelIdeal.κ "inv_bn_std" .f32 0x3F7FFFAC#32 ((4194304 / 4194325 : ℝ) : EReal)
  ∧ IdealRules.named_const.Statement Cert.KernelIdeal.κ "inv_bn_std" .f32 0x3F7FFFAC#32 ((4194304 / 4194325 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x70 : Shape := ⟨2, ![50000, 70]⟩
abbrev S2x400000 : Shape := ⟨2, ![2, 400000]⟩
abbrev S50000 : Shape := ⟨1, ![50000]⟩
abbrev S2048x480 : Shape := ⟨2, ![2048, 480]⟩
abbrev S70x256 : Shape := ⟨2, ![70, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S480x256 : Shape := ⟨2, ![480, 256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x70 : S_.BroadcastsInDim S50000x70 (![] : Fin 0 → Fin S50000x70.rank)
  reducesTo_S50000x70_S_d0_1 : S50000x70.ReducesTo [0, 1] S_
  h_S_ : 0 < S_.numel
  bcast_S_S2048x480 : S_.BroadcastsInDim S2048x480 (![] : Fin 0 → Fin S2048x480.rank)
  reducesTo_S2048x480_S_d0_1 : S2048x480.ReducesTo [0, 1] S_
  bcast_S_S70x256 : S_.BroadcastsInDim S70x256 (![] : Fin 0 → Fin S70x256.rank)
  reducesTo_S70x256_S_d0_1 : S70x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S480x256 : S_.BroadcastsInDim S480x256 (![] : Fin 0 → Fin S480x256.rank)
  reducesTo_S480x256_S_d0_1 : S480x256.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S512 .f32) (main_arg24 : FVec F S512x1 .f32) (main_arg25 : FVec F S1 .f32) (main_v98 : IVec S_ 1) (main_v101 : IVec S1024x512 1) (main_c_39 : IVec S_ 1) : IVec S_ 1 :=
  let main_v102 : IVec S_ 1 := (fun x v => Host.reduce IntOp.andi x v reducesTo_S1024x512_S_d0_1 h_S_) main_v101 main_c_39
  let main_v103 : IVec S_ 1 := andi main_v98 main_v102
  let main_v104 : FVec F S512 .f32 := Host.absf main_arg23
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x1 .f32 := Host.absf main_arg24
  let main_cst_42 : FVec F S_ .f32 := constant S_ .f32 0x7F800000#32
  let main_v110 : FVec F S512x1 .f32 := broadcastInDim S512x1 ![] bcast_S_S512x1 main_cst_42
  let main_v111 : IVec S512x1 1 := cmpf .olt main_v109 main_v110
  let main_c_43 : IVec S_ 1 := constantI S_ 1 1#1
  let main_v112 : IVec S_ 1 := (fun x v => Host.reduce IntOp.andi x v reducesTo_S512x1_S_d0_1 h_S_) main_v111 main_c_43
  let main_v113 : IVec S_ 1 := andi main_v108 main_v112
  let main_v114 : FVec F S1 .f32 := Host.absf main_arg25
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg20 : FVec F S512x1024 .f32) (main_arg21 : FVec F S1024 .f32) (main_arg22 : FVec F S1024x512 .f32) (main_arg23 : FVec F S512 .f32) (main_arg24 : FVec F S512x1 .f32) (main_arg25 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S512x1024 .f32 := Host.absf main_arg20
  let main_cst_34 : FVec F S_ .f32 := constant S_ .f32 0x7F800000#32
  let main_v90 : FVec F S512x1024 .f32 := broadcastInDim S512x1024 ![] bcast_S_S512x1024 main_cst_34
  let main_v91 : IVec S512x1024 1 := cmpf .olt main_v89 main_v90
  let main_c_35 : IVec S_ 1 := constantI S_ 1 1#1
  let main_v92 : IVec S_ 1 := (fun x v => Host.reduce IntOp.andi x v reducesTo_S512x1024_S_d0_1 h_S_) main_v91 main_c_35
  let main_v93 : IVec S_ 1 := andi main_v88 main_v92
  let main_v94 : FVec F S1024 .f32 := Host.absf main_arg21
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024x512 .f32 := Host.absf main_arg22
  let main_cst_38 : FVec F S_ .f32 := constant S_ .f32 0x7F800000#32
  let main_v100 : FVec F S1024x512 .f32 := broadcastInDim S1024x512 ![] bcast_S_S1024x512 main_cst_38
  let main_v101 : IVec S1024x512 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S480x256 .f32) (main_arg17 : FVec F S256 .f32) (main_arg18 : FVec F S256 .f32) (main_arg19 : FVec F S256 .f32) (main_arg20 : FVec F S512x1024 .f32) (main_arg21 : FVec F S1024 .f32) (main_arg22 : FVec F S1024x512 .f32) (main_arg23 : FVec F S512 .f32) (main_arg24 : FVec F S512x1 .f32) (main_arg25 : FVec F S1 .f32) (main_v63 : IVec S_ 1) (main_v67 : IVec S_ 1) : IVec S_ 1 :=
  let main_v68 : IVec S_ 1 := andi main_v63 main_v67
  let main_v69 : FVec F S480x256 .f32 := Host.absf main_arg16
  let main_cst_26 : FVec F S_ .f32 := constant S_ .f32 0x7F800000#32
  let main_v70 : FVec F S480x256 .f32 := broadcastInDim S480x256 ![] bcast_S_S480x256 main_cst_26
  let main_v71 : IVec S480x256 1 := cmpf .olt main_v69 main_v70
  let main_c_27 : IVec S_ 1 := constantI S_ 1 1#1
  let main_v72 : IVec S_ 1 := (fun x v => Host.reduce IntOp.andi x v reducesTo_S480x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S3x256 .f32) (main_arg14 : FVec F S3x256 .f32) (main_arg15 : FVec F S3x256 .f32) (main_arg16 : FVec F S480x256 .f32) (main_arg17 : FVec F S256 .f32) (main_arg18 : FVec F S256 .f32) (main_arg19 : FVec F S256 .f32) (main_arg20 : FVec F S512x1024 .f32) (main_arg21 : FVec F S1024 .f32) (main_arg22 : FVec F S1024x512 .f32) (main_arg23 : FVec F S512 .f32) (main_arg24 : FVec F S512x1 .f32) (main_arg25 : FVec F S1 .f32) (main_v48 : IVec S_ 1) (main_v49 : FVec F S3x256x256 .f32) (main_v50 : FVec F S3x256x256 .f32) : IVec S_ 1 :=
  let main_v51 : IVec S3x256x256 1 := cmpf .olt main_v49 main_v50
  let main_c_19 : IVec S_ 1 := constantI S_ 1 1#1
  let main_v52 : IVec S_ 1 := (fun x v => Host.reduce IntOp.andi x v reducesTo_S3x256x256_S_d0_1_2 h_S_) main_v51 main_c_19
  let main_v53 : IVec S_ 1 := andi main_v48 main_v52
  let main_v54 : FVec F S3x256 .f32 := Host.absf main_arg13
  let main_cst_20 : FVec F S_ .f32 := constant S_ .f32 0x7F800000#32
  let main_v55 : FVec F S3x256 .f32 := broadcastInDim S3x256 ![] bcast_S_S3x256 main_cst_20
  let main_v56 : IVec S3x256 1 := cmpf .olt main_v54 main_v55
  let main_c_21 : IVec S_ 1 := constantI S_ 1 1#1
  let main_v57 : IVec S_ 1 := (fun x v => Host.reduce IntOp.andi x v reducesTo_S3x256_S_d0_1 h_S_) main_v56 main_c_21
  let main_v58 : IVec S_ 1 := andi main_v53 main_v57
  let main_v59 : FVec F S3x256 .f32 := Host.absf main_arg14
  let main_cst_22 : FVec F S_ .f32 := constant S_ .f32 0x7F800000#32
  let main_v60 : FVec F S3x256 .f32 := broadcastInDim S3x256 ![] bcast_S_S3x256 main_cst_22
  let main_v61 : IVec S3x256 1 := cmpf .olt main_v59 main_v60
  let main_c_23 : IVec S_ 1 := constantI S_ 1 1#1
  let main_v62 : IVec S_ 1 := (fun x v => Host.reduce IntOp.andi x v reducesTo_S3x256_S_d0_1 h_S_) main_v61 main_c_23
  let main_v63 : IVec S_ 1 := andi main_v58 main_v62
  let main_v64 : FVec F S3x256 .f32 := Host.absf main_arg15
  let main_cst_24 : FVec F S_ .f32 := constant S_ .f32 0x7F800000#32
  let main_v65 : FVec F S3x256 .f32 := broadcastInDim S3x256 ![] bcast_S_S3x256 main_cst_24
  let main_v66 : IVec S3x256 1 := cmpf .olt main_v64 main_v65
  let main_c_25 : IVec S_ 1 := constantI S_ 1 1#1
  let main_v67 : IVec S_ 1 := (fun x v => Host.reduce IntOp.andi x v reducesTo_S3x256_S_d0_1 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S256 .f32) (main_arg10 : FVec F S3x256x256 .f32) (main_arg11 : FVec F S3x256 .f32) (main_arg12 : FVec F S3x256x256 .f32) (main_arg13 : FVec F S3x256 .f32) (main_arg14 : FVec F S3x256 .f32) (main_arg15 : FVec F S3x256 .f32) (main_arg16 : FVec F S480x256 .f32) (main_arg17 : FVec F S256 .f32) (main_arg18 : FVec F S256 .f32) (main_arg19 : FVec F S256 .f32) (main_arg20 : FVec F S512x1024 .f32) (main_arg21 : FVec F S1024 .f32) (main_arg22 : FVec F S1024x512 .f32) (main_arg23 : FVec F S512 .f32) (main_arg24 : FVec F S512x1 .f32) (main_arg25 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S3x256x256 .f32 := Host.absf main_arg10
  let main_cst_14 : FVec F S_ .f32 := constant S_ .f32 0x7F800000#32
  let main_v40 : FVec F S3x256x256 .f32 := broadcastInDim S3x256x256 ![] bcast_S_S3x256x256 main_cst_14
  let main_v41 : IVec S3x256x256 1 := cmpf .olt main_v39 main_v40
  let main_c_15 : IVec S_ 1 := constantI S_ 1 1#1
  let main_v42 : IVec S_ 1 := (fun x v => Host.reduce IntOp.andi x v reducesTo_S3x256x256_S_d0_1_2 h_S_) main_v41 main_c_15
  let main_v43 : IVec S_ 1 := andi main_v38 main_v42
  let main_v44 : FVec F S3x256 .f32 := Host.absf main_arg11
  let main_cst_16 : FVec F S_ .f32 := constant S_ .f32 0x7F800000#32
  let main_v45 : FVec F S3x256 .f32 := broadcastInDim S3x256 ![] bcast_S_S3x256 main_cst_16
  let main_v46 : IVec S3x256 1 := cmpf .olt main_v44 main_v45
  let main_c_17 : IVec S_ 1 := constantI S_ 1 1#1
  let main_v47 : IVec S_ 1 := (fun x v => Host.reduce IntOp.andi x v reducesTo_S3x256_S_d0_1 h_S_) main_v46 main_c_17
  let main_v48 : IVec S_ 1 := andi main_v43 main_v47
  let main_v49 : FVec F S3x256x256 .f32 := Host.absf main_arg12
  let main_cst_18 : FVec F S_ .f32 := constant S_ .f32 0x7F800000#32
  let main_v50 : FVec F S3x256x256 .f32 := broadcastInDim S3x256x256 ![] bcast_S_S3x256x256 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S256x256 .f32) (main_arg7 : FVec F S256 .f32) (main_arg8 : FVec F S256 .f32) (main_arg9 : FVec F S256 .f32) (main_arg10 : FVec F S3x256x256 .f32) (main_arg11 : FVec F S3x256 .f32) (main_arg12 : FVec F S3x256x256 .f32) (main_arg13 : FVec F S3x256 .f32) (main_arg14 : FVec F S3x256 .f32) (main_arg15 : FVec F S3x256 .f32) (main_arg16 : FVec F S480x256 .f32) (main_arg17 : FVec F S256 .f32) (main_arg18 : FVec F S256 .f32) (main_arg19 : FVec F S256 .f32) (main_arg20 : FVec F S512x1024 .f32) (main_arg21 : FVec F S1024 .f32) (main_arg22 : FVec F S1024x512 .f32) (main_arg23 : FVec F S512 .f32) (main_arg24 : FVec F S512x1 .f32) (main_arg25 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x70 .f32) (main_arg1 : IVec S2x400000 32) (main_arg2 : IVec S50000 32) (main_arg3 : FVec F S2048x480 .f32) (main_arg4 : FVec F S70x256 .f32) (main_arg5 : FVec F S256 .f32) (main_arg6 : FVec F S256x256 .f32) (main_arg7 : FVec F S256 .f32) (main_arg8 : FVec F S256 .f32) (main_arg9 : FVec F S256 .f32) (main_arg10 : FVec F S3x256x256 .f32) (main_arg11 : FVec F S3x256 .f32) (main_arg12 : FVec F S3x256x256 .f32) (main_arg13 : FVec F S3x256 .f32) (main_arg14 : FVec F S3x256 .f32) (main_arg15 : FVec F S3x256 .f32) (main_arg16 : FVec F S480x256 .f32) (main_arg17 : FVec F S256 .f32) (main_arg18 : FVec F S256 .f32) (main_arg19 : FVec F S256 .f32) (main_arg20 : FVec F S512x1024 .f32) (main_arg21 : FVec F S1024 .f32) (main_arg22 : FVec F S1024x512 .f32) (main_arg23 : FVec F S512 .f32) (main_arg24 : FVec F S512x1 .f32) (main_arg25 : FVec F S1 .f32) : IVec S_ 1 :=
  let main_v0 : FVec F S50000x70 .f32 := Host.absf main_arg0
  let main_cst : FVec F S_ .f32 := constant S_ .f32 0x7F800000#32
  let main_v1 : FVec F S50000x70 .f32 := broadcastInDim S50000x70 ![] bcast_S_S50000x70 main_cst
  let main_v2 : IVec S50000x70 1 := cmpf .olt main_v0 main_v1
  let main_c : IVec S_ 1 := constantI S_ 1 1#1
  let main_v3 : IVec S_ 1 := (fun x v => Host.reduce IntOp.andi x v reducesTo_S50000x70_S_d0_1 h_S_) main_v2 main_c
  let main_v4 : FVec F S2048x480 .f32 := Host.absf main_arg3
  let main_cst_0 : FVec F S_ .f32 := constant S_ .f32 0x7F800000#32
  let main_v5 : FVec F S2048x480 .f32 := broadcastInDim S2048x480 ![] bcast_S_S2048x480 main_cst_0
  let main_v6 : IVec S2048x480 1 := cmpf .olt main_v4 main_v5
  let main_c_1 : IVec S_ 1 := constantI S_ 1 1#1
  let main_v7 : IVec S_ 1 := (fun x v => Host.reduce IntOp.andi x v reducesTo_S2048x480_S_d0_1 h_S_) main_v6 main_c_1
  let main_v8 : IVec S_ 1 := andi main_v3 main_v7
  let main_v9 : FVec F S70x256 .f32 := Host.absf main_arg4
  let main_cst_2 : FVec F S_ .f32 := constant S_ .f32 0x7F800000#32
  let main_v10 : FVec F S70x256 .f32 := broadcastInDim S70x256 ![] bcast_S_S70x256 main_cst_2
  let main_v11 : IVec S70x256 1 := cmpf .olt main_v9 main_v10
  let main_c_3 : IVec S_ 1 := constantI S_ 1 1#1
  let main_v12 : IVec S_ 1 := (fun x v => Host.reduce IntOp.andi x v reducesTo_S70x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x70 : Shape := ⟨2, ![50000, 70]⟩
abbrev S2x400000 : Shape := ⟨2, ![2, 400000]⟩
abbrev S50000 : Shape := ⟨1, ![50000]⟩
abbrev S2048x480 : Shape := ⟨2, ![2048, 480]⟩
abbrev S70x256 : Shape := ⟨2, ![70, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S480x256 : Shape := ⟨2, ![480, 256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x70 : Shape := ⟨2, ![400000, 70]⟩
abbrev S1x256 : Shape := ⟨2, ![1, 256]⟩
abbrev S50000x256 : Shape := ⟨2, ![50000, 256]⟩
abbrev S2000x70 : Shape := ⟨2, ![2000, 70]⟩
abbrev S2000x256 : Shape := ⟨2, ![2000, 256]⟩
abbrev S1x256x256 : Shape := ⟨3, ![1, 256, 256]⟩
abbrev S400000x256 : Shape := ⟨2, ![400000, 256]⟩
abbrev S2048x256 : Shape := ⟨2, ![2048, 256]⟩
abbrev S50000x1 : Shape := ⟨2, ![50000, 1]⟩
abbrev S512x480 : Shape := ⟨2, ![512, 480]⟩
abbrev S512x256 : Shape := ⟨2, ![512, 256]⟩
abbrev S256x1024 : Shape := ⟨2, ![256, 1024]⟩
abbrev S1x1024 : Shape := ⟨2, ![1, 1024]⟩
abbrev S1x512 : Shape := ⟨2, ![1, 512]⟩
abbrev S1x1 : Shape := ⟨2, ![1, 1]⟩
abbrev S2048x1 : Shape := ⟨2, ![2048, 1]⟩
abbrev S512x512 : Shape := ⟨2, ![512, 512]⟩

abbrev nBuf : Space → Nat
  | .hbm => 152
  | .vmem => 69
  | .smem => 0
  | _ => 0

abbrev hbmTy0_0 (i : Nat) : BufTy := match i % 128 with
  | 0 => ⟨S50000x70, .f32⟩
  | 1 => ⟨S2x400000, .i32⟩
  | 2 => ⟨S50000, .i32⟩
  | 3 => ⟨S2048x480, .f32⟩
  | 4 => ⟨S70x256, .f32⟩
  | 5 => ⟨S256, .f32⟩
  | 6 => ⟨S256x256, .f32⟩
  | 7 => ⟨S256, .f32⟩
  | 8 => ⟨S256, .f32⟩
  | 9 => ⟨S256, .f32⟩
  | 10 => ⟨S3x256x256, .f32⟩
  | 11 => ⟨S3x256, .f32⟩
  | 12 => ⟨S3x256x256, .f32⟩
  | 13 => ⟨S3x256, .f32⟩
  | 14 => ⟨S3x256, .f32⟩
  | 15 => ⟨S3x256, .f32⟩
  | 16 => ⟨S480x256, .f32⟩
  | 17 => ⟨S256, .f32⟩
  | 18 => ⟨S256, .f32⟩
  | 19 => ⟨S256, .f32⟩
  | 20 => ⟨S512x1024, .f32⟩
  | 21 => ⟨S1024, .f32⟩
  | 22 => ⟨S1024x512, .f32⟩
  | 23 => ⟨S512, .f32⟩
  | 24 => ⟨S512x1, .f32⟩
  | 25 => ⟨S1, .f32⟩
  | 26 => ⟨S1x400000, .i32⟩
  | 27 => ⟨S400000, .i32⟩
  | 28 => ⟨S1x400000, .i32⟩
  | 29 => ⟨S400000, .i32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x70, .f32⟩
  | 39 => ⟨S_, .f32⟩
  | 40 => ⟨S50000x70, .f32⟩
  | 41 => ⟨S400000x1, .i32⟩
  | 42 => ⟨S50000x70, .f32⟩
  | 43 => ⟨S1x256, .f32⟩
  | 44 => ⟨S1x256, .f32⟩
  | 45 => ⟨S1x256, .f32⟩
  | 46 => ⟨S1x256, .f32⟩
  | 47 => ⟨S50000x256, .f32⟩
  | 48 => ⟨S1x256x256, .f32⟩
  | 49 => ⟨S256x256, .f32⟩
  | 50 => ⟨S1x256, .f32⟩
  | 51 => ⟨S256, .f32⟩
  | 52 => ⟨S1x256x256, .f32⟩
  | 53 => ⟨S256x256, .f32⟩
  | 54 => ⟨S1x256, .f32⟩
  | 55 => ⟨S256, .f32⟩
  | 56 => ⟨S1x256, .f32⟩
  | 57 => ⟨S256, .f32⟩
  | 58 => ⟨S1x256, .f32⟩
  | 59 => ⟨S256, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x256, .f32⟩
  | 69 => ⟨S_, .f32⟩
  | 70 => ⟨S50000x256, .f32⟩
  | 71 => ⟨S400000x1, .i32⟩
  | 72 => ⟨S50000x256, .f32⟩
  | 73 => ⟨S1x256, .f32⟩
  | 74 => ⟨S1x256, .f32⟩
  | 75 => ⟨S1x256, .f32⟩
  | 76 => ⟨S1x256, .f32⟩
  | 77 => ⟨S50000x256, .f32⟩
  | 78 => ⟨S1x256x256, .f32⟩
  | 79 => ⟨S256x256, .f32⟩
  | 80 => ⟨S1x256, .f32⟩
  | 81 => ⟨S256, .f32⟩
  | 82 => ⟨S1x256x256, .f32⟩
  | 83 => ⟨S256x256, .f32⟩
  | 84 => ⟨S1x256, .f32⟩
  | 85 => ⟨S256, .f32⟩
  | 86 => ⟨S1x256, .f32⟩
  | 87 => ⟨S256, .f32⟩
  | 88 => ⟨S1x256, .f32⟩
  | 89 => ⟨S256, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x256, .f32⟩
  | 99 => ⟨S_, .f32⟩
  | 100 => ⟨S50000x256, .f32⟩
  | 101 => ⟨S400000x1, .i32⟩
  | 102 => ⟨S50000x256, .f32⟩
  | 103 => ⟨S1x256, .f32⟩
  | 104 => ⟨S1x256, .f32⟩
  | 105 => ⟨S1x256, .f32⟩
  | 106 => ⟨S1x256, .f32⟩
  | 107 => ⟨S50000x256, .f32⟩
  | 108 => ⟨S1x256x256, .f32⟩
  | 109 => ⟨S256x256, .f32⟩
  | 110 => ⟨S1x256, .f32⟩
  | 111 => ⟨S256, .f32⟩
  | 112 => ⟨S1x256x256, .f32⟩
  | 113 => ⟨S256x256, .f32⟩
  | 114 => ⟨S1x256, .f32⟩
  | 115 => ⟨S256, .f32⟩
  | 116 => ⟨S1x256, .f32⟩
  | 117 => ⟨S256, .f32⟩
  | 118 => ⟨S1x256, .f32⟩
  | 119 => ⟨S256, .f32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S50000x70, .f32⟩

abbrev hbmTy0_1 (i : Nat) : BufTy := match i % 128 with
  | 0 => ⟨S400000x256, .f32⟩
  | 1 => ⟨S_, .f32⟩
  | 2 => ⟨S50000x256, .f32⟩
  | 3 => ⟨S400000x1, .i32⟩
  | 4 => ⟨S50000x256, .f32⟩
  | 5 => ⟨S1x256, .f32⟩
  | 6 => ⟨S1x256, .f32⟩
  | 7 => ⟨S1x256, .f32⟩
  | 8 => ⟨S1x256, .f32⟩
  | 9 => ⟨S50000x256, .f32⟩
  | 10 => ⟨S_, .f32⟩
  | 11 => ⟨S2048x256, .f32⟩
  | 12 => ⟨S50000x1, .i32⟩
  | 13 => ⟨S2048x256, .f32⟩
  | 14 => ⟨S1x256, .f32⟩
  | 15 => ⟨S1x256, .f32⟩
  | 16 => ⟨S1x256, .f32⟩
  | 17 => ⟨S2048x256, .f32⟩
  | 18 => ⟨S256x1024, .f32⟩
  | 19 => ⟨S256x1024, .f32⟩
  | 20 => ⟨S1x1024, .f32⟩
  | 21 => ⟨S1x512, .f32⟩
  | 22 => ⟨S1x1, .f32⟩
  | 23 => ⟨S2048x1, .f32⟩
  | _ => ⟨S50000x70, .f32⟩

abbrev hbmTy (i : Nat) : BufTy := match i / 128 with
  | 0 => hbmTy0_0 i
  | 1 => hbmTy0_1 i
  | _ => ⟨S50000x70, .f32⟩

abbrev bufTy : (tb : Table) → Fin (tcTables nBuf tb) → BufTy
  | .hbm, ⟨i, _⟩ => hbmTy i
  | .local _ .vmem, ⟨0, _⟩ => ⟨S2000x70, .f32⟩
  | .local _ .vmem, ⟨1, _⟩ => ⟨S2000x70, .f32⟩
  | .local _ .vmem, ⟨2, _⟩ => ⟨S2000x70, .f32⟩
  | .local _ .vmem, ⟨3, _⟩ => ⟨S2000x70, .f32⟩
  | .local _ .vmem, ⟨4, _⟩ => ⟨S70x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S256x256, .f32⟩
  | .local _ .vmem, ⟨29, _⟩ => ⟨S1x256, .f32⟩
  | .local _ .vmem, ⟨30, _⟩ => ⟨S256x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S1x256, .f32⟩
  | .local _ .vmem, ⟨42, _⟩ => ⟨S256x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S512x480, .f32⟩
  | .local _ .vmem, ⟨49, _⟩ => ⟨S512x480, .f32⟩
  | .local _ .vmem, ⟨50, _⟩ => ⟨S480x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S512x256, .f32⟩
  | .local _ .vmem, ⟨55, _⟩ => ⟨S512x256, .f32⟩
  | .local _ .vmem, ⟨56, _⟩ => ⟨S512x256, .f32⟩
  | .local _ .vmem, ⟨57, _⟩ => ⟨S512x256, .f32⟩
  | .local _ .vmem, ⟨58, _⟩ => ⟨S512x256, .f32⟩
  | .local _ .vmem, ⟨59, _⟩ => ⟨S512x256, .f32⟩
  | .local _ .vmem, ⟨60, _⟩ => ⟨S256x1024, .f32⟩
  | .local _ .vmem, ⟨61, _⟩ => ⟨S256x1024, .f32⟩
  | .local _ .vmem, ⟨62, _⟩ => ⟨S1x1024, .f32⟩
  | .local _ .vmem, ⟨63, _⟩ => ⟨S1024x512, .f32⟩
  | .local _ .vmem, ⟨64, _⟩ => ⟨S1x512, .f32⟩
  | .local _ .vmem, ⟨65, _⟩ => ⟨S512x1, .f32⟩
  | .local _ .vmem, ⟨66, _⟩ => ⟨S1x1, .f32⟩
  | .local _ .vmem, ⟨67, _⟩ => ⟨S512x1, .f32⟩
  | .local _ .vmem, ⟨68, _⟩ => ⟨S512x1, .f32⟩
  | _, _ => ⟨S50000x70, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_1 : Ref sig .tc := ⟨.hbm, 60, rfl⟩
abbrev main_v31 : Ref sig .tc := ⟨.hbm, 61, rfl⟩
abbrev main_v32 : Ref sig .tc := ⟨.hbm, 62, rfl⟩
abbrev main_c_2 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_3 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_4 : Ref sig .tc := ⟨.hbm, 90, rfl⟩
abbrev main_v58 : Ref sig .tc := ⟨.hbm, 91, rfl⟩
abbrev main_v59 : Ref sig .tc := ⟨.hbm, 92, rfl⟩
abbrev main_c_5 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_6 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_7 : Ref sig .tc := ⟨.hbm, 120, rfl⟩
abbrev main_v85 : Ref sig .tc := ⟨.hbm, 121, rfl⟩
abbrev main_v86 : Ref sig .tc := ⟨.hbm, 122, rfl⟩
abbrev main_c_8 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_9 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_10 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg7_0 : Ref sig .tc := ⟨.vmem, 65, rfl⟩
abbrev cc5_stg8_0 : Ref sig .tc := ⟨.vmem, 66, rfl⟩
abbrev cc5_stg9_0 : Ref sig .tc := ⟨.vmem, 67, rfl⟩
abbrev cc5_stg9_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem5_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem8_0 : DmaSem sig := 66
abbrev cc5_sem9_0 : DmaSem sig := 67
abbrev cc5_sem9_1 : DmaSem sig := 68

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x70 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x70 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S70x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x480 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S480x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1024x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x512 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S512x1 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x70 : S_.BroadcastsInDim S50000x70 (![] : Fin 0 → Fin S50000x70.rank)
  shapeCasts_S256_S1x256 : S256.ShapeCasts S1x256
  inb_S2000x70_S2000x70_0_0 : ∀ a, (![0, 0] : Fin 2 → Nat) a + S2000x70.size a ≤ S2000x70.size a
  h_S2000x70 : 0 < S2000x70.numel
  shapeCasts_S2000x70_S2000x70 : S2000x70.ShapeCasts S2000x70
  bitsLt_bf16_f32 : FTy.bits .bf16 < FTy.bits .f32
  inb_S70x256_S70x256_0_0 : ∀ a, (![0, 0] : Fin 2 → Nat) a + S70x256.size a ≤ S70x256.size a
  h_S70x256 : 0 < S70x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S_S50000x256 : S_.BroadcastsInDim S50000x256 (![] : Fin 0 → Fin S50000x256.rank)
  shapeCasts_S2000x256_S2000x256 : S2000x256.ShapeCasts S2000x256
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S2048x256 : S_.BroadcastsInDim S2048x256 (![] : Fin 0 → Fin S2048x256.rank)
  bcast_S50000_S50000x1_0 : S50000.BroadcastsInDim S50000x1 (![0] : Fin 1 → Fin S50000x1.rank)
  inb_S512x480_S512x480_0_0 : ∀ a, (![0, 0] : Fin 2 → Nat) a + S512x480.size a ≤ S512x480.size a
  h_S512x480 : 0 < S512x480.numel
  inb_S480x256_S480x256_0_0 : ∀ a, (![0, 0] : Fin 2 → Nat) a + S480x256.size a ≤ S480x256.size a
  h_S480x256 : 0 < S480x256.numel
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  slices_S512x1024_S256x1024_0_0 : S512x1024.Slices ![0, 0] S256x1024
  slices_S512x1024_S256x1024_256_0 : S512x1024.Slices ![256, 0] S256x1024
  shapeCasts_S1024_S1x1024 : S1024.ShapeCasts S1x1024
  shapeCasts_S512_S1x512 : S512.ShapeCasts S1x512
  shapeCasts_S1_S1x1 : S1.ShapeCasts S1x1
  shapeCasts_S512x256_S512x256 : S512x256.ShapeCasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  gather_S50000x70_S400000x1_S400000x70_1_0_n_n_0_1_170_wf : GatherDims.WF S50000x70 S400000x1 S400000x70 [1] [0] [] [0] [] 1 ![1, 70]
  scatter_S50000x70_S400000x1_S400000x70_1_0_0_1_wf : ScatterDims.WF S50000x70 S400000x1 S400000x70 [1] [0] [0] 1
  dot_S2000x70_S70x256_S2000x256_1_0_0_1_n_n_wf : DotDims.WF S2000x70 S70x256 S2000x256 [1] [0] [0] [1] [] []
  dot_S2000x256_S256x256_S2000x256_1_0_0_1_n_n_wf : DotDims.WF S2000x256 S256x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S2048x256_S50000x1_S50000x256_1_0_0_1_wf : ScatterDims.WF S2048x256 S50000x1 S50000x256 [1] [0] [0] 1
  dot_S512x480_S480x256_S512x256_1_0_0_1_n_n_wf : DotDims.WF S512x480 S480x256 S512x256 [1] [0] [0] [1] [] []
  dot_S512x256_S256x1024_S512x1024_1_0_0_1_n_n_wf : DotDims.WF S512x256 S256x1024 S512x1024 [1] [0] [0] [1] [] []
  dot_S512x1024_S1024x512_S512x512_1_0_0_1_n_n_wf : DotDims.WF S512x1024 S1024x512 S512x512 [1] [0] [0] [1] [] []
  dot_S512x512_S512x1_S512x1_1_0_0_1_n_n_wf : DotDims.WF S512x512 S512x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x70.size a ≤ S50000x70.size a
  hwx0_0 : ∀ i : grid0.Coords, EltTy.bits .f32 = 32 ∨ (Rect.block (s := S50000x70) S2000x70.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x70.size a ≤ S50000x70.size a
  hwx0_1 : ∀ i : grid0.Coords, EltTy.bits .f32 = 32 ∨ (Rect.block (s := S50000x70) S2000x70.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S70x256.size a ≤ S70x256.size a
  hwx0_2 : ∀ i : grid0.Coords, EltTy.bits .f32 = 32 ∨ (Rect.block (s := S70x256) S70x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S50000x256.size a
  hwx0_8 : ∀ i : grid0.Coords, EltTy.bits .f32 = 32 ∨ (Rect.block (s := S50000x256) S2000x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x256.size a ≤ S50000x256.size a
  hwx2_8 : ∀ i : grid2.Coords, EltTy.bits .f32 = 32 ∨ (Rect.block (s := S50000x256) S2000x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .f32 = 32 ∨ (Rect.block (s := S50000x256) S2000x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x480.size a ≤ S2048x480.size a
  hwx4_0 : ∀ i : grid4.Coords, EltTy.bits .f32 = 32 ∨ (Rect.block (s := S2048x480) S512x480.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S480x256.size a ≤ S480x256.size a
  hwx4_1 : ∀ i : grid4.Coords, EltTy.bits .f32 = 32 ∨ (Rect.block (s := S480x256) S480x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x256.size a ≤ S2048x256.size a
  hwx4_5 : ∀ i : grid4.Coords, EltTy.bits .f32 = 32 ∨ (Rect.block (s := S2048x256) S512x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x256.size a ≤ S2048x256.size a
  hwx5_0 : ∀ i : grid5.Coords, EltTy.bits .f32 = 32 ∨ (Rect.block (s := S2048x256) S512x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S2048x256.size a
  hwx5_1 : ∀ i : grid5.Coords, EltTy.bits .f32 = 32 ∨ (Rect.block (s := S2048x256) S512x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x1024.size a ≤ S256x1024.size a
  hwx5_2 : ∀ i : grid5.Coords, EltTy.bits .f32 = 32 ∨ (Rect.block (s := S256x1024) S256x1024.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x1024.size a ≤ S256x1024.size a
  hwx5_3 : ∀ i : grid5.Coords, EltTy.bits .f32 = 32 ∨ (Rect.block (s := S256x1024) S256x1024.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1024.size a ≤ S1x1024.size a
  hwx5_4 : ∀ i : grid5.Coords, EltTy.bits .f32 = 32 ∨ (Rect.block (s := S1x1024) S1x1024.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1024x512.size a ≤ S1024x512.size a
  hwx5_5 : ∀ i : grid5.Coords, EltTy.bits .f32 = 32 ∨ (Rect.block (s := S1024x512) S1024x512.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x512.size a ≤ S1x512.size a
  hwx5_6 : ∀ i : grid5.Coords, EltTy.bits .f32 = 32 ∨ (Rect.block (s := S1x512) S1x512.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x1.size a ≤ S512x1.size a
  hwx5_7 : ∀ i : grid5.Coords, EltTy.bits .f32 = 32 ∨ (Rect.block (s := S512x1) S512x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x1.size a ≤ S1x1.size a
  hwx5_8 : ∀ i : grid5.Coords, EltTy.bits .f32 = 32 ∨ (Rect.block (s := S1x1) S1x1.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S512x1.size a ≤ S2048x1.size a
  hwx5_9 : ∀ i : grid5.Coords, EltTy.bits .f32 = 32 ∨ (Rect.block (s := S2048x1) S512x1.size (cc5_transform_9 i) (hinb5_9 i)).WholeWords (EltTy.packing .f32)

variable [Facts₀]

def gather_S50000x70_S400000x1_S400000x70_1_0_n_n_0_1_170 : GatherDims S50000x70 S400000x1 S400000x70 where
  offsetDims := [1]
  collapsedSliceDims := [0]
  operandBatchingDims := []
  startIndicesBatchingDims := []
  startIndexMap := [0]
  indexVectorDim := 1
  sliceSizes := ![1, 70]
  wf := gather_S50000x70_S400000x1_S400000x70_1_0_n_n_0_1_170_wf
def scatter_S50000x70_S400000x1_S400000x70_1_0_0_1 : ScatterDims S50000x70 S400000x1 S400000x70 where
  updateWindowDims := [1]
  insertedWindowDims := [0]
  scatterDimsToOperandDims := [0]
  indexVectorDim := 1
  wf := scatter_S50000x70_S400000x1_S400000x70_1_0_0_1_wf
def dot_S2000x70_S70x256_S2000x256_1_0_0_1_n_n : DotDims S2000x70 S70x256 S2000x256 where
  lhsContracting := [1]
  rhsContracting := [0]
  lhsNonContracting := [0]
  rhsNonContracting := [1]
  lhsBatch := []
  rhsBatch := []
  wf := dot_S2000x70_S70x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def dot_S512x480_S480x256_S512x256_1_0_0_1_n_n : DotDims S512x480 S480x256 S512x256 where
  lhsContracting := [1]
  rhsContracting := [0]
  lhsNonContracting := [0]
  rhsNonContracting := [1]
  lhsBatch := []
  rhsBatch := []
  wf := dot_S512x480_S480x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win0_0 : Pipeline.Window sig grid0 :=
  Pipeline.Window.ofSpec (Memref.whole main_arg0) S2000x70.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x70.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S70x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v45) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v45) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v72) S2000x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v72) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v96) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v97) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v98) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v99) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_arg3) S512x480.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S480x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v103) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v106) S512x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v102) S512x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S512x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v107) S256x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v108) S256x1024.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S1x1024.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg22) S1024x512.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v110) S1x512.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg24) S512x1.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v111) S1x1.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v112) S512x1.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x70 : Shape := ⟨2, ![50000, 70]⟩
abbrev S2x400000 : Shape := ⟨2, ![2, 400000]⟩
abbrev S50000 : Shape := ⟨1, ![50000]⟩
abbrev S2048x480 : Shape := ⟨2, ![2048, 480]⟩
abbrev S70x256 : Shape := ⟨2, ![70, 256]⟩
abbrev S256 : Shape := ⟨1, ![256]⟩
abbrev S256x256 : Shape := ⟨2, ![256, 256]⟩
abbrev S3x256x256 : Shape := ⟨3, ![3, 256, 256]⟩
abbrev S3x256 : Shape := ⟨2, ![3, 256]⟩
abbrev S480x256 : Shape := ⟨2, ![480, 256]⟩
abbrev S512x1024 : Shape := ⟨2, ![512, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x70 : Shape := ⟨2, ![400000, 70]⟩
abbrev S50000x256 : Shape := ⟨2, ![50000, 256]⟩
abbrev S1x256 : Shape := ⟨2, ![1, 256]⟩
abbrev S1x256x256 : Shape := ⟨3, ![1, 256, 256]⟩
abbrev S400000x256 : Shape := ⟨2, ![400000, 256]⟩
abbrev S2048x256 : Shape := ⟨2, ![2048, 256]⟩
abbrev S50000x1 : Shape := ⟨2, ![50000, 1]⟩
abbrev S2048 : Shape := ⟨1, ![2048]⟩
abbrev S2048x1 : Shape := ⟨2, ![2048, 1]⟩
abbrev S2048x512 : Shape := ⟨2, ![2048, 512]⟩
abbrev S2048x1024 : Shape := ⟨2, ![2048, 1024]⟩
abbrev S1x1024 : Shape := ⟨2, ![1, 1024]⟩
abbrev S1x512 : Shape := ⟨2, ![1, 512]⟩
abbrev S1x1 : Shape := ⟨2, ![1, 1]⟩

abbrev nBuf : Space → Nat
  | .hbm => 291
  | .vmem => 0
  | .smem => 0
  | _ => 0

abbrev hbmTy0_0 (i : Nat) : BufTy := match i % 128 with
  | 0 => ⟨S50000x70, .f32⟩
  | 1 => ⟨S2x400000, .i32⟩
  | 2 => ⟨S50000, .i32⟩
  | 3 => ⟨S2048x480, .f32⟩
  | 4 => ⟨S70x256, .f32⟩
  | 5 => ⟨S256, .f32⟩
  | 6 => ⟨S256x256, .f32⟩
  | 7 => ⟨S256, .f32⟩
  | 8 => ⟨S256, .f32⟩
  | 9 => ⟨S256, .f32⟩
  | 10 => ⟨S3x256x256, .f32⟩
  | 11 => ⟨S3x256, .f32⟩
  | 12 => ⟨S3x256x256, .f32⟩
  | 13 => ⟨S3x256, .f32⟩
  | 14 => ⟨S3x256, .f32⟩
  | 15 => ⟨S3x256, .f32⟩
  | 16 => ⟨S480x256, .f32⟩
  | 17 => ⟨S256, .f32⟩
  | 18 => ⟨S256, .f32⟩
  | 19 => ⟨S256, .f32⟩
  | 20 => ⟨S512x1024, .f32⟩
  | 21 => ⟨S1024, .f32⟩
  | 22 => ⟨S1024x512, .f32⟩
  | 23 => ⟨S512, .f32⟩
  | 24 => ⟨S512x1, .f32⟩
  | 25 => ⟨S1, .f32⟩
  | 26 => ⟨S1x400000, .i32⟩
  | 27 => ⟨S400000, .i32⟩
  | 28 => ⟨S1x400000, .i32⟩
  | 29 => ⟨S400000, .i32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x70, .f32⟩
  | 39 => ⟨S_, .f32⟩
  | 40 => ⟨S50000x70, .f32⟩
  | 41 => ⟨S400000x1, .i32⟩
  | 42 => ⟨S50000x70, .f32⟩
  | 43 => ⟨S50000x70, .f32⟩
  | 44 => ⟨S50000x256, .f32⟩
  | 45 => ⟨S1x256, .f32⟩
  | 46 => ⟨S50000x256, .f32⟩
  | 47 => ⟨S50000x256, .f32⟩
  | 48 => ⟨S_, .f32⟩
  | 49 => ⟨S50000x256, .f32⟩
  | 50 => ⟨S50000x256, .f32⟩
  | 51 => ⟨S50000x256, .f32⟩
  | 52 => ⟨S1x256, .f32⟩
  | 53 => ⟨S50000x256, .f32⟩
  | 54 => ⟨S50000x256, .f32⟩
  | 55 => ⟨S_, .f32⟩
  | 56 => ⟨S256, .f32⟩
  | 57 => ⟨S256, .f32⟩
  | 58 => ⟨S1x256, .f32⟩
  | 59 => ⟨S50000x256, .f32⟩
  | 60 => ⟨S50000x256, .f32⟩
  | 61 => ⟨S1x256, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S1x256x256, .f32⟩
  | 68 => ⟨S256x256, .f32⟩
  | 69 => ⟨S1x256, .f32⟩
  | 70 => ⟨S256, .f32⟩
  | 71 => ⟨S1x256x256, .f32⟩
  | 72 => ⟨S256x256, .f32⟩
  | 73 => ⟨S1x256, .f32⟩
  | 74 => ⟨S256, .f32⟩
  | 75 => ⟨S1x256, .f32⟩
  | 76 => ⟨S256, .f32⟩
  | 77 => ⟨S1x256, .f32⟩
  | 78 => ⟨S256, .f32⟩
  | 79 => ⟨S_, .i32⟩
  | 80 => ⟨S400000, .i32⟩
  | 81 => ⟨S400000, .i1⟩
  | 82 => ⟨S_, .i32⟩
  | 83 => ⟨S400000, .i32⟩
  | 84 => ⟨S400000, .i32⟩
  | 85 => ⟨S400000, .i32⟩
  | 86 => ⟨S400000x1, .i32⟩
  | 87 => ⟨S400000x256, .f32⟩
  | 88 => ⟨S_, .f32⟩
  | 89 => ⟨S50000x256, .f32⟩
  | 90 => ⟨S400000x1, .i32⟩
  | 91 => ⟨S50000x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S50000x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S256, .f32⟩
  | 106 => ⟨S256, .f32⟩
  | 107 => ⟨S1x256, .f32⟩
  | 108 => ⟨S50000x256, .f32⟩
  | 109 => ⟨S50000x256, .f32⟩
  | 110 => ⟨S1x256, .f32⟩
  | 111 => ⟨S50000x256, .f32⟩
  | 112 => ⟨S50000x256, .f32⟩
  | 113 => ⟨S_, .f32⟩
  | 114 => ⟨S50000x256, .f32⟩
  | 115 => ⟨S50000x256, .f32⟩
  | 116 => ⟨S50000x256, .f32⟩
  | 117 => ⟨S1x256x256, .f32⟩
  | 118 => ⟨S256x256, .f32⟩
  | 119 => ⟨S1x256, .f32⟩
  | 120 => ⟨S256, .f32⟩
  | 121 => ⟨S1x256x256, .f32⟩
  | 122 => ⟨S256x256, .f32⟩
  | 123 => ⟨S1x256, .f32⟩
  | 124 => ⟨S256, .f32⟩
  | 125 => ⟨S1x256, .f32⟩
  | 126 => ⟨S256, .f32⟩
  | 127 => ⟨S1x256, .f32⟩
  | _ => ⟨S50000x70, .f32⟩

abbrev hbmTy0_1 (i : Nat) : BufTy := match i % 128 with
  | 0 => ⟨S256, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S400000x256, .f32⟩
  | 10 => ⟨S_, .f32⟩
  | 11 => ⟨S50000x256, .f32⟩
  | 12 => ⟨S400000x1, .i32⟩
  | 13 => ⟨S50000x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S_, .f32⟩
  | 20 => ⟨S50000x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S_, .f32⟩
  | 27 => ⟨S256, .f32⟩
  | 28 => ⟨S256, .f32⟩
  | 29 => ⟨S1x256, .f32⟩
  | 30 => ⟨S50000x256, .f32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S50000x256, .f32⟩
  | 39 => ⟨S1x256x256, .f32⟩
  | 40 => ⟨S256x256, .f32⟩
  | 41 => ⟨S1x256, .f32⟩
  | 42 => ⟨S256, .f32⟩
  | 43 => ⟨S1x256x256, .f32⟩
  | 44 => ⟨S256x256, .f32⟩
  | 45 => ⟨S1x256, .f32⟩
  | 46 => ⟨S256, .f32⟩
  | 47 => ⟨S1x256, .f32⟩
  | 48 => ⟨S256, .f32⟩
  | 49 => ⟨S1x256, .f32⟩
  | 50 => ⟨S256, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x256, .f32⟩
  | 60 => ⟨S_, .f32⟩
  | 61 => ⟨S50000x256, .f32⟩
  | 62 => ⟨S400000x1, .i32⟩
  | 63 => ⟨S50000x256, .f32⟩
  | 64 => ⟨S50000x256, .f32⟩
  | 65 => ⟨S50000x256, .f32⟩
  | 66 => ⟨S1x256, .f32⟩
  | 67 => ⟨S50000x256, .f32⟩
  | 68 => ⟨S50000x256, .f32⟩
  | 69 => ⟨S_, .f32⟩
  | 70 => ⟨S50000x256, .f32⟩
  | 71 => ⟨S50000x256, .f32⟩
  | 72 => ⟨S50000x256, .f32⟩
  | 73 => ⟨S1x256, .f32⟩
  | 74 => ⟨S50000x256, .f32⟩
  | 75 => ⟨S50000x256, .f32⟩
  | 76 => ⟨S_, .f32⟩
  | 77 => ⟨S256, .f32⟩
  | 78 => ⟨S256, .f32⟩
  | 79 => ⟨S1x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S50000x256, .f32⟩
  | 89 => ⟨S_, .f32⟩
  | 90 => ⟨S2048x256, .f32⟩
  | 91 => ⟨S50000x1, .i32⟩
  | 92 => ⟨S2048x256, .f32⟩
  | 93 => ⟨S2048x256, .f32⟩
  | 94 => ⟨S1x256, .f32⟩
  | 95 => ⟨S2048x256, .f32⟩
  | 96 => ⟨S2048x256, .f32⟩
  | 97 => ⟨S_, .f32⟩
  | 98 => ⟨S2048, .f32⟩
  | 99 => ⟨S2048x1, .f32⟩
  | 100 => ⟨S_, .f32⟩
  | 101 => ⟨S2048x1, .f32⟩
  | 102 => ⟨S2048x1, .f32⟩
  | 103 => ⟨S_, .i32⟩
  | 104 => ⟨S_, .f32⟩
  | 105 => ⟨S2048, .f32⟩
  | 106 => ⟨S2048x1, .f32⟩
  | 107 => ⟨S_, .f32⟩
  | 108 => ⟨S2048x1, .f32⟩
  | 109 => ⟨S2048x1, .f32⟩
  | 110 => ⟨S2048x256, .f32⟩
  | 111 => ⟨S2048x256, .f32⟩
  | 112 => ⟨S2048x256, .f32⟩
  | 113 => ⟨S_, .f32⟩
  | 114 => ⟨S_, .f32⟩
  | 115 => ⟨S_, .f32⟩
  | 116 => ⟨S_, .f32⟩
  | 117 => ⟨S2048, .f32⟩
  | 118 => ⟨S2048x1, .f32⟩
  | 119 => ⟨S2048x1, .f32⟩
  | 120 => ⟨S2048x1, .f32⟩
  | 121 => ⟨S_, .f32⟩
  | 122 => ⟨S_, .i1⟩
  | 123 => ⟨S_, .f32⟩
  | 124 => ⟨S_, .f32⟩
  | 125 => ⟨S2048x1, .f32⟩
  | 126 => ⟨S2048x1, .f32⟩
  | 127 => ⟨S2048x256, .f32⟩
  | _ => ⟨S50000x70, .f32⟩

abbrev hbmTy0_2 (i : Nat) : BufTy := match i % 128 with
  | 0 => ⟨S2048x256, .f32⟩
  | 1 => ⟨S_, .f32⟩
  | 2 => ⟨S2048x1, .f32⟩
  | 3 => ⟨S2048x1, .f32⟩
  | 4 => ⟨S2048x1, .f32⟩
  | 5 => ⟨S2048x256, .f32⟩
  | 6 => ⟨S2048x256, .f32⟩
  | 7 => ⟨S1x256, .f32⟩
  | 8 => ⟨S2048x256, .f32⟩
  | 9 => ⟨S2048x256, .f32⟩
  | 10 => ⟨S1x256, .f32⟩
  | 11 => ⟨S2048x256, .f32⟩
  | 12 => ⟨S2048x256, .f32⟩
  | 13 => ⟨S_, .f32⟩
  | 14 => ⟨S2048x256, .f32⟩
  | 15 => ⟨S2048x256, .f32⟩
  | 16 => ⟨S2048x512, .f32⟩
  | 17 => ⟨S2048x1024, .f32⟩
  | 18 => ⟨S1x1024, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x512, .f32⟩
  | 25 => ⟨S1x512, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S2048x1, .f32⟩
  | 32 => ⟨S1x1, .f32⟩
  | 33 => ⟨S2048x1, .f32⟩
  | 34 => ⟨S2048x1, .f32⟩
  | _ => ⟨S50000x70, .f32⟩

abbrev hbmTy (i : Nat) : BufTy := match i / 128 with
  | 0 => hbmTy0_0 i
  | 1 => hbmTy0_1 i
  | 2 => hbmTy0_2 i
  | _ => ⟨S50000x70, .f32⟩

abbrev bufTy : (tb : Table) → Fin (tcTables nBuf tb) → BufTy
  | .hbm, ⟨i, _⟩ => hbmTy i
  | _, _ => ⟨S50000x70, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call0_cst : Ref sig .tc := ⟨.hbm, 48, rfl⟩
abbrev main_call0_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_1 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call1_cst : Ref sig .tc := ⟨.hbm, 64, rfl⟩
abbrev main_call1_v0 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_2 : Ref sig .tc := ⟨.hbm, 79, rfl⟩
abbrev main_v45 : Ref sig .tc := ⟨.hbm, 80, rfl⟩
abbrev main_v46 : Ref sig .tc := ⟨.hbm, 81, rfl⟩
abbrev main_c_3 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_4 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_call2_cst : Ref sig .tc := ⟨.hbm, 97, rfl⟩
abbrev main_call2_v0 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_5 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call3_cst : Ref sig .tc := ⟨.hbm, 113, rfl⟩
abbrev main_call3_v0 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_6 : Ref sig .tc := ⟨.hbm, 129, rfl⟩
abbrev main_v87 : Ref sig .tc := ⟨.hbm, 130, rfl⟩
abbrev main_v88 : Ref sig .tc := ⟨.hbm, 131, rfl⟩
abbrev main_c_7 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_8 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call4_cst : Ref sig .tc := ⟨.hbm, 147, rfl⟩
abbrev main_call4_v0 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_9 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_call5_cst : Ref sig .tc := ⟨.hbm, 163, rfl⟩
abbrev main_call5_v0 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_c_10 : Ref sig .tc := ⟨.hbm, 179, rfl⟩
abbrev main_v129 : Ref sig .tc := ⟨.hbm, 180, rfl⟩
abbrev main_v130 : Ref sig .tc := ⟨.hbm, 181, rfl⟩
abbrev main_c_11 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_12 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_call6_cst : Ref sig .tc := ⟨.hbm, 197, rfl⟩
abbrev main_call6_v0 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_13 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_call7_cst : Ref sig .tc := ⟨.hbm, 213, rfl⟩
abbrev main_call7_v0 : Ref sig .tc := ⟨.hbm, 214, rfl⟩
abbrev main_v157 : Ref sig .tc := ⟨.hbm, 215, rfl⟩
abbrev main_v158 : Ref sig .tc := ⟨.hbm, 216, rfl⟩
abbrev main_cst_14 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_15 : Ref sig .tc := ⟨.hbm, 225, rfl⟩
abbrev main_v166 : Ref sig .tc := ⟨.hbm, 226, rfl⟩
abbrev main_v167 : Ref sig .tc := ⟨.hbm, 227, rfl⟩
abbrev main_cst_16 : Ref sig .tc := ⟨.hbm, 228, rfl⟩
abbrev main_v168 : Ref sig .tc := ⟨.hbm, 229, rfl⟩
abbrev main_v169 : Ref sig .tc := ⟨.hbm, 230, rfl⟩
abbrev main_c_17 : Ref sig .tc := ⟨.hbm, 231, rfl⟩
abbrev main_call8_cst : Ref sig .tc := ⟨.hbm, 232, rfl⟩
abbrev main_call8_v0 : Ref sig .tc := ⟨.hbm, 233, rfl⟩
abbrev main_call8_v1 : Ref sig .tc := ⟨.hbm, 234, rfl⟩
abbrev main_call8_cst_0 : Ref sig .tc := ⟨.hbm, 235, rfl⟩
abbrev main_call8_v2 : Ref sig .tc := ⟨.hbm, 236, rfl⟩
abbrev main_call8_v3 : Ref sig .tc := ⟨.hbm, 237, rfl⟩
abbrev main_call8_v4 : Ref sig .tc := ⟨.hbm, 238, rfl⟩
abbrev main_call8_v5 : Ref sig .tc := ⟨.hbm, 239, rfl⟩
abbrev main_call8_v6 : Ref sig .tc := ⟨.hbm, 240, rfl⟩
abbrev main_call8_v7 : Ref sig .tc := ⟨.hbm, 241, rfl⟩
abbrev main_call8_cst_1 : Ref sig .tc := ⟨.hbm, 242, rfl⟩
abbrev main_call8_v8 : Ref sig .tc := ⟨.hbm, 243, rfl⟩
abbrev main_call8_cst_2 : Ref sig .tc := ⟨.hbm, 244, rfl⟩
abbrev main_call8_v9 : Ref sig .tc := ⟨.hbm, 245, rfl⟩
abbrev main_call8_v10 : Ref sig .tc := ⟨.hbm, 246, rfl⟩
abbrev main_call8_v11 : Ref sig .tc := ⟨.hbm, 247, rfl⟩
abbrev main_call8_v12 : Ref sig .tc := ⟨.hbm, 248, rfl⟩
abbrev main_call8_cst_3 : Ref sig .tc := ⟨.hbm, 249, rfl⟩
abbrev main_call8_v13 : Ref sig .tc := ⟨.hbm, 250, rfl⟩
abbrev main_call8_cst_4 : Ref sig .tc := ⟨.hbm, 251, rfl⟩
abbrev main_call8_call0_v0 : Ref sig .tc := ⟨.hbm, 252, rfl⟩
abbrev main_call8_call0_v1 : Ref sig .tc := ⟨.hbm, 253, rfl⟩
abbrev main_v170 : Ref sig .tc := ⟨.hbm, 254, rfl⟩
abbrev main_v171 : Ref sig .tc := ⟨.hbm, 255, rfl⟩
abbrev main_v172 : Ref sig .tc := ⟨.hbm, 256, rfl⟩
abbrev main_cst_18 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_call9_cst : Ref sig .tc := ⟨.hbm, 269, rfl⟩
abbrev main_call9_v0 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_call10_cst : Ref sig .tc := ⟨.hbm, 277, rfl⟩
abbrev main_call10_v0 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_call11_cst : Ref sig .tc := ⟨.hbm, 284, rfl⟩
abbrev main_call11_v0 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x70 : S_.BroadcastsInDim S50000x70 (![] : Fin 0 → Fin S50000x70.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S256 : S_.BroadcastsInDim S256 (![] : Fin 0 → Fin S256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S2048x256 : S_.BroadcastsInDim S2048x256 (![] : Fin 0 → Fin S2048x256.rank)
  bcast_S50000_S50000x1_0 : S50000.BroadcastsInDim S50000x1 (![0] : Fin 1 → Fin S50000x1.rank)
  bcast_S1x256_S2048x256_0_1 : S1x256.BroadcastsInDim S2048x256 (![0, 1] : Fin 2 → Fin S2048x256.rank)
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256_S2048x256_S2048x512_d1 : Shape.Concatenates [S2048x256, S2048x256] S2048x512 1
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  gather_S50000x70_S400000x1_S400000x70_1_0_n_n_0_1_170_wf : GatherDims.WF S50000x70 S400000x1 S400000x70 [1] [0] [] [0] [] 1 ![1, 70]
  scatter_S50000x70_S400000x1_S400000x70_1_0_0_1_wf : ScatterDims.WF S50000x70 S400000x1 S400000x70 [1] [0] [0] 1
  dot_S50000x70_S70x256_S50000x256_1_0_0_1_n_n_wf : DotDims.WF S50000x70 S70x256 S50000x256 [1] [0] [0] [1] [] []
  dot_S50000x256_S256x256_S50000x256_1_0_0_1_n_n_wf : DotDims.WF S50000x256 S256x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  scatter_S2048x256_S50000x1_S50000x256_1_0_0_1_wf : ScatterDims.WF S2048x256 S50000x1 S50000x256 [1] [0] [0] 1
  dot_S2048x480_S480x256_S2048x256_1_0_0_1_n_n_wf : DotDims.WF S2048x480 S480x256 S2048x256 [1] [0] [0] [1] [] []
  dot_S2048x512_S512x1024_S2048x1024_1_0_0_1_n_n_wf : DotDims.WF S2048x512 S512x1024 S2048x1024 [1] [0] [0] [1] [] []
  dot_S2048x1024_S1024x512_S2048x512_1_0_0_1_n_n_wf : DotDims.WF S2048x1024 S1024x512 S2048x512 [1] [0] [0] [1] [] []
  dot_S2048x512_S512x1_S2048x1_1_0_0_1_n_n_wf : DotDims.WF S2048x512 S512x1 S2048x1 [1] [0] [0] [1] [] []

variable [Facts₀]

def gather_S50000x70_S400000x1_S400000x70_1_0_n_n_0_1_170 : GatherDims S50000x70 S400000x1 S400000x70 where
  offsetDims := [1]
  collapsedSliceDims := [0]
  operandBatchingDims := []
  startIndicesBatchingDims := []
  startIndexMap := [0]
  indexVectorDim := 1
  sliceSizes := ![1, 70]
  wf := gather_S50000x70_S400000x1_S400000x70_1_0_n_n_0_1_170_wf
def scatter_S50000x70_S400000x1_S400000x70_1_0_0_1 : ScatterDims S50000x70 S400000x1 S400000x70 where
  updateWindowDims := [1]
  insertedWindowDims := [0]
  scatterDimsToOperandDims := [0]
  indexVectorDim := 1
  wf := scatter_S50000x70_S400000x1_S400000x70_1_0_0_1_wf
def dot_S50000x70_S70x256_S50000x256_1_0_0_1_n_n : DotDims S50000x70 S70x256 S50000x256 where
  lhsContracting := [1]
  rhsContracting := [0]
  lhsNonContracting := [0]
  rhsNonContracting := [1]
  lhsBatch := []
  rhsBatch := []
  wf := dot_S50000x70_S70x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def dot_S2048x480_S480x256_S2048x256_1_0_0_1_n_n : DotDims S2048x480 S480x256 S2048x256 where
  lhsContracting := [1]
  rhsContracting := [0]
  lhsNonContracting := [0]
  rhsNonContracting := [1]
  lhsBatch := []
  rhsBatch := []
  wf := dot_S2048x480_S480x256_S2048x256_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

class Facts : Prop extends Facts₀ where

variable [Facts]
-- ==== Proof.KRun.lean ====
/-
  The idealized kernel program's run with its RESULT named: every weakly fair execution of @main terminates without a fault, the
  argument arrays end as launched, and the result buffer ends at the contents the last segment boundary assigns to it — the fold of
  the host stretches and of the six regions' write-backs from the launch memory. It is the launch of the twelve segments with the
  last thread state read once more, at the result buffer.
-/
import proofs.«153049_j20907900797458_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_result : θ_run defs (onTc (τ := τ) (main (F := F))) ⟨m, fun _ => 0, ρ⟩ (fun r => ∀ c : Dev nD,
      r.2.mem ((c.tc : Thread nD τ).loc main_v112) = W12 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v112 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c),
       (h c _ (mem_uc main_arg25 (by decide))).trans (W12_main_arg25 m ρ c)⟩)

end Cert.KernelIdeal.Result

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibRowBiasLayers.lean ====
/-
  Dense layers whose bias arrives laid out as one row, entry by entry, on the extended reals (any extents).

  `rowAffine X W b` is a linear layer with the bias given as a `[1, M]` row: entry `(r, c)` is row `r` of `X` against column
  `c` of `W`, plus `b (0, c)`. `reluOf Y` is the entrywise larger of `Y` and the zero word. A block kernel computes the first
  as a matrix unit's product of the operands (converted to a narrower float format on the way in — the identity here) into
  a zero accumulator, plus the bias row stretched down the rows.
-/
import Idealize.ShloMosaic.PureOps.Ideal.Laws
import Idealize.ShloMosaic.Lib.ValueIdx
import Idealize.ShloMosaic.Lib.ValueLayout
import Idealize.ShloMosaic.Lib.Pipeline.Value
import proofs.«153049_j20907900797458_1_alg».proof.Proof.LibMatDot

noncomputable section

namespace Cert.Lib

open Idealize.ShloMosaic Idealize.ShloMosaic.ValueIdx
open scoped BigOperators

variable {n K M : ℕ}

/-- A linear layer with the bias as a row: entry (r, c) is the sum over k of X (r, k) · W (k, c), plus b (0, c). -/
def rowAffine {ψ : FTy} (X : (⟨2, ![n, K]⟩ : Shape).Idx → EReal) (W : FVec Ideal ⟨2, ![K, M]⟩ ψ)
    (b : FVec Ideal ⟨2, ![1, M]⟩ .f32) : (⟨2, ![n, M]⟩ : Shape).Idx → EReal :=
  fun i => (∑ k : Fin K, X (ix2 (i 0) k) * W (ix2 k (i 1))) + b (ix2 (0 : Fin 1) (i 1))

theorem rowAffine_apply {ψ : FTy} (X : (⟨2, ![n, K]⟩ : Shape).Idx → EReal) (W : FVec Ideal ⟨2, ![K, M]⟩ ψ)
    (b : FVec Ideal ⟨2, ![1, M]⟩ .f32) (p : Fin n) (q : Fin M) :
    rowAffine X W b (ix2 p q) = (∑ k : Fin K, X (ix2 p k) * W (ix2 k q)) + b (ix2 (0 : Fin 1) q) := rfl

/-- The entrywise larger of an array and the zero word. -/
def reluOf (Y : (⟨2, ![n, M]⟩ : Shape).Idx → EReal) : (⟨2, ![n, M]⟩ : Shape).Idx → EReal :=
  fun i => max (Y i) (Ideal.ofBits .f32 0x00000000#32)

theorem reluOf_apply (Y : (⟨2, ![n, M]⟩ : Shape).Idx → EReal) (i : (⟨2, ![n, M]⟩ : Shape).Idx) :
    reluOf Y i = max (Y i) (Ideal.ofBits .f32 0x00000000#32) := rfl

/-- The matrix unit's product of the block (converted on the way in) with the weights into a zero accumulator, plus the
    bias row stretched down the rows: the layer's entry. -/
theorem kernelRowAffine_apply (wf : DotDims.WF ⟨2, ![n, K]⟩ ⟨2, ![K, M]⟩ ⟨2, ![n, M]⟩ [1] [0] [0] [1] [] []) {ψ : FTy}
    (h : ψ.bits < FTy.f32.bits) (X : FVec Ideal ⟨2, ![n, K]⟩ .f32) (v3 : FVec Ideal ⟨2, ![K, M]⟩ ψ)
    (v6 : FVec Ideal ⟨2, ![1, M]⟩ .f32) (hs3 : (⟨2, ![K, M]⟩ : Shape).ShapeCasts ⟨2, ![K, M]⟩)
    (hs6 : (⟨2, ![1, M]⟩ : Shape).ShapeCasts ⟨2, ![1, M]⟩) (hb : (⟨2, ![1, M]⟩ : Shape).Broadcasts ⟨2, ![n, M]⟩)
    (p : Fin n) (q : Fin M) :
    addf (matmul (matDot wf) none (truncf ψ X h) (shapeCast ⟨2, ![K, M]⟩ v3 hs3) (constant ⟨2, ![n, M]⟩ .f32 0x00000000#32))
        (broadcastTo ⟨2, ![n, M]⟩ (shapeCast ⟨2, ![1, M]⟩ v6 hs6) hb) (ix2 p q)
      = (∑ k : Fin K, X (ix2 p k) * v3 (ix2 k q)) + v6 (ix2 (0 : Fin 1) q) := by
  rw [shapeCast_self, shapeCast_self]
  show FloatOps.matmul (matDot wf) none (truncf ψ X h) v3 (constant ⟨2, ![n, M]⟩ .f32 0x00000000#32) (ix2 p q)
      + broadcastTo ⟨2, ![n, M]⟩ v6 hb (ix2 p q) = _
  rw [matmul_plain_zero_apply, broadcastTo_1b_ab_apply]
  rfl

end Cert.Lib

end
-- ==== Proof.Spec.lean ====
/-
  The network both programs compute, entry by entry, on the extended reals (any extents).

  A graph-isomorphism layer takes node features `h` and their neighbourhood sums `agg` and returns
  `relu (bn ((relu ((h + agg)·W₁ + b₁))·W₂ + b₂))`, the batch normalisation in evaluation mode being the per-column affine map
  `z ↦ z·(γ·s) + β` with `s` the reciprocal of the standard deviation `D = 4194325/4194304`; the later layers add `h` back.
  The protein projector is a linear layer followed by a layer normalisation over each row (mean and mean squared deviation over
  the row's entries, `(z − μ)·rsqrt(var + ε)·g + b`) and a relu. The predictor is three linear layers with relus between, the
  first one taking two inputs against the two halves of one weight matrix. Biases, scales and shifts are `[1, M]` rows.
-/
import Idealize.ShloMosaic.PureOps.Ideal.Laws
import Idealize.ShloMosaic.Lib.ValueIdx
import proofs.«153049_j20907900797458_1_alg».proof.Proof.LibRowBiasLayers

noncomputable section

namespace Cert.Spec

open Idealize.ShloMosaic Idealize.ShloMosaic.ValueIdx Cert.Lib
open scoped BigOperators

variable {n K M J L : ℕ}

/-- An `[a, b]` array of extended reals. -/
abbrev Arr (a b : ℕ) : Type := (⟨2, ![a, b]⟩ : Shape).Idx → EReal

/-- The reciprocal of the batch normalisation's standard deviation `D = 4194325/4194304`. -/
def invStd : EReal := ((4194304 / 4194325 : ℝ) : EReal)

/-- Batch normalisation in evaluation mode: column `q` is scaled by `γ q · invStd` and shifted by `β q`. -/
def bnRows (Z : Arr n M) (γ β : Arr 1 M) : Arr n M :=
  fun i => Z i * (γ (ix2 (0 : Fin 1) (i 1)) * invStd) + β (ix2 (0 : Fin 1) (i 1))

theorem bnRows_apply (Z : Arr n M) (γ β : Arr 1 M) (p : Fin n) (q : Fin M) :
    bnRows Z γ β (ix2 p q) = Z (ix2 p q) * (γ (ix2 (0 : Fin 1) q) * invStd) + β (ix2 (0 : Fin 1) q) := rfl

/-- One graph-isomorphism layer without the residual: `relu (bn (relu ((h + agg)·W₁ + b₁)·W₂ + b₂))`. -/
def ginLayer (h agg : Arr n K) (w1 : Arr K M) (b1 : Arr 1 M) (w2 : Arr M M) (b2 γ β : Arr 1 M) : Arr n M :=
  reluOf (bnRows (rowAffine (ψ := .f32) (reluOf (rowAffine (ψ := .f32) (fun i => h i + agg i) w1 b1)) w2 b2) γ β)

/-- A layer with the residual: the layer's output plus its input. -/
def ginLayerRes (h agg : Arr n M) (w1 : Arr M M) (b1 : Arr 1 M) (w2 : Arr M M) (b2 γ β : Arr 1 M) : Arr n M :=
  fun i => ginLayer h agg w1 b1 w2 b2 γ β i + h i

/-- The number of entries of a row of the projector, as the float the programs divide by. -/
def rowCount : EReal := Ideal.ofBits .f32 0x43800000#32
/-- The layer normalisation's epsilon. -/
def epsLn : EReal := Ideal.ofBits .f32 0x3727C5AC#32

/-- The mean of row `p`. -/
def rowMean (Z : Arr n M) (p : Fin n) : EReal := Ideal.div (∑ k : Fin M, Z (ix2 p k)) rowCount
/-- The mean squared deviation of row `p` from its mean. -/
def rowVar (Z : Arr n M) (p : Fin n) : EReal :=
  Ideal.div (∑ k : Fin M, (Z (ix2 p k) - rowMean Z p) * (Z (ix2 p k) - rowMean Z p)) rowCount

/-- Layer normalisation over each row, scaled and shifted per column, then relu. -/
def layerNormRelu (Z : Arr n M) (g b : Arr 1 M) : Arr n M :=
  fun i => max ((Z i - rowMean Z (i 0)) * Ideal.rsqrt (rowVar Z (i 0) + epsLn) * g (ix2 (0 : Fin 1) (i 1))
    + b (ix2 (0 : Fin 1) (i 1))) (Ideal.ofBits .f32 0x00000000#32)

theorem layerNormRelu_apply (Z : Arr n M) (g b : Arr 1 M) (p : Fin n) (q : Fin M) :
    layerNormRelu Z g b (ix2 p q) = max ((Z (ix2 p q) - rowMean Z p) * Ideal.rsqrt (rowVar Z p + epsLn) * g (ix2 (0 : Fin 1) q)
      + b (ix2 (0 : Fin 1) q)) (Ideal.ofBits .f32 0x00000000#32) := rfl

/-- The protein projector: linear layer, layer normalisation, relu. -/
def projLayer (pe : Arr n K) (wp : Arr K M) (bp g b : Arr 1 M) : Arr n M :=
  layerNormRelu (rowAffine (ψ := .f32) pe wp bp) g b

/-- The predictor's first layer: two inputs against the two halves of the weights, plus the bias row. -/
def twoAffine (x y : Arr n K) (wa wb : Arr K M) (b : Arr 1 M) : Arr n M :=
  fun i => (∑ k : Fin K, x (ix2 (i 0) k) * wa (ix2 k (i 1))) + (∑ k : Fin K, y (ix2 (i 0) k) * wb (ix2 k (i 1)))
    + b (ix2 (0 : Fin 1) (i 1))

theorem twoAffine_apply (x y : Arr n K) (wa wb : Arr K M) (b : Arr 1 M) (p : Fin n) (q : Fin M) :
    twoAffine x y wa wb b (ix2 p q) = (∑ k : Fin K, x (ix2 p k) * wa (ix2 k q)) + (∑ k : Fin K, y (ix2 p k) * wb (ix2 k q))
      + b (ix2 (0 : Fin 1) q) := rfl

/-- The predictor: `relu(x·Wa + y·Wb + b₁)`, `relu(·W₂ + b₂)`, `·W₃ + b₃`. -/
def predLayer (x y : Arr n K) (wa wb : Arr K M) (b1 : Arr 1 M) (w2 : Arr M J) (b2 : Arr 1 J) (w3 : Arr J L) (b3 : Arr 1 L) :
    Arr n L :=
  rowAffine (ψ := .f32) (reluOf (rowAffine (ψ := .f32) (reluOf (twoAffine x y wa wb b1)) w2 b2)) w3 b3

end Cert.Spec

end
-- ==== Proof.Net.lean ====
/-
  The whole network as ONE function of the argument arrays — the value both programs are shown to end with.

  Neighbourhood sums and the per-graph pooling are the host's own operations (a lookup of rows at the edge sources, wrapped like
  a Python index, accumulated at the edge targets; node rows accumulated at their graph number), taken as they are printed and never
  opened. Between them sit the dense layers of `Cert.Spec`: layer 0 on the 70 atom features, three residual layers on slabs 0, 1, 2
  of the stacked weights, the protein projector, and the predictor on the pooled drug vectors and the projected proteins, its first
  weight matrix cut into its upper and lower half. Vectors of biases, scales and shifts enter the dense layers as `[1, M]` rows.
-/
import proofs.«153049_j20907900797458_1_alg».proof.Proof.Gen.KernelIdeal
import proofs.«153049_j20907900797458_1_alg».proof.Proof.Spec

noncomputable section

namespace Cert.Net

open Idealize.ShloMosaic Cert.KernelIdeal Cert.KernelIdeal.Gen

/-- Contents of an integer / a float array of shape `s` on the extended reals. -/
abbrev CI (s : Shape) : Type := (⟨s, .i32⟩ : BufTy).Contents (Elt Ideal)
abbrev CR (s : Shape) : Type := (⟨s, .f32⟩ : BufTy).Contents (Elt Ideal)

/-- Row 0 of the edge list: every edge's source node. -/
def srcOf (ei : CI S2x400000) : CI S400000 :=
  shapeCast S400000 (extractStridedSlice S1x400000 ![0, 0] ei slices_S2x400000_S1x400000_0_0) shapeCasts_S1x400000_S400000
/-- Row 1 of the edge list: every edge's target node. -/
def dstOf (ei : CI S2x400000) : CI S400000 :=
  shapeCast S400000 (extractStridedSlice S1x400000 ![1, 0] ei slices_S2x400000_S1x400000_1_0) shapeCasts_S1x400000_S400000
/-- A negative index counts from the end: `s < 0 ? s + 50000 : s`. -/
def wrapIdx (s : CI S400000) : CI S400000 :=
  select (cmpi .slt s (broadcastInDim S400000 ![] bcast_S_S400000 (constantI S_ 32 0#32)))
    (addi s (broadcastInDim S400000 ![] bcast_S_S400000 (constantI S_ 32 50000#32))) s

/-- The neighbourhood sums of 70-wide node features: rows looked up at the sources, accumulated at the targets into zeros. -/
def agg70 (x : CR S50000x70) (ei : CI S2x400000) : CR S50000x70 :=
  Host.scatterAdd scatter_S50000x70_S400000x1_S400000x70_1_0_0_1
    (broadcastInDim S50000x70 ![] bcast_S_S50000x70 (constant (F := Ideal) S_ .f32 0x00000000#32))
    (broadcastInDim S400000x1 ![0] bcast_S400000_S400000x1_0 (dstOf ei))
    (Host.gather gather_S50000x70_S400000x1_S400000x70_1_0_n_n_0_1_170 x
      (broadcastInDim S400000x1 ![0] bcast_S400000_S400000x1_0 (wrapIdx (srcOf ei))))
/-- The same on 256-wide node features. -/
def agg256 (h : CR S50000x256) (ei : CI S2x400000) : CR S50000x256 :=
  Host.scatterAdd scatter_S50000x256_S400000x1_S400000x256_1_0_0_1
    (broadcastInDim S50000x256 ![] bcast_S_S50000x256 (constant (F := Ideal) S_ .f32 0x00000000#32))
    (broadcastInDim S400000x1 ![0] bcast_S400000_S400000x1_0 (dstOf ei))
    (Host.gather gather_S50000x256_S400000x1_S400000x256_1_0_n_n_0_1_1256 h
      (broadcastInDim S400000x1 ![0] bcast_S400000_S400000x1_0 (wrapIdx (srcOf ei))))
/-- The per-graph sums of node rows. -/
def pool (h : CR S50000x256) (batch : CI S50000) : CR S2048x256 :=
  Host.scatterAdd scatter_S2048x256_S50000x1_S50000x256_1_0_0_1
    (broadcastInDim S2048x256 ![] bcast_S_S2048x256 (constant (F := Ideal) S_ .f32 0x00000000#32))
    (broadcastInDim S50000x1 ![0] bcast_S50000_S50000x1_0 batch) h

/-- A 256-vector as a `[1, 256]` row. -/
def row (v : CR S256) : CR S1x256 := shapeCast S1x256 v shapeCasts_S256_S1x256
/-- One `[256, 256]` slab of the stacked weights. -/
def slabW (off : Fin 3 → ℕ) (hs : S3x256x256.Slices off S1x256x256) (X : CR S3x256x256) : CR S256x256 :=
  shapeCast S256x256 (extractStridedSlice S1x256x256 off X hs) shapeCasts_S1x256x256_S256x256
/-- One row of a stacked `[3, 256]` array, as a vector. -/
def slabV (off : Fin 2 → ℕ) (hs : S3x256.Slices off S1x256) (X : CR S3x256) : CR S256 :=
  shapeCast S256 (extractStridedSlice S1x256 off X hs) shapeCasts_S1x256_S256

/-- Layer 0: 70 atom features to 256, no residual. -/
def layer0 (x : CR S50000x70) (ei : CI S2x400000) (w1 : CR S70x256) (b1 : CR S256) (w2 : CR S256x256) (b2 γ β : CR S256) :
    CR S50000x256 :=
  Cert.Spec.ginLayer x (agg70 x ei) w1 (row b1) w2 (row b2) (row γ) (row β)

/-- A residual layer on one slab of the stacked parameters. -/
def resLayer (offW : Fin 3 → ℕ) (hW : S3x256x256.Slices offW S1x256x256) (offV : Fin 2 → ℕ) (hV : S3x256.Slices offV S1x256)
    (h : CR S50000x256) (ei : CI S2x400000) (W1s : CR S3x256x256) (B1s : CR S3x256) (W2s : CR S3x256x256) (B2s Γs Βs : CR S3x256) :
    CR S50000x256 :=
  Cert.Spec.ginLayerRes h (agg256 h ei) (slabW offW hW W1s) (row (slabV offV hV B1s)) (slabW offW hW W2s)
    (row (slabV offV hV B2s)) (row (slabV offV hV Γs)) (row (slabV offV hV Βs))

/-- The node features after the four layers. -/
def nodes (x : CR S50000x70) (ei : CI S2x400000) (w1 : CR S70x256) (b1 : CR S256) (w2 : CR S256x256) (b2 γ β : CR S256)
    (W1s : CR S3x256x256) (B1s : CR S3x256) (W2s : CR S3x256x256) (B2s Γs Βs : CR S3x256) : CR S50000x256 :=
  resLayer ![2, 0, 0] slices_S3x256x256_S1x256x256_2_0_0 ![2, 0] slices_S3x256_S1x256_2_0
    (resLayer ![1, 0, 0] slices_S3x256x256_S1x256x256_1_0_0 ![1, 0] slices_S3x256_S1x256_1_0
      (resLayer ![0, 0, 0] slices_S3x256x256_S1x256x256_0_0_0 ![0, 0] slices_S3x256_S1x256_0_0
        (layer0 x ei w1 b1 w2 b2 γ β) ei W1s B1s W2s B2s Γs Βs) ei W1s B1s W2s B2s Γs Βs) ei W1s B1s W2s B2s Γs Βs

/-- The protein vectors. -/
def prot (pe : CR S2048x480) (wp : CR S480x256) (bp lng lnb : CR S256) : CR S2048x256 :=
  Cert.Spec.projLayer pe wp (row bp) (row lng) (row lnb)

/-- The predictor on drug and protein vectors. -/
def pred (drug prt : CR S2048x256) (wpr1 : CR S512x1024) (bpr1 : CR S1024) (wpr2 : CR S1024x512) (bpr2 : CR S512)
    (wpr3 : CR S512x1) (bpr3 : CR S1) : CR S2048x1 :=
  Cert.Spec.predLayer drug prt (extractStridedSlice S256x1024 ![0, 0] wpr1 slices_S512x1024_S256x1024_0_0)
    (extractStridedSlice S256x1024 ![256, 0] wpr1 slices_S512x1024_S256x1024_256_0)
    (shapeCast S1x1024 bpr1 shapeCasts_S1024_S1x1024) wpr2 (shapeCast S1x512 bpr2 shapeCasts_S512_S1x512) wpr3
    (shapeCast S1x1 bpr3 shapeCasts_S1_S1x1)

/-- The network's result. -/
def out (x : CR S50000x70) (ei : CI S2x400000) (batch : CI S50000) (pe : CR S2048x480) (w1 : CR S70x256) (b1 : CR S256)
    (w2 : CR S256x256) (b2 γ β : CR S256) (W1s : CR S3x256x256) (B1s : CR S3x256) (W2s : CR S3x256x256) (B2s Γs Βs : CR S3x256)
    (wp : CR S480x256) (bp lng lnb : CR S256) (wpr1 : CR S512x1024) (bpr1 : CR S1024) (wpr2 : CR S1024x512) (bpr2 : CR S512)
    (wpr3 : CR S512x1) (bpr3 : CR S1) : CR S2048x1 :=
  pred (pool (nodes x ei w1 b1 w2 b2 γ β W1s B1s W2s B2s Γs Βs) batch) (prot pe wp bp lng lnb) wpr1 bpr1 wpr2 bpr2 wpr3 bpr3

end Cert.Net

end
-- ==== Proof.KPass.lean ====
/-
  Buffers carried across segments. A buffer that no operation of a host stretch writes, and that is none of a region's arrays, holds
  after the stretch / the region what it held before. Listed here, boundary by boundary from the launch, for every buffer a later
  stretch or region reads: the edge sources and targets (computed once, before the first region), and the argument arrays — each
  equal to its launch contents, the sources and targets to rows 0 and 1 of the edge list.
-/
import proofs.«153049_j20907900797458_1_alg».proof.Proof.Gen.KernelIdeal.Frame
import proofs.«153049_j20907900797458_1_alg».proof.Proof.Net
import Idealize.ShloMosaic.Lib.StableHlo.Run

noncomputable section

namespace Cert.KernelIdeal.Chain

open Idealize.ShloMosaic Idealize.ShloMosaic.TcCoe Idealize.SL.Sem Idealize.ShloMosaic.StableHlo
open Cert.KernelIdeal Cert.KernelIdeal.Gen Cert.Net

variable (m : (ℓ : Loc nD τ sig) → Buf (Elt Ideal) ℓ) (ρ : Dev nD → PrngReg) (c : Dev nD)

theorem v1_W1 : W1 m ρ c (Proc.devRef .tc main_v1) = srcOf (m ((c : Thread nD τ).loc main_arg1)) := by
  show StableHlo.after hostOps0 (W0 m ρ c) (Proc.devRef .tc main_v1) = _
  after_results_simp
  all_goals rfl
theorem v1_W2 : W2 m ρ c (Proc.devRef .tc main_v1) = srcOf (m ((c : Thread nD τ).loc main_arg1)) :=
  (W2_of_ne m ρ c main_v1 (by decide)).trans (v1_W1 m ρ c)
theorem v1_W3 : W3 m ρ c (Proc.devRef .tc main_v1) = srcOf (m ((c : Thread nD τ).loc main_arg1)) := by
  show StableHlo.after hostOps1 (W2 m ρ c) (Proc.devRef .tc main_v1) = _
  after_results_simp
  exact v1_W2 m ρ c
theorem v1_W4 : W4 m ρ c (Proc.devRef .tc main_v1) = srcOf (m ((c : Thread nD τ).loc main_arg1)) :=
  (W4_of_ne m ρ c main_v1 (by decide)).trans (v1_W3 m ρ c)
theorem v1_W5 : W5 m ρ c (Proc.devRef .tc main_v1) = srcOf (m ((c : Thread nD τ).loc main_arg1)) := by
  show StableHlo.after hostOps2 (W4 m ρ c) (Proc.devRef .tc main_v1) = _
  after_results_simp
  exact v1_W4 m ρ c
theorem v1_W6 : W6 m ρ c (Proc.devRef .tc main_v1) = srcOf (m ((c : Thread nD τ).loc main_arg1)) :=
  (W6_of_ne m ρ c main_v1 (by decide)).trans (v1_W5 m ρ c)

theorem v3_W1 : W1 m ρ c (Proc.devRef .tc main_v3) = dstOf (m ((c : Thread nD τ).loc main_arg1)) := by
  show StableHlo.after hostOps0 (W0 m ρ c) (Proc.devRef .tc main_v3) = _
  after_results_simp
  all_goals rfl
theorem v3_W2 : W2 m ρ c (Proc.devRef .tc main_v3) = dstOf (m ((c : Thread nD τ).loc main_arg1)) :=
  (W2_of_ne m ρ c main_v3 (by decide)).trans (v3_W1 m ρ c)
theorem v3_W3 : W3 m ρ c (Proc.devRef .tc main_v3) = dstOf (m ((c : Thread nD τ).loc main_arg1)) := by
  show StableHlo.after hostOps1 (W2 m ρ c) (Proc.devRef .tc main_v3) = _
  after_results_simp
  exact v3_W2 m ρ c
theorem v3_W4 : W4 m ρ c (Proc.devRef .tc main_v3) = dstOf (m ((c : Thread nD τ).loc main_arg1)) :=
  (W4_of_ne m ρ c main_v3 (by decide)).trans (v3_W3 m ρ c)
theorem v3_W5 : W5 m ρ c (Proc.devRef .tc main_v3) = dstOf (m ((c : Thread nD τ).loc main_arg1)) := by
  show StableHlo.after hostOps2 (W4 m ρ c) (Proc.devRef .tc main_v3) = _
  after_results_simp
  exact v3_W4 m ρ c
theorem v3_W6 : W6 m ρ c (Proc.devRef .tc main_v3) = dstOf (m ((c : Thread nD τ).loc main_arg1)) :=
  (W6_of_ne m ρ c main_v3 (by decide)).trans (v3_W5 m ρ c)

theorem arg10_W1 : W1 m ρ c (Proc.devRef .tc main_arg10) = m ((c : Thread nD τ).loc main_arg10) := by
  show StableHlo.after hostOps0 (W0 m ρ c) (Proc.devRef .tc main_arg10) = _
  after_results_simp
  all_goals rfl
theorem arg10_W2 : W2 m ρ c (Proc.devRef .tc main_arg10) = m ((c : Thread nD τ).loc main_arg10) :=
  (W2_of_ne m ρ c main_arg10 (by decide)).trans (arg10_W1 m ρ c)
theorem arg10_W3 : W3 m ρ c (Proc.devRef .tc main_arg10) = m ((c : Thread nD τ).loc main_arg10) := by
  show StableHlo.after hostOps1 (W2 m ρ c) (Proc.devRef .tc main_arg10) = _
  after_results_simp
  exact arg10_W2 m ρ c
theorem arg10_W4 : W4 m ρ c (Proc.devRef .tc main_arg10) = m ((c : Thread nD τ).loc main_arg10) :=
  (W4_of_ne m ρ c main_arg10 (by decide)).trans (arg10_W3 m ρ c)
theorem arg10_W5 : W5 m ρ c (Proc.devRef .tc main_arg10) = m ((c : Thread nD τ).loc main_arg10) := by
  show StableHlo.after hostOps2 (W4 m ρ c) (Proc.devRef .tc main_arg10) = _
  after_results_simp
  exact arg10_W4 m ρ c
theorem arg10_W6 : W6 m ρ c (Proc.devRef .tc main_arg10) = m ((c : Thread nD τ).loc main_arg10) :=
  (W6_of_ne m ρ c main_arg10 (by decide)).trans (arg10_W5 m ρ c)

theorem arg11_W1 : W1 m ρ c (Proc.devRef .tc main_arg11) = m ((c : Thread nD τ).loc main_arg11) := by
  show StableHlo.after hostOps0 (W0 m ρ c) (Proc.devRef .tc main_arg11) = _
  after_results_simp
  all_goals rfl
theorem arg11_W2 : W2 m ρ c (Proc.devRef .tc main_arg11) = m ((c : Thread nD τ).loc main_arg11) :=
  (W2_of_ne m ρ c main_arg11 (by decide)).trans (arg11_W1 m ρ c)
theorem arg11_W3 : W3 m ρ c (Proc.devRef .tc main_arg11) = m ((c : Thread nD τ).loc main_arg11) := by
  show StableHlo.after hostOps1 (W2 m ρ c) (Proc.devRef .tc main_arg11) = _
  after_results_simp
  exact arg11_W2 m ρ c
theorem arg11_W4 : W4 m ρ c (Proc.devRef .tc main_arg11) = m ((c : Thread nD τ).loc main_arg11) :=
  (W4_of_ne m ρ c main_arg11 (by decide)).trans (arg11_W3 m ρ c)
theorem arg11_W5 : W5 m ρ c (Proc.devRef .tc main_arg11) = m ((c : Thread nD τ).loc main_arg11) := by
  show StableHlo.after hostOps2 (W4 m ρ c) (Proc.devRef .tc main_arg11) = _
  after_results_simp
  exact arg11_W4 m ρ c
theorem arg11_W6 : W6 m ρ c (Proc.devRef .tc main_arg11) = m ((c : Thread nD τ).loc main_arg11) :=
  (W6_of_ne m ρ c main_arg11 (by decide)).trans (arg11_W5 m ρ c)

theorem arg12_W1 : W1 m ρ c (Proc.devRef .tc main_arg12) = m ((c : Thread nD τ).loc main_arg12) := by
  show StableHlo.after hostOps0 (W0 m ρ c) (Proc.devRef .tc main_arg12) = _
  after_results_simp
  all_goals rfl
theorem arg12_W2 : W2 m ρ c (Proc.devRef .tc main_arg12) = m ((c : Thread nD τ).loc main_arg12) :=
  (W2_of_ne m ρ c main_arg12 (by decide)).trans (arg12_W1 m ρ c)
theorem arg12_W3 : W3 m ρ c (Proc.devRef .tc main_arg12) = m ((c : Thread nD τ).loc main_arg12) := by
  show StableHlo.after hostOps1 (W2 m ρ c) (Proc.devRef .tc main_arg12) = _
  after_results_simp
  exact arg12_W2 m ρ c
theorem arg12_W4 : W4 m ρ c (Proc.devRef .tc main_arg12) = m ((c : Thread nD τ).loc main_arg12) :=
  (W4_of_ne m ρ c main_arg12 (by decide)).trans (arg12_W3 m ρ c)
theorem arg12_W5 : W5 m ρ c (Proc.devRef .tc main_arg12) = m ((c : Thread nD τ).loc main_arg12) := by
  show StableHlo.after hostOps2 (W4 m ρ c) (Proc.devRef .tc main_arg12) = _
  after_results_simp
  exact arg12_W4 m ρ c
theorem arg12_W6 : W6 m ρ c (Proc.devRef .tc main_arg12) = m ((c : Thread nD τ).loc main_arg12) :=
  (W6_of_ne m ρ c main_arg12 (by decide)).trans (arg12_W5 m ρ c)

theorem arg13_W1 : W1 m ρ c (Proc.devRef .tc main_arg13) = m ((c : Thread nD τ).loc main_arg13) := by
  show StableHlo.after hostOps0 (W0 m ρ c) (Proc.devRef .tc main_arg13) = _
  after_results_simp
  all_goals rfl
theorem arg13_W2 : W2 m ρ c (Proc.devRef .tc main_arg13) = m ((c : Thread nD τ).loc main_arg13) :=
  (W2_of_ne m ρ c main_arg13 (by decide)).trans (arg13_W1 m ρ c)
theorem arg13_W3 : W3 m ρ c (Proc.devRef .tc main_arg13) = m ((c : Thread nD τ).loc main_arg13) := by
  show StableHlo.after hostOps1 (W2 m ρ c) (Proc.devRef .tc main_arg13) = _
  after_results_simp
  exact arg13_W2 m ρ c
theorem arg13_W4 : W4 m ρ c (Proc.devRef .tc main_arg13) = m ((c : Thread nD τ).loc main_arg13) :=
  (W4_of_ne m ρ c main_arg13 (by decide)).trans (arg13_W3 m ρ c)
theorem arg13_W5 : W5 m ρ c (Proc.devRef .tc main_arg13) = m ((c : Thread nD τ).loc main_arg13) := by
  show StableHlo.after hostOps2 (W4 m ρ c) (Proc.devRef .tc main_arg13) = _
  after_results_simp
  exact arg13_W4 m ρ c
theorem arg13_W6 : W6 m ρ c (Proc.devRef .tc main_arg13) = m ((c : Thread nD τ).loc main_arg13) :=
  (W6_of_ne m ρ c main_arg13 (by decide)).trans (arg13_W5 m ρ c)

theorem arg14_W1 : W1 m ρ c (Proc.devRef .tc main_arg14) = m ((c : Thread nD τ).loc main_arg14) := by
  show StableHlo.after hostOps0 (W0 m ρ c) (Proc.devRef .tc main_arg14) = _
  after_results_simp
  all_goals rfl
theorem arg14_W2 : W2 m ρ c (Proc.devRef .tc main_arg14) = m ((c : Thread nD τ).loc main_arg14) :=
  (W2_of_ne m ρ c main_arg14 (by decide)).trans (arg14_W1 m ρ c)
theorem arg14_W3 : W3 m ρ c (Proc.devRef .tc main_arg14) = m ((c : Thread nD τ).loc main_arg14) := by
  show StableHlo.after hostOps1 (W2 m ρ c) (Proc.devRef .tc main_arg14) = _
  after_results_simp
  exact arg14_W2 m ρ c
theorem arg14_W4 : W4 m ρ c (Proc.devRef .tc main_arg14) = m ((c : Thread nD τ).loc main_arg14) :=
  (W4_of_ne m ρ c main_arg14 (by decide)).trans (arg14_W3 m ρ c)
theorem arg14_W5 : W5 m ρ c (Proc.devRef .tc main_arg14) = m ((c : Thread nD τ).loc main_arg14) := by
  show StableHlo.after hostOps2 (W4 m ρ c) (Proc.devRef .tc main_arg14) = _
  after_results_simp
  exact arg14_W4 m ρ c
theorem arg14_W6 : W6 m ρ c (Proc.devRef .tc main_arg14) = m ((c : Thread nD τ).loc main_arg14) :=
  (W6_of_ne m ρ c main_arg14 (by decide)).trans (arg14_W5 m ρ c)

theorem arg15_W1 : W1 m ρ c (Proc.devRef .tc main_arg15) = m ((c : Thread nD τ).loc main_arg15) := by
  show StableHlo.after hostOps0 (W0 m ρ c) (Proc.devRef .tc main_arg15) = _
  after_results_simp
  all_goals rfl
theorem arg15_W2 : W2 m ρ c (Proc.devRef .tc main_arg15) = m ((c : Thread nD τ).loc main_arg15) :=
  (W2_of_ne m ρ c main_arg15 (by decide)).trans (arg15_W1 m ρ c)
theorem arg15_W3 : W3 m ρ c (Proc.devRef .tc main_arg15) = m ((c : Thread nD τ).loc main_arg15) := by
  show StableHlo.after hostOps1 (W2 m ρ c) (Proc.devRef .tc main_arg15) = _
  after_results_simp
  exact arg15_W2 m ρ c
theorem arg15_W4 : W4 m ρ c (Proc.devRef .tc main_arg15) = m ((c : Thread nD τ).loc main_arg15) :=
  (W4_of_ne m ρ c main_arg15 (by decide)).trans (arg15_W3 m ρ c)
theorem arg15_W5 : W5 m ρ c (Proc.devRef .tc main_arg15) = m ((c : Thread nD τ).loc main_arg15) := by
  show StableHlo.after hostOps2 (W4 m ρ c) (Proc.devRef .tc main_arg15) = _
  after_results_simp
  exact arg15_W4 m ρ c
theorem arg15_W6 : W6 m ρ c (Proc.devRef .tc main_arg15) = m ((c : Thread nD τ).loc main_arg15) :=
  (W6_of_ne m ρ c main_arg15 (by decide)).trans (arg15_W5 m ρ c)

theorem arg2_W1 : W1 m ρ c (Proc.devRef .tc main_arg2) = m ((c : Thread nD τ).loc main_arg2) := by
  show StableHlo.after hostOps0 (W0 m ρ c) (Proc.devRef .tc main_arg2) = _
  after_results_simp
  all_goals rfl
theorem arg2_W2 : W2 m ρ c (Proc.devRef .tc main_arg2) = m ((c : Thread nD τ).loc main_arg2) :=
  (W2_of_ne m ρ c main_arg2 (by decide)).trans (arg2_W1 m ρ c)
theorem arg2_W3 : W3 m ρ c (Proc.devRef .tc main_arg2) = m ((c : Thread nD τ).loc main_arg2) := by
  show StableHlo.after hostOps1 (W2 m ρ c) (Proc.devRef .tc main_arg2) = _
  after_results_simp
  exact arg2_W2 m ρ c
theorem arg2_W4 : W4 m ρ c (Proc.devRef .tc main_arg2) = m ((c : Thread nD τ).loc main_arg2) :=
  (W4_of_ne m ρ c main_arg2 (by decide)).trans (arg2_W3 m ρ c)
theorem arg2_W5 : W5 m ρ c (Proc.devRef .tc main_arg2) = m ((c : Thread nD τ).loc main_arg2) := by
  show StableHlo.after hostOps2 (W4 m ρ c) (Proc.devRef .tc main_arg2) = _
  after_results_simp
  exact arg2_W4 m ρ c
theorem arg2_W6 : W6 m ρ c (Proc.devRef .tc main_arg2) = m ((c : Thread nD τ).loc main_arg2) :=
  (W6_of_ne m ρ c main_arg2 (by decide)).trans (arg2_W5 m ρ c)
theorem arg2_W7 : W7 m ρ c (Proc.devRef .tc main_arg2) = m ((c : Thread nD τ).loc main_arg2) := by
  show StableHlo.after hostOps3 (W6 m ρ c) (Proc.devRef .tc main_arg2) = _
  after_results_simp
  exact arg2_W6 m ρ c
theorem arg2_W8 : W8 m ρ c (Proc.devRef .tc main_arg2) = m ((c : Thread nD τ).loc main_arg2) :=
  (W8_of_ne m ρ c main_arg2 (by decide)).trans (arg2_W7 m ρ c)

theorem arg3_W1 : W1 m ρ c (Proc.devRef .tc main_arg3) = m ((c : Thread nD τ).loc main_arg3) := by
  show StableHlo.after hostOps0 (W0 m ρ c) (Proc.devRef .tc main_arg3) = _
  after_results_simp
  all_goals rfl
theorem arg3_W2 : W2 m ρ c (Proc.devRef .tc main_arg3) = m ((c : Thread nD τ).loc main_arg3) :=
  (W2_of_ne m ρ c main_arg3 (by decide)).trans (arg3_W1 m ρ c)
theorem arg3_W3 : W3 m ρ c (Proc.devRef .tc main_arg3) = m ((c : Thread nD τ).loc main_arg3) := by
  show StableHlo.after hostOps1 (W2 m ρ c) (Proc.devRef .tc main_arg3) = _
  after_results_simp
  exact arg3_W2 m ρ c
theorem arg3_W4 : W4 m ρ c (Proc.devRef .tc main_arg3) = m ((c : Thread nD τ).loc main_arg3) :=
  (W4_of_ne m ρ c main_arg3 (by decide)).trans (arg3_W3 m ρ c)
theorem arg3_W5 : W5 m ρ c (Proc.devRef .tc main_arg3) = m ((c : Thread nD τ).loc main_arg3) := by
  show StableHlo.after hostOps2 (W4 m ρ c) (Proc.devRef .tc main_arg3) = _
  after_results_simp
  exact arg3_W4 m ρ c
theorem arg3_W6 : W6 m ρ c (Proc.devRef .tc main_arg3) = m ((c : Thread nD τ).loc main_arg3) :=
  (W6_of_ne m ρ c main_arg3 (by decide)).trans (arg3_W5 m ρ c)
theorem arg3_W7 : W7 m ρ c (Proc.devRef .tc main_arg3) = m ((c : Thread nD τ).loc main_arg3) := by
  show StableHlo.after hostOps3 (W6 m ρ c) (Proc.devRef .tc main_arg3) = _
  after_results_simp
  exact arg3_W6 m ρ c
theorem arg3_W8 : W8 m ρ c (Proc.devRef .tc main_arg3) = m ((c : Thread nD τ).loc main_arg3) :=
  (W8_of_ne m ρ c main_arg3 (by decide)).trans (arg3_W7 m ρ c)

theorem arg16_W1 : W1 m ρ c (Proc.devRef .tc main_arg16) = m ((c : Thread nD τ).loc main_arg16) := by
  show StableHlo.after hostOps0 (W0 m ρ c) (Proc.devRef .tc main_arg16) = _
  after_results_simp
  all_goals rfl
theorem arg16_W2 : W2 m ρ c (Proc.devRef .tc main_arg16) = m ((c : Thread nD τ).loc main_arg16) :=
  (W2_of_ne m ρ c main_arg16 (by decide)).trans (arg16_W1 m ρ c)
theorem arg16_W3 : W3 m ρ c (Proc.devRef .tc main_arg16) = m ((c : Thread nD τ).loc main_arg16) := by
  show StableHlo.after hostOps1 (W2 m ρ c) (Proc.devRef .tc main_arg16) = _
  after_results_simp
  exact arg16_W2 m ρ c
theorem arg16_W4 : W4 m ρ c (Proc.devRef .tc main_arg16) = m ((c : Thread nD τ).loc main_arg16) :=
  (W4_of_ne m ρ c main_arg16 (by decide)).trans (arg16_W3 m ρ c)
theorem arg16_W5 : W5 m ρ c (Proc.devRef .tc main_arg16) = m ((c : Thread nD τ).loc main_arg16) := by
  show StableHlo.after hostOps2 (W4 m ρ c) (Proc.devRef .tc main_arg16) = _
  after_results_simp
  exact arg16_W4 m ρ c
theorem arg16_W6 : W6 m ρ c (Proc.devRef .tc main_arg16) = m ((c : Thread nD τ).loc main_arg16) :=
  (W6_of_ne m ρ c main_arg16 (by decide)).trans (arg16_W5 m ρ c)
theorem arg16_W7 : W7 m ρ c (Proc.devRef .tc main_arg16) = m ((c : Thread nD τ).loc main_arg16) := by
  show StableHlo.after hostOps3 (W6 m ρ c) (Proc.devRef .tc main_arg16) = _
  after_results_simp
  exact arg16_W6 m ρ c
theorem arg16_W8 : W8 m ρ c (Proc.devRef .tc main_arg16) = m ((c : Thread nD τ).loc main_arg16) :=
  (W8_of_ne m ρ c main_arg16 (by decide)).trans (arg16_W7 m ρ c)

theorem arg17_W1 : W1 m ρ c (Proc.devRef .tc main_arg17) = m ((c : Thread nD τ).loc main_arg17) := by
  show StableHlo.after hostOps0 (W0 m ρ c) (Proc.devRef .tc main_arg17) = _
  after_results_simp
  all_goals rfl
theorem arg17_W2 : W2 m ρ c (Proc.devRef .tc main_arg17) = m ((c : Thread nD τ).loc main_arg17) :=
  (W2_of_ne m ρ c main_arg17 (by decide)).trans (arg17_W1 m ρ c)
theorem arg17_W3 : W3 m ρ c (Proc.devRef .tc main_arg17) = m ((c : Thread nD τ).loc main_arg17) := by
  show StableHlo.after hostOps1 (W2 m ρ c) (Proc.devRef .tc main_arg17) = _
  after_results_simp
  exact arg17_W2 m ρ c
theorem arg17_W4 : W4 m ρ c (Proc.devRef .tc main_arg17) = m ((c : Thread nD τ).loc main_arg17) :=
  (W4_of_ne m ρ c main_arg17 (by decide)).trans (arg17_W3 m ρ c)
theorem arg17_W5 : W5 m ρ c (Proc.devRef .tc main_arg17) = m ((c : Thread nD τ).loc main_arg17) := by
  show StableHlo.after hostOps2 (W4 m ρ c) (Proc.devRef .tc main_arg17) = _
  after_results_simp
  exact arg17_W4 m ρ c
theorem arg17_W6 : W6 m ρ c (Proc.devRef .tc main_arg17) = m ((c : Thread nD τ).loc main_arg17) :=
  (W6_of_ne m ρ c main_arg17 (by decide)).trans (arg17_W5 m ρ c)
theorem arg17_W7 : W7 m ρ c (Proc.devRef .tc main_arg17) = m ((c : Thread nD τ).loc main_arg17) := by
  show StableHlo.after hostOps3 (W6 m ρ c) (Proc.devRef .tc main_arg17) = _
  after_results_simp
  exact arg17_W6 m ρ c
theorem arg17_W8 : W8 m ρ c (Proc.devRef .tc main_arg17) = m ((c : Thread nD τ).loc main_arg17) :=
  (W8_of_ne m ρ c main_arg17 (by decide)).trans (arg17_W7 m ρ c)

theorem arg18_W1 : W1 m ρ c (Proc.devRef .tc main_arg18) = m ((c : Thread nD τ).loc main_arg18) := by
  show StableHlo.after hostOps0 (W0 m ρ c) (Proc.devRef .tc main_arg18) = _
  after_results_simp
  all_goals rfl
theorem arg18_W2 : W2 m ρ c (Proc.devRef .tc main_arg18) = m ((c : Thread nD τ).loc main_arg18) :=
  (W2_of_ne m ρ c main_arg18 (by decide)).trans (arg18_W1 m ρ c)
theorem arg18_W3 : W3 m ρ c (Proc.devRef .tc main_arg18) = m ((c : Thread nD τ).loc main_arg18) := by
  show StableHlo.after hostOps1 (W2 m ρ c) (Proc.devRef .tc main_arg18) = _
  after_results_simp
  exact arg18_W2 m ρ c
theorem arg18_W4 : W4 m ρ c (Proc.devRef .tc main_arg18) = m ((c : Thread nD τ).loc main_arg18) :=
  (W4_of_ne m ρ c main_arg18 (by decide)).trans (arg18_W3 m ρ c)
theorem arg18_W5 : W5 m ρ c (Proc.devRef .tc main_arg18) = m ((c : Thread nD τ).loc main_arg18) := by
  show StableHlo.after hostOps2 (W4 m ρ c) (Proc.devRef .tc main_arg18) = _
  after_results_simp
  exact arg18_W4 m ρ c
theorem arg18_W6 : W6 m ρ c (Proc.devRef .tc main_arg18) = m ((c : Thread nD τ).loc main_arg18) :=
  (W6_of_ne m ρ c main_arg18 (by decide)).trans (arg18_W5 m ρ c)
theorem arg18_W7 : W7 m ρ c (Proc.devRef .tc main_arg18) = m ((c : Thread nD τ).loc main_arg18) := by
  show StableHlo.after hostOps3 (W6 m ρ c) (Proc.devRef .tc main_arg18) = _
  after_results_simp
  exact arg18_W6 m ρ c
theorem arg18_W8 : W8 m ρ c (Proc.devRef .tc main_arg18) = m ((c : Thread nD τ).loc main_arg18) :=
  (W8_of_ne m ρ c main_arg18 (by decide)).trans (arg18_W7 m ρ c)

theorem arg19_W1 : W1 m ρ c (Proc.devRef .tc main_arg19) = m ((c : Thread nD τ).loc main_arg19) := by
  show StableHlo.after hostOps0 (W0 m ρ c) (Proc.devRef .tc main_arg19) = _
  after_results_simp
  all_goals rfl
theorem arg19_W2 : W2 m ρ c (Proc.devRef .tc main_arg19) = m ((c : Thread nD τ).loc main_arg19) :=
  (W2_of_ne m ρ c main_arg19 (by decide)).trans (arg19_W1 m ρ c)
theorem arg19_W3 : W3 m ρ c (Proc.devRef .tc main_arg19) = m ((c : Thread nD τ).loc main_arg19) := by
  show StableHlo.after hostOps1 (W2 m ρ c) (Proc.devRef .tc main_arg19) = _
  after_results_simp
  exact arg19_W2 m ρ c
theorem arg19_W4 : W4 m ρ c (Proc.devRef .tc main_arg19) = m ((c : Thread nD τ).loc main_arg19) :=
  (W4_of_ne m ρ c main_arg19 (by decide)).trans (arg19_W3 m ρ c)
theorem arg19_W5 : W5 m ρ c (Proc.devRef .tc main_arg19) = m ((c : Thread nD τ).loc main_arg19) := by
  show StableHlo.after hostOps2 (W4 m ρ c) (Proc.devRef .tc main_arg19) = _
  after_results_simp
  exact arg19_W4 m ρ c
theorem arg19_W6 : W6 m ρ c (Proc.devRef .tc main_arg19) = m ((c : Thread nD τ).loc main_arg19) :=
  (W6_of_ne m ρ c main_arg19 (by decide)).trans (arg19_W5 m ρ c)
theorem arg19_W7 : W7 m ρ c (Proc.devRef .tc main_arg19) = m ((c : Thread nD τ).loc main_arg19) := by
  show StableHlo.after hostOps3 (W6 m ρ c) (Proc.devRef .tc main_arg19) = _
  after_results_simp
  exact arg19_W6 m ρ c
theorem arg19_W8 : W8 m ρ c (Proc.devRef .tc main_arg19) = m ((c : Thread nD τ).loc main_arg19) :=
  (W8_of_ne m ρ c main_arg19 (by decide)).trans (arg19_W7 m ρ c)

theorem arg20_W1 : W1 m ρ c (Proc.devRef .tc main_arg20) = m ((c : Thread nD τ).loc main_arg20) := by
  show StableHlo.after hostOps0 (W0 m ρ c) (Proc.devRef .tc main_arg20) = _
  after_results_simp
  all_goals rfl
theorem arg20_W2 : W2 m ρ c (Proc.devRef .tc main_arg20) = m ((c : Thread nD τ).loc main_arg20) :=
  (W2_of_ne m ρ c main_arg20 (by decide)).trans (arg20_W1 m ρ c)
theorem arg20_W3 : W3 m ρ c (Proc.devRef .tc main_arg20) = m ((c : Thread nD τ).loc main_arg20) := by
  show StableHlo.after hostOps1 (W2 m ρ c) (Proc.devRef .tc main_arg20) = _
  after_results_simp
  exact arg20_W2 m ρ c
theorem arg20_W4 : W4 m ρ c (Proc.devRef .tc main_arg20) = m ((c : Thread nD τ).loc main_arg20) :=
  (W4_of_ne m ρ c main_arg20 (by decide)).trans (arg20_W3 m ρ c)
theorem arg20_W5 : W5 m ρ c (Proc.devRef .tc main_arg20) = m ((c : Thread nD τ).loc main_arg20) := by
  show StableHlo.after hostOps2 (W4 m ρ c) (Proc.devRef .tc main_arg20) = _
  after_results_simp
  exact arg20_W4 m ρ c
theorem arg20_W6 : W6 m ρ c (Proc.devRef .tc main_arg20) = m ((c : Thread nD τ).loc main_arg20) :=
  (W6_of_ne m ρ c main_arg20 (by decide)).trans (arg20_W5 m ρ c)
theorem arg20_W7 : W7 m ρ c (Proc.devRef .tc main_arg20) = m ((c : Thread nD τ).loc main_arg20) := by
  show StableHlo.after hostOps3 (W6 m ρ c) (Proc.devRef .tc main_arg20) = _
  after_results_simp
  exact arg20_W6 m ρ c
theorem arg20_W8 : W8 m ρ c (Proc.devRef .tc main_arg20) = m ((c : Thread nD τ).loc main_arg20) :=
  (W8_of_ne m ρ c main_arg20 (by decide)).trans (arg20_W7 m ρ c)
theorem arg20_W9 : W9 m ρ c (Proc.devRef .tc main_arg20) = m ((c : Thread nD τ).loc main_arg20) := by
  show StableHlo.after hostOps4 (W8 m ρ c) (Proc.devRef .tc main_arg20) = _
  after_results_simp
  exact arg20_W8 m ρ c
theorem arg20_W10 : W10 m ρ c (Proc.devRef .tc main_arg20) = m ((c : Thread nD τ).loc main_arg20) :=
  (W10_of_ne m ρ c main_arg20 (by decide)).trans (arg20_W9 m ρ c)

theorem arg21_W1 : W1 m ρ c (Proc.devRef .tc main_arg21) = m ((c : Thread nD τ).loc main_arg21) := by
  show StableHlo.after hostOps0 (W0 m ρ c) (Proc.devRef .tc main_arg21) = _
  after_results_simp
  all_goals rfl
theorem arg21_W2 : W2 m ρ c (Proc.devRef .tc main_arg21) = m ((c : Thread nD τ).loc main_arg21) :=
  (W2_of_ne m ρ c main_arg21 (by decide)).trans (arg21_W1 m ρ c)
theorem arg21_W3 : W3 m ρ c (Proc.devRef .tc main_arg21) = m ((c : Thread nD τ).loc main_arg21) := by
  show StableHlo.after hostOps1 (W2 m ρ c) (Proc.devRef .tc main_arg21) = _
  after_results_simp
  exact arg21_W2 m ρ c
theorem arg21_W4 : W4 m ρ c (Proc.devRef .tc main_arg21) = m ((c : Thread nD τ).loc main_arg21) :=
  (W4_of_ne m ρ c main_arg21 (by decide)).trans (arg21_W3 m ρ c)
theorem arg21_W5 : W5 m ρ c (Proc.devRef .tc main_arg21) = m ((c : Thread nD τ).loc main_arg21) := by
  show StableHlo.after hostOps2 (W4 m ρ c) (Proc.devRef .tc main_arg21) = _
  after_results_simp
  exact arg21_W4 m ρ c
theorem arg21_W6 : W6 m ρ c (Proc.devRef .tc main_arg21) = m ((c : Thread nD τ).loc main_arg21) :=
  (W6_of_ne m ρ c main_arg21 (by decide)).trans (arg21_W5 m ρ c)
theorem arg21_W7 : W7 m ρ c (Proc.devRef .tc main_arg21) = m ((c : Thread nD τ).loc main_arg21) := by
  show StableHlo.after hostOps3 (W6 m ρ c) (Proc.devRef .tc main_arg21) = _
  after_results_simp
  exact arg21_W6 m ρ c
theorem arg21_W8 : W8 m ρ c (Proc.devRef .tc main_arg21) = m ((c : Thread nD τ).loc main_arg21) :=
  (W8_of_ne m ρ c main_arg21 (by decide)).trans (arg21_W7 m ρ c)
theorem arg21_W9 : W9 m ρ c (Proc.devRef .tc main_arg21) = m ((c : Thread nD τ).loc main_arg21) := by
  show StableHlo.after hostOps4 (W8 m ρ c) (Proc.devRef .tc main_arg21) = _
  after_results_simp
  exact arg21_W8 m ρ c
theorem arg21_W10 : W10 m ρ c (Proc.devRef .tc main_arg21) = m ((c : Thread nD τ).loc main_arg21) :=
  (W10_of_ne m ρ c main_arg21 (by decide)).trans (arg21_W9 m ρ c)

theorem arg22_W1 : W1 m ρ c (Proc.devRef .tc main_arg22) = m ((c : Thread nD τ).loc main_arg22) := by
  show StableHlo.after hostOps0 (W0 m ρ c) (Proc.devRef .tc main_arg22) = _
  after_results_simp
  all_goals rfl
theorem arg22_W2 : W2 m ρ c (Proc.devRef .tc main_arg22) = m ((c : Thread nD τ).loc main_arg22) :=
  (W2_of_ne m ρ c main_arg22 (by decide)).trans (arg22_W1 m ρ c)
theorem arg22_W3 : W3 m ρ c (Proc.devRef .tc main_arg22) = m ((c : Thread nD τ).loc main_arg22) := by
  show StableHlo.after hostOps1 (W2 m ρ c) (Proc.devRef .tc main_arg22) = _
  after_results_simp
  exact arg22_W2 m ρ c
theorem arg22_W4 : W4 m ρ c (Proc.devRef .tc main_arg22) = m ((c : Thread nD τ).loc main_arg22) :=
  (W4_of_ne m ρ c main_arg22 (by decide)).trans (arg22_W3 m ρ c)
theorem arg22_W5 : W5 m ρ c (Proc.devRef .tc main_arg22) = m ((c : Thread nD τ).loc main_arg22) := by
  show StableHlo.after hostOps2 (W4 m ρ c) (Proc.devRef .tc main_arg22) = _
  after_results_simp
  exact arg22_W4 m ρ c
theorem arg22_W6 : W6 m ρ c (Proc.devRef .tc main_arg22) = m ((c : Thread nD τ).loc main_arg22) :=
  (W6_of_ne m ρ c main_arg22 (by decide)).trans (arg22_W5 m ρ c)
theorem arg22_W7 : W7 m ρ c (Proc.devRef .tc main_arg22) = m ((c : Thread nD τ).loc main_arg22) := by
  show StableHlo.after hostOps3 (W6 m ρ c) (Proc.devRef .tc main_arg22) = _
  after_results_simp
  exact arg22_W6 m ρ c
theorem arg22_W8 : W8 m ρ c (Proc.devRef .tc main_arg22) = m ((c : Thread nD τ).loc main_arg22) :=
  (W8_of_ne m ρ c main_arg22 (by decide)).trans (arg22_W7 m ρ c)
theorem arg22_W9 : W9 m ρ c (Proc.devRef .tc main_arg22) = m ((c : Thread nD τ).loc main_arg22) := by
  show StableHlo.after hostOps4 (W8 m ρ c) (Proc.devRef .tc main_arg22) = _
  after_results_simp
  exact arg22_W8 m ρ c
theorem arg22_W10 : W10 m ρ c (Proc.devRef .tc main_arg22) = m ((c : Thread nD τ).loc main_arg22) :=
  (W10_of_ne m ρ c main_arg22 (by decide)).trans (arg22_W9 m ρ c)

theorem arg23_W1 : W1 m ρ c (Proc.devRef .tc main_arg23) = m ((c : Thread nD τ).loc main_arg23) := by
  show StableHlo.after hostOps0 (W0 m ρ c) (Proc.devRef .tc main_arg23) = _
  after_results_simp
  all_goals rfl
theorem arg23_W2 : W2 m ρ c (Proc.devRef .tc main_arg23) = m ((c : Thread nD τ).loc main_arg23) :=
  (W2_of_ne m ρ c main_arg23 (by decide)).trans (arg23_W1 m ρ c)
theorem arg23_W3 : W3 m ρ c (Proc.devRef .tc main_arg23) = m ((c : Thread nD τ).loc main_arg23) := by
  show StableHlo.after hostOps1 (W2 m ρ c) (Proc.devRef .tc main_arg23) = _
  after_results_simp
  exact arg23_W2 m ρ c
theorem arg23_W4 : W4 m ρ c (Proc.devRef .tc main_arg23) = m ((c : Thread nD τ).loc main_arg23) :=
  (W4_of_ne m ρ c main_arg23 (by decide)).trans (arg23_W3 m ρ c)
theorem arg23_W5 : W5 m ρ c (Proc.devRef .tc main_arg23) = m ((c : Thread nD τ).loc main_arg23) := by
  show StableHlo.after hostOps2 (W4 m ρ c) (Proc.devRef .tc main_arg23) = _
  after_results_simp
  exact arg23_W4 m ρ c
theorem arg23_W6 : W6 m ρ c (Proc.devRef .tc main_arg23) = m ((c : Thread nD τ).loc main_arg23) :=
  (W6_of_ne m ρ c main_arg23 (by decide)).trans (arg23_W5 m ρ c)
theorem arg23_W7 : W7 m ρ c (Proc.devRef .tc main_arg23) = m ((c : Thread nD τ).loc main_arg23) := by
  show StableHlo.after hostOps3 (W6 m ρ c) (Proc.devRef .tc main_arg23) = _
  after_results_simp
  exact arg23_W6 m ρ c
theorem arg23_W8 : W8 m ρ c (Proc.devRef .tc main_arg23) = m ((c : Thread nD τ).loc main_arg23) :=
  (W8_of_ne m ρ c main_arg23 (by decide)).trans (arg23_W7 m ρ c)
theorem arg23_W9 : W9 m ρ c (Proc.devRef .tc main_arg23) = m ((c : Thread nD τ).loc main_arg23) := by
  show StableHlo.after hostOps4 (W8 m ρ c) (Proc.devRef .tc main_arg23) = _
  after_results_simp
  exact arg23_W8 m ρ c
theorem arg23_W10 : W10 m ρ c (Proc.devRef .tc main_arg23) = m ((c : Thread nD τ).loc main_arg23) :=
  (W10_of_ne m ρ c main_arg23 (by decide)).trans (arg23_W9 m ρ c)

theorem arg24_W1 : W1 m ρ c (Proc.devRef .tc main_arg24) = m ((c : Thread nD τ).loc main_arg24) := by
  show StableHlo.after hostOps0 (W0 m ρ c) (Proc.devRef .tc main_arg24) = _
  after_results_simp
  all_goals rfl
theorem arg24_W2 : W2 m ρ c (Proc.devRef .tc main_arg24) = m ((c : Thread nD τ).loc main_arg24) :=
  (W2_of_ne m ρ c main_arg24 (by decide)).trans (arg24_W1 m ρ c)
theorem arg24_W3 : W3 m ρ c (Proc.devRef .tc main_arg24) = m ((c : Thread nD τ).loc main_arg24) := by
  show StableHlo.after hostOps1 (W2 m ρ c) (Proc.devRef .tc main_arg24) = _
  after_results_simp
  exact arg24_W2 m ρ c
theorem arg24_W4 : W4 m ρ c (Proc.devRef .tc main_arg24) = m ((c : Thread nD τ).loc main_arg24) :=
  (W4_of_ne m ρ c main_arg24 (by decide)).trans (arg24_W3 m ρ c)
theorem arg24_W5 : W5 m ρ c (Proc.devRef .tc main_arg24) = m ((c : Thread nD τ).loc main_arg24) := by
  show StableHlo.after hostOps2 (W4 m ρ c) (Proc.devRef .tc main_arg24) = _
  after_results_simp
  exact arg24_W4 m ρ c
theorem arg24_W6 : W6 m ρ c (Proc.devRef .tc main_arg24) = m ((c : Thread nD τ).loc main_arg24) :=
  (W6_of_ne m ρ c main_arg24 (by decide)).trans (arg24_W5 m ρ c)
theorem arg24_W7 : W7 m ρ c (Proc.devRef .tc main_arg24) = m ((c : Thread nD τ).loc main_arg24) := by
  show StableHlo.after hostOps3 (W6 m ρ c) (Proc.devRef .tc main_arg24) = _
  after_results_simp
  exact arg24_W6 m ρ c
theorem arg24_W8 : W8 m ρ c (Proc.devRef .tc main_arg24) = m ((c : Thread nD τ).loc main_arg24) :=
  (W8_of_ne m ρ c main_arg24 (by decide)).trans (arg24_W7 m ρ c)
theorem arg24_W9 : W9 m ρ c (Proc.devRef .tc main_arg24) = m ((c : Thread nD τ).loc main_arg24) := by
  show StableHlo.after hostOps4 (W8 m ρ c) (Proc.devRef .tc main_arg24) = _
  after_results_simp
  exact arg24_W8 m ρ c
theorem arg24_W10 : W10 m ρ c (Proc.devRef .tc main_arg24) = m ((c : Thread nD τ).loc main_arg24) :=
  (W10_of_ne m ρ c main_arg24 (by decide)).trans (arg24_W9 m ρ c)

theorem arg25_W1 : W1 m ρ c (Proc.devRef .tc main_arg25) = m ((c : Thread nD τ).loc main_arg25) := by
  show StableHlo.after hostOps0 (W0 m ρ c) (Proc.devRef .tc main_arg25) = _
  after_results_simp
  all_goals rfl
theorem arg25_W2 : W2 m ρ c (Proc.devRef .tc main_arg25) = m ((c : Thread nD τ).loc main_arg25) :=
  (W2_of_ne m ρ c main_arg25 (by decide)).trans (arg25_W1 m ρ c)
theorem arg25_W3 : W3 m ρ c (Proc.devRef .tc main_arg25) = m ((c : Thread nD τ).loc main_arg25) := by
  show StableHlo.after hostOps1 (W2 m ρ c) (Proc.devRef .tc main_arg25) = _
  after_results_simp
  exact arg25_W2 m ρ c
theorem arg25_W4 : W4 m ρ c (Proc.devRef .tc main_arg25) = m ((c : Thread nD τ).loc main_arg25) :=
  (W4_of_ne m ρ c main_arg25 (by decide)).trans (arg25_W3 m ρ c)
theorem arg25_W5 : W5 m ρ c (Proc.devRef .tc main_arg25) = m ((c : Thread nD τ).loc main_arg25) := by
  show StableHlo.after hostOps2 (W4 m ρ c) (Proc.devRef .tc main_arg25) = _
  after_results_simp
  exact arg25_W4 m ρ c
theorem arg25_W6 : W6 m ρ c (Proc.devRef .tc main_arg25) = m ((c : Thread nD τ).loc main_arg25) :=
  (W6_of_ne m ρ c main_arg25 (by decide)).trans (arg25_W5 m ρ c)
theorem arg25_W7 : W7 m ρ c (Proc.devRef .tc main_arg25) = m ((c : Thread nD τ).loc main_arg25) := by
  show StableHlo.after hostOps3 (W6 m ρ c) (Proc.devRef .tc main_arg25) = _
  after_results_simp
  exact arg25_W6 m ρ c
theorem arg25_W8 : W8 m ρ c (Proc.devRef .tc main_arg25) = m ((c : Thread nD τ).loc main_arg25) :=
  (W8_of_ne m ρ c main_arg25 (by decide)).trans (arg25_W7 m ρ c)
theorem arg25_W9 : W9 m ρ c (Proc.devRef .tc main_arg25) = m ((c : Thread nD τ).loc main_arg25) := by
  show StableHlo.after hostOps4 (W8 m ρ c) (Proc.devRef .tc main_arg25) = _
  after_results_simp
  exact arg25_W8 m ρ c
theorem arg25_W10 : W10 m ρ c (Proc.devRef .tc main_arg25) = m ((c : Thread nD τ).loc main_arg25) :=
  (W10_of_ne m ρ c main_arg25 (by decide)).trans (arg25_W9 m ρ c)

end Cert.KernelIdeal.Chain

end
-- ==== Proof.GinRows.lean ====
/-
  A graph-isomorphism layer is computed row by row: entry (P, q) of its output reads the node features and the
  neighbourhood sums in row P only (the weights, biases, scales and shifts are shared by all rows). So when row p of
  two smaller arrays is row P of two larger ones, the layer of the smaller arrays at (p, q) is the layer of the larger
  ones at (P, q) — a block of rows of the output is the layer of the same block of rows of the inputs. The same holds
  with the residual, which adds the features' entry (P, q).
-/
import proofs.«153049_j20907900797458_1_alg».proof.Proof.Spec

noncomputable section

namespace Cert.SpecRows

open Idealize.ShloMosaic Idealize.ShloMosaic.ValueIdx Cert.Lib Cert.Spec
open scoped BigOperators

variable {n N K M : ℕ}

/-- The layer without the residual at (p, q) depends on row p of the features and of the sums only. -/
theorem ginLayer_row (h a : Arr n K) (H A : Arr N K) (w1 : Arr K M) (b1 : Arr 1 M) (w2 : Arr M M) (b2 γ β : Arr 1 M)
    (p : Fin n) (P : Fin N) (q : Fin M) (hh : ∀ k : Fin K, h (ix2 p k) = H (ix2 P k))
    (ha : ∀ k : Fin K, a (ix2 p k) = A (ix2 P k)) :
    ginLayer h a w1 b1 w2 b2 γ β (ix2 p q) = ginLayer H A w1 b1 w2 b2 γ β (ix2 P q) := by
  simp only [ginLayer, reluOf_apply, bnRows_apply, rowAffine_apply, hh, ha]

/-- The layer with the residual likewise. -/
theorem ginLayerRes_row (h a : Arr n M) (H A : Arr N M) (w1 : Arr M M) (b1 : Arr 1 M) (w2 : Arr M M) (b2 γ β : Arr 1 M)
    (p : Fin n) (P : Fin N) (q : Fin M) (hh : ∀ k : Fin M, h (ix2 p k) = H (ix2 P k))
    (ha : ∀ k : Fin M, a (ix2 p k) = A (ix2 P k)) :
    ginLayerRes h a w1 b1 w2 b2 γ β (ix2 p q) = ginLayerRes H A w1 b1 w2 b2 γ β (ix2 P q) := by
  show ginLayer h a w1 b1 w2 b2 γ β (ix2 p q) + h (ix2 p q) = ginLayer H A w1 b1 w2 b2 γ β (ix2 P q) + H (ix2 P q)
  rw [ginLayer_row h a H A w1 b1 w2 b2 γ β p P q hh ha, hh q]

/-- The same with the shared operands given up to equality: a block of rows of the two row-wise inputs and equal
    weights, biases, scale and shift on the two sides. -/
theorem ginLayer_block (h a : Arr n K) (H A : Arr N K) (w1 w1' : Arr K M) (b1 b1' : Arr 1 M) (w2 w2' : Arr M M)
    (b2 b2' γ γ' β β' : Arr 1 M) (p : Fin n) (P : Fin N) (q : Fin M) (hh : ∀ k : Fin K, h (ix2 p k) = H (ix2 P k))
    (ha : ∀ k : Fin K, a (ix2 p k) = A (ix2 P k)) (e1 : w1 = w1') (e2 : b1 = b1') (e3 : w2 = w2') (e4 : b2 = b2')
    (e5 : γ = γ') (e6 : β = β') :
    ginLayer h a w1 b1 w2 b2 γ β (ix2 p q) = ginLayer H A w1' b1' w2' b2' γ' β' (ix2 P q) := by
  subst e1 e2 e3 e4 e5 e6
  exact ginLayer_row h a H A w1 b1 w2 b2 γ β p P q hh ha

theorem ginLayerRes_block (h a : Arr n M) (H A : Arr N M) (w1 w1' : Arr M M) (b1 b1' : Arr 1 M) (w2 w2' : Arr M M)
    (b2 b2' γ γ' β β' : Arr 1 M) (p : Fin n) (P : Fin N) (q : Fin M) (hh : ∀ k : Fin M, h (ix2 p k) = H (ix2 P k))
    (ha : ∀ k : Fin M, a (ix2 p k) = A (ix2 P k)) (e1 : w1 = w1') (e2 : b1 = b1') (e3 : w2 = w2') (e4 : b2 = b2')
    (e5 : γ = γ') (e6 : β = β') :
    ginLayerRes h a w1 b1 w2 b2 γ β (ix2 p q) = ginLayerRes H A w1' b1' w2' b2' γ' β' (ix2 P q) := by
  subst e1 e2 e3 e4 e5 e6
  exact ginLayerRes_row h a H A w1 b1 w2 b2 γ β p P q hh ha

end Cert.SpecRows

end
-- ==== Proof.KGin0Blocks.lean ====
/-
  Region 0 (a fused dense graph-isomorphism layer), first half: the body's stored value at an index, and each
  window's block at a grid point as a piece of its array.

  The body loads a block of 2000 rows of the node features and of the neighbourhood sums, the two weight matrices and
  the four rows (two biases, the normalisation's scale and shift), and stores one block of 2000 rows of the output. Read
  at row p, column q, on the extended reals, the stored value is the layer's entry (p, q) computed from the loaded
  blocks. The grid has 25 points; at point t the features', the sums' and the output's blocks are rows 2000·t … 2000·t +
  1999 of their arrays, and every other window's block is its whole array.
-/
import proofs.«153049_j20907900797458_1_alg».proof.Proof.Gen.KernelIdeal.Frame
import proofs.«153049_j20907900797458_1_alg».proof.Proof.Spec
import proofs.«153049_j20907900797458_1_alg».proof.Proof.LibMatDot
import proofs.«153049_j20907900797458_1_alg».proof.Proof.LibRowBiasLayers
import Idealize.ShloMosaic.Lib.Pipeline.Value
import Idealize.ShloMosaic.Lib.ValueLayout
import Idealize.ShloMosaic.PureOps.IdealRules

noncomputable section

namespace Cert.KernelIdeal.Closed

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

/-- The named scale of the batch normalisation is, on the extended reals, the reciprocal of the standard deviation. -/
theorem invStd_eq : Named.named (F := Ideal) κ "inv_bn_std" (φ := .f32) 0x3F7FFFAC#32 = Cert.Spec.invStd :=
  IdealRules.named_const.ideal_named_scalar _ _ _ _ rfl

/-- The zero offsets of a whole-block access. -/
theorem hz : (![0, 0] : Fin 2 → Nat) = fun _ => 0 := funext fun a => by fin_cases a <;> rfl

variable (V : (c : Dev nD) → (b : Ref sig .tc) → Buf (Elt Ideal) ((c : Thread nD τ).loc b))

/-! ## The body's arithmetic at an index -/

/-- The body's stored value at row p, column q of the block is the layer of the loaded blocks there: the two products
    with the matrix unit are sums over the contracted coordinate (the narrowing of their operands is the identity on the
    extended reals), each bias, scale and shift row is read at column q, and the named scale is the reciprocal of the
    standard deviation. -/
theorem pay0_apply (x0 x1 : Vec Ideal S2000x70 .f32) (x2 : Vec Ideal S70x256 .f32) (x3 : Vec Ideal S1x256 .f32)
    (x4 : Vec Ideal S256x256 .f32) (x5 x6 x7 : Vec Ideal S1x256 .f32) (p : Fin 2000) (q : Fin 256) :
    k0_pay1 (F := Ideal) x0 x1 x2 x3 x4 x5 x6 x7 (ix2 p q)
      = Cert.Spec.ginLayer x0 x1 x2 x3 x4 x5 x6 x7 (ix2 p q) := by
  unfold k0_pay1
  simp only [shapeCast_self]
  rw [show dot_S2000x70_S70x256_S2000x256_1_0_0_1_n_n = matDot dot_S2000x70_S70x256_S2000x256_1_0_0_1_n_n_wf from rfl,
    show dot_S2000x256_S256x256_S2000x256_1_0_0_1_n_n = matDot dot_S2000x256_S256x256_S2000x256_1_0_0_1_n_n_wf from rfl]
  simp only [maximumf_apply, addf_apply, mulf_apply, broadcast_apply, broadcastTo_1b_ab_apply, matmul_plain_zero_apply,
    truncf_apply, invStd_eq]
  rfl

/-! ## The windows' blocks as pieces of the arrays -/

/-- The printed index maps over the grid: the features, the sums and the output move down by one block of 2000 rows
    per point; every other window stays on its one block. -/
theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)

/-- Row p of window 0's block at point t is row 2000·t + p of its array. -/
theorem iblk0_0_apply (c : Dev nD) (t : Fin cfg0.N) (p : Fin 2000) (k : Fin 70) (i : S50000x70.Idx)
    (hi0 : (i 0).val = 2000 * t.val + p.val) (hi1 : (i 1).val = k.val) :
    (iblk0 V c 0 t : Vec Ideal S2000x70 .f32) (ix2 p k) = (V c (Pipeline.arrRef spec0 0) : S50000x70.Idx → EReal) i := by
  obtain ⟨e0, e1⟩ := idx0_0 t
  unfold iblk0
  rw [View.read_apply]
  show (V c (Pipeline.arrRef spec0 0) : S50000x70.Idx → EReal) (((cfg0.win 0).blk t).view.emb (ix2 p k)) = _
  refine congrArg _ ?_
  funext a; apply Fin.ext
  match a with
  | ⟨0, _⟩ => show win0_0.index t (0 : Fin 2) * 2000 + 1 * p.val = (i 0).val; rw [e0, hi0]; omega
  | ⟨1, _⟩ => show win0_0.index t (1 : Fin 2) * 70 + 1 * k.val = (i 1).val; rw [e1, hi1]; omega

/-- Row p of window 1's block at point t is row 2000·t + p of its array. -/
theorem iblk0_1_apply (c : Dev nD) (t : Fin cfg0.N) (p : Fin 2000) (k : Fin 70) (i : S50000x70.Idx)
    (hi0 : (i 0).val = 2000 * t.val + p.val) (hi1 : (i 1).val = k.val) :
    (iblk0 V c 1 t : Vec Ideal S2000x70 .f32) (ix2 p k) = (V c (Pipeline.arrRef spec0 1) : S50000x70.Idx → EReal) i := by
  obtain ⟨e0, e1⟩ := idx0_1 t
  unfold iblk0
  rw [View.read_apply]
  show (V c (Pipeline.arrRef spec0 1) : S50000x70.Idx → EReal) (((cfg0.win 1).blk t).view.emb (ix2 p k)) = _
  refine congrArg _ ?_
  funext a; apply Fin.ext
  match a with
  | ⟨0, _⟩ => show win0_1.index t (0 : Fin 2) * 2000 + 1 * p.val = (i 0).val; rw [e0, hi0]; omega
  | ⟨1, _⟩ => show win0_1.index t (1 : Fin 2) * 70 + 1 * k.val = (i 1).val; rw [e1, hi1]; omega

/-- Window 2's one block is its whole array. -/
theorem iblk0_2_eq (c : Dev nD) (t : Fin cfg0.N) :
    (iblk0 V c 2 t : Vec Ideal S70x256 .f32) = (V c (Pipeline.arrRef spec0 2) : S70x256.Idx → EReal) := by
  obtain ⟨e0, e1⟩ := idx0_2 t
  funext j
  unfold iblk0
  rw [View.read_apply]
  show (V c (Pipeline.arrRef spec0 2) : S70x256.Idx → EReal) (((cfg0.win 2).blk t).view.emb j) = _
  refine congrArg _ ?_
  funext a; apply Fin.ext
  match a with
  | ⟨0, _⟩ => show win0_2.index t (0 : Fin 2) * 70 + 1 * (j 0).val = (j 0).val; rw [e0]; omega
  | ⟨1, _⟩ => show win0_2.index t (1 : Fin 2) * 256 + 1 * (j 1).val = (j 1).val; rw [e1]; omega

/-- Window 3's one block is its whole array. -/
theorem iblk0_3_eq (c : Dev nD) (t : Fin cfg0.N) :
    (iblk0 V c 3 t : Vec Ideal S1x256 .f32) = (V c (Pipeline.arrRef spec0 3) : S1x256.Idx → EReal) := by
  obtain ⟨e0, e1⟩ := idx0_3 t
  funext j
  unfold iblk0
  rw [View.read_apply]
  show (V c (Pipeline.arrRef spec0 3) : S1x256.Idx → EReal) (((cfg0.win 3).blk t).view.emb j) = _
  refine congrArg _ ?_
  funext a; apply Fin.ext
  match a with
  | ⟨0, _⟩ => show win0_3.index t (0 : Fin 2) * 1 + 1 * (j 0).val = (j 0).val; rw [e0]; omega
  | ⟨1, _⟩ => show win0_3.index t (1 : Fin 2) * 256 + 1 * (j 1).val = (j 1).val; rw [e1]; omega

/-- Window 4's one block is its whole array. -/
theorem iblk0_4_eq (c : Dev nD) (t : Fin cfg0.N) :
    (iblk0 V c 4 t : Vec Ideal S256x256 .f32) = (V c (Pipeline.arrRef spec0 4) : S256x256.Idx → EReal) := by
  obtain ⟨e0, e1⟩ := idx0_4 t
  funext j
  unfold iblk0
  rw [View.read_apply]
  show (V c (Pipeline.arrRef spec0 4) : S256x256.Idx → EReal) (((cfg0.win 4).blk t).view.emb j) = _
  refine congrArg _ ?_
  funext a; apply Fin.ext
  match a with
  | ⟨0, _⟩ => show win0_4.index t (0 : Fin 2) * 256 + 1 * (j 0).val = (j 0).val; rw [e0]; omega
  | ⟨1, _⟩ => show win0_4.index t (1 : Fin 2) * 256 + 1 * (j 1).val = (j 1).val; rw [e1]; omega

/-- Window 5's one block is its whole array. -/
theorem iblk0_5_eq (c : Dev nD) (t : Fin cfg0.N) :
    (iblk0 V c 5 t : Vec Ideal S1x256 .f32) = (V c (Pipeline.arrRef spec0 5) : S1x256.Idx → EReal) := by
  obtain ⟨e0, e1⟩ := idx0_5 t
  funext j
  unfold iblk0
  rw [View.read_apply]
  show (V c (Pipeline.arrRef spec0 5) : S1x256.Idx → EReal) (((cfg0.win 5).blk t).view.emb j) = _
  refine congrArg _ ?_
  funext a; apply Fin.ext
  match a with
  | ⟨0, _⟩ => show win0_5.index t (0 : Fin 2) * 1 + 1 * (j 0).val = (j 0).val; rw [e0]; omega
  | ⟨1, _⟩ => show win0_5.index t (1 : Fin 2) * 256 + 1 * (j 1).val = (j 1).val; rw [e1]; omega

/-- Window 6's one block is its whole array. -/
theorem iblk0_6_eq (c : Dev nD) (t : Fin cfg0.N) :
    (iblk0 V c 6 t : Vec Ideal S1x256 .f32) = (V c (Pipeline.arrRef spec0 6) : S1x256.Idx → EReal) := by
  obtain ⟨e0, e1⟩ := idx0_6 t
  funext j
  unfold iblk0
  rw [View.read_apply]
  show (V c (Pipeline.arrRef spec0 6) : S1x256.Idx → EReal) (((cfg0.win 6).blk t).view.emb j) = _
  refine congrArg _ ?_
  funext a; apply Fin.ext
  match a with
  | ⟨0, _⟩ => show win0_6.index t (0 : Fin 2) * 1 + 1 * (j 0).val = (j 0).val; rw [e0]; omega
  | ⟨1, _⟩ => show win0_6.index t (1 : Fin 2) * 256 + 1 * (j 1).val = (j 1).val; rw [e1]; omega

/-- Window 7's one block is its whole array. -/
theorem iblk0_7_eq (c : Dev nD) (t : Fin cfg0.N) :
    (iblk0 V c 7 t : Vec Ideal S1x256 .f32) = (V c (Pipeline.arrRef spec0 7) : S1x256.Idx → EReal) := by
  obtain ⟨e0, e1⟩ := idx0_7 t
  funext j
  unfold iblk0
  rw [View.read_apply]
  show (V c (Pipeline.arrRef spec0 7) : S1x256.Idx → EReal) (((cfg0.win 7).blk t).view.emb j) = _
  refine congrArg _ ?_
  funext a; apply Fin.ext
  match a with
  | ⟨0, _⟩ => show win0_7.index t (0 : Fin 2) * 1 + 1 * (j 0).val = (j 0).val; rw [e0]; omega
  | ⟨1, _⟩ => show win0_7.index t (1 : Fin 2) * 256 + 1 * (j 1).val = (j 1).val; rw [e1]; omega

end Cert.KernelIdeal.Closed

end
-- ==== Proof.KGin0.lean ====
/-
  Region 0 (a fused dense graph-isomorphism layer), second half: the output array after the region as ONE function
  of the arrays the region finds, whatever they hold.

  What grid point t writes back is block t of the layer of the whole arrays — the layer is computed row by row, so its
  rows 2000·t … 2000·t + 1999 are the layer of those rows of the features and of the neighbourhood sums —, and the 25
  blocks of 2000 rows cover the 50000 rows. So the array ends holding the layer of the whole arrays.
-/
import proofs.«153049_j20907900797458_1_alg».proof.Proof.Gen.KernelIdeal.Frame
import proofs.«153049_j20907900797458_1_alg».proof.Proof.Spec
import proofs.«153049_j20907900797458_1_alg».proof.Proof.LibMatDot
import proofs.«153049_j20907900797458_1_alg».proof.Proof.LibRowBiasLayers
import Idealize.ShloMosaic.Lib.Pipeline.Value
import Idealize.ShloMosaic.Lib.ValueLayout
import Idealize.ShloMosaic.PureOps.IdealRules
import proofs.«153049_j20907900797458_1_alg».proof.Proof.GinRows
import proofs.«153049_j20907900797458_1_alg».proof.Proof.KGin0Blocks

noncomputable section

namespace Cert.KernelIdeal.Closed

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

/-! ## What a point writes back -/

/-- What point t writes back is the body's stored value of the windows' blocks at t (the body's one store covers the
    output's whole block, and each load reads a whole block). -/
theorem flushed0_pay (c : Dev nD) (t : Fin cfg0.N) :
    (dat0 (F := Ideal) V c).flushed 8 t = (cfg0.win 8).cut (grid0.coords t)
      (k0_pay1 (F := Ideal) (iblk0 V c 0 t) (iblk0 V c 1 t) (iblk0 V c 2 t) (iblk0 V c 3 t) (iblk0 V c 4 t) (iblk0 V c 5 t) (iblk0 V c 6 t) (iblk0 V c 7 t)) := by
  show (cfg0.win 8).cut (grid0.coords t) ((dat0 V c).after 8 t) = _
  rw [after0_8]
  unfold out0_8
  rw [View.canon_unit_zero hz]
  simp only [View.ld_unit_zero (S := S2000x70) hz, View.ld_unit_zero (S := S70x256) hz, View.ld_unit_zero (S := S1x256) hz,
    View.ld_unit_zero (S := S256x256) hz]

/-- The output's block is written back whole: nothing of it is cut away. -/
theorem cut0_apply (t : Fin cfg0.N) (X : Vec Ideal S2000x256 .f32) (p : Fin 2000) (q : Fin 256) :
    (cfg0.win 8).cut (grid0.coords t) X (ix2 p q) = X (ix2 p q) := rfl

/-- Row p, column q of point t's block of an output-shaped array is its row 2000·t + p, column q. -/
theorem read0_apply (t : Fin cfg0.N) (G : S50000x256.Idx → EReal) (p : Fin 2000) (q : Fin 256)
    (hP : 2000 * t.val + p.val < 50000) :
    ((cfg0.win 8).blk t).view.read (Elt Ideal) G (ix2 p q) = G (ix2 (⟨2000 * t.val + p.val, hP⟩ : Fin 50000) q) := by
  obtain ⟨e0, e1⟩ := idx0_8 t
  rw [View.read_apply]
  show G (((cfg0.win 8).blk t).view.emb (ix2 p q)) = _
  refine congrArg G ?_
  funext a; apply Fin.ext
  match a with
  | ⟨0, _⟩ => show win0_8.index t (0 : Fin 2) * 2000 + 1 * p.val = 2000 * t.val + p.val; rw [e0]; omega
  | ⟨1, _⟩ => show win0_8.index t (1 : Fin 2) * 256 + 1 * q.val = q.val; rw [e1]; omega

/-- At row p, column q of point t's block the stored value is the layer of the whole arrays at row 2000·t + p, column
    q: the layer is computed row by row, the features' and the sums' blocks at t are rows 2000·t … of their arrays, and
    the other operands' blocks are their whole arrays. -/
theorem point0_eq (c : Dev nD) (t : Fin cfg0.N) (p : Fin 2000) (q : Fin 256) (hP : 2000 * t.val + p.val < 50000) :
    k0_pay1 (F := Ideal) (iblk0 V c 0 t) (iblk0 V c 1 t) (iblk0 V c 2 t) (iblk0 V c 3 t) (iblk0 V c 4 t) (iblk0 V c 5 t) (iblk0 V c 6 t) (iblk0 V c 7 t) (ix2 p q)
      = Cert.Spec.ginLayer (n := 50000) (K := 70) (M := 256) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (ix2 (⟨2000 * t.val + p.val, hP⟩ : Fin 50000) q) :=
  (pay0_apply (iblk0 V c 0 t) (iblk0 V c 1 t) (iblk0 V c 2 t) (iblk0 V c 3 t) (iblk0 V c 4 t) (iblk0 V c 5 t) (iblk0 V c 6 t) (iblk0 V c 7 t) p q).trans
    (Cert.SpecRows.ginLayer_block (n := 2000) (N := 50000) (K := 70) (M := 256)
      (iblk0 V c 0 t) (iblk0 V c 1 t) (V c (Pipeline.arrRef spec0 0)) (V c (Pipeline.arrRef spec0 1))
      (iblk0 V c 2 t) (V c (Pipeline.arrRef spec0 2)) (iblk0 V c 3 t) (V c (Pipeline.arrRef spec0 3))
      (iblk0 V c 4 t) (V c (Pipeline.arrRef spec0 4)) (iblk0 V c 5 t) (V c (Pipeline.arrRef spec0 5))
      (iblk0 V c 6 t) (V c (Pipeline.arrRef spec0 6)) (iblk0 V c 7 t) (V c (Pipeline.arrRef spec0 7))
      p ⟨2000 * t.val + p.val, hP⟩ q
      (fun k => iblk0_0_apply V c t p k _ rfl rfl) (fun k => iblk0_1_apply V c t p k _ rfl rfl)
      (iblk0_2_eq V c t) (iblk0_3_eq V c t) (iblk0_4_eq V c t) (iblk0_5_eq V c t) (iblk0_6_eq V c t) (iblk0_7_eq V c t))

/-- So what point t writes back is block t — rows 2000·t … 2000·t + 1999 — of the layer of the whole arrays. -/
theorem flushed0_eq (c : Dev nD) (t : Fin cfg0.N) :
    (dat0 (F := Ideal) V c).flushed 8 t = ((cfg0.win 8).blk t).view.read (Elt Ideal)
      (Cert.Spec.ginLayer (n := 50000) (K := 70) (M := 256) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7))) := by
  rw [flushed0_pay]
  funext j
  obtain ⟨p, q, rfl⟩ : ∃ (p : Fin 2000) (q : Fin 256), j = ix2 p q := ⟨j 0, j 1, eq_ix2 j⟩
  have hp : p.val < 2000 := p.isLt
  have ht : t.val < 25 := (show t.val < grid0.N from t.isLt).trans_eq N_0
  have hP : 2000 * t.val + p.val < 50000 := by omega
  exact ((cut0_apply t _ p q).trans (point0_eq V c t p q hP)).trans (read0_apply t _ p q hP).symm

/-! ## From blocks to the array -/

/-- An index of the output array is in point t's block iff each coordinate is in the block's range on its axis. -/
theorem mem_blk0 (t : Fin cfg0.N) (i : S50000x256.Idx) :
    i ∈ ((cfg0.win 8).blk t).view.set ↔ ∀ a : Fin 2, win0_8.index t a * S2000x256.size a ≤ (i a).val
      ∧ (i a).val < win0_8.index t a * S2000x256.size a + S2000x256.size a := by
  show i ∈ ((View.whole main_v18).slice (win0_8.rect t)).set ↔ _
  rw [View.set_slice_whole, Rect.mem_set_unit]
  exact Iff.rfl

/-- The 25 blocks of 2000 rows tile the 50000 rows: row r is in the block of point r / 2000. -/
theorem cover0 (i : S50000x256.Idx) :
    ∃ t : Fin cfg0.N, (cfg0.win 8).flush t = true ∧ i ∈ ((cfg0.win 8).blk t).view.set := by
  have hi0 : (i 0).val < 50000 := (i 0).isLt
  have hi1 : (i 1).val < 256 := (i 1).isLt
  have hN : (i 0).val / 2000 < cfg0.N := by
    show (i 0).val / 2000 < grid0.N
    rw [N_0]; omega
  refine ⟨⟨(i 0).val / 2000, hN⟩, flush0_8 _, ?_⟩
  obtain ⟨e0, e1⟩ := idx0_8 ⟨(i 0).val / 2000, hN⟩
  rw [mem_blk0]
  intro a
  match a with
  | ⟨0, _⟩ =>
    show win0_8.index ⟨(i 0).val / 2000, hN⟩ (0 : Fin 2) * 2000 ≤ (i 0).val
      ∧ (i 0).val < win0_8.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_8.index ⟨(i 0).val / 2000, hN⟩ (1 : Fin 2) * 256 ≤ (i 1).val
      ∧ (i 1).val < win0_8.index ⟨(i 0).val / 2000, hN⟩ (1 : Fin 2) * 256 + 256
    rw [e1]; omega

/-- THE OUTPUT ARRAY after the region is the layer of the arrays the region found, as one whole-array function: every
    point's write-back is its block of that function, and the blocks cover the array. -/
theorem final0 (c : Dev nD) : (Gen.dat0 (F := Ideal) V c).arrAt 8 cfg0.N
    = Cert.Spec.ginLayer (n := 50000) (K := 70) (M := 256) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) :=
  (dat0 (F := Ideal) V c).arrAt_eq_of_cover 8 _ (fun t _ => flushed0_eq V c t) (cover0)

end Cert.KernelIdeal.Closed

end
-- ==== Proof.KGin1Blocks.lean ====
/-
  Region 1 (a fused dense graph-isomorphism layer with the residual), first half: the body's stored value at an index, and each
  window's block at a grid point as a piece of its array.

  The body loads a block of 2000 rows of the node features and of the neighbourhood sums, the two weight matrices and
  the four rows (two biases, the normalisation's scale and shift), and stores one block of 2000 rows of the output. Read
  at row p, column q, on the extended reals, the stored value is the layer's entry (p, q) computed from the loaded
  blocks. The grid has 25 points; at point t the features', the sums' and the output's blocks are rows 2000·t … 2000·t +
  1999 of their arrays, and every other window's block is its whole array.
-/
import proofs.«153049_j20907900797458_1_alg».proof.Proof.Gen.KernelIdeal.Frame
import proofs.«153049_j20907900797458_1_alg».proof.Proof.Spec
import proofs.«153049_j20907900797458_1_alg».proof.Proof.LibMatDot
import proofs.«153049_j20907900797458_1_alg».proof.Proof.LibRowBiasLayers
import Idealize.ShloMosaic.Lib.Pipeline.Value
import Idealize.ShloMosaic.Lib.ValueLayout
import Idealize.ShloMosaic.PureOps.IdealRules
import proofs.«153049_j20907900797458_1_alg».proof.Proof.KGin0Blocks

noncomputable section

namespace Cert.KernelIdeal.Closed

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

/-! ## The body's arithmetic at an index -/

/-- The body's stored value at row p, column q of the block is the layer of the loaded blocks there: the two products
    with the matrix unit are sums over the contracted coordinate (the narrowing of their operands is the identity on the
    extended reals), each bias, scale and shift row is read at column q, and the named scale is the reciprocal of the
    standard deviation; the last addition is the residual. -/
theorem pay1_apply (x0 x1 : Vec Ideal S2000x256 .f32) (x2 : Vec Ideal S256x256 .f32) (x3 : Vec Ideal S1x256 .f32)
    (x4 : Vec Ideal S256x256 .f32) (x5 x6 x7 : Vec Ideal S1x256 .f32) (p : Fin 2000) (q : Fin 256) :
    k1_pay1 (F := Ideal) x0 x1 x2 x3 x4 x5 x6 x7 (ix2 p q)
      = Cert.Spec.ginLayerRes x0 x1 x2 x3 x4 x5 x6 x7 (ix2 p q) := by
  unfold k1_pay1
  simp only [shapeCast_self]
  rw [show dot_S2000x256_S256x256_S2000x256_1_0_0_1_n_n = matDot dot_S2000x256_S256x256_S2000x256_1_0_0_1_n_n_wf from rfl]
  simp only [maximumf_apply, addf_apply, mulf_apply, broadcast_apply, broadcastTo_1b_ab_apply, matmul_plain_zero_apply,
    truncf_apply, invStd_eq]
  rfl

/-! ## The windows' blocks as pieces of the arrays -/

/-- The printed index maps over the grid: the features, the sums and the output move down by one block of 2000 rows
    per point; every other window stays on its one block. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)

/-- Row p of window 0's block at point t is row 2000·t + p of its array. -/
theorem iblk1_0_apply (c : Dev nD) (t : Fin cfg1.N) (p : Fin 2000) (k : Fin 256) (i : S50000x256.Idx)
    (hi0 : (i 0).val = 2000 * t.val + p.val) (hi1 : (i 1).val = k.val) :
    (iblk1 V c 0 t : Vec Ideal S2000x256 .f32) (ix2 p k) = (V c (Pipeline.arrRef spec1 0) : S50000x256.Idx → EReal) i := by
  obtain ⟨e0, e1⟩ := idx1_0 t
  unfold iblk1
  rw [View.read_apply]
  show (V c (Pipeline.arrRef spec1 0) : S50000x256.Idx → EReal) (((cfg1.win 0).blk t).view.emb (ix2 p k)) = _
  refine congrArg _ ?_
  funext a; apply Fin.ext
  match a with
  | ⟨0, _⟩ => show win1_0.index t (0 : Fin 2) * 2000 + 1 * p.val = (i 0).val; rw [e0, hi0]; omega
  | ⟨1, _⟩ => show win1_0.index t (1 : Fin 2) * 256 + 1 * k.val = (i 1).val; rw [e1, hi1]; omega

/-- Row p of window 1's block at point t is row 2000·t + p of its array. -/
theorem iblk1_1_apply (c : Dev nD) (t : Fin cfg1.N) (p : Fin 2000) (k : Fin 256) (i : S50000x256.Idx)
    (hi0 : (i 0).val = 2000 * t.val + p.val) (hi1 : (i 1).val = k.val) :
    (iblk1 V c 1 t : Vec Ideal S2000x256 .f32) (ix2 p k) = (V c (Pipeline.arrRef spec1 1) : S50000x256.Idx → EReal) i := by
  obtain ⟨e0, e1⟩ := idx1_1 t
  unfold iblk1
  rw [View.read_apply]
  show (V c (Pipeline.arrRef spec1 1) : S50000x256.Idx → EReal) (((cfg1.win 1).blk t).view.emb (ix2 p k)) = _
  refine congrArg _ ?_
  funext a; apply Fin.ext
  match a with
  | ⟨0, _⟩ => show win1_1.index t (0 : Fin 2) * 2000 + 1 * p.val = (i 0).val; rw [e0, hi0]; omega
  | ⟨1, _⟩ => show win1_1.index t (1 : Fin 2) * 256 + 1 * k.val = (i 1).val; rw [e1, hi1]; omega

/-- Window 2's one block is its whole array. -/
theorem iblk1_2_eq (c : Dev nD) (t : Fin cfg1.N) :
    (iblk1 V c 2 t : Vec Ideal S256x256 .f32) = (V c (Pipeline.arrRef spec1 2) : S256x256.Idx → EReal) := by
  obtain ⟨e0, e1⟩ := idx1_2 t
  funext j
  unfold iblk1
  rw [View.read_apply]
  show (V c (Pipeline.arrRef spec1 2) : S256x256.Idx → EReal) (((cfg1.win 2).blk t).view.emb j) = _
  refine congrArg _ ?_
  funext a; apply Fin.ext
  match a with
  | ⟨0, _⟩ => show win1_2.index t (0 : Fin 2) * 256 + 1 * (j 0).val = (j 0).val; rw [e0]; omega
  | ⟨1, _⟩ => show win1_2.index t (1 : Fin 2) * 256 + 1 * (j 1).val = (j 1).val; rw [e1]; omega

/-- Window 3's one block is its whole array. -/
theorem iblk1_3_eq (c : Dev nD) (t : Fin cfg1.N) :
    (iblk1 V c 3 t : Vec Ideal S1x256 .f32) = (V c (Pipeline.arrRef spec1 3) : S1x256.Idx → EReal) := by
  obtain ⟨e0, e1⟩ := idx1_3 t
  funext j
  unfold iblk1
  rw [View.read_apply]
  show (V c (Pipeline.arrRef spec1 3) : S1x256.Idx → EReal) (((cfg1.win 3).blk t).view.emb j) = _
  refine congrArg _ ?_
  funext a; apply Fin.ext
  match a with
  | ⟨0, _⟩ => show win1_3.index t (0 : Fin 2) * 1 + 1 * (j 0).val = (j 0).val; rw [e0]; omega
  | ⟨1, _⟩ => show win1_3.index t (1 : Fin 2) * 256 + 1 * (j 1).val = (j 1).val; rw [e1]; omega

/-- Window 4's one block is its whole array. -/
theorem iblk1_4_eq (c : Dev nD) (t : Fin cfg1.N) :
    (iblk1 V c 4 t : Vec Ideal S256x256 .f32) = (V c (Pipeline.arrRef spec1 4) : S256x256.Idx → EReal) := by
  obtain ⟨e0, e1⟩ := idx1_4 t
  funext j
  unfold iblk1
  rw [View.read_apply]
  show (V c (Pipeline.arrRef spec1 4) : S256x256.Idx → EReal) (((cfg1.win 4).blk t).view.emb j) = _
  refine congrArg _ ?_
  funext a; apply Fin.ext
  match a with
  | ⟨0, _⟩ => show win1_4.index t (0 : Fin 2) * 256 + 1 * (j 0).val = (j 0).val; rw [e0]; omega
  | ⟨1, _⟩ => show win1_4.index t (1 : Fin 2) * 256 + 1 * (j 1).val = (j 1).val; rw [e1]; omega

/-- Window 5's one block is its whole array. -/
theorem iblk1_5_eq (c : Dev nD) (t : Fin cfg1.N) :
    (iblk1 V c 5 t : Vec Ideal S1x256 .f32) = (V c (Pipeline.arrRef spec1 5) : S1x256.Idx → EReal) := by
  obtain ⟨e0, e1⟩ := idx1_5 t
  funext j
  unfold iblk1
  rw [View.read_apply]
  show (V c (Pipeline.arrRef spec1 5) : S1x256.Idx → EReal) (((cfg1.win 5).blk t).view.emb j) = _
  refine congrArg _ ?_
  funext a; apply Fin.ext
  match a with
  | ⟨0, _⟩ => show win1_5.index t (0 : Fin 2) * 1 + 1 * (j 0).val = (j 0).val; rw [e0]; omega
  | ⟨1, _⟩ => show win1_5.index t (1 : Fin 2) * 256 + 1 * (j 1).val = (j 1).val; rw [e1]; omega

/-- Window 6's one block is its whole array. -/
theorem iblk1_6_eq (c : Dev nD) (t : Fin cfg1.N) :
    (iblk1 V c 6 t : Vec Ideal S1x256 .f32) = (V c (Pipeline.arrRef spec1 6) : S1x256.Idx → EReal) := by
  obtain ⟨e0, e1⟩ := idx1_6 t
  funext j
  unfold iblk1
  rw [View.read_apply]
  show (V c (Pipeline.arrRef spec1 6) : S1x256.Idx → EReal) (((cfg1.win 6).blk t).view.emb j) = _
  refine congrArg _ ?_
  funext a; apply Fin.ext
  match a with
  | ⟨0, _⟩ => show win1_6.index t (0 : Fin 2) * 1 + 1 * (j 0).val = (j 0).val; rw [e0]; omega
  | ⟨1, _⟩ => show win1_6.index t (1 : Fin 2) * 256 + 1 * (j 1).val = (j 1).val; rw [e1]; omega

/-- Window 7's one block is its whole array. -/
theorem iblk1_7_eq (c : Dev nD) (t : Fin cfg1.N) :
    (iblk1 V c 7 t : Vec Ideal S1x256 .f32) = (V c (Pipeline.arrRef spec1 7) : S1x256.Idx → EReal) := by
  obtain ⟨e0, e1⟩ := idx1_7 t
  funext j
  unfold iblk1
  rw [View.read_apply]
  show (V c (Pipeline.arrRef spec1 7) : S1x256.Idx → EReal) (((cfg1.win 7).blk t).view.emb j) = _
  refine congrArg _ ?_
  funext a; apply Fin.ext
  match a with
  | ⟨0, _⟩ => show win1_7.index t (0 : Fin 2) * 1 + 1 * (j 0).val = (j 0).val; rw [e0]; omega
  | ⟨1, _⟩ => show win1_7.index t (1 : Fin 2) * 256 + 1 * (j 1).val = (j 1).val; rw [e1]; omega

end Cert.KernelIdeal.Closed

end
-- ==== Proof.KGin1.lean ====
/-
  Region 1 (a fused dense graph-isomorphism layer with the residual), second half: the output array after the region as ONE function
  of the arrays the region finds, whatever they hold.

  What grid point t writes back is block t of the layer of the whole arrays — the layer is computed row by row, so its
  rows 2000·t … 2000·t + 1999 are the layer of those rows of the features and of the neighbourhood sums —, and the 25
  blocks of 2000 rows cover the 50000 rows. So the array ends holding the layer of the whole arrays.
-/
import proofs.«153049_j20907900797458_1_alg».proof.Proof.Gen.KernelIdeal.Frame
import proofs.«153049_j20907900797458_1_alg».proof.Proof.Spec
import proofs.«153049_j20907900797458_1_alg».proof.Proof.LibMatDot
import proofs.«153049_j20907900797458_1_alg».proof.Proof.LibRowBiasLayers
import Idealize.ShloMosaic.Lib.Pipeline.Value
import Idealize.ShloMosaic.Lib.ValueLayout
import Idealize.ShloMosaic.PureOps.IdealRules
import proofs.«153049_j20907900797458_1_alg».proof.Proof.GinRows
import proofs.«153049_j20907900797458_1_alg».proof.Proof.KGin1Blocks

noncomputable section

namespace Cert.KernelIdeal.Closed

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

/-! ## What a point writes back -/

/-- What point t writes back is the body's stored value of the windows' blocks at t (the body's one store covers the
    output's whole block, and each load reads a whole block). -/
theorem flushed1_pay (c : Dev nD) (t : Fin cfg1.N) :
    (dat1 (F := Ideal) V c).flushed 8 t = (cfg1.win 8).cut (grid1.coords t)
      (k1_pay1 (F := Ideal) (iblk1 V c 0 t) (iblk1 V c 1 t) (iblk1 V c 2 t) (iblk1 V c 3 t) (iblk1 V c 4 t) (iblk1 V c 5 t) (iblk1 V c 6 t) (iblk1 V c 7 t)) := by
  show (cfg1.win 8).cut (grid1.coords t) ((dat1 V c).after 8 t) = _
  rw [after1_8]
  unfold out1_8
  rw [View.canon_unit_zero hz]
  simp only [View.ld_unit_zero (S := S2000x256) hz, View.ld_unit_zero (S := S1x256) hz,
    View.ld_unit_zero (S := S256x256) hz]

/-- The output's block is written back whole: nothing of it is cut away. -/
theorem cut1_apply (t : Fin cfg1.N) (X : Vec Ideal S2000x256 .f32) (p : Fin 2000) (q : Fin 256) :
    (cfg1.win 8).cut (grid1.coords t) X (ix2 p q) = X (ix2 p q) := rfl

/-- Row p, column q of point t's block of an output-shaped array is its row 2000·t + p, column q. -/
theorem read1_apply (t : Fin cfg1.N) (G : S50000x256.Idx → EReal) (p : Fin 2000) (q : Fin 256)
    (hP : 2000 * t.val + p.val < 50000) :
    ((cfg1.win 8).blk t).view.read (Elt Ideal) G (ix2 p q) = G (ix2 (⟨2000 * t.val + p.val, hP⟩ : Fin 50000) q) := by
  obtain ⟨e0, e1⟩ := idx1_8 t
  rw [View.read_apply]
  show G (((cfg1.win 8).blk t).view.emb (ix2 p q)) = _
  refine congrArg G ?_
  funext a; apply Fin.ext
  match a with
  | ⟨0, _⟩ => show win1_8.index t (0 : Fin 2) * 2000 + 1 * p.val = 2000 * t.val + p.val; rw [e0]; omega
  | ⟨1, _⟩ => show win1_8.index t (1 : Fin 2) * 256 + 1 * q.val = q.val; rw [e1]; omega

/-- At row p, column q of point t's block the stored value is the layer of the whole arrays at row 2000·t + p, column
    q: the layer is computed row by row, the features' and the sums' blocks at t are rows 2000·t … of their arrays, and
    the other operands' blocks are their whole arrays. -/
theorem point1_eq (c : Dev nD) (t : Fin cfg1.N) (p : Fin 2000) (q : Fin 256) (hP : 2000 * t.val + p.val < 50000) :
    k1_pay1 (F := Ideal) (iblk1 V c 0 t) (iblk1 V c 1 t) (iblk1 V c 2 t) (iblk1 V c 3 t) (iblk1 V c 4 t) (iblk1 V c 5 t) (iblk1 V c 6 t) (iblk1 V c 7 t) (ix2 p q)
      = Cert.Spec.ginLayerRes (n := 50000) (M := 256) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (ix2 (⟨2000 * t.val + p.val, hP⟩ : Fin 50000) q) :=
  (pay1_apply (iblk1 V c 0 t) (iblk1 V c 1 t) (iblk1 V c 2 t) (iblk1 V c 3 t) (iblk1 V c 4 t) (iblk1 V c 5 t) (iblk1 V c 6 t) (iblk1 V c 7 t) p q).trans
    (Cert.SpecRows.ginLayerRes_block (n := 2000) (N := 50000) (M := 256)
      (iblk1 V c 0 t) (iblk1 V c 1 t) (V c (Pipeline.arrRef spec1 0)) (V c (Pipeline.arrRef spec1 1))
      (iblk1 V c 2 t) (V c (Pipeline.arrRef spec1 2)) (iblk1 V c 3 t) (V c (Pipeline.arrRef spec1 3))
      (iblk1 V c 4 t) (V c (Pipeline.arrRef spec1 4)) (iblk1 V c 5 t) (V c (Pipeline.arrRef spec1 5))
      (iblk1 V c 6 t) (V c (Pipeline.arrRef spec1 6)) (iblk1 V c 7 t) (V c (Pipeline.arrRef spec1 7))
      p ⟨2000 * t.val + p.val, hP⟩ q
      (fun k => iblk1_0_apply V c t p k _ rfl rfl) (fun k => iblk1_1_apply V c t p k _ rfl rfl)
      (iblk1_2_eq V c t) (iblk1_3_eq V c t) (iblk1_4_eq V c t) (iblk1_5_eq V c t) (iblk1_6_eq V c t) (iblk1_7_eq V c t))

/-- So what point t writes back is block t — rows 2000·t … 2000·t + 1999 — of the layer of the whole arrays. -/
theorem flushed1_eq (c : Dev nD) (t : Fin cfg1.N) :
    (dat1 (F := Ideal) V c).flushed 8 t = ((cfg1.win 8).blk t).view.read (Elt Ideal)
      (Cert.Spec.ginLayerRes (n := 50000) (M := 256) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) := by
  rw [flushed1_pay]
  funext j
  obtain ⟨p, q, rfl⟩ : ∃ (p : Fin 2000) (q : Fin 256), j = ix2 p q := ⟨j 0, j 1, eq_ix2 j⟩
  have hp : p.val < 2000 := p.isLt
  have ht : t.val < 25 := (show t.val < grid1.N from t.isLt).trans_eq N_1
  have hP : 2000 * t.val + p.val < 50000 := by omega
  exact ((cut1_apply t _ p q).trans (point1_eq V c t p q hP)).trans (read1_apply t _ p q hP).symm

/-! ## From blocks to the array -/

/-- An index of the output array is in point t's block iff each coordinate is in the block's range on its axis. -/
theorem mem_blk1 (t : Fin cfg1.N) (i : S50000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v45).slice (win1_8.rect t)).set ↔ _
  rw [View.set_slice_whole, Rect.mem_set_unit]
  exact Iff.rfl

/-- The 25 blocks of 2000 rows tile the 50000 rows: row r is in the block of point r / 2000. -/
theorem cover1 (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  have hN : (i 0).val / 2000 < cfg1.N := by
    show (i 0).val / 2000 < grid1.N
    rw [N_1]; omega
  refine ⟨⟨(i 0).val / 2000, hN⟩, flush1_8 _, ?_⟩
  obtain ⟨e0, e1⟩ := idx1_8 ⟨(i 0).val / 2000, hN⟩
  rw [mem_blk1]
  intro a
  match a with
  | ⟨0, _⟩ =>
    show win1_8.index ⟨(i 0).val / 2000, hN⟩ (0 : Fin 2) * 2000 ≤ (i 0).val
      ∧ (i 0).val < win1_8.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win1_8.index ⟨(i 0).val / 2000, hN⟩ (1 : Fin 2) * 256 ≤ (i 1).val
      ∧ (i 1).val < win1_8.index ⟨(i 0).val / 2000, hN⟩ (1 : Fin 2) * 256 + 256
    rw [e1]; omega

/-- THE OUTPUT ARRAY after the region is the layer of the arrays the region found, as one whole-array function: every
    point's write-back is its block of that function, and the blocks cover the array. -/
theorem final1 (c : Dev nD) : (Gen.dat1 (F := Ideal) V c).arrAt 8 cfg1.N
    = Cert.Spec.ginLayerRes (n := 50000) (M := 256) (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) :=
  (dat1 (F := Ideal) V c).arrAt_eq_of_cover 8 _ (fun t _ => flushed1_eq V c t) (cover1)

end Cert.KernelIdeal.Closed

end
-- ==== Proof.KGin2Blocks.lean ====
/-
  Region 2 (a fused dense graph-isomorphism layer with the residual), first half: the body's stored value at an index, and each
  window's block at a grid point as a piece of its array.

  The body loads a block of 2000 rows of the node features and of the neighbourhood sums, the two weight matrices and
  the four rows (two biases, the normalisation's scale and shift), and stores one block of 2000 rows of the output. Read
  at row p, column q, on the extended reals, the stored value is the layer's entry (p, q) computed from the loaded
  blocks. The grid has 25 points; at point t the features', the sums' and the output's blocks are rows 2000·t … 2000·t +
  1999 of their arrays, and every other window's block is its whole array.
-/
import proofs.«153049_j20907900797458_1_alg».proof.Proof.Gen.KernelIdeal.Frame
import proofs.«153049_j20907900797458_1_alg».proof.Proof.Spec
import proofs.«153049_j20907900797458_1_alg».proof.Proof.LibMatDot
import proofs.«153049_j20907900797458_1_alg».proof.Proof.LibRowBiasLayers
import Idealize.ShloMosaic.Lib.Pipeline.Value
import Idealize.ShloMosaic.Lib.ValueLayout
import Idealize.ShloMosaic.PureOps.IdealRules
import proofs.«153049_j20907900797458_1_alg».proof.Proof.KGin0Blocks

noncomputable section

namespace Cert.KernelIdeal.Closed

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

/-! ## The body's arithmetic at an index -/

/-- The body's stored value at row p, column q of the block is the layer of the loaded blocks there: the two products
    with the matrix unit are sums over the contracted coordinate (the narrowing of their operands is the identity on the
    extended reals), each bias, scale and shift row is read at column q, and the named scale is the reciprocal of the
    standard deviation; the last addition is the residual. -/
theorem pay2_apply (x0 x1 : Vec Ideal S2000x256 .f32) (x2 : Vec Ideal S256x256 .f32) (x3 : Vec Ideal S1x256 .f32)
    (x4 : Vec Ideal S256x256 .f32) (x5 x6 x7 : Vec Ideal S1x256 .f32) (p : Fin 2000) (q : Fin 256) :
    k2_pay1 (F := Ideal) x0 x1 x2 x3 x4 x5 x6 x7 (ix2 p q)
      = Cert.Spec.ginLayerRes x0 x1 x2 x3 x4 x5 x6 x7 (ix2 p q) := by
  unfold k2_pay1
  simp only [shapeCast_self]
  rw [show dot_S2000x256_S256x256_S2000x256_1_0_0_1_n_n = matDot dot_S2000x256_S256x256_S2000x256_1_0_0_1_n_n_wf from rfl]
  simp only [maximumf_apply, addf_apply, mulf_apply, broadcast_apply, broadcastTo_1b_ab_apply, matmul_plain_zero_apply,
    truncf_apply, invStd_eq]
  rfl

/-! ## The windows' blocks as pieces of the arrays -/

/-- The printed index maps over the grid: the features, the sums and the output move down by one block of 2000 rows
    per point; every other window stays on its one block. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = 0 ∧ win2_7.index t (1 : Fin 2) = 0 :=
  (by decide +kernel : ∀ t : Fin grid2.N, _)
theorem idx2_8 : ∀ t : Fin cfg2.N, win2_8.index t (0 : Fin 2) = t.val ∧ win2_8.index t (1 : Fin 2) = 0 :=
  (by decide +kernel : ∀ t : Fin grid2.N, _)

/-- Row p of window 0's block at point t is row 2000·t + p of its array. -/
theorem iblk2_0_apply (c : Dev nD) (t : Fin cfg2.N) (p : Fin 2000) (k : Fin 256) (i : S50000x256.Idx)
    (hi0 : (i 0).val = 2000 * t.val + p.val) (hi1 : (i 1).val = k.val) :
    (iblk2 V c 0 t : Vec Ideal S2000x256 .f32) (ix2 p k) = (V c (Pipeline.arrRef spec2 0) : S50000x256.Idx → EReal) i := by
  obtain ⟨e0, e1⟩ := idx2_0 t
  unfold iblk2
  rw [View.read_apply]
  show (V c (Pipeline.arrRef spec2 0) : S50000x256.Idx → EReal) (((cfg2.win 0).blk t).view.emb (ix2 p k)) = _
  refine congrArg _ ?_
  funext a; apply Fin.ext
  match a with
  | ⟨0, _⟩ => show win2_0.index t (0 : Fin 2) * 2000 + 1 * p.val = (i 0).val; rw [e0, hi0]; omega
  | ⟨1, _⟩ => show win2_0.index t (1 : Fin 2) * 256 + 1 * k.val = (i 1).val; rw [e1, hi1]; omega

/-- Row p of window 1's block at point t is row 2000·t + p of its array. -/
theorem iblk2_1_apply (c : Dev nD) (t : Fin cfg2.N) (p : Fin 2000) (k : Fin 256) (i : S50000x256.Idx)
    (hi0 : (i 0).val = 2000 * t.val + p.val) (hi1 : (i 1).val = k.val) :
    (iblk2 V c 1 t : Vec Ideal S2000x256 .f32) (ix2 p k) = (V c (Pipeline.arrRef spec2 1) : S50000x256.Idx → EReal) i := by
  obtain ⟨e0, e1⟩ := idx2_1 t
  unfold iblk2
  rw [View.read_apply]
  show (V c (Pipeline.arrRef spec2 1) : S50000x256.Idx → EReal) (((cfg2.win 1).blk t).view.emb (ix2 p k)) = _
  refine congrArg _ ?_
  funext a; apply Fin.ext
  match a with
  | ⟨0, _⟩ => show win2_1.index t (0 : Fin 2) * 2000 + 1 * p.val = (i 0).val; rw [e0, hi0]; omega
  | ⟨1, _⟩ => show win2_1.index t (1 : Fin 2) * 256 + 1 * k.val = (i 1).val; rw [e1, hi1]; omega

/-- Window 2's one block is its whole array. -/
theorem iblk2_2_eq (c : Dev nD) (t : Fin cfg2.N) :
    (iblk2 V c 2 t : Vec Ideal S256x256 .f32) = (V c (Pipeline.arrRef spec2 2) : S256x256.Idx → EReal) := by
  obtain ⟨e0, e1⟩ := idx2_2 t
  funext j
  unfold iblk2
  rw [View.read_apply]
  show (V c (Pipeline.arrRef spec2 2) : S256x256.Idx → EReal) (((cfg2.win 2).blk t).view.emb j) = _
  refine congrArg _ ?_
  funext a; apply Fin.ext
  match a with
  | ⟨0, _⟩ => show win2_2.index t (0 : Fin 2) * 256 + 1 * (j 0).val = (j 0).val; rw [e0]; omega
  | ⟨1, _⟩ => show win2_2.index t (1 : Fin 2) * 256 + 1 * (j 1).val = (j 1).val; rw [e1]; omega

/-- Window 3's one block is its whole array. -/
theorem iblk2_3_eq (c : Dev nD) (t : Fin cfg2.N) :
    (iblk2 V c 3 t : Vec Ideal S1x256 .f32) = (V c (Pipeline.arrRef spec2 3) : S1x256.Idx → EReal) := by
  obtain ⟨e0, e1⟩ := idx2_3 t
  funext j
  unfold iblk2
  rw [View.read_apply]
  show (V c (Pipeline.arrRef spec2 3) : S1x256.Idx → EReal) (((cfg2.win 3).blk t).view.emb j) = _
  refine congrArg _ ?_
  funext a; apply Fin.ext
  match a with
  | ⟨0, _⟩ => show win2_3.index t (0 : Fin 2) * 1 + 1 * (j 0).val = (j 0).val; rw [e0]; omega
  | ⟨1, _⟩ => show win2_3.index t (1 : Fin 2) * 256 + 1 * (j 1).val = (j 1).val; rw [e1]; omega

/-- Window 4's one block is its whole array. -/
theorem iblk2_4_eq (c : Dev nD) (t : Fin cfg2.N) :
    (iblk2 V c 4 t : Vec Ideal S256x256 .f32) = (V c (Pipeline.arrRef spec2 4) : S256x256.Idx → EReal) := by
  obtain ⟨e0, e1⟩ := idx2_4 t
  funext j
  unfold iblk2
  rw [View.read_apply]
  show (V c (Pipeline.arrRef spec2 4) : S256x256.Idx → EReal) (((cfg2.win 4).blk t).view.emb j) = _
  refine congrArg _ ?_
  funext a; apply Fin.ext
  match a with
  | ⟨0, _⟩ => show win2_4.index t (0 : Fin 2) * 256 + 1 * (j 0).val = (j 0).val; rw [e0]; omega
  | ⟨1, _⟩ => show win2_4.index t (1 : Fin 2) * 256 + 1 * (j 1).val = (j 1).val; rw [e1]; omega

/-- Window 5's one block is its whole array. -/
theorem iblk2_5_eq (c : Dev nD) (t : Fin cfg2.N) :
    (iblk2 V c 5 t : Vec Ideal S1x256 .f32) = (V c (Pipeline.arrRef spec2 5) : S1x256.Idx → EReal) := by
  obtain ⟨e0, e1⟩ := idx2_5 t
  funext j
  unfold iblk2
  rw [View.read_apply]
  show (V c (Pipeline.arrRef spec2 5) : S1x256.Idx → EReal) (((cfg2.win 5).blk t).view.emb j) = _
  refine congrArg _ ?_
  funext a; apply Fin.ext
  match a with
  | ⟨0, _⟩ => show win2_5.index t (0 : Fin 2) * 1 + 1 * (j 0).val = (j 0).val; rw [e0]; omega
  | ⟨1, _⟩ => show win2_5.index t (1 : Fin 2) * 256 + 1 * (j 1).val = (j 1).val; rw [e1]; omega

/-- Window 6's one block is its whole array. -/
theorem iblk2_6_eq (c : Dev nD) (t : Fin cfg2.N) :
    (iblk2 V c 6 t : Vec Ideal S1x256 .f32) = (V c (Pipeline.arrRef spec2 6) : S1x256.Idx → EReal) := by
  obtain ⟨e0, e1⟩ := idx2_6 t
  funext j
  unfold iblk2
  rw [View.read_apply]
  show (V c (Pipeline.arrRef spec2 6) : S1x256.Idx → EReal) (((cfg2.win 6).blk t).view.emb j) = _
  refine congrArg _ ?_
  funext a; apply Fin.ext
  match a with
  | ⟨0, _⟩ => show win2_6.index t (0 : Fin 2) * 1 + 1 * (j 0).val = (j 0).val; rw [e0]; omega
  | ⟨1, _⟩ => show win2_6.index t (1 : Fin 2) * 256 + 1 * (j 1).val = (j 1).val; rw [e1]; omega

/-- Window 7's one block is its whole array. -/
theorem iblk2_7_eq (c : Dev nD) (t : Fin cfg2.N) :
    (iblk2 V c 7 t : Vec Ideal S1x256 .f32) = (V c (Pipeline.arrRef spec2 7) : S1x256.Idx → EReal) := by
  obtain ⟨e0, e1⟩ := idx2_7 t
  funext j
  unfold iblk2
  rw [View.read_apply]
  show (V c (Pipeline.arrRef spec2 7) : S1x256.Idx → EReal) (((cfg2.win 7).blk t).view.emb j) = _
  refine congrArg _ ?_
  funext a; apply Fin.ext
  match a with
  | ⟨0, _⟩ => show win2_7.index t (0 : Fin 2) * 1 + 1 * (j 0).val = (j 0).val; rw [e0]; omega
  | ⟨1, _⟩ => show win2_7.index t (1 : Fin 2) * 256 + 1 * (j 1).val = (j 1).val; rw [e1]; omega

end Cert.KernelIdeal.Closed

end
-- ==== Proof.KGin2.lean ====
/-
  Region 2 (a fused dense graph-isomorphism layer with the residual), second half: the output array after the region as ONE function
  of the arrays the region finds, whatever they hold.

  What grid point t writes back is block t of the layer of the whole arrays — the layer is computed row by row, so its
  rows 2000·t … 2000·t + 1999 are the layer of those rows of the features and of the neighbourhood sums —, and the 25
  blocks of 2000 rows cover the 50000 rows. So the array ends holding the layer of the whole arrays.
-/
import proofs.«153049_j20907900797458_1_alg».proof.Proof.Gen.KernelIdeal.Frame
import proofs.«153049_j20907900797458_1_alg».proof.Proof.Spec
import proofs.«153049_j20907900797458_1_alg».proof.Proof.LibMatDot
import proofs.«153049_j20907900797458_1_alg».proof.Proof.LibRowBiasLayers
import Idealize.ShloMosaic.Lib.Pipeline.Value
import Idealize.ShloMosaic.Lib.ValueLayout
import Idealize.ShloMosaic.PureOps.IdealRules
import proofs.«153049_j20907900797458_1_alg».proof.Proof.GinRows
import proofs.«153049_j20907900797458_1_alg».proof.Proof.KGin2Blocks

noncomputable section

namespace Cert.KernelIdeal.Closed

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

/-! ## What a point writes back -/

/-- What point t writes back is the body's stored value of the windows' blocks at t (the body's one store covers the
    output's whole block, and each load reads a whole block). -/
theorem flushed2_pay (c : Dev nD) (t : Fin cfg2.N) :
    (dat2 (F := Ideal) V c).flushed 8 t = (cfg2.win 8).cut (grid2.coords t)
      (k2_pay1 (F := Ideal) (iblk2 V c 0 t) (iblk2 V c 1 t) (iblk2 V c 2 t) (iblk2 V c 3 t) (iblk2 V c 4 t) (iblk2 V c 5 t) (iblk2 V c 6 t) (iblk2 V c 7 t)) := by
  show (cfg2.win 8).cut (grid2.coords t) ((dat2 V c).after 8 t) = _
  rw [after2_8]
  unfold out2_8
  rw [View.canon_unit_zero hz]
  simp only [View.ld_unit_zero (S := S2000x256) hz, View.ld_unit_zero (S := S1x256) hz,
    View.ld_unit_zero (S := S256x256) hz]

/-- The output's block is written back whole: nothing of it is cut away. -/
theorem cut2_apply (t : Fin cfg2.N) (X : Vec Ideal S2000x256 .f32) (p : Fin 2000) (q : Fin 256) :
    (cfg2.win 8).cut (grid2.coords t) X (ix2 p q) = X (ix2 p q) := rfl

/-- Row p, column q of point t's block of an output-shaped array is its row 2000·t + p, column q. -/
theorem read2_apply (t : Fin cfg2.N) (G : S50000x256.Idx → EReal) (p : Fin 2000) (q : Fin 256)
    (hP : 2000 * t.val + p.val < 50000) :
    ((cfg2.win 8).blk t).view.read (Elt Ideal) G (ix2 p q) = G (ix2 (⟨2000 * t.val + p.val, hP⟩ : Fin 50000) q) := by
  obtain ⟨e0, e1⟩ := idx2_8 t
  rw [View.read_apply]
  show G (((cfg2.win 8).blk t).view.emb (ix2 p q)) = _
  refine congrArg G ?_
  funext a; apply Fin.ext
  match a with
  | ⟨0, _⟩ => show win2_8.index t (0 : Fin 2) * 2000 + 1 * p.val = 2000 * t.val + p.val; rw [e0]; omega
  | ⟨1, _⟩ => show win2_8.index t (1 : Fin 2) * 256 + 1 * q.val = q.val; rw [e1]; omega

/-- At row p, column q of point t's block the stored value is the layer of the whole arrays at row 2000·t + p, column
    q: the layer is computed row by row, the features' and the sums' blocks at t are rows 2000·t … of their arrays, and
    the other operands' blocks are their whole arrays. -/
theorem point2_eq (c : Dev nD) (t : Fin cfg2.N) (p : Fin 2000) (q : Fin 256) (hP : 2000 * t.val + p.val < 50000) :
    k2_pay1 (F := Ideal) (iblk2 V c 0 t) (iblk2 V c 1 t) (iblk2 V c 2 t) (iblk2 V c 3 t) (iblk2 V c 4 t) (iblk2 V c 5 t) (iblk2 V c 6 t) (iblk2 V c 7 t) (ix2 p q)
      = Cert.Spec.ginLayerRes (n := 50000) (M := 256) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (ix2 (⟨2000 * t.val + p.val, hP⟩ : Fin 50000) q) :=
  (pay2_apply (iblk2 V c 0 t) (iblk2 V c 1 t) (iblk2 V c 2 t) (iblk2 V c 3 t) (iblk2 V c 4 t) (iblk2 V c 5 t) (iblk2 V c 6 t) (iblk2 V c 7 t) p q).trans
    (Cert.SpecRows.ginLayerRes_block (n := 2000) (N := 50000) (M := 256)
      (iblk2 V c 0 t) (iblk2 V c 1 t) (V c (Pipeline.arrRef spec2 0)) (V c (Pipeline.arrRef spec2 1))
      (iblk2 V c 2 t) (V c (Pipeline.arrRef spec2 2)) (iblk2 V c 3 t) (V c (Pipeline.arrRef spec2 3))
      (iblk2 V c 4 t) (V c (Pipeline.arrRef spec2 4)) (iblk2 V c 5 t) (V c (Pipeline.arrRef spec2 5))
      (iblk2 V c 6 t) (V c (Pipeline.arrRef spec2 6)) (iblk2 V c 7 t) (V c (Pipeline.arrRef spec2 7))
      p ⟨2000 * t.val + p.val, hP⟩ q
      (fun k => iblk2_0_apply V c t p k _ rfl rfl) (fun k => iblk2_1_apply V c t p k _ rfl rfl)
      (iblk2_2_eq V c t) (iblk2_3_eq V c t) (iblk2_4_eq V c t) (iblk2_5_eq V c t) (iblk2_6_eq V c t) (iblk2_7_eq V c t))

/-- So what point t writes back is block t — rows 2000·t … 2000·t + 1999 — of the layer of the whole arrays. -/
theorem flushed2_eq (c : Dev nD) (t : Fin cfg2.N) :
    (dat2 (F := Ideal) V c).flushed 8 t = ((cfg2.win 8).blk t).view.read (Elt Ideal)
      (Cert.Spec.ginLayerRes (n := 50000) (M := 256) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7))) := by
  rw [flushed2_pay]
  funext j
  obtain ⟨p, q, rfl⟩ : ∃ (p : Fin 2000) (q : Fin 256), j = ix2 p q := ⟨j 0, j 1, eq_ix2 j⟩
  have hp : p.val < 2000 := p.isLt
  have ht : t.val < 25 := (show t.val < grid2.N from t.isLt).trans_eq N_2
  have hP : 2000 * t.val + p.val < 50000 := by omega
  exact ((cut2_apply t _ p q).trans (point2_eq V c t p q hP)).trans (read2_apply t _ p q hP).symm

/-! ## From blocks to the array -/

/-- An index of the output array is in point t's block iff each coordinate is in the block's range on its axis. -/
theorem mem_blk2 (t : Fin cfg2.N) (i : S50000x256.Idx) :
    i ∈ ((cfg2.win 8).blk t).view.set ↔ ∀ a : Fin 2, win2_8.index t a * S2000x256.size a ≤ (i a).val
      ∧ (i a).val < win2_8.index t a * S2000x256.size a + S2000x256.size a := by
  show i ∈ ((View.whole main_v72).slice (win2_8.rect t)).set ↔ _
  rw [View.set_slice_whole, Rect.mem_set_unit]
  exact Iff.rfl

/-- The 25 blocks of 2000 rows tile the 50000 rows: row r is in the block of point r / 2000. -/
theorem cover2 (i : S50000x256.Idx) :
    ∃ t : Fin cfg2.N, (cfg2.win 8).flush t = true ∧ i ∈ ((cfg2.win 8).blk t).view.set := by
  have hi0 : (i 0).val < 50000 := (i 0).isLt
  have hi1 : (i 1).val < 256 := (i 1).isLt
  have hN : (i 0).val / 2000 < cfg2.N := by
    show (i 0).val / 2000 < grid2.N
    rw [N_2]; omega
  refine ⟨⟨(i 0).val / 2000, hN⟩, flush2_8 _, ?_⟩
  obtain ⟨e0, e1⟩ := idx2_8 ⟨(i 0).val / 2000, hN⟩
  rw [mem_blk2]
  intro a
  match a with
  | ⟨0, _⟩ =>
    show win2_8.index ⟨(i 0).val / 2000, hN⟩ (0 : Fin 2) * 2000 ≤ (i 0).val
      ∧ (i 0).val < win2_8.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win2_8.index ⟨(i 0).val / 2000, hN⟩ (1 : Fin 2) * 256 ≤ (i 1).val
      ∧ (i 1).val < win2_8.index ⟨(i 0).val / 2000, hN⟩ (1 : Fin 2) * 256 + 256
    rw [e1]; omega

/-- THE OUTPUT ARRAY after the region is the layer of the arrays the region found, as one whole-array function: every
    point's write-back is its block of that function, and the blocks cover the array. -/
theorem final2 (c : Dev nD) : (Gen.dat2 (F := Ideal) V c).arrAt 8 cfg2.N
    = Cert.Spec.ginLayerRes (n := 50000) (M := 256) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) :=
  (dat2 (F := Ideal) V c).arrAt_eq_of_cover 8 _ (fun t _ => flushed2_eq V c t) (cover2)

end Cert.KernelIdeal.Closed

end
-- ==== Proof.KGin3Blocks.lean ====
/-
  Region 3 (a fused dense graph-isomorphism layer with the residual), first half: the body's stored value at an index, and each
  window's block at a grid point as a piece of its array.

  The body loads a block of 2000 rows of the node features and of the neighbourhood sums, the two weight matrices and
  the four rows (two biases, the normalisation's scale and shift), and stores one block of 2000 rows of the output. Read
  at row p, column q, on the extended reals, the stored value is the layer's entry (p, q) computed from the loaded
  blocks. The grid has 25 points; at point t the features', the sums' and the output's blocks are rows 2000·t … 2000·t +
  1999 of their arrays, and every other window's block is its whole array.
-/
import proofs.«153049_j20907900797458_1_alg».proof.Proof.Gen.KernelIdeal.Frame
import proofs.«153049_j20907900797458_1_alg».proof.Proof.Spec
import proofs.«153049_j20907900797458_1_alg».proof.Proof.LibMatDot
import proofs.«153049_j20907900797458_1_alg».proof.Proof.LibRowBiasLayers
import Idealize.ShloMosaic.Lib.Pipeline.Value
import Idealize.ShloMosaic.Lib.ValueLayout
import Idealize.ShloMosaic.PureOps.IdealRules
import proofs.«153049_j20907900797458_1_alg».proof.Proof.KGin0Blocks

noncomputable section

namespace Cert.KernelIdeal.Closed

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

/-! ## The body's arithmetic at an index -/

/-- The body's stored value at row p, column q of the block is the layer of the loaded blocks there: the two products
    with the matrix unit are sums over the contracted coordinate (the narrowing of their operands is the identity on the
    extended reals), each bias, scale and shift row is read at column q, and the named scale is the reciprocal of the
    standard deviation; the last addition is the residual. -/
theorem pay3_apply (x0 x1 : Vec Ideal S2000x256 .f32) (x2 : Vec Ideal S256x256 .f32) (x3 : Vec Ideal S1x256 .f32)
    (x4 : Vec Ideal S256x256 .f32) (x5 x6 x7 : Vec Ideal S1x256 .f32) (p : Fin 2000) (q : Fin 256) :
    k3_pay1 (F := Ideal) x0 x1 x2 x3 x4 x5 x6 x7 (ix2 p q)
      = Cert.Spec.ginLayerRes x0 x1 x2 x3 x4 x5 x6 x7 (ix2 p q) := by
  unfold k3_pay1
  simp only [shapeCast_self]
  rw [show dot_S2000x256_S256x256_S2000x256_1_0_0_1_n_n = matDot dot_S2000x256_S256x256_S2000x256_1_0_0_1_n_n_wf from rfl]
  simp only [maximumf_apply, addf_apply, mulf_apply, broadcast_apply, broadcastTo_1b_ab_apply, matmul_plain_zero_apply,
    truncf_apply, invStd_eq]
  rfl

/-! ## The windows' blocks as pieces of the arrays -/

/-- The printed index maps over the grid: the features, the sums and the output move down by one block of 2000 rows
    per point; every other window stays on its one block. -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = t.val ∧ win3_8.index t (1 : Fin 2) = 0 :=
  (by decide +kernel : ∀ t : Fin grid3.N, _)

/-- Row p of window 0's block at point t is row 2000·t + p of its array. -/
theorem iblk3_0_apply (c : Dev nD) (t : Fin cfg3.N) (p : Fin 2000) (k : Fin 256) (i : S50000x256.Idx)
    (hi0 : (i 0).val = 2000 * t.val + p.val) (hi1 : (i 1).val = k.val) :
    (iblk3 V c 0 t : Vec Ideal S2000x256 .f32) (ix2 p k) = (V c (Pipeline.arrRef spec3 0) : S50000x256.Idx → EReal) i := by
  obtain ⟨e0, e1⟩ := idx3_0 t
  unfold iblk3
  rw [View.read_apply]
  show (V c (Pipeline.arrRef spec3 0) : S50000x256.Idx → EReal) (((cfg3.win 0).blk t).view.emb (ix2 p k)) = _
  refine congrArg _ ?_
  funext a; apply Fin.ext
  match a with
  | ⟨0, _⟩ => show win3_0.index t (0 : Fin 2) * 2000 + 1 * p.val = (i 0).val; rw [e0, hi0]; omega
  | ⟨1, _⟩ => show win3_0.index t (1 : Fin 2) * 256 + 1 * k.val = (i 1).val; rw [e1, hi1]; omega

/-- Row p of window 1's block at point t is row 2000·t + p of its array. -/
theorem iblk3_1_apply (c : Dev nD) (t : Fin cfg3.N) (p : Fin 2000) (k : Fin 256) (i : S50000x256.Idx)
    (hi0 : (i 0).val = 2000 * t.val + p.val) (hi1 : (i 1).val = k.val) :
    (iblk3 V c 1 t : Vec Ideal S2000x256 .f32) (ix2 p k) = (V c (Pipeline.arrRef spec3 1) : S50000x256.Idx → EReal) i := by
  obtain ⟨e0, e1⟩ := idx3_1 t
  unfold iblk3
  rw [View.read_apply]
  show (V c (Pipeline.arrRef spec3 1) : S50000x256.Idx → EReal) (((cfg3.win 1).blk t).view.emb (ix2 p k)) = _
  refine congrArg _ ?_
  funext a; apply Fin.ext
  match a with
  | ⟨0, _⟩ => show win3_1.index t (0 : Fin 2) * 2000 + 1 * p.val = (i 0).val; rw [e0, hi0]; omega
  | ⟨1, _⟩ => show win3_1.index t (1 : Fin 2) * 256 + 1 * k.val = (i 1).val; rw [e1, hi1]; omega

/-- Window 2's one block is its whole array. -/
theorem iblk3_2_eq (c : Dev nD) (t : Fin cfg3.N) :
    (iblk3 V c 2 t : Vec Ideal S256x256 .f32) = (V c (Pipeline.arrRef spec3 2) : S256x256.Idx → EReal) := by
  obtain ⟨e0, e1⟩ := idx3_2 t
  funext j
  unfold iblk3
  rw [View.read_apply]
  show (V c (Pipeline.arrRef spec3 2) : S256x256.Idx → EReal) (((cfg3.win 2).blk t).view.emb j) = _
  refine congrArg _ ?_
  funext a; apply Fin.ext
  match a with
  | ⟨0, _⟩ => show win3_2.index t (0 : Fin 2) * 256 + 1 * (j 0).val = (j 0).val; rw [e0]; omega
  | ⟨1, _⟩ => show win3_2.index t (1 : Fin 2) * 256 + 1 * (j 1).val = (j 1).val; rw [e1]; omega

/-- Window 3's one block is its whole array. -/
theorem iblk3_3_eq (c : Dev nD) (t : Fin cfg3.N) :
    (iblk3 V c 3 t : Vec Ideal S1x256 .f32) = (V c (Pipeline.arrRef spec3 3) : S1x256.Idx → EReal) := by
  obtain ⟨e0, e1⟩ := idx3_3 t
  funext j
  unfold iblk3
  rw [View.read_apply]
  show (V c (Pipeline.arrRef spec3 3) : S1x256.Idx → EReal) (((cfg3.win 3).blk t).view.emb j) = _
  refine congrArg _ ?_
  funext a; apply Fin.ext
  match a with
  | ⟨0, _⟩ => show win3_3.index t (0 : Fin 2) * 1 + 1 * (j 0).val = (j 0).val; rw [e0]; omega
  | ⟨1, _⟩ => show win3_3.index t (1 : Fin 2) * 256 + 1 * (j 1).val = (j 1).val; rw [e1]; omega

/-- Window 4's one block is its whole array. -/
theorem iblk3_4_eq (c : Dev nD) (t : Fin cfg3.N) :
    (iblk3 V c 4 t : Vec Ideal S256x256 .f32) = (V c (Pipeline.arrRef spec3 4) : S256x256.Idx → EReal) := by
  obtain ⟨e0, e1⟩ := idx3_4 t
  funext j
  unfold iblk3
  rw [View.read_apply]
  show (V c (Pipeline.arrRef spec3 4) : S256x256.Idx → EReal) (((cfg3.win 4).blk t).view.emb j) = _
  refine congrArg _ ?_
  funext a; apply Fin.ext
  match a with
  | ⟨0, _⟩ => show win3_4.index t (0 : Fin 2) * 256 + 1 * (j 0).val = (j 0).val; rw [e0]; omega
  | ⟨1, _⟩ => show win3_4.index t (1 : Fin 2) * 256 + 1 * (j 1).val = (j 1).val; rw [e1]; omega

/-- Window 5's one block is its whole array. -/
theorem iblk3_5_eq (c : Dev nD) (t : Fin cfg3.N) :
    (iblk3 V c 5 t : Vec Ideal S1x256 .f32) = (V c (Pipeline.arrRef spec3 5) : S1x256.Idx → EReal) := by
  obtain ⟨e0, e1⟩ := idx3_5 t
  funext j
  unfold iblk3
  rw [View.read_apply]
  show (V c (Pipeline.arrRef spec3 5) : S1x256.Idx → EReal) (((cfg3.win 5).blk t).view.emb j) = _
  refine congrArg _ ?_
  funext a; apply Fin.ext
  match a with
  | ⟨0, _⟩ => show win3_5.index t (0 : Fin 2) * 1 + 1 * (j 0).val = (j 0).val; rw [e0]; omega
  | ⟨1, _⟩ => show win3_5.index t (1 : Fin 2) * 256 + 1 * (j 1).val = (j 1).val; rw [e1]; omega

/-- Window 6's one block is its whole array. -/
theorem iblk3_6_eq (c : Dev nD) (t : Fin cfg3.N) :
    (iblk3 V c 6 t : Vec Ideal S1x256 .f32) = (V c (Pipeline.arrRef spec3 6) : S1x256.Idx → EReal) := by
  obtain ⟨e0, e1⟩ := idx3_6 t
  funext j
  unfold iblk3
  rw [View.read_apply]
  show (V c (Pipeline.arrRef spec3 6) : S1x256.Idx → EReal) (((cfg3.win 6).blk t).view.emb j) = _
  refine congrArg _ ?_
  funext a; apply Fin.ext
  match a with
  | ⟨0, _⟩ => show win3_6.index t (0 : Fin 2) * 1 + 1 * (j 0).val = (j 0).val; rw [e0]; omega
  | ⟨1, _⟩ => show win3_6.index t (1 : Fin 2) * 256 + 1 * (j 1).val = (j 1).val; rw [e1]; omega

/-- Window 7's one block is its whole array. -/
theorem iblk3_7_eq (c : Dev nD) (t : Fin cfg3.N) :
    (iblk3 V c 7 t : Vec Ideal S1x256 .f32) = (V c (Pipeline.arrRef spec3 7) : S1x256.Idx → EReal) := by
  obtain ⟨e0, e1⟩ := idx3_7 t
  funext j
  unfold iblk3
  rw [View.read_apply]
  show (V c (Pipeline.arrRef spec3 7) : S1x256.Idx → EReal) (((cfg3.win 7).blk t).view.emb j) = _
  refine congrArg _ ?_
  funext a; apply Fin.ext
  match a with
  | ⟨0, _⟩ => show win3_7.index t (0 : Fin 2) * 1 + 1 * (j 0).val = (j 0).val; rw [e0]; omega
  | ⟨1, _⟩ => show win3_7.index t (1 : Fin 2) * 256 + 1 * (j 1).val = (j 1).val; rw [e1]; omega

end Cert.KernelIdeal.Closed

end
-- ==== Proof.KGin3.lean ====
/-
  Region 3 (a fused dense graph-isomorphism layer with the residual), second half: the output array after the region as ONE function
  of the arrays the region finds, whatever they hold.

  What grid point t writes back is block t of the layer of the whole arrays — the layer is computed row by row, so its
  rows 2000·t … 2000·t + 1999 are the layer of those rows of the features and of the neighbourhood sums —, and the 25
  blocks of 2000 rows cover the 50000 rows. So the array ends holding the layer of the whole arrays.
-/
import proofs.«153049_j20907900797458_1_alg».proof.Proof.Gen.KernelIdeal.Frame
import proofs.«153049_j20907900797458_1_alg».proof.Proof.Spec
import proofs.«153049_j20907900797458_1_alg».proof.Proof.LibMatDot
import proofs.«153049_j20907900797458_1_alg».proof.Proof.LibRowBiasLayers
import Idealize.ShloMosaic.Lib.Pipeline.Value
import Idealize.ShloMosaic.Lib.ValueLayout
import Idealize.ShloMosaic.PureOps.IdealRules
import proofs.«153049_j20907900797458_1_alg».proof.Proof.GinRows
import proofs.«153049_j20907900797458_1_alg».proof.Proof.KGin3Blocks

noncomputable section

namespace Cert.KernelIdeal.Closed

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

/-! ## What a point writes back -/

/-- What point t writes back is the body's stored value of the windows' blocks at t (the body's one store covers the
    output's whole block, and each load reads a whole block). -/
theorem flushed3_pay (c : Dev nD) (t : Fin cfg3.N) :
    (dat3 (F := Ideal) V c).flushed 8 t = (cfg3.win 8).cut (grid3.coords t)
      (k3_pay1 (F := Ideal) (iblk3 V c 0 t) (iblk3 V c 1 t) (iblk3 V c 2 t) (iblk3 V c 3 t) (iblk3 V c 4 t) (iblk3 V c 5 t) (iblk3 V c 6 t) (iblk3 V c 7 t)) := by
  show (cfg3.win 8).cut (grid3.coords t) ((dat3 V c).after 8 t) = _
  rw [after3_8]
  unfold out3_8
  rw [View.canon_unit_zero hz]
  simp only [View.ld_unit_zero (S := S2000x256) hz, View.ld_unit_zero (S := S1x256) hz,
    View.ld_unit_zero (S := S256x256) hz]

/-- The output's block is written back whole: nothing of it is cut away. -/
theorem cut3_apply (t : Fin cfg3.N) (X : Vec Ideal S2000x256 .f32) (p : Fin 2000) (q : Fin 256) :
    (cfg3.win 8).cut (grid3.coords t) X (ix2 p q) = X (ix2 p q) := rfl

/-- Row p, column q of point t's block of an output-shaped array is its row 2000·t + p, column q. -/
theorem read3_apply (t : Fin cfg3.N) (G : S50000x256.Idx → EReal) (p : Fin 2000) (q : Fin 256)
    (hP : 2000 * t.val + p.val < 50000) :
    ((cfg3.win 8).blk t).view.read (Elt Ideal) G (ix2 p q) = G (ix2 (⟨2000 * t.val + p.val, hP⟩ : Fin 50000) q) := by
  obtain ⟨e0, e1⟩ := idx3_8 t
  rw [View.read_apply]
  show G (((cfg3.win 8).blk t).view.emb (ix2 p q)) = _
  refine congrArg G ?_
  funext a; apply Fin.ext
  match a with
  | ⟨0, _⟩ => show win3_8.index t (0 : Fin 2) * 2000 + 1 * p.val = 2000 * t.val + p.val; rw [e0]; omega
  | ⟨1, _⟩ => show win3_8.index t (1 : Fin 2) * 256 + 1 * q.val = q.val; rw [e1]; omega

/-- At row p, column q of point t's block the stored value is the layer of the whole arrays at row 2000·t + p, column
    q: the layer is computed row by row, the features' and the sums' blocks at t are rows 2000·t … of their arrays, and
    the other operands' blocks are their whole arrays. -/
theorem point3_eq (c : Dev nD) (t : Fin cfg3.N) (p : Fin 2000) (q : Fin 256) (hP : 2000 * t.val + p.val < 50000) :
    k3_pay1 (F := Ideal) (iblk3 V c 0 t) (iblk3 V c 1 t) (iblk3 V c 2 t) (iblk3 V c 3 t) (iblk3 V c 4 t) (iblk3 V c 5 t) (iblk3 V c 6 t) (iblk3 V c 7 t) (ix2 p q)
      = Cert.Spec.ginLayerRes (n := 50000) (M := 256) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (ix2 (⟨2000 * t.val + p.val, hP⟩ : Fin 50000) q) :=
  (pay3_apply (iblk3 V c 0 t) (iblk3 V c 1 t) (iblk3 V c 2 t) (iblk3 V c 3 t) (iblk3 V c 4 t) (iblk3 V c 5 t) (iblk3 V c 6 t) (iblk3 V c 7 t) p q).trans
    (Cert.SpecRows.ginLayerRes_block (n := 2000) (N := 50000) (M := 256)
      (iblk3 V c 0 t) (iblk3 V c 1 t) (V c (Pipeline.arrRef spec3 0)) (V c (Pipeline.arrRef spec3 1))
      (iblk3 V c 2 t) (V c (Pipeline.arrRef spec3 2)) (iblk3 V c 3 t) (V c (Pipeline.arrRef spec3 3))
      (iblk3 V c 4 t) (V c (Pipeline.arrRef spec3 4)) (iblk3 V c 5 t) (V c (Pipeline.arrRef spec3 5))
      (iblk3 V c 6 t) (V c (Pipeline.arrRef spec3 6)) (iblk3 V c 7 t) (V c (Pipeline.arrRef spec3 7))
      p ⟨2000 * t.val + p.val, hP⟩ q
      (fun k => iblk3_0_apply V c t p k _ rfl rfl) (fun k => iblk3_1_apply V c t p k _ rfl rfl)
      (iblk3_2_eq V c t) (iblk3_3_eq V c t) (iblk3_4_eq V c t) (iblk3_5_eq V c t) (iblk3_6_eq V c t) (iblk3_7_eq V c t))

/-- So what point t writes back is block t — rows 2000·t … 2000·t + 1999 — of the layer of the whole arrays. -/
theorem flushed3_eq (c : Dev nD) (t : Fin cfg3.N) :
    (dat3 (F := Ideal) V c).flushed 8 t = ((cfg3.win 8).blk t).view.read (Elt Ideal)
      (Cert.Spec.ginLayerRes (n := 50000) (M := 256) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7))) := by
  rw [flushed3_pay]
  funext j
  obtain ⟨p, q, rfl⟩ : ∃ (p : Fin 2000) (q : Fin 256), j = ix2 p q := ⟨j 0, j 1, eq_ix2 j⟩
  have hp : p.val < 2000 := p.isLt
  have ht : t.val < 25 := (show t.val < grid3.N from t.isLt).trans_eq N_3
  have hP : 2000 * t.val + p.val < 50000 := by omega
  exact ((cut3_apply t _ p q).trans (point3_eq V c t p q hP)).trans (read3_apply t _ p q hP).symm

/-! ## From blocks to the array -/

/-- An index of the output array is in point t's block iff each coordinate is in the block's range on its axis. -/
theorem mem_blk3 (t : Fin cfg3.N) (i : S50000x256.Idx) :
    i ∈ ((cfg3.win 8).blk t).view.set ↔ ∀ a : Fin 2, win3_8.index t a * S2000x256.size a ≤ (i a).val
      ∧ (i a).val < win3_8.index t a * S2000x256.size a + S2000x256.size a := by
  show i ∈ ((View.whole main_v99).slice (win3_8.rect t)).set ↔ _
  rw [View.set_slice_whole, Rect.mem_set_unit]
  exact Iff.rfl

/-- The 25 blocks of 2000 rows tile the 50000 rows: row r is in the block of point r / 2000. -/
theorem cover3 (i : S50000x256.Idx) :
    ∃ t : Fin cfg3.N, (cfg3.win 8).flush t = true ∧ i ∈ ((cfg3.win 8).blk t).view.set := by
  have hi0 : (i 0).val < 50000 := (i 0).isLt
  have hi1 : (i 1).val < 256 := (i 1).isLt
  have hN : (i 0).val / 2000 < cfg3.N := by
    show (i 0).val / 2000 < grid3.N
    rw [N_3]; omega
  refine ⟨⟨(i 0).val / 2000, hN⟩, flush3_8 _, ?_⟩
  obtain ⟨e0, e1⟩ := idx3_8 ⟨(i 0).val / 2000, hN⟩
  rw [mem_blk3]
  intro a
  match a with
  | ⟨0, _⟩ =>
    show win3_8.index ⟨(i 0).val / 2000, hN⟩ (0 : Fin 2) * 2000 ≤ (i 0).val
      ∧ (i 0).val < win3_8.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win3_8.index ⟨(i 0).val / 2000, hN⟩ (1 : Fin 2) * 256 ≤ (i 1).val
      ∧ (i 1).val < win3_8.index ⟨(i 0).val / 2000, hN⟩ (1 : Fin 2) * 256 + 256
    rw [e1]; omega

/-- THE OUTPUT ARRAY after the region is the layer of the arrays the region found, as one whole-array function: every
    point's write-back is its block of that function, and the blocks cover the array. -/
theorem final3 (c : Dev nD) : (Gen.dat3 (F := Ideal) V c).arrAt 8 cfg3.N
    = Cert.Spec.ginLayerRes (n := 50000) (M := 256) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) :=
  (dat3 (F := Ideal) V c).arrAt_eq_of_cover 8 _ (fun t _ => flushed3_eq V c t) (cover3)

end Cert.KernelIdeal.Closed

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«153049_j20907900797458_1_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.LibKeepdimsMean.lean ====
/-
  Row sums kept as a column and divided by a constant.

  A layer normalisation computes a row statistic as a float sum over the second axis of an `[R, K]` array started from the
  zero word, laid out again as an `[R, 1]` column, and divided entrywise by a constant column. Read on the extended reals
  the result is the column whose entry `(p, 0)` is the sum of row `p` divided by the constant. The sum started from the
  zero word adds nothing in front (the zero word is the additive neutral word).
-/
import Idealize.ShloMosaic.PureOps.Ideal.Laws
import Idealize.ShloMosaic.Lib.ValueIdx
import Idealize.ShloMosaic.Lib.Pipeline.Value
import proofs.«153049_j20907900797458_1_alg».proof.Proof.LibRowSum
import proofs.«153049_j20907900797458_1_alg».proof.Proof.LibColumn

noncomputable section

namespace Cert.Lib

open Idealize.ShloMosaic Idealize.ShloMosaic.ValueIdx
open scoped BigOperators

variable {R K : ℕ}

/-- A float sum over the second axis of an `[R, K]` array of f32 started from the zero word, at row `p`: the sum over
    that row. -/
theorem rowSum_zeroWord (src : FVec Ideal ⟨2, ![R, K]⟩ .f32) (h : (⟨2, ![R, K]⟩ : Shape).Reduces [1] ⟨1, ![R]⟩)
    (hφ : FTy.f32 = FTy.f32 ∨ FTy.f32 = FTy.bf16) (hacc : (0x00000000#32 : BitVec 32) = 0x00000000#32) (p : Fin R) :
    multiReduction .add [1] (⟨1, ![R]⟩ : Shape) src 0x00000000#32 h hφ hacc (ix1 p) = ∑ k : Fin K, src (ix2 p k) :=
  multiReduction_add_rows src _ h hφ hacc p

/-- The sums of the rows of `Z`, each divided by `c`, as a column. -/
def rowDivColumn (Z : (⟨2, ![R, K]⟩ : Shape).Idx → EReal) (c : EReal) : (⟨2, ![R, 1]⟩ : Shape).Idx → EReal :=
  fun i => Ideal.div (∑ k : Fin K, Z (ix2 (i 0) k)) c

theorem rowDivColumn_apply (Z : (⟨2, ![R, K]⟩ : Shape).Idx → EReal) (c : EReal) (p : Fin R) (u : Fin 1) :
    rowDivColumn Z c (ix2 p u) = Ideal.div (∑ k : Fin K, Z (ix2 p k)) c := rfl

/-- Row sums from the zero word, kept as a column and divided by a constant column: the rows' sums over `c`. -/
theorem keepdimsSumDiv_eq (Z : FVec Ideal ⟨2, ![R, K]⟩ .f32) (c : Ideal .f32)
    (h : (⟨2, ![R, K]⟩ : Shape).Reduces [1] ⟨1, ![R]⟩) (hφ : FTy.f32 = FTy.f32 ∨ FTy.f32 = FTy.bf16)
    (hacc : (0x00000000#32 : BitVec 32) = 0x00000000#32) (hs : (⟨1, ![R]⟩ : Shape).ShapeCasts ⟨2, ![R, 1]⟩) :
    (divf (shapeCast ⟨2, ![R, 1]⟩ (multiReduction .add [1] (⟨1, ![R]⟩ : Shape) Z 0x00000000#32 h hφ hacc) hs)
      (broadcast ⟨2, ![R, 1]⟩ c) : FVec Ideal ⟨2, ![R, 1]⟩ .f32) = rowDivColumn Z c := by
  funext i
  obtain ⟨p, u, rfl⟩ : ∃ (p : Fin R) (u : Fin 1), i = ix2 p u := ⟨i 0, i 1, eq_ix2 i⟩
  rw [divf_apply, shapeCast_a_a1_apply, rowSum_zeroWord Z, broadcast_apply, rowDivColumn_apply]

/-- The reciprocal square root of an array at an index is that of the entry. -/
theorem rsqrt_apply {s : Shape} {φ : FTy} (a : FVec Ideal s φ) (i : s.Idx) : rsqrt a i = Ideal.rsqrt (a i) := rfl

end Cert.Lib

end
-- ==== Proof.KProjPay.lean ====
/-
  The protein projector's block computation, entry by entry.

  On a block of 512 rows the body multiplies the block by the resident weights into a zero accumulator and adds the bias
  row: entry (p, q) is row p of the block against column q of the weights plus the bias's entry q — the linear layer. It
  then takes each row's mean (the row's sum over 256), the mean squared deviation from it (again a row sum over 256),
  and returns `max ((z − μ)·rsqrt(var + ε)·g + b) 0`: the layer normalisation with relu of the specification, applied
  to the linear layer's output. The conversions to the narrower format on the way into the product are the identity on
  the extended reals.
-/
import proofs.«153049_j20907900797458_1_alg».proof.Proof.Gen.KernelIdeal.Skeleton
import proofs.«153049_j20907900797458_1_alg».proof.Proof.Spec
import proofs.«153049_j20907900797458_1_alg».proof.Proof.LibRowBiasLayers
import proofs.«153049_j20907900797458_1_alg».proof.Proof.LibColumn
import proofs.«153049_j20907900797458_1_alg».proof.Proof.LibKeepdimsMean
import Idealize.ShloMosaic.Lib.Pipeline.Value
import Idealize.ShloMosaic.Lib.ValueLayout

noncomputable section

namespace Cert.KernelIdeal.Proj

open Cert.KernelIdeal Cert.KernelIdeal.Gen Idealize.ShloMosaic
open Idealize.ShloMosaic.ValueIdx Cert.Lib
open scoped BigOperators

/-- The projector's linear layer on a block: the block's rows against the weights, plus the bias row. -/
theorem projLinear_eq (x0 : Vec Ideal S512x480 .f32) (x1 : Vec Ideal S480x256 .f32) (x2 : Vec Ideal S1x256 .f32) :
    (addf (matmul dot_S512x480_S480x256_S512x256_1_0_0_1_n_n none (truncf .bf16 x0 bitsLt_bf16_f32)
        (truncf .bf16 x1 bitsLt_bf16_f32) (constant S512x256 .f32 0x00000000#32))
      (broadcastTo S512x256 x2 broadcasts_S1x256_S512x256) : FVec Ideal S512x256 .f32) = rowAffine (ψ := .f32) x0 x1 x2 := by
  funext i
  obtain ⟨p, q, rfl⟩ : ∃ (p : Fin 512) (q : Fin 256), i = ix2 p q := ⟨i 0, i 1, eq_ix2 i⟩
  show FloatOps.matmul (F := Ideal) (matDot dot_S512x480_S480x256_S512x256_1_0_0_1_n_n_wf) none (truncf .bf16 x0 bitsLt_bf16_f32)
      (truncf .bf16 x1 bitsLt_bf16_f32) (constant S512x256 .f32 0x00000000#32) (ix2 p q)
    + broadcastTo S512x256 x2 broadcasts_S1x256_S512x256 (ix2 p q) = _
  rw [matmul_plain_zero_apply, broadcastTo_1b_ab_apply]
  rfl

/-- The body's stored value at (p, q) is the specification's projector of the loaded blocks at (p, q): the two row
    statistics are the kept-dimension sums divided by the row length, and the rest is entrywise. -/
theorem projPay_apply (x0 : Vec Ideal S512x480 .f32) (x1 : Vec Ideal S480x256 .f32) (x2 x3 x4 : Vec Ideal S1x256 .f32)
    (p : Fin 512) (q : Fin 256) :
    k4_pay1 x0 x1 x2 x3 x4 (ix2 p q) = Cert.Spec.projLayer x0 x1 x2 x3 x4 (ix2 p q) := by
  unfold k4_pay1 Cert.Spec.projLayer
  simp only [shapeCast_self]
  rw [projLinear_eq]
  generalize rowAffine (ψ := .f32) x0 x1 x2 = Z
  rw [keepdimsSumDiv_eq, keepdimsSumDiv_eq, Cert.Spec.layerNormRelu_apply]
  simp only [maximumf_apply, addf_apply, mulf_apply, subf_apply, rsqrt_apply, broadcast_apply, broadcastTo_a1_ab_apply,
    broadcastTo_1b_ab_apply, rowDivColumn_apply]
  rfl

end Cert.KernelIdeal.Proj

end
-- ==== Proof.ProjPredRows.lean ====
/-
  The projector and the predictor act on each row by itself.

  Entry (p, q) of a linear layer reads row p of its input and nothing else of it; the layer normalisation's mean and
  mean squared deviation of row p read row p only; the relu is entrywise. So if row p of one input array equals row p'
  of another (of any number of rows), the projector's — and the predictor's — outputs agree on those rows. This is what
  lets a layer be computed block of rows by block of rows.
-/
import proofs.«153049_j20907900797458_1_alg».proof.Proof.Spec

noncomputable section

namespace Cert.ProjPredRows

open Idealize.ShloMosaic Idealize.ShloMosaic.ValueIdx Cert.Lib Cert.Spec
open scoped BigOperators

variable {n n' K M J L : ℕ}

/-- A linear layer's entry (p, q) depends on row p of the input only. -/
theorem rowAffine_congr_row (X : Arr n K) (X' : Arr n' K) (W : Arr K M) (b : Arr 1 M) (p : Fin n) (p' : Fin n')
    (h : ∀ k : Fin K, X (ix2 p k) = X' (ix2 p' k)) (q : Fin M) :
    rowAffine (ψ := .f32) X W b (ix2 p q) = rowAffine (ψ := .f32) X' W b (ix2 p' q) := by
  rw [rowAffine_apply, rowAffine_apply]
  exact congrArg (· + b (ix2 (0 : Fin 1) q)) (Finset.sum_congr rfl fun k _ => congrArg (· * W (ix2 k q)) (h k))

/-- The relu of an array at (p, q) depends on that entry only. -/
theorem reluOf_congr_row (Y : Arr n M) (Y' : Arr n' M) (p : Fin n) (p' : Fin n')
    (h : ∀ k : Fin M, Y (ix2 p k) = Y' (ix2 p' k)) (q : Fin M) :
    reluOf Y (ix2 p q) = reluOf Y' (ix2 p' q) := by
  rw [reluOf_apply, reluOf_apply, h q]

/-- A row's mean depends on that row only. -/
theorem rowMean_congr (Z : Arr n M) (Z' : Arr n' M) (p : Fin n) (p' : Fin n')
    (h : ∀ k : Fin M, Z (ix2 p k) = Z' (ix2 p' k)) : rowMean Z p = rowMean Z' p' := by
  unfold rowMean
  exact congrArg (Ideal.div · rowCount) (Finset.sum_congr rfl fun k _ => h k)

/-- A row's mean squared deviation depends on that row only. -/
theorem rowVar_congr (Z : Arr n M) (Z' : Arr n' M) (p : Fin n) (p' : Fin n')
    (h : ∀ k : Fin M, Z (ix2 p k) = Z' (ix2 p' k)) : rowVar Z p = rowVar Z' p' := by
  unfold rowVar
  rw [rowMean_congr Z Z' p p' h]
  exact congrArg (Ideal.div · rowCount) (Finset.sum_congr rfl fun k _ => by rw [h k])

/-- The layer normalisation with relu at (p, q) depends on row p only. -/
theorem layerNormRelu_congr_row (Z : Arr n M) (Z' : Arr n' M) (g b : Arr 1 M) (p : Fin n) (p' : Fin n')
    (h : ∀ k : Fin M, Z (ix2 p k) = Z' (ix2 p' k)) (q : Fin M) :
    layerNormRelu Z g b (ix2 p q) = layerNormRelu Z' g b (ix2 p' q) := by
  rw [layerNormRelu_apply, layerNormRelu_apply, h q, rowMean_congr Z Z' p p' h, rowVar_congr Z Z' p p' h]

/-- The projector's output row p depends on the input's row p only. -/
theorem projLayer_congr_row (X : Arr n K) (X' : Arr n' K) (W : Arr K M) (bp g b : Arr 1 M) (p : Fin n) (p' : Fin n')
    (h : ∀ k : Fin K, X (ix2 p k) = X' (ix2 p' k)) (q : Fin M) :
    projLayer X W bp g b (ix2 p q) = projLayer X' W bp g b (ix2 p' q) :=
  layerNormRelu_congr_row _ _ g b p p' (fun k => rowAffine_congr_row X X' W bp p p' h k) q

/-- The predictor's first layer at (p, q) depends on row p of each of its two inputs only. -/
theorem twoAffine_congr_row (x y : Arr n K) (x' y' : Arr n' K) (wa wb : Arr K M) (b : Arr 1 M) (p : Fin n) (p' : Fin n')
    (hx : ∀ k : Fin K, x (ix2 p k) = x' (ix2 p' k)) (hy : ∀ k : Fin K, y (ix2 p k) = y' (ix2 p' k)) (q : Fin M) :
    twoAffine x y wa wb b (ix2 p q) = twoAffine x' y' wa wb b (ix2 p' q) := by
  rw [twoAffine_apply, twoAffine_apply]
  rw [Finset.sum_congr rfl fun k _ => congrArg (· * wa (ix2 k q)) (hx k),
    Finset.sum_congr rfl fun k _ => congrArg (· * wb (ix2 k q)) (hy k)]

/-- The predictor's output row p depends on row p of each of its two inputs only. -/
theorem predLayer_congr_row (x y : Arr n K) (x' y' : Arr n' K) (wa wb : Arr K M) (b1 : Arr 1 M) (w2 : Arr M J) (b2 : Arr 1 J)
    (w3 : Arr J L) (b3 : Arr 1 L) (p : Fin n) (p' : Fin n')
    (hx : ∀ k : Fin K, x (ix2 p k) = x' (ix2 p' k)) (hy : ∀ k : Fin K, y (ix2 p k) = y' (ix2 p' k)) (q : Fin L) :
    predLayer x y wa wb b1 w2 b2 w3 b3 (ix2 p q) = predLayer x' y' wa wb b1 w2 b2 w3 b3 (ix2 p' q) :=
  rowAffine_congr_row _ _ w3 b3 p p' (fun k => reluOf_congr_row _ _ p p' (fun k' =>
    rowAffine_congr_row _ _ w2 b2 p p' (fun k'' => reluOf_congr_row _ _ p p' (fun k''' =>
      twoAffine_congr_row x y x' y' wa wb b1 p p' hx hy k''') k'') k') k) q

end Cert.ProjPredRows

end
-- ==== Proof.KProj.lean ====
/-
  The protein projector region, closed: its output array as one function of its input arrays.

  The region runs the projector's body at four grid points. At point `t` the body reads rows `512 t … 512 t + 511` of
  the protein array (all 480 columns), the whole weight matrix and the three `[1, 256]` rows (bias, scale, shift), and
  writes rows `512 t … 512 t + 511` of the output. The body's value at (p, q) is the specification's projector of the
  loaded blocks at (p, q); the projector's output row reads only the same row of its input; so what point `t` writes
  back is block `t` of the projector of the whole arrays. The four blocks cover the 2048 rows (row `r` lies in the block
  of point `r / 512`), hence the output array after the region is the projector of the arrays the region found.
-/
import proofs.«153049_j20907900797458_1_alg».proof.Proof.Gen.KernelIdeal.Frame
import proofs.«153049_j20907900797458_1_alg».proof.Proof.Spec
import proofs.«153049_j20907900797458_1_alg».proof.Proof.KProjPay
import proofs.«153049_j20907900797458_1_alg».proof.Proof.ProjPredRows
import Idealize.ShloMosaic.Lib.Pipeline.Value

noncomputable section

namespace Cert.KernelIdeal.Proj

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input block and the output block move with the point along the rows,
    the weights and the three rows stay at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The input window's block at point `t` is rows `512 t … 512 t + 511` of the protein array. -/
theorem iblk0_apply (c : Dev nD) (t : Fin cfg4.N) (p : Fin 512) (k : Fin 480) (i : S2048x480.Idx)
    (hi0 : (i 0).val = 512 * t.val + p.val) (hi1 : (i 1).val = k.val) :
    (iblk4 V c 0 t : Vec Ideal S512x480 .f32) (ix2 p k) = (V c (Pipeline.arrRef spec4 0) : S2048x480.Idx → EReal) i := by
  obtain ⟨e0, e1, -⟩ := idx_facts t
  unfold iblk4
  rw [View.read_apply]
  show (V c (Pipeline.arrRef spec4 0) : S2048x480.Idx → EReal) (((cfg4.win 0).blk t).view.emb (ix2 p k)) = _
  refine congrArg _ ?_
  funext a; apply Fin.ext
  match a with
  | ⟨0, _⟩ => show win4_0.index t (0 : Fin 2) * 512 + 1 * p.val = (i 0).val; rw [e0, hi0]; omega
  | ⟨1, _⟩ => show win4_0.index t (1 : Fin 2) * 480 + 1 * k.val = (i 1).val; rw [e1, hi1]; omega

/-- The weights' block at every point is the whole weight array. -/
theorem iblk1_eq (c : Dev nD) (t : Fin cfg4.N) :
    (iblk4 V c 1 t : Vec Ideal S480x256 .f32) = (V c (Pipeline.arrRef spec4 1) : S480x256.Idx → EReal) := by
  obtain ⟨-, -, e0, e1, -⟩ := idx_facts t
  unfold iblk4
  funext j
  rw [View.read_apply]
  show (V c (Pipeline.arrRef spec4 1) : S480x256.Idx → EReal) (((cfg4.win 1).blk t).view.emb j) = _
  refine congrArg _ ?_
  funext a; apply Fin.ext
  match a with
  | ⟨0, _⟩ => show win4_1.index t (0 : Fin 2) * 480 + 1 * (j 0).val = (j 0).val; rw [e0]; omega
  | ⟨1, _⟩ => show win4_1.index t (1 : Fin 2) * 256 + 1 * (j 1).val = (j 1).val; rw [e1]; omega

/-- The bias row's block at every point is the whole row; -/
theorem iblk2_eq (c : Dev nD) (t : Fin cfg4.N) :
    (iblk4 V c 2 t : Vec Ideal S1x256 .f32) = (V c (Pipeline.arrRef spec4 2) : S1x256.Idx → EReal) := by
  obtain ⟨-, -, -, -, e0, e1, -⟩ := idx_facts t
  unfold iblk4
  funext j
  rw [View.read_apply]
  show (V c (Pipeline.arrRef spec4 2) : S1x256.Idx → EReal) (((cfg4.win 2).blk t).view.emb j) = _
  refine congrArg _ ?_
  funext a; apply Fin.ext
  match a with
  | ⟨0, _⟩ => show win4_2.index t (0 : Fin 2) * 1 + 1 * (j 0).val = (j 0).val; rw [e0]; omega
  | ⟨1, _⟩ => show win4_2.index t (1 : Fin 2) * 256 + 1 * (j 1).val = (j 1).val; rw [e1]; omega

/-- so is the scale row's, -/
theorem iblk3_eq (c : Dev nD) (t : Fin cfg4.N) :
    (iblk4 V c 3 t : Vec Ideal S1x256 .f32) = (V c (Pipeline.arrRef spec4 3) : S1x256.Idx → EReal) := by
  obtain ⟨-, -, -, -, -, -, e0, e1, -⟩ := idx_facts t
  unfold iblk4
  funext j
  rw [View.read_apply]
  show (V c (Pipeline.arrRef spec4 3) : S1x256.Idx → EReal) (((cfg4.win 3).blk t).view.emb j) = _
  refine congrArg _ ?_
  funext a; apply Fin.ext
  match a with
  | ⟨0, _⟩ => show win4_3.index t (0 : Fin 2) * 1 + 1 * (j 0).val = (j 0).val; rw [e0]; omega
  | ⟨1, _⟩ => show win4_3.index t (1 : Fin 2) * 256 + 1 * (j 1).val = (j 1).val; rw [e1]; omega

/-- and the shift row's. -/
theorem iblk4_eq (c : Dev nD) (t : Fin cfg4.N) :
    (iblk4 V c 4 t : Vec Ideal S1x256 .f32) = (V c (Pipeline.arrRef spec4 4) : S1x256.Idx → EReal) := by
  obtain ⟨-, -, -, -, -, -, -, -, e0, e1, -⟩ := idx_facts t
  unfold iblk4
  funext j
  rw [View.read_apply]
  show (V c (Pipeline.arrRef spec4 4) : S1x256.Idx → EReal) (((cfg4.win 4).blk t).view.emb j) = _
  refine congrArg _ ?_
  funext a; apply Fin.ext
  match a with
  | ⟨0, _⟩ => show win4_4.index t (0 : Fin 2) * 1 + 1 * (j 0).val = (j 0).val; rw [e0]; omega
  | ⟨1, _⟩ => show win4_4.index t (1 : Fin 2) * 256 + 1 * (j 1).val = (j 1).val; rw [e1]; omega

/-- WHAT POINT `t` WRITES BACK is block `t` of the projector of the arrays as the region finds them: the body's value
    at (p, q) is the projector of the loaded blocks, the resident blocks are the whole weight and row arrays, and row p
    of the input block is row `512 t + p` of the protein array, which is all that output row reads. -/
theorem flushed_eq (c : Dev nD) (t : Fin cfg4.N) :
    (dat4 (F := Ideal) V c).flushed 5 t = ((cfg4.win 5).blk t).view.read (Elt Ideal)
      (Cert.Spec.projLayer (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz]
  simp only [View.ld_unit_zero (S := S512x480) hz, View.ld_unit_zero (S := S480x256) hz, View.ld_unit_zero (S := S1x256) hz]
  rw [iblk1_eq, iblk2_eq, iblk3_eq, iblk4_eq]
  obtain ⟨-, -, -, -, -, -, -, -, -, -, e0, e1⟩ := idx_facts t
  funext j
  obtain ⟨p, q, rfl⟩ : ∃ (p : Fin 512) (q : Fin 256), j = (ix2 p q : S512x256.Idx) :=
    ⟨j 0, j 1, eq_ix2 (n0 := 512) (n1 := 256) j⟩
  show k4_pay1 (iblk4 V c 0 t) (V c (Pipeline.arrRef spec4 1)) (V c (Pipeline.arrRef spec4 2)) (V c (Pipeline.arrRef spec4 3))
      (V c (Pipeline.arrRef spec4 4)) (ix2 p q)
    = Cert.Spec.projLayer (V c (Pipeline.arrRef spec4 0)) (V c (Pipeline.arrRef spec4 1)) (V c (Pipeline.arrRef spec4 2))
      (V c (Pipeline.arrRef spec4 3)) (V c (Pipeline.arrRef spec4 4)) (((cfg4.win 5).blk t).view.emb (ix2 p q))
  have hp : 512 * t.val + p.val < 2048 := by have := t.isLt; have hN : cfg4.N = 4 := N_4; omega
  have hemb : ((cfg4.win 5).blk t).view.emb (ix2 p q) = (ix2 ⟨512 * t.val + p.val, hp⟩ q : S2048x256.Idx) := by
    funext a; apply Fin.ext
    match a with
    | ⟨0, _⟩ => show win4_5.index t (0 : Fin 2) * 512 + 1 * p.val = 512 * t.val + p.val; rw [e0]; omega
    | ⟨1, _⟩ => show win4_5.index t (1 : Fin 2) * 256 + 1 * q.val = q.val; rw [e1]; omega
  rw [hemb]
  refine (projPay_apply _ _ _ _ _ p q).trans ?_
  exact Cert.ProjPredRows.projLayer_congr_row _ _ _ _ _ _ p ⟨512 * t.val + p.val, hp⟩
    (fun k => iblk0_apply V c t p k (ix2 ⟨512 * t.val + p.val, hp⟩ k) rfl rfl) q

/-- An index of the output array is in point `t`'s block iff each coordinate is in the block's range on its axis. -/
theorem mem_blk (t : Fin cfg4.N) (i : S2048x256.Idx) :
    i ∈ ((cfg4.win 5).blk t).view.set ↔ ∀ a : Fin 2, win4_5.index t a * S512x256.size a ≤ (i a).val
      ∧ (i a).val < win4_5.index t a * S512x256.size a + S512x256.size a := by
  show i ∈ ((View.whole main_v106).slice (win4_5.rect t)).set ↔ _
  rw [View.set_slice_whole, Rect.mem_set_unit]
  exact Iff.rfl

/-- The four blocks of 512 rows cover the 2048 rows: row `r` is in the block of point `r / 512`. -/
theorem cover (i : S2048x256.Idx) :
    ∃ t : Fin cfg4.N, (cfg4.win 5).flush t = true ∧ i ∈ ((cfg4.win 5).blk t).view.set := by
  have hi0 : (i 0).val < 2048 := (i 0).isLt
  have hi1 : (i 1).val < 256 := (i 1).isLt
  have hN : cfg4.N = 4 := N_4
  have ht : (i 0).val / 512 < cfg4.N := by rw [hN]; omega
  obtain ⟨-, -, -, -, -, -, -, -, -, -, e0, e1⟩ := idx_facts ⟨(i 0).val / 512, ht⟩
  refine ⟨⟨(i 0).val / 512, ht⟩, flush4_5 _, ?_⟩
  rw [mem_blk]
  intro a
  match a with
  | ⟨0, _⟩ =>
    show win4_5.index ⟨(i 0).val / 512, ht⟩ (0 : Fin 2) * 512 ≤ (i 0).val
      ∧ (i 0).val < win4_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win4_5.index ⟨(i 0).val / 512, ht⟩ (1 : Fin 2) * 256 ≤ (i 1).val
      ∧ (i 1).val < win4_5.index ⟨(i 0).val / 512, ht⟩ (1 : Fin 2) * 256 + 256
    rw [e1]; omega

/-- THE OUTPUT ARRAY after the region: the projector of the region's five input arrays as the region finds them. -/
theorem final4 (c : Dev nD) : (dat4 (F := Ideal) V c).arrAt 5 cfg4.N
    = Cert.Spec.projLayer (V c (Pipeline.arrRef spec4 0)) (V c (Pipeline.arrRef spec4 1)) (V c (Pipeline.arrRef spec4 2))
        (V c (Pipeline.arrRef spec4 3)) (V c (Pipeline.arrRef spec4 4)) :=
  (dat4 V c).arrAt_eq_of_cover 5 _ (fun t _ => flushed_eq V c t) cover

end Cert.KernelIdeal.Proj

end
-- ==== Proof.LibDenseBlock.lean ====
/-
  A block kernel's dense layer, as an array.

  A block kernel computes a linear layer as the matrix unit's product of the block and the weights — both converted to a
  narrower float format on the way in, the identity on the extended reals — into a zero accumulator, plus the `[1, M]`
  bias row stretched down the rows. As an array this is `rowAffine`: entry (r, c) is row r of the block against column c
  of the weights, plus the bias's entry c. The entrywise larger of an array and the broadcast zero word is `reluOf`.
-/
import Idealize.ShloMosaic.PureOps.Ideal.Laws
import Idealize.ShloMosaic.Lib.ValueIdx
import Idealize.ShloMosaic.Lib.ValueLayout
import Idealize.ShloMosaic.Lib.Pipeline.Value
import proofs.«153049_j20907900797458_1_alg».proof.Proof.LibMatDot
import proofs.«153049_j20907900797458_1_alg».proof.Proof.LibRowBiasLayers

noncomputable section

namespace Cert.Lib

open Idealize.ShloMosaic Idealize.ShloMosaic.ValueIdx
open scoped BigOperators

variable {n K M : ℕ}

/-- The product of the converted block with the converted weights into a zero accumulator, plus the bias row stretched
    down the rows, is the linear layer. -/
theorem denseBlock_eq (wf : DotDims.WF ⟨2, ![n, K]⟩ ⟨2, ![K, M]⟩ ⟨2, ![n, M]⟩ [1] [0] [0] [1] [] []) {ψ : FTy}
    (h : ψ.bits < FTy.f32.bits) (X : FVec Ideal ⟨2, ![n, K]⟩ .f32) (W : FVec Ideal ⟨2, ![K, M]⟩ .f32)
    (b : FVec Ideal ⟨2, ![1, M]⟩ .f32) (hb : (⟨2, ![1, M]⟩ : Shape).Broadcasts ⟨2, ![n, M]⟩) :
    (addf (matmul (matDot wf) none (truncf ψ X h) (truncf ψ W h) (constant ⟨2, ![n, M]⟩ .f32 0x00000000#32))
      (broadcastTo ⟨2, ![n, M]⟩ b hb) : FVec Ideal ⟨2, ![n, M]⟩ .f32) = rowAffine (ψ := .f32) X W b := by
  funext i
  obtain ⟨p, q, rfl⟩ : ∃ (p : Fin n) (q : Fin M), i = ix2 p q := ⟨i 0, i 1, eq_ix2 i⟩
  show FloatOps.matmul (F := Ideal) (matDot wf) none (truncf ψ X h) (truncf ψ W h)
      (constant ⟨2, ![n, M]⟩ .f32 0x00000000#32) (ix2 p q) + broadcastTo ⟨2, ![n, M]⟩ b hb (ix2 p q) = _
  rw [matmul_plain_zero_apply, broadcastTo_1b_ab_apply]
  rfl

/-- The entrywise larger of an array and the zero word broadcast over it is the relu of the array. -/
theorem reluBlock_eq (Y : FVec Ideal ⟨2, ![n, M]⟩ .f32) (c : Ideal .f32) (hc : c = Ideal.ofBits .f32 0x00000000#32) :
    (maximumf Y (broadcast ⟨2, ![n, M]⟩ c) : FVec Ideal ⟨2, ![n, M]⟩ .f32) = reluOf Y := by
  subst hc; rfl

end Cert.Lib

end
-- ==== Proof.KPredPay.lean ====
/-
  The predictor's block computation, as arrays.

  On a block of 512 rows the body forms `relu(drug·W₁ₐ + prot·W₁ᵦ + b₁)` — two products into zero accumulators added,
  then the bias row —, then `relu(·W₂ + b₂)`, then `·W₃ + b₃`, the last bias added after the third product. Every
  conversion to the narrower format on the way into a product is the identity on the extended reals. So the stored block
  is the specification's predictor of the loaded blocks.
-/
import proofs.«153049_j20907900797458_1_alg».proof.Proof.Gen.KernelIdeal.Skeleton
import proofs.«153049_j20907900797458_1_alg».proof.Proof.Spec
import proofs.«153049_j20907900797458_1_alg».proof.Proof.LibRowBiasLayers
import proofs.«153049_j20907900797458_1_alg».proof.Proof.LibDenseBlock
import Idealize.ShloMosaic.Lib.Pipeline.Value
import Idealize.ShloMosaic.Lib.ValueLayout

noncomputable section

namespace Cert.KernelIdeal.Pred

open Cert.KernelIdeal Cert.KernelIdeal.Gen Idealize.ShloMosaic
open Idealize.ShloMosaic.ValueIdx Cert.Lib
open scoped BigOperators

/-- Two products into zero accumulators, added, plus the bias row stretched down the rows: the predictor's first layer
    before its relu. -/
theorem twoDense_eq {n K M : ℕ} (wf : DotDims.WF ⟨2, ![n, K]⟩ ⟨2, ![K, M]⟩ ⟨2, ![n, M]⟩ [1] [0] [0] [1] [] []) {ψ : FTy}
    (h : ψ.bits < FTy.f32.bits) (X Y : FVec Ideal ⟨2, ![n, K]⟩ .f32) (Wa Wb : FVec Ideal ⟨2, ![K, M]⟩ .f32)
    (b : FVec Ideal ⟨2, ![1, M]⟩ .f32) (hb : (⟨2, ![1, M]⟩ : Shape).Broadcasts ⟨2, ![n, M]⟩) :
    (addf (addf (matmul (matDot wf) none (truncf ψ X h) (truncf ψ Wa h) (constant ⟨2, ![n, M]⟩ .f32 0x00000000#32))
        (matmul (matDot wf) none (truncf ψ Y h) (truncf ψ Wb h) (constant ⟨2, ![n, M]⟩ .f32 0x00000000#32)))
      (broadcastTo ⟨2, ![n, M]⟩ b hb) : FVec Ideal ⟨2, ![n, M]⟩ .f32) = Cert.Spec.twoAffine X Y Wa Wb b := by
  funext i
  obtain ⟨p, q, rfl⟩ : ∃ (p : Fin n) (q : Fin M), i = ix2 p q := ⟨i 0, i 1, eq_ix2 i⟩
  show FloatOps.matmul (F := Ideal) (matDot wf) none (truncf ψ X h) (truncf ψ Wa h)
        (constant ⟨2, ![n, M]⟩ .f32 0x00000000#32) (ix2 p q)
      + FloatOps.matmul (F := Ideal) (matDot wf) none (truncf ψ Y h) (truncf ψ Wb h)
        (constant ⟨2, ![n, M]⟩ .f32 0x00000000#32) (ix2 p q)
      + broadcastTo ⟨2, ![n, M]⟩ b hb (ix2 p q) = _
  rw [matmul_plain_zero_apply, matmul_plain_zero_apply, broadcastTo_1b_ab_apply]
  rfl

/-- The body's stored block is the specification's predictor of the loaded blocks. -/
theorem predPay_eq (x0 x1 : Vec Ideal S512x256 .f32) (x2 x3 : Vec Ideal S256x1024 .f32) (x4 : Vec Ideal S1x1024 .f32)
    (x5 : Vec Ideal S1024x512 .f32) (x6 : Vec Ideal S1x512 .f32) (x7 : Vec Ideal S512x1 .f32) (x8 : Vec Ideal S1x1 .f32) :
    k5_pay1 (k5_pay2 x0 x1 x2 x3 x4 x5 x6 x7) x8 = Cert.Spec.predLayer x0 x1 x2 x3 x4 x5 x6 x7 x8 := by
  unfold k5_pay1 k5_pay2 Cert.Spec.predLayer
  simp only [shapeCast_self]
  rw [show dot_S512x256_S256x1024_S512x1024_1_0_0_1_n_n = matDot dot_S512x256_S256x1024_S512x1024_1_0_0_1_n_n_wf from rfl,
    show dot_S512x1024_S1024x512_S512x512_1_0_0_1_n_n = matDot dot_S512x1024_S1024x512_S512x512_1_0_0_1_n_n_wf from rfl,
    show dot_S512x512_S512x1_S512x1_1_0_0_1_n_n = matDot dot_S512x512_S512x1_S512x1_1_0_0_1_n_n_wf from rfl]
  rw [twoDense_eq, reluBlock_eq _ (FloatOps.ofBits (F := Ideal) .f32 0x00000000#32) rfl, denseBlock_eq,
    reluBlock_eq _ (FloatOps.ofBits (F := Ideal) .f32 0x00000000#32) rfl, denseBlock_eq]

end Cert.KernelIdeal.Pred

end
-- ==== Proof.KPred.lean ====
/-
  The predictor region, closed: its output array as one function of its input arrays.

  The region runs the predictor's body at four grid points. At point `t` the body reads rows `512 t … 512 t + 511` of
  the drug array and of the protein array (256 columns each), the whole of the two first-layer weight halves, the second
  and third weight matrices and the three bias rows, and writes rows `512 t … 512 t + 511` of the `[2048, 1]` output.
  The stored block is the specification's predictor of the loaded blocks; the predictor's output row reads only the same
  row of each of its two inputs; so what point `t` writes back is block `t` of the predictor of the whole arrays. The
  four blocks cover the 2048 rows (row `r` lies in the block of point `r / 512`), hence the output array after the region
  is the predictor of the arrays the region found.
-/
import proofs.«153049_j20907900797458_1_alg».proof.Proof.Gen.KernelIdeal.Frame
import proofs.«153049_j20907900797458_1_alg».proof.Proof.Spec
import proofs.«153049_j20907900797458_1_alg».proof.Proof.KPredPay
import proofs.«153049_j20907900797458_1_alg».proof.Proof.ProjPredRows
import Idealize.ShloMosaic.Lib.Pipeline.Value

noncomputable section

namespace Cert.KernelIdeal.Pred

open Cert.KernelIdeal Cert.KernelIdeal.Gen Idealize.ShloMosaic Idealize.ShloMosaic.TcCoe Idealize.SL.Sem
open Idealize.ShloMosaic.ValueIdx Cert.Lib
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two input blocks and the output block move with the point along the
    rows, the weights and bias rows stay at block (0, 0). -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-- The drug window's block at point `t` is rows `512 t … 512 t + 511` of its array. -/
theorem iblk0_apply (c : Dev nD) (t : Fin cfg5.N) (p : Fin 512) (k : Fin 256) (i : S2048x256.Idx)
    (hi0 : (i 0).val = 512 * t.val + p.val) (hi1 : (i 1).val = k.val) :
    (iblk5 V c 0 t : Vec Ideal S512x256 .f32) (ix2 p k) = (V c (Pipeline.arrRef spec5 0) : S2048x256.Idx → EReal) i := by
  obtain ⟨e0, e1, -⟩ := idx_facts t
  unfold iblk5
  rw [View.read_apply]
  show (V c (Pipeline.arrRef spec5 0) : S2048x256.Idx → EReal) (((cfg5.win 0).blk t).view.emb (ix2 p k)) = _
  refine congrArg _ ?_
  funext a; apply Fin.ext
  match a with
  | ⟨0, _⟩ => show win5_0.index t (0 : Fin 2) * 512 + 1 * p.val = (i 0).val; rw [e0, hi0]; omega
  | ⟨1, _⟩ => show win5_0.index t (1 : Fin 2) * 256 + 1 * k.val = (i 1).val; rw [e1, hi1]; omega

/-- The protein window's block at point `t` is rows `512 t … 512 t + 511` of its array. -/
theorem iblk1_apply (c : Dev nD) (t : Fin cfg5.N) (p : Fin 512) (k : Fin 256) (i : S2048x256.Idx)
    (hi0 : (i 0).val = 512 * t.val + p.val) (hi1 : (i 1).val = k.val) :
    (iblk5 V c 1 t : Vec Ideal S512x256 .f32) (ix2 p k) = (V c (Pipeline.arrRef spec5 1) : S2048x256.Idx → EReal) i := by
  obtain ⟨-, -, e0, e1, -⟩ := idx_facts t
  unfold iblk5
  rw [View.read_apply]
  show (V c (Pipeline.arrRef spec5 1) : S2048x256.Idx → EReal) (((cfg5.win 1).blk t).view.emb (ix2 p k)) = _
  refine congrArg _ ?_
  funext a; apply Fin.ext
  match a with
  | ⟨0, _⟩ => show win5_1.index t (0 : Fin 2) * 512 + 1 * p.val = (i 0).val; rw [e0, hi0]; omega
  | ⟨1, _⟩ => show win5_1.index t (1 : Fin 2) * 256 + 1 * k.val = (i 1).val; rw [e1, hi1]; omega

/-- The first weight half's block at every point is the whole array; -/
theorem iblk2_eq (c : Dev nD) (t : Fin cfg5.N) :
    (iblk5 V c 2 t : Vec Ideal S256x1024 .f32) = (V c (Pipeline.arrRef spec5 2) : S256x1024.Idx → EReal) := by
  obtain ⟨-, -, -, -, e0, e1, -⟩ := idx_facts t
  unfold iblk5
  funext j
  rw [View.read_apply]
  show (V c (Pipeline.arrRef spec5 2) : S256x1024.Idx → EReal) (((cfg5.win 2).blk t).view.emb j) = _
  refine congrArg _ ?_
  funext a; apply Fin.ext
  match a with
  | ⟨0, _⟩ => show win5_2.index t (0 : Fin 2) * 256 + 1 * (j 0).val = (j 0).val; rw [e0]; omega
  | ⟨1, _⟩ => show win5_2.index t (1 : Fin 2) * 1024 + 1 * (j 1).val = (j 1).val; rw [e1]; omega

/-- so is the second half's, -/
theorem iblk3_eq (c : Dev nD) (t : Fin cfg5.N) :
    (iblk5 V c 3 t : Vec Ideal S256x1024 .f32) = (V c (Pipeline.arrRef spec5 3) : S256x1024.Idx → EReal) := by
  obtain ⟨-, -, -, -, -, -, e0, e1, -⟩ := idx_facts t
  unfold iblk5
  funext j
  rw [View.read_apply]
  show (V c (Pipeline.arrRef spec5 3) : S256x1024.Idx → EReal) (((cfg5.win 3).blk t).view.emb j) = _
  refine congrArg _ ?_
  funext a; apply Fin.ext
  match a with
  | ⟨0, _⟩ => show win5_3.index t (0 : Fin 2) * 256 + 1 * (j 0).val = (j 0).val; rw [e0]; omega
  | ⟨1, _⟩ => show win5_3.index t (1 : Fin 2) * 1024 + 1 * (j 1).val = (j 1).val; rw [e1]; omega

/-- the first bias row's, -/
theorem iblk4_eq (c : Dev nD) (t : Fin cfg5.N) :
    (iblk5 V c 4 t : Vec Ideal S1x1024 .f32) = (V c (Pipeline.arrRef spec5 4) : S1x1024.Idx → EReal) := by
  obtain ⟨-, -, -, -, -, -, -, -, e0, e1, -⟩ := idx_facts t
  unfold iblk5
  funext j
  rw [View.read_apply]
  show (V c (Pipeline.arrRef spec5 4) : S1x1024.Idx → EReal) (((cfg5.win 4).blk t).view.emb j) = _
  refine congrArg _ ?_
  funext a; apply Fin.ext
  match a with
  | ⟨0, _⟩ => show win5_4.index t (0 : Fin 2) * 1 + 1 * (j 0).val = (j 0).val; rw [e0]; omega
  | ⟨1, _⟩ => show win5_4.index t (1 : Fin 2) * 1024 + 1 * (j 1).val = (j 1).val; rw [e1]; omega

/-- the second weight matrix's, -/
theorem iblk5_eq (c : Dev nD) (t : Fin cfg5.N) :
    (iblk5 V c 5 t : Vec Ideal S1024x512 .f32) = (V c (Pipeline.arrRef spec5 5) : S1024x512.Idx → EReal) := by
  obtain ⟨-, -, -, -, -, -, -, -, -, -, e0, e1, -⟩ := idx_facts t
  unfold iblk5
  funext j
  rw [View.read_apply]
  show (V c (Pipeline.arrRef spec5 5) : S1024x512.Idx → EReal) (((cfg5.win 5).blk t).view.emb j) = _
  refine congrArg _ ?_
  funext a; apply Fin.ext
  match a with
  | ⟨0, _⟩ => show win5_5.index t (0 : Fin 2) * 1024 + 1 * (j 0).val = (j 0).val; rw [e0]; omega
  | ⟨1, _⟩ => show win5_5.index t (1 : Fin 2) * 512 + 1 * (j 1).val = (j 1).val; rw [e1]; omega

/-- the second bias row's, -/
theorem iblk6_eq (c : Dev nD) (t : Fin cfg5.N) :
    (iblk5 V c 6 t : Vec Ideal S1x512 .f32) = (V c (Pipeline.arrRef spec5 6) : S1x512.Idx → EReal) := by
  obtain ⟨-, -, -, -, -, -, -, -, -, -, -, -, e0, e1, -⟩ := idx_facts t
  unfold iblk5
  funext j
  rw [View.read_apply]
  show (V c (Pipeline.arrRef spec5 6) : S1x512.Idx → EReal) (((cfg5.win 6).blk t).view.emb j) = _
  refine congrArg _ ?_
  funext a; apply Fin.ext
  match a with
  | ⟨0, _⟩ => show win5_6.index t (0 : Fin 2) * 1 + 1 * (j 0).val = (j 0).val; rw [e0]; omega
  | ⟨1, _⟩ => show win5_6.index t (1 : Fin 2) * 512 + 1 * (j 1).val = (j 1).val; rw [e1]; omega

/-- the third weight column's, -/
theorem iblk7_eq (c : Dev nD) (t : Fin cfg5.N) :
    (iblk5 V c 7 t : Vec Ideal S512x1 .f32) = (V c (Pipeline.arrRef spec5 7) : S512x1.Idx → EReal) := by
  obtain ⟨-, -, -, -, -, -, -, -, -, -, -, -, -, -, e0, e1, -⟩ := idx_facts t
  unfold iblk5
  funext j
  rw [View.read_apply]
  show (V c (Pipeline.arrRef spec5 7) : S512x1.Idx → EReal) (((cfg5.win 7).blk t).view.emb j) = _
  refine congrArg _ ?_
  funext a; apply Fin.ext
  match a with
  | ⟨0, _⟩ => show win5_7.index t (0 : Fin 2) * 512 + 1 * (j 0).val = (j 0).val; rw [e0]; omega
  | ⟨1, _⟩ => show win5_7.index t (1 : Fin 2) * 1 + 1 * (j 1).val = (j 1).val; rw [e1]; omega

/-- and the last bias's. -/
theorem iblk8_eq (c : Dev nD) (t : Fin cfg5.N) :
    (iblk5 V c 8 t : Vec Ideal S1x1 .f32) = (V c (Pipeline.arrRef spec5 8) : S1x1.Idx → EReal) := by
  obtain ⟨-, -, -, -, -, -, -, -, -, -, -, -, -, -, -, -, e0, e1, -⟩ := idx_facts t
  unfold iblk5
  funext j
  rw [View.read_apply]
  show (V c (Pipeline.arrRef spec5 8) : S1x1.Idx → EReal) (((cfg5.win 8).blk t).view.emb j) = _
  refine congrArg _ ?_
  funext a; apply Fin.ext
  match a with
  | ⟨0, _⟩ => show win5_8.index t (0 : Fin 2) * 1 + 1 * (j 0).val = (j 0).val; rw [e0]; omega
  | ⟨1, _⟩ => show win5_8.index t (1 : Fin 2) * 1 + 1 * (j 1).val = (j 1).val; rw [e1]; omega

/-- At a point `t` the body's stored value at (p, q) is the predictor of the whole arrays at row `512 t + p`: the stored
    block is the predictor of the loaded blocks, and row p of each input block is row `512 t + p` of its array, which is
    all that output row reads. -/
theorem flushed_point (c : Dev nD) (t : Fin cfg5.N) (p : Fin 512) (q : Fin 1) :
    k5_pay1 (k5_pay2 (iblk5 V c 0 t) (iblk5 V c 1 t) (V c (Pipeline.arrRef spec5 2)) (V c (Pipeline.arrRef spec5 3)) (V c (Pipeline.arrRef spec5 4))
      (V c (Pipeline.arrRef spec5 5)) (V c (Pipeline.arrRef spec5 6)) (V c (Pipeline.arrRef spec5 7))) (V c (Pipeline.arrRef spec5 8)) (ix2 p q)
    = Cert.Spec.predLayer (V c (Pipeline.arrRef spec5 0)) (V c (Pipeline.arrRef spec5 1)) (V c (Pipeline.arrRef spec5 2))
      (V c (Pipeline.arrRef spec5 3)) (V c (Pipeline.arrRef spec5 4)) (V c (Pipeline.arrRef spec5 5))
      (V c (Pipeline.arrRef spec5 6)) (V c (Pipeline.arrRef spec5 7)) (V c (Pipeline.arrRef spec5 8)) (((cfg5.win 9).blk t).view.emb (ix2 p q)) := by
  have e0 : win5_9.index t (0 : Fin 2) = t.val := (idx_facts t).2.2.2.2.2.2.2.2.2.2.2.2.2.2.2.2.2.2.1
  have e1 : win5_9.index t (1 : Fin 2) = 0 := (idx_facts t).2.2.2.2.2.2.2.2.2.2.2.2.2.2.2.2.2.2.2
  have hp : 512 * t.val + p.val < 2048 := by have := t.isLt; have hN : cfg5.N = 4 := N_5; omega
  have hemb : ((cfg5.win 9).blk t).view.emb (ix2 p q) = (ix2 ⟨512 * t.val + p.val, hp⟩ q : S2048x1.Idx) := by
    funext a; apply Fin.ext
    match a with
    | ⟨0, _⟩ => show win5_9.index t (0 : Fin 2) * 512 + 1 * p.val = 512 * t.val + p.val; rw [e0]; omega
    | ⟨1, _⟩ => show win5_9.index t (1 : Fin 2) * 1 + 1 * q.val = q.val; rw [e1]; omega
  rw [hemb]
  refine (congrFun (predPay_eq (iblk5 V c 0 t) (iblk5 V c 1 t) (V c (Pipeline.arrRef spec5 2)) (V c (Pipeline.arrRef spec5 3)) (V c (Pipeline.arrRef spec5 4))
    (V c (Pipeline.arrRef spec5 5)) (V c (Pipeline.arrRef spec5 6)) (V c (Pipeline.arrRef spec5 7)) (V c (Pipeline.arrRef spec5 8))) (ix2 p q)).trans ?_
  exact Cert.ProjPredRows.predLayer_congr_row _ _ _ _ _ _ _ _ _ _ _ p ⟨512 * t.val + p.val, hp⟩
    (fun k => iblk0_apply V c t p k (ix2 ⟨512 * t.val + p.val, hp⟩ k) rfl rfl)
    (fun k => iblk1_apply V c t p k (ix2 ⟨512 * t.val + p.val, hp⟩ k) rfl rfl) q

/-- WHAT POINT `t` WRITES BACK is block `t` of the predictor of the arrays as the region finds them: the resident
    blocks are the whole weight and bias arrays, and entry by entry the stored block is the predictor at the block's rows. -/
theorem flushed_eq (c : Dev nD) (t : Fin cfg5.N) :
    (dat5 (F := Ideal) V c).flushed 9 t = ((cfg5.win 9).blk t).view.read (Elt Ideal)
      (Cert.Spec.predLayer (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6)) (V c (Pipeline.arrRef spec5 7)) (V c (Pipeline.arrRef spec5 8))) := by
  show (cfg5.win 9).cut (grid5.coords t) ((dat5 V c).after 9 t) = _
  rw [after5_9]
  unfold out5_9
  rw [View.canon_unit_zero hz]
  simp only [View.ld_unit_zero (S := S512x256) hz, View.ld_unit_zero (S := S256x1024) hz, View.ld_unit_zero (S := S1x1024) hz,
    View.ld_unit_zero (S := S1024x512) hz, View.ld_unit_zero (S := S1x512) hz, View.ld_unit_zero (S := S512x1) hz,
    View.ld_unit_zero (S := S1x1) hz]
  simp only [iblk2_eq, iblk3_eq, iblk4_eq, iblk5_eq, iblk6_eq, iblk7_eq, iblk8_eq]
  funext j
  have hj : j = (ix2 (j 0) (j 1) : S512x1.Idx) := eq_ix2 (n0 := 512) (n1 := 1) j
  rw [hj]
  exact flushed_point V c t (j 0) (j 1)

/-- An index of the output array is in point `t`'s block iff each coordinate is in the block's range on its axis. -/
theorem mem_blk (t : Fin cfg5.N) (i : S2048x1.Idx) :
    i ∈ ((cfg5.win 9).blk t).view.set ↔ ∀ a : Fin 2, win5_9.index t a * S512x1.size a ≤ (i a).val
      ∧ (i a).val < win5_9.index t a * S512x1.size a + S512x1.size a := by
  show i ∈ ((View.whole main_v112).slice (win5_9.rect t)).set ↔ _
  rw [View.set_slice_whole, Rect.mem_set_unit]
  exact Iff.rfl

/-- The four blocks of 512 rows cover the 2048 rows: row `r` is in the block of point `r / 512`. -/
theorem cover (i : S2048x1.Idx) :
    ∃ t : Fin cfg5.N, (cfg5.win 9).flush t = true ∧ i ∈ ((cfg5.win 9).blk t).view.set := by
  have hi0 : (i 0).val < 2048 := (i 0).isLt
  have hi1 : (i 1).val < 1 := (i 1).isLt
  have hN : cfg5.N = 4 := N_5
  have ht : (i 0).val / 512 < cfg5.N := by rw [hN]; omega
  obtain ⟨-, -, -, -, -, -, -, -, -, -, -, -, -, -, -, -, -, -, e0, e1⟩ := idx_facts ⟨(i 0).val / 512, ht⟩
  refine ⟨⟨(i 0).val / 512, ht⟩, flush5_9 _, ?_⟩
  rw [mem_blk]
  intro a
  match a with
  | ⟨0, _⟩ =>
    show win5_9.index ⟨(i 0).val / 512, ht⟩ (0 : Fin 2) * 512 ≤ (i 0).val
      ∧ (i 0).val < win5_9.index ⟨(i 0).val / 512, ht⟩ (0 : Fin 2) * 512 + 512
    rw [e0]; show (i 0).val / 512 * 512 ≤ (i 0).val ∧ (i 0).val < (i 0).val / 512 * 512 + 512; omega
  | ⟨1, _⟩ =>
    show win5_9.index ⟨(i 0).val / 512, ht⟩ (1 : Fin 2) * 1 ≤ (i 1).val
      ∧ (i 1).val < win5_9.index ⟨(i 0).val / 512, ht⟩ (1 : Fin 2) * 1 + 1
    rw [e1]; omega

/-- THE OUTPUT ARRAY after the region: the predictor of the region's nine input arrays as the region finds them. -/
theorem final5 (c : Dev nD) : (dat5 (F := Ideal) V c).arrAt 9 cfg5.N
    = Cert.Spec.predLayer (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        (V c (Pipeline.arrRef spec5 6)) (V c (Pipeline.arrRef spec5 7)) (V c (Pipeline.arrRef spec5 8)) :=
  (dat5 V c).arrAt_eq_of_cover 9 _ (fun t _ => flushed_eq V c t) cover

end Cert.KernelIdeal.Pred

end
-- ==== Proof.KChain.lean ====
/-
  The idealized kernel program's result as the network's function of the launch contents.

  Walking the segments in order: a region's output array ends at the region's dense layer of its entry arrays (the closed forms),
  and each entry array is either an argument as launched, an earlier region's output, or a host stretch's operations of those —
  the neighbourhood sums of the previous node features, a slab of the stacked weights, a vector laid as a row, the pooled node
  features, the two halves of the predictor's first weight matrix. Composed, the result buffer holds `Cert.Net.out` of the arguments.
-/
import proofs.«153049_j20907900797458_1_alg».proof.Proof.Gen.KernelIdeal.Frame
import proofs.«153049_j20907900797458_1_alg».proof.Proof.Net
import proofs.«153049_j20907900797458_1_alg».proof.Proof.KPass
import proofs.«153049_j20907900797458_1_alg».proof.Proof.KGin0
import proofs.«153049_j20907900797458_1_alg».proof.Proof.KGin1
import proofs.«153049_j20907900797458_1_alg».proof.Proof.KGin2
import proofs.«153049_j20907900797458_1_alg».proof.Proof.KGin3
import proofs.«153049_j20907900797458_1_alg».proof.Proof.KProj
import proofs.«153049_j20907900797458_1_alg».proof.Proof.KPred
import Idealize.ShloMosaic.Lib.StableHlo.Run

noncomputable section

namespace Cert.KernelIdeal.Chain

open Idealize.ShloMosaic Idealize.ShloMosaic.TcCoe Idealize.SL.Sem Idealize.ShloMosaic.StableHlo
open Cert.KernelIdeal Cert.KernelIdeal.Gen Cert.Net Cert.KernelIdeal.Closed Cert.KernelIdeal.Proj Cert.KernelIdeal.Pred

variable (m : (ℓ : Loc nD τ sig) → Buf (Elt Ideal) ℓ) (ρ : Dev nD → PrngReg) (c : Dev nD)

/-- The node features after layer 0. -/
def H1 : CR S50000x256 :=
  layer0 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

set_option maxHeartbeats 4000000 in
theorem h1_W2 : W2 m ρ c (Proc.devRef .tc main_v18) = H1 m c := by
  have e0 : V1 m ρ c (Pipeline.arrRef spec0 0) = (m ((c : Thread nD τ).loc main_arg0)) := by
    show StableHlo.after hostOps0 (W0 m ρ c) (Proc.devRef .tc main_arg0) = _
    after_results_simp
    all_goals rfl
  have e1 : V1 m ρ c (Pipeline.arrRef spec0 1) = agg70 (m ((c : Thread nD τ).loc main_arg0)) (m ((c : Thread nD τ).loc main_arg1)) := by
    show StableHlo.after hostOps0 (W0 m ρ c) (Proc.devRef .tc main_v13) = _
    after_results_simp
    all_goals rfl
  have e2 : V1 m ρ c (Pipeline.arrRef spec0 2) = (m ((c : Thread nD τ).loc main_arg4)) := by
    show StableHlo.after hostOps0 (W0 m ρ c) (Proc.devRef .tc main_arg4) = _
    after_results_simp
    all_goals rfl
  have e3 : V1 m ρ c (Pipeline.arrRef spec0 3) = row (m ((c : Thread nD τ).loc main_arg5)) := by
    show StableHlo.after hostOps0 (W0 m ρ c) (Proc.devRef .tc main_v14) = _
    after_results_simp
    all_goals rfl
  have e4 : V1 m ρ c (Pipeline.arrRef spec0 4) = (m ((c : Thread nD τ).loc main_arg6)) := by
    show StableHlo.after hostOps0 (W0 m ρ c) (Proc.devRef .tc main_arg6) = _
    after_results_simp
    all_goals rfl
  have e5 : V1 m ρ c (Pipeline.arrRef spec0 5) = row (m ((c : Thread nD τ).loc main_arg7)) := by
    show StableHlo.after hostOps0 (W0 m ρ c) (Proc.devRef .tc main_v15) = _
    after_results_simp
    all_goals rfl
  have e6 : V1 m ρ c (Pipeline.arrRef spec0 6) = row (m ((c : Thread nD τ).loc main_arg8)) := by
    show StableHlo.after hostOps0 (W0 m ρ c) (Proc.devRef .tc main_v16) = _
    after_results_simp
    all_goals rfl
  have e7 : V1 m ρ c (Pipeline.arrRef spec0 7) = row (m ((c : Thread nD τ).loc main_arg9)) := by
    show StableHlo.after hostOps0 (W0 m ρ c) (Proc.devRef .tc main_v17) = _
    after_results_simp
    all_goals rfl
  refine (W2_arr m ρ c 8).trans ((final0 (V1 m ρ) c).trans ?_)
  rw [e0, e1, e2, e3, e4, e5, e6, e7]
  rfl

/-- The node features after residual layer 1. -/
def H2 : CR S50000x256 :=
  resLayer ![0, 0, 0] slices_S3x256x256_S1x256x256_0_0_0 ![0, 0] slices_S3x256_S1x256_0_0 (H1 m c) (m ((c : Thread nD τ).loc main_arg1)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

set_option maxHeartbeats 4000000 in
theorem h2_W4 : W4 m ρ c (Proc.devRef .tc main_v45) = H2 m c := by
  have e0 : V3 m ρ c (Pipeline.arrRef spec1 0) = H1 m c := by
    show StableHlo.after hostOps1 (W2 m ρ c) (Proc.devRef .tc main_v18) = _
    after_results_simp
    exact h1_W2 m ρ c
  have e1 : V3 m ρ c (Pipeline.arrRef spec1 1) = agg256 (H1 m c) (m ((c : Thread nD τ).loc main_arg1)) := by
    show StableHlo.after hostOps1 (W2 m ρ c) (Proc.devRef .tc main_v40) = _
    after_results_simp
    rw [h1_W2 m ρ c, v1_W2 m ρ c, v3_W2 m ρ c]
    all_goals rfl
  have e2 : V3 m ρ c (Pipeline.arrRef spec1 2) = slabW ![0, 0, 0] slices_S3x256x256_S1x256x256_0_0_0 (m ((c : Thread nD τ).loc main_arg10)) := by
    show StableHlo.after hostOps1 (W2 m ρ c) (Proc.devRef .tc main_v20) = _
    after_results_simp
    rw [arg10_W2 m ρ c]
    all_goals rfl
  have e3 : V3 m ρ c (Pipeline.arrRef spec1 3) = row (slabV ![0, 0] slices_S3x256_S1x256_0_0 (m ((c : Thread nD τ).loc main_arg11))) := by
    show StableHlo.after hostOps1 (W2 m ρ c) (Proc.devRef .tc main_v41) = _
    after_results_simp
    rw [arg11_W2 m ρ c]
    all_goals rfl
  have e4 : V3 m ρ c (Pipeline.arrRef spec1 4) = slabW ![0, 0, 0] slices_S3x256x256_S1x256x256_0_0_0 (m ((c : Thread nD τ).loc main_arg12)) := by
    show StableHlo.after hostOps1 (W2 m ρ c) (Proc.devRef .tc main_v24) = _
    after_results_simp
    rw [arg12_W2 m ρ c]
    all_goals rfl
  have e5 : V3 m ρ c (Pipeline.arrRef spec1 5) = row (slabV ![0, 0] slices_S3x256_S1x256_0_0 (m ((c : Thread nD τ).loc main_arg13))) := by
    show StableHlo.after hostOps1 (W2 m ρ c) (Proc.devRef .tc main_v42) = _
    after_results_simp
    rw [arg13_W2 m ρ c]
    all_goals rfl
  have e6 : V3 m ρ c (Pipeline.arrRef spec1 6) = row (slabV ![0, 0] slices_S3x256_S1x256_0_0 (m ((c : Thread nD τ).loc main_arg14))) := by
    show StableHlo.after hostOps1 (W2 m ρ c) (Proc.devRef .tc main_v43) = _
    after_results_simp
    rw [arg14_W2 m ρ c]
    all_goals rfl
  have e7 : V3 m ρ c (Pipeline.arrRef spec1 7) = row (slabV ![0, 0] slices_S3x256_S1x256_0_0 (m ((c : Thread nD τ).loc main_arg15))) := by
    show StableHlo.after hostOps1 (W2 m ρ c) (Proc.devRef .tc main_v44) = _
    after_results_simp
    rw [arg15_W2 m ρ c]
    all_goals rfl
  refine (W4_arr m ρ c 8).trans ((final1 (V3 m ρ) c).trans ?_)
  rw [e0, e1, e2, e3, e4, e5, e6, e7]
  rfl

/-- The node features after residual layer 2. -/
def H3 : CR S50000x256 :=
  resLayer ![1, 0, 0] slices_S3x256x256_S1x256x256_1_0_0 ![1, 0] slices_S3x256_S1x256_1_0 (H2 m c) (m ((c : Thread nD τ).loc main_arg1)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

set_option maxHeartbeats 4000000 in
theorem h3_W6 : W6 m ρ c (Proc.devRef .tc main_v72) = H3 m c := by
  have e0 : V5 m ρ c (Pipeline.arrRef spec2 0) = H2 m c := by
    show StableHlo.after hostOps2 (W4 m ρ c) (Proc.devRef .tc main_v45) = _
    after_results_simp
    exact h2_W4 m ρ c
  have e1 : V5 m ρ c (Pipeline.arrRef spec2 1) = agg256 (H2 m c) (m ((c : Thread nD τ).loc main_arg1)) := by
    show StableHlo.after hostOps2 (W4 m ρ c) (Proc.devRef .tc main_v67) = _
    after_results_simp
    rw [h2_W4 m ρ c, v1_W4 m ρ c, v3_W4 m ρ c]
    all_goals rfl
  have e2 : V5 m ρ c (Pipeline.arrRef spec2 2) = slabW ![1, 0, 0] slices_S3x256x256_S1x256x256_1_0_0 (m ((c : Thread nD τ).loc main_arg10)) := by
    show StableHlo.after hostOps2 (W4 m ρ c) (Proc.devRef .tc main_v47) = _
    after_results_simp
    rw [arg10_W4 m ρ c]
    all_goals rfl
  have e3 : V5 m ρ c (Pipeline.arrRef spec2 3) = row (slabV ![1, 0] slices_S3x256_S1x256_1_0 (m ((c : Thread nD τ).loc main_arg11))) := by
    show StableHlo.after hostOps2 (W4 m ρ c) (Proc.devRef .tc main_v68) = _
    after_results_simp
    rw [arg11_W4 m ρ c]
    all_goals rfl
  have e4 : V5 m ρ c (Pipeline.arrRef spec2 4) = slabW ![1, 0, 0] slices_S3x256x256_S1x256x256_1_0_0 (m ((c : Thread nD τ).loc main_arg12)) := by
    show StableHlo.after hostOps2 (W4 m ρ c) (Proc.devRef .tc main_v51) = _
    after_results_simp
    rw [arg12_W4 m ρ c]
    all_goals rfl
  have e5 : V5 m ρ c (Pipeline.arrRef spec2 5) = row (slabV ![1, 0] slices_S3x256_S1x256_1_0 (m ((c : Thread nD τ).loc main_arg13))) := by
    show StableHlo.after hostOps2 (W4 m ρ c) (Proc.devRef .tc main_v69) = _
    after_results_simp
    rw [arg13_W4 m ρ c]
    all_goals rfl
  have e6 : V5 m ρ c (Pipeline.arrRef spec2 6) = row (slabV ![1, 0] slices_S3x256_S1x256_1_0 (m ((c : Thread nD τ).loc main_arg14))) := by
    show StableHlo.after hostOps2 (W4 m ρ c) (Proc.devRef .tc main_v70) = _
    after_results_simp
    rw [arg14_W4 m ρ c]
    all_goals rfl
  have e7 : V5 m ρ c (Pipeline.arrRef spec2 7) = row (slabV ![1, 0] slices_S3x256_S1x256_1_0 (m ((c : Thread nD τ).loc main_arg15))) := by
    show StableHlo.after hostOps2 (W4 m ρ c) (Proc.devRef .tc main_v71) = _
    after_results_simp
    rw [arg15_W4 m ρ c]
    all_goals rfl
  refine (W6_arr m ρ c 8).trans ((final2 (V5 m ρ) c).trans ?_)
  rw [e0, e1, e2, e3, e4, e5, e6, e7]
  rfl

/-- The node features after residual layer 3. -/
def H4 : CR S50000x256 :=
  resLayer ![2, 0, 0] slices_S3x256x256_S1x256x256_2_0_0 ![2, 0] slices_S3x256_S1x256_2_0 (H3 m c) (m ((c : Thread nD τ).loc main_arg1)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

set_option maxHeartbeats 4000000 in
theorem h4_W8 : W8 m ρ c (Proc.devRef .tc main_v99) = H4 m c := by
  have e0 : V7 m ρ c (Pipeline.arrRef spec3 0) = H3 m c := by
    show StableHlo.after hostOps3 (W6 m ρ c) (Proc.devRef .tc main_v72) = _
    after_results_simp
    exact h3_W6 m ρ c
  have e1 : V7 m ρ c (Pipeline.arrRef spec3 1) = agg256 (H3 m c) (m ((c : Thread nD τ).loc main_arg1)) := by
    show StableHlo.after hostOps3 (W6 m ρ c) (Proc.devRef .tc main_v94) = _
    after_results_simp
    rw [h3_W6 m ρ c, v1_W6 m ρ c, v3_W6 m ρ c]
    all_goals rfl
  have e2 : V7 m ρ c (Pipeline.arrRef spec3 2) = slabW ![2, 0, 0] slices_S3x256x256_S1x256x256_2_0_0 (m ((c : Thread nD τ).loc main_arg10)) := by
    show StableHlo.after hostOps3 (W6 m ρ c) (Proc.devRef .tc main_v74) = _
    after_results_simp
    rw [arg10_W6 m ρ c]
    all_goals rfl
  have e3 : V7 m ρ c (Pipeline.arrRef spec3 3) = row (slabV ![2, 0] slices_S3x256_S1x256_2_0 (m ((c : Thread nD τ).loc main_arg11))) := by
    show StableHlo.after hostOps3 (W6 m ρ c) (Proc.devRef .tc main_v95) = _
    after_results_simp
    rw [arg11_W6 m ρ c]
    all_goals rfl
  have e4 : V7 m ρ c (Pipeline.arrRef spec3 4) = slabW ![2, 0, 0] slices_S3x256x256_S1x256x256_2_0_0 (m ((c : Thread nD τ).loc main_arg12)) := by
    show StableHlo.after hostOps3 (W6 m ρ c) (Proc.devRef .tc main_v78) = _
    after_results_simp
    rw [arg12_W6 m ρ c]
    all_goals rfl
  have e5 : V7 m ρ c (Pipeline.arrRef spec3 5) = row (slabV ![2, 0] slices_S3x256_S1x256_2_0 (m ((c : Thread nD τ).loc main_arg13))) := by
    show StableHlo.after hostOps3 (W6 m ρ c) (Proc.devRef .tc main_v96) = _
    after_results_simp
    rw [arg13_W6 m ρ c]
    all_goals rfl
  have e6 : V7 m ρ c (Pipeline.arrRef spec3 6) = row (slabV ![2, 0] slices_S3x256_S1x256_2_0 (m ((c : Thread nD τ).loc main_arg14))) := by
    show StableHlo.after hostOps3 (W6 m ρ c) (Proc.devRef .tc main_v97) = _
    after_results_simp
    rw [arg14_W6 m ρ c]
    all_goals rfl
  have e7 : V7 m ρ c (Pipeline.arrRef spec3 7) = row (slabV ![2, 0] slices_S3x256_S1x256_2_0 (m ((c : Thread nD τ).loc main_arg15))) := by
    show StableHlo.after hostOps3 (W6 m ρ c) (Proc.devRef .tc main_v98) = _
    after_results_simp
    rw [arg15_W6 m ρ c]
    all_goals rfl
  refine (W8_arr m ρ c 8).trans ((final3 (V7 m ρ) c).trans ?_)
  rw [e0, e1, e2, e3, e4, e5, e6, e7]
  rfl

set_option maxHeartbeats 4000000 in
/-- The pooled node features, before the projector's region. -/
theorem drug_W9 : W9 m ρ c (Proc.devRef .tc main_v102) = pool (H4 m c) (m ((c : Thread nD τ).loc main_arg2)) := by
  show StableHlo.after hostOps4 (W8 m ρ c) (Proc.devRef .tc main_v102) = _
  after_results_simp
  rw [h4_W8 m ρ c, arg2_W8 m ρ c]
  all_goals rfl

theorem drug_W10 : W10 m ρ c (Proc.devRef .tc main_v102) = pool (H4 m c) (m ((c : Thread nD τ).loc main_arg2)) :=
  (W10_of_ne m ρ c main_v102 (by decide)).trans (drug_W9 m ρ c)

set_option maxHeartbeats 4000000 in
/-- The protein vectors, after the projector's region. -/
theorem prot_W10 : W10 m ρ c (Proc.devRef .tc main_v106) = prot (m ((c : Thread nD τ).loc main_arg3)) (m ((c : Thread nD τ).loc main_arg16)) (m ((c : Thread nD τ).loc main_arg17)) (m ((c : Thread nD τ).loc main_arg18)) (m ((c : Thread nD τ).loc main_arg19)) := by
  have e0 : V9 m ρ c (Pipeline.arrRef spec4 0) = (m ((c : Thread nD τ).loc main_arg3)) := by
    show StableHlo.after hostOps4 (W8 m ρ c) (Proc.devRef .tc main_arg3) = _
    after_results_simp
    exact arg3_W8 m ρ c
  have e1 : V9 m ρ c (Pipeline.arrRef spec4 1) = (m ((c : Thread nD τ).loc main_arg16)) := by
    show StableHlo.after hostOps4 (W8 m ρ c) (Proc.devRef .tc main_arg16) = _
    after_results_simp
    exact arg16_W8 m ρ c
  have e2 : V9 m ρ c (Pipeline.arrRef spec4 2) = row (m ((c : Thread nD τ).loc main_arg17)) := by
    show StableHlo.after hostOps4 (W8 m ρ c) (Proc.devRef .tc main_v103) = _
    after_results_simp
    rw [arg17_W8 m ρ c]
    all_goals rfl
  have e3 : V9 m ρ c (Pipeline.arrRef spec4 3) = row (m ((c : Thread nD τ).loc main_arg18)) := by
    show StableHlo.after hostOps4 (W8 m ρ c) (Proc.devRef .tc main_v104) = _
    after_results_simp
    rw [arg18_W8 m ρ c]
    all_goals rfl
  have e4 : V9 m ρ c (Pipeline.arrRef spec4 4) = row (m ((c : Thread nD τ).loc main_arg19)) := by
    show StableHlo.after hostOps4 (W8 m ρ c) (Proc.devRef .tc main_v105) = _
    after_results_simp
    rw [arg19_W8 m ρ c]
    all_goals rfl
  refine (W10_arr m ρ c 5).trans ((final4 (V9 m ρ) c).trans ?_)
  rw [e0, e1, e2, e3, e4]
  rfl

set_option maxHeartbeats 4000000 in
/-- THE RESULT: the last region's output array is the network's function of the launch contents. -/
theorem result_W12 : W12 m ρ c (Proc.devRef .tc main_v112) =
    Cert.Net.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  have e0 : V11 m ρ c (Pipeline.arrRef spec5 0) = pool (H4 m c) (m ((c : Thread nD τ).loc main_arg2)) := by
    show StableHlo.after hostOps5 (W10 m ρ c) (Proc.devRef .tc main_v102) = _
    after_results_simp
    exact drug_W10 m ρ c
  have e1 : V11 m ρ c (Pipeline.arrRef spec5 1) = prot (m ((c : Thread nD τ).loc main_arg3)) (m ((c : Thread nD τ).loc main_arg16)) (m ((c : Thread nD τ).loc main_arg17)) (m ((c : Thread nD τ).loc main_arg18)) (m ((c : Thread nD τ).loc main_arg19)) := by
    show StableHlo.after hostOps5 (W10 m ρ c) (Proc.devRef .tc main_v106) = _
    after_results_simp
    exact prot_W10 m ρ c
  have e2 : V11 m ρ c (Pipeline.arrRef spec5 2) = extractStridedSlice S256x1024 ![0, 0] (m ((c : Thread nD τ).loc main_arg20)) slices_S512x1024_S256x1024_0_0 := by
    show StableHlo.after hostOps5 (W10 m ρ c) (Proc.devRef .tc main_v107) = _
    after_results_simp
    rw [arg20_W10 m ρ c]
    all_goals rfl
  have e3 : V11 m ρ c (Pipeline.arrRef spec5 3) = extractStridedSlice S256x1024 ![256, 0] (m ((c : Thread nD τ).loc main_arg20)) slices_S512x1024_S256x1024_256_0 := by
    show StableHlo.after hostOps5 (W10 m ρ c) (Proc.devRef .tc main_v108) = _
    after_results_simp
    rw [arg20_W10 m ρ c]
    all_goals rfl
  have e4 : V11 m ρ c (Pipeline.arrRef spec5 4) = shapeCast S1x1024 (m ((c : Thread nD τ).loc main_arg21)) shapeCasts_S1024_S1x1024 := by
    show StableHlo.after hostOps5 (W10 m ρ c) (Proc.devRef .tc main_v109) = _
    after_results_simp
    rw [arg21_W10 m ρ c]
    all_goals rfl
  have e5 : V11 m ρ c (Pipeline.arrRef spec5 5) = (m ((c : Thread nD τ).loc main_arg22)) := by
    show StableHlo.after hostOps5 (W10 m ρ c) (Proc.devRef .tc main_arg22) = _
    after_results_simp
    exact arg22_W10 m ρ c
  have e6 : V11 m ρ c (Pipeline.arrRef spec5 6) = shapeCast S1x512 (m ((c : Thread nD τ).loc main_arg23)) shapeCasts_S512_S1x512 := by
    show StableHlo.after hostOps5 (W10 m ρ c) (Proc.devRef .tc main_v110) = _
    after_results_simp
    rw [arg23_W10 m ρ c]
    all_goals rfl
  have e7 : V11 m ρ c (Pipeline.arrRef spec5 7) = (m ((c : Thread nD τ).loc main_arg24)) := by
    show StableHlo.after hostOps5 (W10 m ρ c) (Proc.devRef .tc main_arg24) = _
    after_results_simp
    exact arg24_W10 m ρ c
  have e8 : V11 m ρ c (Pipeline.arrRef spec5 8) = shapeCast S1x1 (m ((c : Thread nD τ).loc main_arg25)) shapeCasts_S1_S1x1 := by
    show StableHlo.after hostOps5 (W10 m ρ c) (Proc.devRef .tc main_v111) = _
    after_results_simp
    rw [arg25_W10 m ρ c]
    all_goals rfl
  refine (W12_arr m ρ c 9).trans ((final5 (V11 m ρ) c).trans ?_)
  rw [e0, e1, e2, e3, e4, e5, e6, e7, e8]
  rfl

end Cert.KernelIdeal.Chain

end
-- ==== Proof.RefRun.lean ====
/- The reference program's @main as ONE list of its 265 host operations in program order, and its run.
   Each entry is the operation of one printed line of @main; a `func.call` line stands as its callee's lines
   over the call's buffer record (`main_call0` … `main_call11`; the variance function's inner call to the select
   function is over the record `main_call8.call0`). `main_eq`: @main is the straight line of these operations.
   `run_raw`: every weakly fair execution of @main terminates with every buffer at the fold of the operations
   over the launch contents (`StableHlo.after ops`). -/
import proofs.«153049_j20907900797458_1_alg».proof.Proof.Gen.ReferenceIdeal
import Idealize.ShloMosaic.Lib.StableHlo.Run

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- @main's host operations, in order, each call's operations in the call's place. -/
abbrev ops : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S50000x70_S400000x1_S400000x70_1_0_n_n_0_1_170 x i) : (⟨S50000x70, .f32⟩ : BufTy).Contents (Elt F) → (⟨S400000x1, .i32⟩ : BufTy).Contents (Elt F) → (⟨S400000x70, .f32⟩ : BufTy).Contents (Elt F)),
    StableHlo.nullary main_cst (constant S_ .f32 0x00000000#32),
    StableHlo.unary main_cst main_v11 (broadcastInDim S50000x70 ![] bcast_S_S50000x70 : (⟨S_, .f32⟩ : BufTy).Contents (Elt F) → (⟨S50000x70, .f32⟩ : BufTy).Contents (Elt F)),
    StableHlo.unary main_v3 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S50000x70_S400000x1_S400000x70_1_0_0_1 x i u) : (⟨S50000x70, .f32⟩ : BufTy).Contents (Elt F) → (⟨S400000x1, .i32⟩ : BufTy).Contents (Elt F) → (⟨S400000x70, .f32⟩ : BufTy).Contents (Elt F) → (⟨S50000x70, .f32⟩ : BufTy).Contents (Elt F)),
    StableHlo.binary main_arg0 main_v13 main_v14 (addf : (⟨S50000x70, .f32⟩ : BufTy).Contents (Elt F) → (⟨S50000x70, .f32⟩ : BufTy).Contents (Elt F) → (⟨S50000x70, .f32⟩ : BufTy).Contents (Elt F)),
    StableHlo.binary main_v14 main_arg4 main_v15 ((fun l r => Host.dotGeneral dot_S50000x70_S70x256_S50000x256_1_0_0_1_n_n none l r) : (⟨S50000x70, .f32⟩ : BufTy).Contents (Elt F) → (⟨S70x256, .f32⟩ : BufTy).Contents (Elt F) → (⟨S50000x256, .f32⟩ : BufTy).Contents (Elt F)),
    StableHlo.unary main_arg5 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S50000x256 ![0, 1] bcast_S1x256_S50000x256_0_1 : (⟨S1x256, .f32⟩ : BufTy).Contents (Elt F) → (⟨S50000x256, .f32⟩ : BufTy).Contents (Elt F)),
    StableHlo.binary main_v15 main_v17 main_v18 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v18 : StableHlo.TRef sig ⟨S50000x256, .f32⟩) main_call0.v0 main_call0.v1 maximumf,
    StableHlo.binary main_v19 main_arg6 main_v20 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S50000x256 ![0, 1] bcast_S1x256_S50000x256_0_1 : (⟨S1x256, .f32⟩ : BufTy).Contents (Elt F) → (⟨S50000x256, .f32⟩ : BufTy).Contents (Elt F)),
    StableHlo.binary main_v20 main_v22 main_v23 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x3F80002A#32),
    StableHlo.unary main_cst_1 main_v24 (broadcastInDim S256 ![] bcast_S_S256 : (⟨S_, .f32⟩ : BufTy).Contents (Elt F) → (⟨S256, .f32⟩ : BufTy).Contents (Elt F)),
    StableHlo.binary main_arg8 main_v24 main_v25 (Host.divf : (⟨S256, .f32⟩ : BufTy).Contents (Elt F) → (⟨S256, .f32⟩ : BufTy).Contents (Elt F) → (⟨S256, .f32⟩ : BufTy).Contents (Elt F)),
    StableHlo.unary main_v25 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v27 main_v28 (mulf : (⟨S50000x256, .f32⟩ : BufTy).Contents (Elt F) → (⟨S50000x256, .f32⟩ : BufTy).Contents (Elt F) → (⟨S50000x256, .f32⟩ : BufTy).Contents (Elt F)),
    StableHlo.unary main_arg9 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S50000x256 ![0, 1] bcast_S1x256_S50000x256_0_1 : (⟨S1x256, .f32⟩ : BufTy).Contents (Elt F) → (⟨S50000x256, .f32⟩ : BufTy).Contents (Elt F)),
    StableHlo.binary main_v28 main_v30 main_v31 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v31 : StableHlo.TRef sig ⟨S50000x256, .f32⟩) main_call1.v0 main_call1.v1 maximumf,
    StableHlo.unary main_arg10 main_v33 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v33 main_v34 rfl shapeCasts_S1x256x256_S256x256,
    StableHlo.unary main_arg11 main_v35 ((extractStridedSlice S1x256 ![0, 0] · slices_S3x256_S1x256_0_0) : (⟨S3x256, .f32⟩ : BufTy).Contents (Elt F) → (⟨S1x256, .f32⟩ : BufTy).Contents (Elt F)),
    StableHlo.reshape main_v35 main_v36 rfl shapeCasts_S1x256_S256,
    StableHlo.unary main_arg12 main_v37 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v37 main_v38 rfl shapeCasts_S1x256x256_S256x256,
    StableHlo.unary main_arg13 main_v39 ((extractStridedSlice S1x256 ![0, 0] · slices_S3x256_S1x256_0_0) : (⟨S3x256, .f32⟩ : BufTy).Contents (Elt F) → (⟨S1x256, .f32⟩ : BufTy).Contents (Elt F)),
    StableHlo.reshape main_v39 main_v40 rfl shapeCasts_S1x256_S256,
    StableHlo.unary main_arg14 main_v41 ((extractStridedSlice S1x256 ![0, 0] · slices_S3x256_S1x256_0_0) : (⟨S3x256, .f32⟩ : BufTy).Contents (Elt F) → (⟨S1x256, .f32⟩ : BufTy).Contents (Elt F)),
    StableHlo.reshape main_v41 main_v42 rfl shapeCasts_S1x256_S256,
    StableHlo.unary main_arg15 main_v43 ((extractStridedSlice S1x256 ![0, 0] · slices_S3x256_S1x256_0_0) : (⟨S3x256, .f32⟩ : BufTy).Contents (Elt F) → (⟨S1x256, .f32⟩ : BufTy).Contents (Elt F)),
    StableHlo.reshape main_v43 main_v44 rfl shapeCasts_S1x256_S256,
    StableHlo.nullary main_c_2 (constantI S_ 32 0#32),
    StableHlo.unary main_c_2 main_v45 (broadcastInDim S400000 ![] bcast_S_S400000 : (⟨S_, .i32⟩ : BufTy).Contents (Elt F) → (⟨S400000, .i32⟩ : BufTy).Contents (Elt F)),
    StableHlo.binary main_v1 main_v45 main_v46 (cmpi .slt : (⟨S400000, .i32⟩ : BufTy).Contents (Elt F) → (⟨S400000, .i32⟩ : BufTy).Contents (Elt F) → (⟨S400000, .i1⟩ : BufTy).Contents (Elt F)),
    StableHlo.nullary main_c_3 (constantI S_ 32 50000#32),
    StableHlo.unary main_c_3 main_v47 (broadcastInDim S400000 ![] bcast_S_S400000 : (⟨S_, .i32⟩ : BufTy).Contents (Elt F) → (⟨S400000, .i32⟩ : BufTy).Contents (Elt F)),
    StableHlo.binary main_v1 main_v47 main_v48 (addi : (⟨S400000, .i32⟩ : BufTy).Contents (Elt F) → (⟨S400000, .i32⟩ : BufTy).Contents (Elt F) → (⟨S400000, .i32⟩ : BufTy).Contents (Elt F)),
    StableHlo.ternary main_v46 main_v48 main_v1 main_v49 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v49 main_v50 (broadcastInDim S400000x1 ![0] bcast_S400000_S400000x1_0 : (⟨S400000, .i32⟩ : BufTy).Contents (Elt F) → (⟨S400000x1, .i32⟩ : BufTy).Contents (Elt F)),
    StableHlo.binary main_v32 main_v50 main_v51 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_4 (constant S_ .f32 0x00000000#32),
    StableHlo.unary main_cst_4 main_v52 (broadcastInDim S50000x256 ![] bcast_S_S50000x256 : (⟨S_, .f32⟩ : BufTy).Contents (Elt F) → (⟨S50000x256, .f32⟩ : BufTy).Contents (Elt F)),
    StableHlo.unary main_v3 main_v53 (broadcastInDim S400000x1 ![0] bcast_S400000_S400000x1_0 : (⟨S400000, .i32⟩ : BufTy).Contents (Elt F) → (⟨S400000x1, .i32⟩ : BufTy).Contents (Elt F)),
    StableHlo.ternary main_v52 main_v53 main_v51 main_v54 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.binary main_v32 main_v54 main_v55 (addf : (⟨S50000x256, .f32⟩ : BufTy).Contents (Elt F) → (⟨S50000x256, .f32⟩ : BufTy).Contents (Elt F) → (⟨S50000x256, .f32⟩ : BufTy).Contents (Elt F)),
    StableHlo.binary main_v55 main_v34 main_v56 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v36 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S50000x256 ![0, 1] bcast_S1x256_S50000x256_0_1 : (⟨S1x256, .f32⟩ : BufTy).Contents (Elt F) → (⟨S50000x256, .f32⟩ : BufTy).Contents (Elt F)),
    StableHlo.binary main_v56 main_v58 main_v59 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v59 : StableHlo.TRef sig ⟨S50000x256, .f32⟩) main_call2.v0 main_call2.v1 maximumf,
    StableHlo.binary main_v60 main_v38 main_v61 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v40 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v63 main_v64 (addf : (⟨S50000x256, .f32⟩ : BufTy).Contents (Elt F) → (⟨S50000x256, .f32⟩ : BufTy).Contents (Elt F) → (⟨S50000x256, .f32⟩ : BufTy).Contents (Elt F)),
    StableHlo.nullary main_cst_5 (constant S_ .f32 0x3F80002A#32),
    StableHlo.unary main_cst_5 main_v65 (broadcastInDim S256 ![] bcast_S_S256 : (⟨S_, .f32⟩ : BufTy).Contents (Elt F) → (⟨S256, .f32⟩ : BufTy).Contents (Elt F)),
    StableHlo.binary main_v42 main_v65 main_v66 (Host.divf : (⟨S256, .f32⟩ : BufTy).Contents (Elt F) → (⟨S256, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v68 main_v69 (mulf : (⟨S50000x256, .f32⟩ : BufTy).Contents (Elt F) → (⟨S50000x256, .f32⟩ : BufTy).Contents (Elt F) → (⟨S50000x256, .f32⟩ : BufTy).Contents (Elt F)),
    StableHlo.unary main_v44 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v72 : StableHlo.TRef sig ⟨S50000x256, .f32⟩) main_call3.v0 main_call3.v1 maximumf,
    StableHlo.binary main_v32 main_v73 main_v74 (addf : (⟨S50000x256, .f32⟩ : BufTy).Contents (Elt F) → (⟨S50000x256, .f32⟩ : BufTy).Contents (Elt F) → (⟨S50000x256, .f32⟩ : BufTy).Contents (Elt F)),
    StableHlo.unary main_arg10 main_v75 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v75 main_v76 rfl shapeCasts_S1x256x256_S256x256,
    StableHlo.unary main_arg11 main_v77 ((extractStridedSlice S1x256 ![1, 0] · slices_S3x256_S1x256_1_0) : (⟨S3x256, .f32⟩ : BufTy).Contents (Elt F) → (⟨S1x256, .f32⟩ : BufTy).Contents (Elt F)),
    StableHlo.reshape main_v77 main_v78 rfl shapeCasts_S1x256_S256,
    StableHlo.unary main_arg12 main_v79 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v79 main_v80 rfl shapeCasts_S1x256x256_S256x256,
    StableHlo.unary main_arg13 main_v81 ((extractStridedSlice S1x256 ![1, 0] · slices_S3x256_S1x256_1_0) : (⟨S3x256, .f32⟩ : BufTy).Contents (Elt F) → (⟨S1x256, .f32⟩ : BufTy).Contents (Elt F)),
    StableHlo.reshape main_v81 main_v82 rfl shapeCasts_S1x256_S256,
    StableHlo.unary main_arg14 main_v83 ((extractStridedSlice S1x256 ![1, 0] · slices_S3x256_S1x256_1_0) : (⟨S3x256, .f32⟩ : BufTy).Contents (Elt F) → (⟨S1x256, .f32⟩ : BufTy).Contents (Elt F)),
    StableHlo.reshape main_v83 main_v84 rfl shapeCasts_S1x256_S256,
    StableHlo.unary main_arg15 main_v85 ((extractStridedSlice S1x256 ![1, 0] · slices_S3x256_S1x256_1_0) : (⟨S3x256, .f32⟩ : BufTy).Contents (Elt F) → (⟨S1x256, .f32⟩ : BufTy).Contents (Elt F)),
    StableHlo.reshape main_v85 main_v86 rfl shapeCasts_S1x256_S256,
    StableHlo.nullary main_c_6 (constantI S_ 32 0#32),
    StableHlo.unary main_c_6 main_v87 (broadcastInDim S400000 ![] bcast_S_S400000 : (⟨S_, .i32⟩ : BufTy).Contents (Elt F) → (⟨S400000, .i32⟩ : BufTy).Contents (Elt F)),
    StableHlo.binary main_v1 main_v87 main_v88 (cmpi .slt : (⟨S400000, .i32⟩ : BufTy).Contents (Elt F) → (⟨S400000, .i32⟩ : BufTy).Contents (Elt F) → (⟨S400000, .i1⟩ : BufTy).Contents (Elt F)),
    StableHlo.nullary main_c_7 (constantI S_ 32 50000#32),
    StableHlo.unary main_c_7 main_v89 (broadcastInDim S400000 ![] bcast_S_S400000 : (⟨S_, .i32⟩ : BufTy).Contents (Elt F) → (⟨S400000, .i32⟩ : BufTy).Contents (Elt F)),
    StableHlo.binary main_v1 main_v89 main_v90 (addi : (⟨S400000, .i32⟩ : BufTy).Contents (Elt F) → (⟨S400000, .i32⟩ : BufTy).Contents (Elt F) → (⟨S400000, .i32⟩ : BufTy).Contents (Elt F)),
    StableHlo.ternary main_v88 main_v90 main_v1 main_v91 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v91 main_v92 (broadcastInDim S400000x1 ![0] bcast_S400000_S400000x1_0 : (⟨S400000, .i32⟩ : BufTy).Contents (Elt F) → (⟨S400000x1, .i32⟩ : BufTy).Contents (Elt F)),
    StableHlo.binary main_v74 main_v92 main_v93 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_8 (constant S_ .f32 0x00000000#32),
    StableHlo.unary main_cst_8 main_v94 (broadcastInDim S50000x256 ![] bcast_S_S50000x256 : (⟨S_, .f32⟩ : BufTy).Contents (Elt F) → (⟨S50000x256, .f32⟩ : BufTy).Contents (Elt F)),
    StableHlo.unary main_v3 main_v95 (broadcastInDim S400000x1 ![0] bcast_S400000_S400000x1_0 : (⟨S400000, .i32⟩ : BufTy).Contents (Elt F) → (⟨S400000x1, .i32⟩ : BufTy).Contents (Elt F)),
    StableHlo.ternary main_v94 main_v95 main_v93 main_v96 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.binary main_v74 main_v96 main_v97 (addf : (⟨S50000x256, .f32⟩ : BufTy).Contents (Elt F) → (⟨S50000x256, .f32⟩ : BufTy).Contents (Elt F) → (⟨S50000x256, .f32⟩ : BufTy).Contents (Elt F)),
    StableHlo.binary main_v97 main_v76 main_v98 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v78 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v100 main_v101 (addf : (⟨S50000x256, .f32⟩ : BufTy).Contents (Elt F) → (⟨S50000x256, .f32⟩ : BufTy).Contents (Elt F) → (⟨S50000x256, .f32⟩ : BufTy).Contents (Elt F)),
    StableHlo.TRef.nullary main_call4.cst (constant S_ .f32 0x00000000#32),
    StableHlo.TRef.unary main_call4.cst main_call4.v0 (broadcastInDim S50000x256 ![] bcast_S_S50000x256),
    StableHlo.TRef.binary (.of main_v101 : StableHlo.TRef sig ⟨S50000x256, .f32⟩) main_call4.v0 main_call4.v1 maximumf,
    StableHlo.binary main_v102 main_v80 main_v103 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v82 main_v104 (broadcastInDim S1x256 ![1] bcast_S256_S1x256_1 : (⟨S256, .f32⟩ : BufTy).Contents (Elt F) → (⟨S1x256, .f32⟩ : BufTy).Contents (Elt F)),
    StableHlo.unary main_v104 main_v105 (broadcastInDim S50000x256 ![0, 1] bcast_S1x256_S50000x256_0_1 : (⟨S1x256, .f32⟩ : BufTy).Contents (Elt F) → (⟨S50000x256, .f32⟩ : BufTy).Contents (Elt F)),
    StableHlo.binary main_v103 main_v105 main_v106 (addf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x3F80002A#32),
    StableHlo.unary main_cst_9 main_v107 (broadcastInDim S256 ![] bcast_S_S256 : (⟨S_, .f32⟩ : BufTy).Contents (Elt F) → (⟨S256, .f32⟩ : BufTy).Contents (Elt F)),
    StableHlo.binary main_v84 main_v107 main_v108 (Host.divf : (⟨S256, .f32⟩ : BufTy).Contents (Elt F) → (⟨S256, .f32⟩ : BufTy).Contents (Elt F) → (⟨S256, .f32⟩ : BufTy).Contents (Elt F)),
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v110 main_v111 (mulf : (⟨S50000x256, .f32⟩ : BufTy).Contents (Elt F) → (⟨S50000x256, .f32⟩ : BufTy).Contents (Elt F) → (⟨S50000x256, .f32⟩ : BufTy).Contents (Elt F)),
    StableHlo.unary main_v86 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v113 main_v114 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v114 : StableHlo.TRef sig ⟨S50000x256, .f32⟩) main_call5.v0 main_call5.v1 maximumf,
    StableHlo.binary main_v74 main_v115 main_v116 (addf : (⟨S50000x256, .f32⟩ : BufTy).Contents (Elt F) → (⟨S50000x256, .f32⟩ : BufTy).Contents (Elt F) → (⟨S50000x256, .f32⟩ : BufTy).Contents (Elt F)),
    StableHlo.unary main_arg10 main_v117 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v117 main_v118 rfl shapeCasts_S1x256x256_S256x256,
    StableHlo.unary main_arg11 main_v119 ((extractStridedSlice S1x256 ![2, 0] · slices_S3x256_S1x256_2_0) : (⟨S3x256, .f32⟩ : BufTy).Contents (Elt F) → (⟨S1x256, .f32⟩ : BufTy).Contents (Elt F)),
    StableHlo.reshape main_v119 main_v120 rfl shapeCasts_S1x256_S256,
    StableHlo.unary main_arg12 main_v121 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v121 main_v122 rfl shapeCasts_S1x256x256_S256x256,
    StableHlo.unary main_arg13 main_v123 ((extractStridedSlice S1x256 ![2, 0] · slices_S3x256_S1x256_2_0) : (⟨S3x256, .f32⟩ : BufTy).Contents (Elt F) → (⟨S1x256, .f32⟩ : BufTy).Contents (Elt F)),
    StableHlo.reshape main_v123 main_v124 rfl shapeCasts_S1x256_S256,
    StableHlo.unary main_arg14 main_v125 ((extractStridedSlice S1x256 ![2, 0] · slices_S3x256_S1x256_2_0) : (⟨S3x256, .f32⟩ : BufTy).Contents (Elt F) → (⟨S1x256, .f32⟩ : BufTy).Contents (Elt F)),
    StableHlo.reshape main_v125 main_v126 rfl shapeCasts_S1x256_S256,
    StableHlo.unary main_arg15 main_v127 ((extractStridedSlice S1x256 ![2, 0] · slices_S3x256_S1x256_2_0) : (⟨S3x256, .f32⟩ : BufTy).Contents (Elt F) → (⟨S1x256, .f32⟩ : BufTy).Contents (Elt F)),
    StableHlo.reshape main_v127 main_v128 rfl shapeCasts_S1x256_S256,
    StableHlo.nullary main_c_10 (constantI S_ 32 0#32),
    StableHlo.unary main_c_10 main_v129 (broadcastInDim S400000 ![] bcast_S_S400000 : (⟨S_, .i32⟩ : BufTy).Contents (Elt F) → (⟨S400000, .i32⟩ : BufTy).Contents (Elt F)),
    StableHlo.binary main_v1 main_v129 main_v130 (cmpi .slt : (⟨S400000, .i32⟩ : BufTy).Contents (Elt F) → (⟨S400000, .i32⟩ : BufTy).Contents (Elt F) → (⟨S400000, .i1⟩ : BufTy).Contents (Elt F)),
    StableHlo.nullary main_c_11 (constantI S_ 32 50000#32),
    StableHlo.unary main_c_11 main_v131 (broadcastInDim S400000 ![] bcast_S_S400000 : (⟨S_, .i32⟩ : BufTy).Contents (Elt F) → (⟨S400000, .i32⟩ : BufTy).Contents (Elt F)),
    StableHlo.binary main_v1 main_v131 main_v132 (addi : (⟨S400000, .i32⟩ : BufTy).Contents (Elt F) → (⟨S400000, .i32⟩ : BufTy).Contents (Elt F) → (⟨S400000, .i32⟩ : BufTy).Contents (Elt F)),
    StableHlo.ternary main_v130 main_v132 main_v1 main_v133 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v133 main_v134 (broadcastInDim S400000x1 ![0] bcast_S400000_S400000x1_0 : (⟨S400000, .i32⟩ : BufTy).Contents (Elt F) → (⟨S400000x1, .i32⟩ : BufTy).Contents (Elt F)),
    StableHlo.binary main_v116 main_v134 main_v135 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_12 (constant S_ .f32 0x00000000#32),
    StableHlo.unary main_cst_12 main_v136 (broadcastInDim S50000x256 ![] bcast_S_S50000x256 : (⟨S_, .f32⟩ : BufTy).Contents (Elt F) → (⟨S50000x256, .f32⟩ : BufTy).Contents (Elt F)),
    StableHlo.unary main_v3 main_v137 (broadcastInDim S400000x1 ![0] bcast_S400000_S400000x1_0 : (⟨S400000, .i32⟩ : BufTy).Contents (Elt F) → (⟨S400000x1, .i32⟩ : BufTy).Contents (Elt F)),
    StableHlo.ternary main_v136 main_v137 main_v135 main_v138 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.binary main_v116 main_v138 main_v139 (addf : (⟨S50000x256, .f32⟩ : BufTy).Contents (Elt F) → (⟨S50000x256, .f32⟩ : BufTy).Contents (Elt F) → (⟨S50000x256, .f32⟩ : BufTy).Contents (Elt F)),
    StableHlo.binary main_v139 main_v118 main_v140 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v120 main_v141 (broadcastInDim S1x256 ![1] bcast_S256_S1x256_1 : (⟨S256, .f32⟩ : BufTy).Contents (Elt F) → (⟨S1x256, .f32⟩ : BufTy).Contents (Elt F)),
    StableHlo.unary main_v141 main_v142 (broadcastInDim S50000x256 ![0, 1] bcast_S1x256_S50000x256_0_1 : (⟨S1x256, .f32⟩ : BufTy).Contents (Elt F) → (⟨S50000x256, .f32⟩ : BufTy).Contents (Elt F)),
    StableHlo.binary main_v140 main_v142 main_v143 (addf : (⟨S50000x256, .f32⟩ : BufTy).Contents (Elt F) → (⟨S50000x256, .f32⟩ : BufTy).Contents (Elt F) → (⟨S50000x256, .f32⟩ : BufTy).Contents (Elt F)),
    StableHlo.TRef.nullary main_call6.cst (constant S_ .f32 0x00000000#32),
    StableHlo.TRef.unary main_call6.cst main_call6.v0 (broadcastInDim S50000x256 ![] bcast_S_S50000x256),
    StableHlo.TRef.binary (.of main_v143 : StableHlo.TRef sig ⟨S50000x256, .f32⟩) main_call6.v0 main_call6.v1 maximumf,
    StableHlo.binary main_v144 main_v122 main_v145 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v124 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S50000x256 ![0, 1] bcast_S1x256_S50000x256_0_1 : (⟨S1x256, .f32⟩ : BufTy).Contents (Elt F) → (⟨S50000x256, .f32⟩ : BufTy).Contents (Elt F)),
    StableHlo.binary main_v145 main_v147 main_v148 (addf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3F80002A#32),
    StableHlo.unary main_cst_13 main_v149 (broadcastInDim S256 ![] bcast_S_S256 : (⟨S_, .f32⟩ : BufTy).Contents (Elt F) → (⟨S256, .f32⟩ : BufTy).Contents (Elt F)),
    StableHlo.binary main_v126 main_v149 main_v150 (Host.divf : (⟨S256, .f32⟩ : BufTy).Contents (Elt F) → (⟨S256, .f32⟩ : BufTy).Contents (Elt F) → (⟨S256, .f32⟩ : BufTy).Contents (Elt F)),
    StableHlo.unary main_v150 main_v151 (broadcastInDim S1x256 ![1] bcast_S256_S1x256_1 : (⟨S256, .f32⟩ : BufTy).Contents (Elt F) → (⟨S1x256, .f32⟩ : BufTy).Contents (Elt F)),
    StableHlo.unary main_v151 main_v152 (broadcastInDim S50000x256 ![0, 1] bcast_S1x256_S50000x256_0_1 : (⟨S1x256, .f32⟩ : BufTy).Contents (Elt F) → (⟨S50000x256, .f32⟩ : BufTy).Contents (Elt F)),
    StableHlo.binary main_v148 main_v152 main_v153 (mulf : (⟨S50000x256, .f32⟩ : BufTy).Contents (Elt F) → (⟨S50000x256, .f32⟩ : BufTy).Contents (Elt F) → (⟨S50000x256, .f32⟩ : BufTy).Contents (Elt F)),
    StableHlo.unary main_v128 main_v154 (broadcastInDim S1x256 ![1] bcast_S256_S1x256_1 : (⟨S256, .f32⟩ : BufTy).Contents (Elt F) → (⟨S1x256, .f32⟩ : BufTy).Contents (Elt F)),
    StableHlo.unary main_v154 main_v155 (broadcastInDim S50000x256 ![0, 1] bcast_S1x256_S50000x256_0_1 : (⟨S1x256, .f32⟩ : BufTy).Contents (Elt F) → (⟨S50000x256, .f32⟩ : BufTy).Contents (Elt F)),
    StableHlo.binary main_v153 main_v155 main_v156 (addf : (⟨S50000x256, .f32⟩ : BufTy).Contents (Elt F) → (⟨S50000x256, .f32⟩ : BufTy).Contents (Elt F) → (⟨S50000x256, .f32⟩ : BufTy).Contents (Elt F)),
    StableHlo.TRef.nullary main_call7.cst (constant S_ .f32 0x00000000#32),
    StableHlo.TRef.unary main_call7.cst main_call7.v0 (broadcastInDim S50000x256 ![] bcast_S_S50000x256),
    StableHlo.TRef.binary (.of main_v156 : StableHlo.TRef sig ⟨S50000x256, .f32⟩) main_call7.v0 main_call7.v1 maximumf,
    StableHlo.binary main_v116 main_v157 main_v158 (addf : (⟨S50000x256, .f32⟩ : BufTy).Contents (Elt F) → (⟨S50000x256, .f32⟩ : BufTy).Contents (Elt F) → (⟨S50000x256, .f32⟩ : BufTy).Contents (Elt F)),
    StableHlo.nullary main_cst_14 (constant S_ .f32 0x00000000#32),
    StableHlo.unary main_cst_14 main_v159 (broadcastInDim S2048x256 ![] bcast_S_S2048x256 : (⟨S_, .f32⟩ : BufTy).Contents (Elt F) → (⟨S2048x256, .f32⟩ : BufTy).Contents (Elt F)),
    StableHlo.unary main_arg2 main_v160 (broadcastInDim S50000x1 ![0] bcast_S50000_S50000x1_0 : (⟨S50000, .i32⟩ : BufTy).Contents (Elt F) → (⟨S50000x1, .i32⟩ : BufTy).Contents (Elt F)),
    StableHlo.ternary main_v159 main_v160 main_v158 main_v161 ((fun x i u => Host.scatterAdd scatter_S2048x256_S50000x1_S50000x256_1_0_0_1 x i u) : (⟨S2048x256, .f32⟩ : BufTy).Contents (Elt F) → (⟨S50000x1, .i32⟩ : BufTy).Contents (Elt F) → (⟨S50000x256, .f32⟩ : BufTy).Contents (Elt F) → (⟨S2048x256, .f32⟩ : BufTy).Contents (Elt F)),
    StableHlo.binary main_arg3 main_arg16 main_v162 ((fun l r => Host.dotGeneral dot_S2048x480_S480x256_S2048x256_1_0_0_1_n_n none l r) : (⟨S2048x480, .f32⟩ : BufTy).Contents (Elt F) → (⟨S480x256, .f32⟩ : BufTy).Contents (Elt F) → (⟨S2048x256, .f32⟩ : BufTy).Contents (Elt F)),
    StableHlo.unary main_arg17 main_v163 (broadcastInDim S1x256 ![1] bcast_S256_S1x256_1 : (⟨S256, .f32⟩ : BufTy).Contents (Elt F) → (⟨S1x256, .f32⟩ : BufTy).Contents (Elt F)),
    StableHlo.unary main_v163 main_v164 (broadcastInDim S2048x256 ![0, 1] bcast_S1x256_S2048x256_0_1 : (⟨S1x256, .f32⟩ : BufTy).Contents (Elt F) → (⟨S2048x256, .f32⟩ : BufTy).Contents (Elt F)),
    StableHlo.binary main_v162 main_v164 main_v165 (addf : (⟨S2048x256, .f32⟩ : BufTy).Contents (Elt F) → (⟨S2048x256, .f32⟩ : BufTy).Contents (Elt F) → (⟨S2048x256, .f32⟩ : BufTy).Contents (Elt F)),
    StableHlo.nullary main_cst_15 (constant S_ .f32 0x00000000#32),
    StableHlo.binary main_v165 main_cst_15 main_v166 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v166 main_v167 (broadcastInDim S2048x1 ![0] bcast_S2048_S2048x1_0 : (⟨S2048, .f32⟩ : BufTy).Contents (Elt F) → (⟨S2048x1, .f32⟩ : BufTy).Contents (Elt F)),
    StableHlo.nullary main_cst_16 (constant S_ .f32 0x43800000#32),
    StableHlo.unary main_cst_16 main_v168 (broadcastInDim S2048x1 ![] bcast_S_S2048x1 : (⟨S_, .f32⟩ : BufTy).Contents (Elt F) → (⟨S2048x1, .f32⟩ : BufTy).Contents (Elt F)),
    StableHlo.binary main_v167 main_v168 main_v169 (Host.divf : (⟨S2048x1, .f32⟩ : BufTy).Contents (Elt F) → (⟨S2048x1, .f32⟩ : BufTy).Contents (Elt F) → (⟨S2048x1, .f32⟩ : BufTy).Contents (Elt F)),
    StableHlo.nullary main_c_17 (constantI S_ 32 0#32),
    StableHlo.TRef.nullary main_call8.cst (constant S_ .f32 0x00000000#32),
    StableHlo.TRef.binary (.of main_v165 : StableHlo.TRef sig ⟨S2048x256, .f32⟩) main_call8.cst main_call8.v0 (fun x v => Host.reduceAdd x v reducesTo_S2048x256_S2048_d1 h_S_),
    StableHlo.TRef.unary main_call8.v0 main_call8.v1 (broadcastInDim S2048x1 ![0] bcast_S2048_S2048x1_0),
    StableHlo.TRef.nullary main_call8.cst_0 (constant S_ .f32 0x43800000#32),
    StableHlo.TRef.unary main_call8.cst_0 main_call8.v2 (broadcastInDim S2048x1 ![] bcast_S_S2048x1),
    StableHlo.TRef.binary main_call8.v1 main_call8.v2 main_call8.v3 Host.divf,
    StableHlo.TRef.unary main_call8.v3 main_call8.v4 (broadcastInDim S2048x256 ![0, 1] bcast_S2048x1_S2048x256_0_1),
    StableHlo.TRef.binary (.of main_v165 : StableHlo.TRef sig ⟨S2048x256, .f32⟩) main_call8.v4 main_call8.v5 subf,
    StableHlo.TRef.binary main_call8.v5 main_call8.v5 main_call8.v6 mulf,
    StableHlo.TRef.unary (.of main_c_17 : StableHlo.TRef sig ⟨S_, .i32⟩) main_call8.v7 (sitofp .f32),
    StableHlo.TRef.nullary main_call8.cst_1 (constant S_ .f32 0x43800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S2048x256_S2048_d1 h_S_),
    StableHlo.TRef.unary main_call8.v9 main_call8.v10 (broadcastInDim S2048x1 ![0] bcast_S2048_S2048x1_0),
    StableHlo.TRef.unary main_call8.v8 main_call8.v11 (broadcastInDim S2048x1 ![] bcast_S_S2048x1),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S2048x1 ![] bcast_S_S2048x1),
    StableHlo.TRef.ternary main_call8.v13 main_call8.v12 main_call8.call0.v1 main_call8.call0.v2 (fun p a b => select (broadcastInDim S2048x1 ![] bcast_S_S2048x1 p) a b),
    StableHlo.unary main_v169 main_v171 (broadcastInDim S2048x256 ![0, 1] bcast_S2048x1_S2048x256_0_1 : (⟨S2048x1, .f32⟩ : BufTy).Contents (Elt F) → (⟨S2048x256, .f32⟩ : BufTy).Contents (Elt F)),
    StableHlo.binary main_v165 main_v171 main_v172 (subf : (⟨S2048x256, .f32⟩ : BufTy).Contents (Elt F) → (⟨S2048x256, .f32⟩ : BufTy).Contents (Elt F) → (⟨S2048x256, .f32⟩ : BufTy).Contents (Elt F)),
    StableHlo.nullary main_cst_18 (constant S_ .f32 0x3727C5AC#32),
    StableHlo.unary main_cst_18 main_v173 (broadcastInDim S2048x1 ![] bcast_S_S2048x1 : (⟨S_, .f32⟩ : BufTy).Contents (Elt F) → (⟨S2048x1, .f32⟩ : BufTy).Contents (Elt F)),
    StableHlo.binary main_v170 main_v173 main_v174 (addf : (⟨S2048x1, .f32⟩ : BufTy).Contents (Elt F) → (⟨S2048x1, .f32⟩ : BufTy).Contents (Elt F) → (⟨S2048x1, .f32⟩ : BufTy).Contents (Elt F)),
    StableHlo.unary main_v174 main_v175 (Host.rsqrt : (⟨S2048x1, .f32⟩ : BufTy).Contents (Elt F) → (⟨S2048x1, .f32⟩ : BufTy).Contents (Elt F)),
    StableHlo.unary main_v175 main_v176 (broadcastInDim S2048x256 ![0, 1] bcast_S2048x1_S2048x256_0_1 : (⟨S2048x1, .f32⟩ : BufTy).Contents (Elt F) → (⟨S2048x256, .f32⟩ : BufTy).Contents (Elt F)),
    StableHlo.binary main_v172 main_v176 main_v177 (mulf : (⟨S2048x256, .f32⟩ : BufTy).Contents (Elt F) → (⟨S2048x256, .f32⟩ : BufTy).Contents (Elt F) → (⟨S2048x256, .f32⟩ : BufTy).Contents (Elt F)),
    StableHlo.unary main_arg18 main_v178 (broadcastInDim S1x256 ![1] bcast_S256_S1x256_1 : (⟨S256, .f32⟩ : BufTy).Contents (Elt F) → (⟨S1x256, .f32⟩ : BufTy).Contents (Elt F)),
    StableHlo.unary main_v178 main_v179 (broadcastInDim S2048x256 ![0, 1] bcast_S1x256_S2048x256_0_1 : (⟨S1x256, .f32⟩ : BufTy).Contents (Elt F) → (⟨S2048x256, .f32⟩ : BufTy).Contents (Elt F)),
    StableHlo.binary main_v177 main_v179 main_v180 (mulf : (⟨S2048x256, .f32⟩ : BufTy).Contents (Elt F) → (⟨S2048x256, .f32⟩ : BufTy).Contents (Elt F) → (⟨S2048x256, .f32⟩ : BufTy).Contents (Elt F)),
    StableHlo.unary main_arg19 main_v181 (broadcastInDim S1x256 ![1] bcast_S256_S1x256_1 : (⟨S256, .f32⟩ : BufTy).Contents (Elt F) → (⟨S1x256, .f32⟩ : BufTy).Contents (Elt F)),
    StableHlo.unary main_v181 main_v182 (broadcastInDim S2048x256 ![0, 1] bcast_S1x256_S2048x256_0_1 : (⟨S1x256, .f32⟩ : BufTy).Contents (Elt F) → (⟨S2048x256, .f32⟩ : BufTy).Contents (Elt F)),
    StableHlo.binary main_v180 main_v182 main_v183 (addf : (⟨S2048x256, .f32⟩ : BufTy).Contents (Elt F) → (⟨S2048x256, .f32⟩ : BufTy).Contents (Elt F) → (⟨S2048x256, .f32⟩ : BufTy).Contents (Elt F)),
    StableHlo.TRef.nullary main_call9.cst (constant S_ .f32 0x00000000#32),
    StableHlo.TRef.unary main_call9.cst main_call9.v0 (broadcastInDim S2048x256 ![] bcast_S_S2048x256),
    StableHlo.TRef.binary (.of main_v183 : StableHlo.TRef sig ⟨S2048x256, .f32⟩) main_call9.v0 main_call9.v1 maximumf,
    StableHlo.binary main_v161 main_v184 main_v185 ((fun a b => concatenate S2048x512 1 [⟨S2048x256, a⟩, ⟨S2048x256, b⟩] concatenates_S2048x256_S2048x256_S2048x512_d1) : (⟨S2048x256, .f32⟩ : BufTy).Contents (Elt F) → (⟨S2048x256, .f32⟩ : BufTy).Contents (Elt F) → (⟨S2048x512, .f32⟩ : BufTy).Contents (Elt F)),
    StableHlo.binary main_v185 main_arg20 main_v186 ((fun l r => Host.dotGeneral dot_S2048x512_S512x1024_S2048x1024_1_0_0_1_n_n none l r) : (⟨S2048x512, .f32⟩ : BufTy).Contents (Elt F) → (⟨S512x1024, .f32⟩ : BufTy).Contents (Elt F) → (⟨S2048x1024, .f32⟩ : BufTy).Contents (Elt F)),
    StableHlo.unary main_arg21 main_v187 (broadcastInDim S1x1024 ![1] bcast_S1024_S1x1024_1 : (⟨S1024, .f32⟩ : BufTy).Contents (Elt F) → (⟨S1x1024, .f32⟩ : BufTy).Contents (Elt F)),
    StableHlo.unary main_v187 main_v188 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v186 main_v188 main_v189 (addf : (⟨S2048x1024, .f32⟩ : BufTy).Contents (Elt F) → (⟨S2048x1024, .f32⟩ : BufTy).Contents (Elt F) → (⟨S2048x1024, .f32⟩ : BufTy).Contents (Elt F)),
    StableHlo.TRef.nullary main_call10.cst (constant S_ .f32 0x00000000#32),
    StableHlo.TRef.unary main_call10.cst main_call10.v0 (broadcastInDim S2048x1024 ![] bcast_S_S2048x1024),
    StableHlo.TRef.binary (.of main_v189 : StableHlo.TRef sig ⟨S2048x1024, .f32⟩) main_call10.v0 main_call10.v1 maximumf,
    StableHlo.binary main_v190 main_arg22 main_v191 ((fun l r => Host.dotGeneral dot_S2048x1024_S1024x512_S2048x512_1_0_0_1_n_n none l r) : (⟨S2048x1024, .f32⟩ : BufTy).Contents (Elt F) → (⟨S1024x512, .f32⟩ : BufTy).Contents (Elt F) → (⟨S2048x512, .f32⟩ : BufTy).Contents (Elt F)),
    StableHlo.unary main_arg23 main_v192 (broadcastInDim S1x512 ![1] bcast_S512_S1x512_1 : (⟨S512, .f32⟩ : BufTy).Contents (Elt F) → (⟨S1x512, .f32⟩ : BufTy).Contents (Elt F)),
    StableHlo.unary main_v192 main_v193 (broadcastInDim S2048x512 ![0, 1] bcast_S1x512_S2048x512_0_1 : (⟨S1x512, .f32⟩ : BufTy).Contents (Elt F) → (⟨S2048x512, .f32⟩ : BufTy).Contents (Elt F)),
    StableHlo.binary main_v191 main_v193 main_v194 (addf : (⟨S2048x512, .f32⟩ : BufTy).Contents (Elt F) → (⟨S2048x512, .f32⟩ : BufTy).Contents (Elt F) → (⟨S2048x512, .f32⟩ : BufTy).Contents (Elt F)),
    StableHlo.TRef.nullary main_call11.cst (constant S_ .f32 0x00000000#32),
    StableHlo.TRef.unary main_call11.cst main_call11.v0 (broadcastInDim S2048x512 ![] bcast_S_S2048x512),
    StableHlo.TRef.binary (.of main_v194 : StableHlo.TRef sig ⟨S2048x512, .f32⟩) main_call11.v0 main_call11.v1 maximumf,
    StableHlo.binary main_v195 main_arg24 main_v196 ((fun l r => Host.dotGeneral dot_S2048x512_S512x1_S2048x1_1_0_0_1_n_n none l r) : (⟨S2048x512, .f32⟩ : BufTy).Contents (Elt F) → (⟨S512x1, .f32⟩ : BufTy).Contents (Elt F) → (⟨S2048x1, .f32⟩ : BufTy).Contents (Elt F)),
    StableHlo.unary main_arg25 main_v197 (broadcastInDim S1x1 ![1] bcast_S1_S1x1_1 : (⟨S1, .f32⟩ : BufTy).Contents (Elt F) → (⟨S1x1, .f32⟩ : BufTy).Contents (Elt F)),
    StableHlo.unary main_v197 main_v198 (broadcastInDim S2048x1 ![0, 1] bcast_S1x1_S2048x1_0_1 : (⟨S1x1, .f32⟩ : BufTy).Contents (Elt F) → (⟨S2048x1, .f32⟩ : BufTy).Contents (Elt F)),
    StableHlo.binary main_v196 main_v198 main_v199 (addf : (⟨S2048x1, .f32⟩ : BufTy).Contents (Elt F) → (⟨S2048x1, .f32⟩ : BufTy).Contents (Elt F) → (⟨S2048x1, .f32⟩ : BufTy).Contents (Elt F)) ]

set_option maxRecDepth 8192 in
set_option maxHeartbeats 4000000 in
/-- @main is that straight line: its four windows run in order, each called function's body at its call. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    reshape_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., unary_bufs_sub .., reshape_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., binary_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., unary_bufs_sub .., ternary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub ..⟩

set_option maxRecDepth 8192 in
set_option maxHeartbeats 4000000 in
/-- On every device, for any float values, from any memory with zero counters: every weakly fair execution of
    @main terminates, and every final state has each TensorCore buffer at the operations' fold over the launch
    contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefValue

end
-- ==== Proof.RefWin.lean ====
/- The reference program's operation list (`Cert.RefValue.ops`) cut into seven consecutive stretches, one per stage of
   the network: opsLayer0 — the edge rows and layer 0 (through %32), 41 operations; opsLayer1 — the residual layer on slab 0 (%33 … %74), 50 operations; opsLayer2 — the residual layer on slab 1 (%75 … %116), 50 operations; opsLayer3 — the residual layer on slab 2 (%117 … %158), 50 operations; opsPool — the per-graph sums (%159 … %161), 4 operations; opsProj — the protein projector (%162 … %184), 51 operations; opsPred — the predictor (%185 … %199), 19 operations.
   Their concatenation in this order is `ops`. -/
import proofs.«153049_j20907900797458_1_alg».proof.Proof.Gen.ReferenceIdeal
import Idealize.ShloMosaic.Lib.StableHlo.Run

noncomputable section

namespace Cert.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the edge rows and layer 0 (through %32). -/
def opsLayer0 : List (HloOp τ sig (Elt F)) :=
  [ StableHlo.unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v0 main_v1 rfl shapeCasts_S1x400000_S400000,
    StableHlo.unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    StableHlo.reshape main_v2 main_v3 rfl shapeCasts_S1x400000_S400000,
    StableHlo.nullary main_c (constantI S_ 32 0#32),
    StableHlo.unary main_c main_v4 (broadcastInDim S400000 ![] bcast_S_S400000 : (⟨S_, .i32⟩ : BufTy).Contents (Elt F) → (⟨S400000, .i32⟩ : BufTy).Contents (Elt F)),
    StableHlo.binary main_v1 main_v4 main_v5 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v6 (broadcastInDim S400000 ![] bcast_S_S400000 : (⟨S_, .i32⟩ : BufTy).Contents (Elt F) → (⟨S400000, .i32⟩ : BufTy).Contents (Elt F)),
    StableHlo.binary main_v1 main_v6 main_v7 (addi : (⟨S400000, .i32⟩ : BufTy).Contents (Elt F) → (⟨S400000, .i32⟩ : BufTy).Contents (Elt F) → (⟨S400000, .i32⟩ : BufTy).Contents (Elt F)),
    StableHlo.ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v8 main_v9 (broadcastInDim S400000x1 ![0] bcast_S400000_S400000x1_0 : (⟨S400000, .i32⟩ : BufTy).Contents (Elt F) → (⟨S400000x1, .i32⟩ : BufTy).Contents (Elt F)),
    StableHlo.binary main_arg0 main_v9 main_v10 ((fun x i => Host.gather gather_S50000x70_S400000x1_S400000x70_1_0_n_n_0_1_170 x i) : (⟨S50000x70, .f32⟩ : BufTy).Contents (Elt F) → (⟨S400000x1, .i32⟩ : BufTy).Contents (Elt F) → (⟨S400000x70, .f32⟩ : BufTy).Contents (Elt F)),
    StableHlo.nullary main_cst (constant S_ .f32 0x00000000#32),
    StableHlo.unary main_cst main_v11 (broadcastInDim S50000x70 ![] bcast_S_S50000x70 : (⟨S_, .f32⟩ : BufTy).Contents (Elt F) → (⟨S50000x70, .f32⟩ : BufTy).Contents (Elt F)),
    StableHlo.unary main_v3 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S50000x70_S400000x1_S400000x70_1_0_0_1 x i u) : (⟨S50000x70, .f32⟩ : BufTy).Contents (Elt F) → (⟨S400000x1, .i32⟩ : BufTy).Contents (Elt F) → (⟨S400000x70, .f32⟩ : BufTy).Contents (Elt F) → (⟨S50000x70, .f32⟩ : BufTy).Contents (Elt F)),
    StableHlo.binary main_arg0 main_v13 main_v14 (addf : (⟨S50000x70, .f32⟩ : BufTy).Contents (Elt F) → (⟨S50000x70, .f32⟩ : BufTy).Contents (Elt F) → (⟨S50000x70, .f32⟩ : BufTy).Contents (Elt F)),
    StableHlo.binary main_v14 main_arg4 main_v15 ((fun l r => Host.dotGeneral dot_S50000x70_S70x256_S50000x256_1_0_0_1_n_n none l r) : (⟨S50000x70, .f32⟩ : BufTy).Contents (Elt F) → (⟨S70x256, .f32⟩ : BufTy).Contents (Elt F) → (⟨S50000x256, .f32⟩ : BufTy).Contents (Elt F)),
    StableHlo.unary main_arg5 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S50000x256 ![0, 1] bcast_S1x256_S50000x256_0_1 : (⟨S1x256, .f32⟩ : BufTy).Contents (Elt F) → (⟨S50000x256, .f32⟩ : BufTy).Contents (Elt F)),
    StableHlo.binary main_v15 main_v17 main_v18 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v18 : StableHlo.TRef sig ⟨S50000x256, .f32⟩) main_call0.v0 main_call0.v1 maximumf,
    StableHlo.binary main_v19 main_arg6 main_v20 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S50000x256 ![0, 1] bcast_S1x256_S50000x256_0_1 : (⟨S1x256, .f32⟩ : BufTy).Contents (Elt F) → (⟨S50000x256, .f32⟩ : BufTy).Contents (Elt F)),
    StableHlo.binary main_v20 main_v22 main_v23 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x3F80002A#32),
    StableHlo.unary main_cst_1 main_v24 (broadcastInDim S256 ![] bcast_S_S256 : (⟨S_, .f32⟩ : BufTy).Contents (Elt F) → (⟨S256, .f32⟩ : BufTy).Contents (Elt F)),
    StableHlo.binary main_arg8 main_v24 main_v25 (Host.divf : (⟨S256, .f32⟩ : BufTy).Contents (Elt F) → (⟨S256, .f32⟩ : BufTy).Contents (Elt F) → (⟨S256, .f32⟩ : BufTy).Contents (Elt F)),
    StableHlo.unary main_v25 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v27 main_v28 (mulf : (⟨S50000x256, .f32⟩ : BufTy).Contents (Elt F) → (⟨S50000x256, .f32⟩ : BufTy).Contents (Elt F) → (⟨S50000x256, .f32⟩ : BufTy).Contents (Elt F)),
    StableHlo.unary main_arg9 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S50000x256 ![0, 1] bcast_S1x256_S50000x256_0_1 : (⟨S1x256, .f32⟩ : BufTy).Contents (Elt F) → (⟨S50000x256, .f32⟩ : BufTy).Contents (Elt F)),
    StableHlo.binary main_v28 main_v30 main_v31 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v31 : StableHlo.TRef sig ⟨S50000x256, .f32⟩) main_call1.v0 main_call1.v1 maximumf ]

/-- The operations of the residual layer on slab 0 (%33 … %74). -/
def opsLayer1 : List (HloOp τ sig (Elt F)) :=
  [ StableHlo.unary main_arg10 main_v33 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v33 main_v34 rfl shapeCasts_S1x256x256_S256x256,
    StableHlo.unary main_arg11 main_v35 ((extractStridedSlice S1x256 ![0, 0] · slices_S3x256_S1x256_0_0) : (⟨S3x256, .f32⟩ : BufTy).Contents (Elt F) → (⟨S1x256, .f32⟩ : BufTy).Contents (Elt F)),
    StableHlo.reshape main_v35 main_v36 rfl shapeCasts_S1x256_S256,
    StableHlo.unary main_arg12 main_v37 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v37 main_v38 rfl shapeCasts_S1x256x256_S256x256,
    StableHlo.unary main_arg13 main_v39 ((extractStridedSlice S1x256 ![0, 0] · slices_S3x256_S1x256_0_0) : (⟨S3x256, .f32⟩ : BufTy).Contents (Elt F) → (⟨S1x256, .f32⟩ : BufTy).Contents (Elt F)),
    StableHlo.reshape main_v39 main_v40 rfl shapeCasts_S1x256_S256,
    StableHlo.unary main_arg14 main_v41 ((extractStridedSlice S1x256 ![0, 0] · slices_S3x256_S1x256_0_0) : (⟨S3x256, .f32⟩ : BufTy).Contents (Elt F) → (⟨S1x256, .f32⟩ : BufTy).Contents (Elt F)),
    StableHlo.reshape main_v41 main_v42 rfl shapeCasts_S1x256_S256,
    StableHlo.unary main_arg15 main_v43 ((extractStridedSlice S1x256 ![0, 0] · slices_S3x256_S1x256_0_0) : (⟨S3x256, .f32⟩ : BufTy).Contents (Elt F) → (⟨S1x256, .f32⟩ : BufTy).Contents (Elt F)),
    StableHlo.reshape main_v43 main_v44 rfl shapeCasts_S1x256_S256,
    StableHlo.nullary main_c_2 (constantI S_ 32 0#32),
    StableHlo.unary main_c_2 main_v45 (broadcastInDim S400000 ![] bcast_S_S400000 : (⟨S_, .i32⟩ : BufTy).Contents (Elt F) → (⟨S400000, .i32⟩ : BufTy).Contents (Elt F)),
    StableHlo.binary main_v1 main_v45 main_v46 (cmpi .slt : (⟨S400000, .i32⟩ : BufTy).Contents (Elt F) → (⟨S400000, .i32⟩ : BufTy).Contents (Elt F) → (⟨S400000, .i1⟩ : BufTy).Contents (Elt F)),
    StableHlo.nullary main_c_3 (constantI S_ 32 50000#32),
    StableHlo.unary main_c_3 main_v47 (broadcastInDim S400000 ![] bcast_S_S400000 : (⟨S_, .i32⟩ : BufTy).Contents (Elt F) → (⟨S400000, .i32⟩ : BufTy).Contents (Elt F)),
    StableHlo.binary main_v1 main_v47 main_v48 (addi : (⟨S400000, .i32⟩ : BufTy).Contents (Elt F) → (⟨S400000, .i32⟩ : BufTy).Contents (Elt F) → (⟨S400000, .i32⟩ : BufTy).Contents (Elt F)),
    StableHlo.ternary main_v46 main_v48 main_v1 main_v49 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v49 main_v50 (broadcastInDim S400000x1 ![0] bcast_S400000_S400000x1_0 : (⟨S400000, .i32⟩ : BufTy).Contents (Elt F) → (⟨S400000x1, .i32⟩ : BufTy).Contents (Elt F)),
    StableHlo.binary main_v32 main_v50 main_v51 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_4 (constant S_ .f32 0x00000000#32),
    StableHlo.unary main_cst_4 main_v52 (broadcastInDim S50000x256 ![] bcast_S_S50000x256 : (⟨S_, .f32⟩ : BufTy).Contents (Elt F) → (⟨S50000x256, .f32⟩ : BufTy).Contents (Elt F)),
    StableHlo.unary main_v3 main_v53 (broadcastInDim S400000x1 ![0] bcast_S400000_S400000x1_0 : (⟨S400000, .i32⟩ : BufTy).Contents (Elt F) → (⟨S400000x1, .i32⟩ : BufTy).Contents (Elt F)),
    StableHlo.ternary main_v52 main_v53 main_v51 main_v54 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.binary main_v32 main_v54 main_v55 (addf : (⟨S50000x256, .f32⟩ : BufTy).Contents (Elt F) → (⟨S50000x256, .f32⟩ : BufTy).Contents (Elt F) → (⟨S50000x256, .f32⟩ : BufTy).Contents (Elt F)),
    StableHlo.binary main_v55 main_v34 main_v56 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v36 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S50000x256 ![0, 1] bcast_S1x256_S50000x256_0_1 : (⟨S1x256, .f32⟩ : BufTy).Contents (Elt F) → (⟨S50000x256, .f32⟩ : BufTy).Contents (Elt F)),
    StableHlo.binary main_v56 main_v58 main_v59 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v59 : StableHlo.TRef sig ⟨S50000x256, .f32⟩) main_call2.v0 main_call2.v1 maximumf,
    StableHlo.binary main_v60 main_v38 main_v61 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v40 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v61 main_v63 main_v64 (addf : (⟨S50000x256, .f32⟩ : BufTy).Contents (Elt F) → (⟨S50000x256, .f32⟩ : BufTy).Contents (Elt F) → (⟨S50000x256, .f32⟩ : BufTy).Contents (Elt F)),
    StableHlo.nullary main_cst_5 (constant S_ .f32 0x3F80002A#32),
    StableHlo.unary main_cst_5 main_v65 (broadcastInDim S256 ![] bcast_S_S256 : (⟨S_, .f32⟩ : BufTy).Contents (Elt F) → (⟨S256, .f32⟩ : BufTy).Contents (Elt F)),
    StableHlo.binary main_v42 main_v65 main_v66 (Host.divf : (⟨S256, .f32⟩ : BufTy).Contents (Elt F) → (⟨S256, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v68 main_v69 (mulf : (⟨S50000x256, .f32⟩ : BufTy).Contents (Elt F) → (⟨S50000x256, .f32⟩ : BufTy).Contents (Elt F) → (⟨S50000x256, .f32⟩ : BufTy).Contents (Elt F)),
    StableHlo.unary main_v44 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v72 : StableHlo.TRef sig ⟨S50000x256, .f32⟩) main_call3.v0 main_call3.v1 maximumf,
    StableHlo.binary main_v32 main_v73 main_v74 (addf : (⟨S50000x256, .f32⟩ : BufTy).Contents (Elt F) → (⟨S50000x256, .f32⟩ : BufTy).Contents (Elt F) → (⟨S50000x256, .f32⟩ : BufTy).Contents (Elt F)) ]

/-- The operations of the residual layer on slab 1 (%75 … %116). -/
def opsLayer2 : List (HloOp τ sig (Elt F)) :=
  [ StableHlo.unary main_arg10 main_v75 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v75 main_v76 rfl shapeCasts_S1x256x256_S256x256,
    StableHlo.unary main_arg11 main_v77 ((extractStridedSlice S1x256 ![1, 0] · slices_S3x256_S1x256_1_0) : (⟨S3x256, .f32⟩ : BufTy).Contents (Elt F) → (⟨S1x256, .f32⟩ : BufTy).Contents (Elt F)),
    StableHlo.reshape main_v77 main_v78 rfl shapeCasts_S1x256_S256,
    StableHlo.unary main_arg12 main_v79 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v79 main_v80 rfl shapeCasts_S1x256x256_S256x256,
    StableHlo.unary main_arg13 main_v81 ((extractStridedSlice S1x256 ![1, 0] · slices_S3x256_S1x256_1_0) : (⟨S3x256, .f32⟩ : BufTy).Contents (Elt F) → (⟨S1x256, .f32⟩ : BufTy).Contents (Elt F)),
    StableHlo.reshape main_v81 main_v82 rfl shapeCasts_S1x256_S256,
    StableHlo.unary main_arg14 main_v83 ((extractStridedSlice S1x256 ![1, 0] · slices_S3x256_S1x256_1_0) : (⟨S3x256, .f32⟩ : BufTy).Contents (Elt F) → (⟨S1x256, .f32⟩ : BufTy).Contents (Elt F)),
    StableHlo.reshape main_v83 main_v84 rfl shapeCasts_S1x256_S256,
    StableHlo.unary main_arg15 main_v85 ((extractStridedSlice S1x256 ![1, 0] · slices_S3x256_S1x256_1_0) : (⟨S3x256, .f32⟩ : BufTy).Contents (Elt F) → (⟨S1x256, .f32⟩ : BufTy).Contents (Elt F)),
    StableHlo.reshape main_v85 main_v86 rfl shapeCasts_S1x256_S256,
    StableHlo.nullary main_c_6 (constantI S_ 32 0#32),
    StableHlo.unary main_c_6 main_v87 (broadcastInDim S400000 ![] bcast_S_S400000 : (⟨S_, .i32⟩ : BufTy).Contents (Elt F) → (⟨S400000, .i32⟩ : BufTy).Contents (Elt F)),
    StableHlo.binary main_v1 main_v87 main_v88 (cmpi .slt : (⟨S400000, .i32⟩ : BufTy).Contents (Elt F) → (⟨S400000, .i32⟩ : BufTy).Contents (Elt F) → (⟨S400000, .i1⟩ : BufTy).Contents (Elt F)),
    StableHlo.nullary main_c_7 (constantI S_ 32 50000#32),
    StableHlo.unary main_c_7 main_v89 (broadcastInDim S400000 ![] bcast_S_S400000 : (⟨S_, .i32⟩ : BufTy).Contents (Elt F) → (⟨S400000, .i32⟩ : BufTy).Contents (Elt F)),
    StableHlo.binary main_v1 main_v89 main_v90 (addi : (⟨S400000, .i32⟩ : BufTy).Contents (Elt F) → (⟨S400000, .i32⟩ : BufTy).Contents (Elt F) → (⟨S400000, .i32⟩ : BufTy).Contents (Elt F)),
    StableHlo.ternary main_v88 main_v90 main_v1 main_v91 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v91 main_v92 (broadcastInDim S400000x1 ![0] bcast_S400000_S400000x1_0 : (⟨S400000, .i32⟩ : BufTy).Contents (Elt F) → (⟨S400000x1, .i32⟩ : BufTy).Contents (Elt F)),
    StableHlo.binary main_v74 main_v92 main_v93 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_8 (constant S_ .f32 0x00000000#32),
    StableHlo.unary main_cst_8 main_v94 (broadcastInDim S50000x256 ![] bcast_S_S50000x256 : (⟨S_, .f32⟩ : BufTy).Contents (Elt F) → (⟨S50000x256, .f32⟩ : BufTy).Contents (Elt F)),
    StableHlo.unary main_v3 main_v95 (broadcastInDim S400000x1 ![0] bcast_S400000_S400000x1_0 : (⟨S400000, .i32⟩ : BufTy).Contents (Elt F) → (⟨S400000x1, .i32⟩ : BufTy).Contents (Elt F)),
    StableHlo.ternary main_v94 main_v95 main_v93 main_v96 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.binary main_v74 main_v96 main_v97 (addf : (⟨S50000x256, .f32⟩ : BufTy).Contents (Elt F) → (⟨S50000x256, .f32⟩ : BufTy).Contents (Elt F) → (⟨S50000x256, .f32⟩ : BufTy).Contents (Elt F)),
    StableHlo.binary main_v97 main_v76 main_v98 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v78 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S50000x256 ![0, 1] bcast_S1x256_S50000x256_0_1 : (⟨S1x256, .f32⟩ : BufTy).Contents (Elt F) → (⟨S50000x256, .f32⟩ : BufTy).Contents (Elt F)),
    StableHlo.binary main_v98 main_v100 main_v101 (addf : (⟨S50000x256, .f32⟩ : BufTy).Contents (Elt F) → (⟨S50000x256, .f32⟩ : BufTy).Contents (Elt F) → (⟨S50000x256, .f32⟩ : BufTy).Contents (Elt F)),
    StableHlo.TRef.nullary main_call4.cst (constant S_ .f32 0x00000000#32),
    StableHlo.TRef.unary main_call4.cst main_call4.v0 (broadcastInDim S50000x256 ![] bcast_S_S50000x256),
    StableHlo.TRef.binary (.of main_v101 : StableHlo.TRef sig ⟨S50000x256, .f32⟩) main_call4.v0 main_call4.v1 maximumf,
    StableHlo.binary main_v102 main_v80 main_v103 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v82 main_v104 (broadcastInDim S1x256 ![1] bcast_S256_S1x256_1 : (⟨S256, .f32⟩ : BufTy).Contents (Elt F) → (⟨S1x256, .f32⟩ : BufTy).Contents (Elt F)),
    StableHlo.unary main_v104 main_v105 (broadcastInDim S50000x256 ![0, 1] bcast_S1x256_S50000x256_0_1 : (⟨S1x256, .f32⟩ : BufTy).Contents (Elt F) → (⟨S50000x256, .f32⟩ : BufTy).Contents (Elt F)),
    StableHlo.binary main_v103 main_v105 main_v106 (addf : (⟨S50000x256, .f32⟩ : BufTy).Contents (Elt F) → (⟨S50000x256, .f32⟩ : BufTy).Contents (Elt F) → (⟨S50000x256, .f32⟩ : BufTy).Contents (Elt F)),
    StableHlo.nullary main_cst_9 (constant S_ .f32 0x3F80002A#32),
    StableHlo.unary main_cst_9 main_v107 (broadcastInDim S256 ![] bcast_S_S256 : (⟨S_, .f32⟩ : BufTy).Contents (Elt F) → (⟨S256, .f32⟩ : BufTy).Contents (Elt F)),
    StableHlo.binary main_v84 main_v107 main_v108 (Host.divf : (⟨S256, .f32⟩ : BufTy).Contents (Elt F) → (⟨S256, .f32⟩ : BufTy).Contents (Elt F) → (⟨S256, .f32⟩ : BufTy).Contents (Elt F)),
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v110 main_v111 (mulf : (⟨S50000x256, .f32⟩ : BufTy).Contents (Elt F) → (⟨S50000x256, .f32⟩ : BufTy).Contents (Elt F) → (⟨S50000x256, .f32⟩ : BufTy).Contents (Elt F)),
    StableHlo.unary main_v86 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v113 main_v114 (addf : (⟨S50000x256, .f32⟩ : BufTy).Contents (Elt F) → (⟨S50000x256, .f32⟩ : BufTy).Contents (Elt F) → (⟨S50000x256, .f32⟩ : BufTy).Contents (Elt F)),
    StableHlo.TRef.nullary main_call5.cst (constant S_ .f32 0x00000000#32),
    StableHlo.TRef.unary main_call5.cst main_call5.v0 (broadcastInDim S50000x256 ![] bcast_S_S50000x256),
    StableHlo.TRef.binary (.of main_v114 : StableHlo.TRef sig ⟨S50000x256, .f32⟩) main_call5.v0 main_call5.v1 maximumf,
    StableHlo.binary main_v74 main_v115 main_v116 (addf : (⟨S50000x256, .f32⟩ : BufTy).Contents (Elt F) → (⟨S50000x256, .f32⟩ : BufTy).Contents (Elt F) → (⟨S50000x256, .f32⟩ : BufTy).Contents (Elt F)) ]

/-- The operations of the residual layer on slab 2 (%117 … %158). -/
def opsLayer3 : List (HloOp τ sig (Elt F)) :=
  [ StableHlo.unary main_arg10 main_v117 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v117 main_v118 rfl shapeCasts_S1x256x256_S256x256,
    StableHlo.unary main_arg11 main_v119 ((extractStridedSlice S1x256 ![2, 0] · slices_S3x256_S1x256_2_0) : (⟨S3x256, .f32⟩ : BufTy).Contents (Elt F) → (⟨S1x256, .f32⟩ : BufTy).Contents (Elt F)),
    StableHlo.reshape main_v119 main_v120 rfl shapeCasts_S1x256_S256,
    StableHlo.unary main_arg12 main_v121 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v121 main_v122 rfl shapeCasts_S1x256x256_S256x256,
    StableHlo.unary main_arg13 main_v123 ((extractStridedSlice S1x256 ![2, 0] · slices_S3x256_S1x256_2_0) : (⟨S3x256, .f32⟩ : BufTy).Contents (Elt F) → (⟨S1x256, .f32⟩ : BufTy).Contents (Elt F)),
    StableHlo.reshape main_v123 main_v124 rfl shapeCasts_S1x256_S256,
    StableHlo.unary main_arg14 main_v125 ((extractStridedSlice S1x256 ![2, 0] · slices_S3x256_S1x256_2_0) : (⟨S3x256, .f32⟩ : BufTy).Contents (Elt F) → (⟨S1x256, .f32⟩ : BufTy).Contents (Elt F)),
    StableHlo.reshape main_v125 main_v126 rfl shapeCasts_S1x256_S256,
    StableHlo.unary main_arg15 main_v127 ((extractStridedSlice S1x256 ![2, 0] · slices_S3x256_S1x256_2_0) : (⟨S3x256, .f32⟩ : BufTy).Contents (Elt F) → (⟨S1x256, .f32⟩ : BufTy).Contents (Elt F)),
    StableHlo.reshape main_v127 main_v128 rfl shapeCasts_S1x256_S256,
    StableHlo.nullary main_c_10 (constantI S_ 32 0#32),
    StableHlo.unary main_c_10 main_v129 (broadcastInDim S400000 ![] bcast_S_S400000 : (⟨S_, .i32⟩ : BufTy).Contents (Elt F) → (⟨S400000, .i32⟩ : BufTy).Contents (Elt F)),
    StableHlo.binary main_v1 main_v129 main_v130 (cmpi .slt : (⟨S400000, .i32⟩ : BufTy).Contents (Elt F) → (⟨S400000, .i32⟩ : BufTy).Contents (Elt F) → (⟨S400000, .i1⟩ : BufTy).Contents (Elt F)),
    StableHlo.nullary main_c_11 (constantI S_ 32 50000#32),
    StableHlo.unary main_c_11 main_v131 (broadcastInDim S400000 ![] bcast_S_S400000 : (⟨S_, .i32⟩ : BufTy).Contents (Elt F) → (⟨S400000, .i32⟩ : BufTy).Contents (Elt F)),
    StableHlo.binary main_v1 main_v131 main_v132 (addi : (⟨S400000, .i32⟩ : BufTy).Contents (Elt F) → (⟨S400000, .i32⟩ : BufTy).Contents (Elt F) → (⟨S400000, .i32⟩ : BufTy).Contents (Elt F)),
    StableHlo.ternary main_v130 main_v132 main_v1 main_v133 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v133 main_v134 (broadcastInDim S400000x1 ![0] bcast_S400000_S400000x1_0 : (⟨S400000, .i32⟩ : BufTy).Contents (Elt F) → (⟨S400000x1, .i32⟩ : BufTy).Contents (Elt F)),
    StableHlo.binary main_v116 main_v134 main_v135 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.nullary main_cst_12 (constant S_ .f32 0x00000000#32),
    StableHlo.unary main_cst_12 main_v136 (broadcastInDim S50000x256 ![] bcast_S_S50000x256 : (⟨S_, .f32⟩ : BufTy).Contents (Elt F) → (⟨S50000x256, .f32⟩ : BufTy).Contents (Elt F)),
    StableHlo.unary main_v3 main_v137 (broadcastInDim S400000x1 ![0] bcast_S400000_S400000x1_0 : (⟨S400000, .i32⟩ : BufTy).Contents (Elt F) → (⟨S400000x1, .i32⟩ : BufTy).Contents (Elt F)),
    StableHlo.ternary main_v136 main_v137 main_v135 main_v138 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.binary main_v116 main_v138 main_v139 (addf : (⟨S50000x256, .f32⟩ : BufTy).Contents (Elt F) → (⟨S50000x256, .f32⟩ : BufTy).Contents (Elt F) → (⟨S50000x256, .f32⟩ : BufTy).Contents (Elt F)),
    StableHlo.binary main_v139 main_v118 main_v140 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v120 main_v141 (broadcastInDim S1x256 ![1] bcast_S256_S1x256_1 : (⟨S256, .f32⟩ : BufTy).Contents (Elt F) → (⟨S1x256, .f32⟩ : BufTy).Contents (Elt F)),
    StableHlo.unary main_v141 main_v142 (broadcastInDim S50000x256 ![0, 1] bcast_S1x256_S50000x256_0_1 : (⟨S1x256, .f32⟩ : BufTy).Contents (Elt F) → (⟨S50000x256, .f32⟩ : BufTy).Contents (Elt F)),
    StableHlo.binary main_v140 main_v142 main_v143 (addf : (⟨S50000x256, .f32⟩ : BufTy).Contents (Elt F) → (⟨S50000x256, .f32⟩ : BufTy).Contents (Elt F) → (⟨S50000x256, .f32⟩ : BufTy).Contents (Elt F)),
    StableHlo.TRef.nullary main_call6.cst (constant S_ .f32 0x00000000#32),
    StableHlo.TRef.unary main_call6.cst main_call6.v0 (broadcastInDim S50000x256 ![] bcast_S_S50000x256),
    StableHlo.TRef.binary (.of main_v143 : StableHlo.TRef sig ⟨S50000x256, .f32⟩) main_call6.v0 main_call6.v1 maximumf,
    StableHlo.binary main_v144 main_v122 main_v145 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v124 main_v146 (broadcastInDim S1x256 ![1] bcast_S256_S1x256_1 : (⟨S256, .f32⟩ : BufTy).Contents (Elt F) → (⟨S1x256, .f32⟩ : BufTy).Contents (Elt F)),
    StableHlo.unary main_v146 main_v147 (broadcastInDim S50000x256 ![0, 1] bcast_S1x256_S50000x256_0_1 : (⟨S1x256, .f32⟩ : BufTy).Contents (Elt F) → (⟨S50000x256, .f32⟩ : BufTy).Contents (Elt F)),
    StableHlo.binary main_v145 main_v147 main_v148 (addf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3F80002A#32),
    StableHlo.unary main_cst_13 main_v149 (broadcastInDim S256 ![] bcast_S_S256 : (⟨S_, .f32⟩ : BufTy).Contents (Elt F) → (⟨S256, .f32⟩ : BufTy).Contents (Elt F)),
    StableHlo.binary main_v126 main_v149 main_v150 (Host.divf : (⟨S256, .f32⟩ : BufTy).Contents (Elt F) → (⟨S256, .f32⟩ : BufTy).Contents (Elt F) → (⟨S256, .f32⟩ : BufTy).Contents (Elt F)),
    StableHlo.unary main_v150 main_v151 (broadcastInDim S1x256 ![1] bcast_S256_S1x256_1 : (⟨S256, .f32⟩ : BufTy).Contents (Elt F) → (⟨S1x256, .f32⟩ : BufTy).Contents (Elt F)),
    StableHlo.unary main_v151 main_v152 (broadcastInDim S50000x256 ![0, 1] bcast_S1x256_S50000x256_0_1 : (⟨S1x256, .f32⟩ : BufTy).Contents (Elt F) → (⟨S50000x256, .f32⟩ : BufTy).Contents (Elt F)),
    StableHlo.binary main_v148 main_v152 main_v153 (mulf : (⟨S50000x256, .f32⟩ : BufTy).Contents (Elt F) → (⟨S50000x256, .f32⟩ : BufTy).Contents (Elt F) → (⟨S50000x256, .f32⟩ : BufTy).Contents (Elt F)),
    StableHlo.unary main_v128 main_v154 (broadcastInDim S1x256 ![1] bcast_S256_S1x256_1 : (⟨S256, .f32⟩ : BufTy).Contents (Elt F) → (⟨S1x256, .f32⟩ : BufTy).Contents (Elt F)),
    StableHlo.unary main_v154 main_v155 (broadcastInDim S50000x256 ![0, 1] bcast_S1x256_S50000x256_0_1 : (⟨S1x256, .f32⟩ : BufTy).Contents (Elt F) → (⟨S50000x256, .f32⟩ : BufTy).Contents (Elt F)),
    StableHlo.binary main_v153 main_v155 main_v156 (addf : (⟨S50000x256, .f32⟩ : BufTy).Contents (Elt F) → (⟨S50000x256, .f32⟩ : BufTy).Contents (Elt F) → (⟨S50000x256, .f32⟩ : BufTy).Contents (Elt F)),
    StableHlo.TRef.nullary main_call7.cst (constant S_ .f32 0x00000000#32),
    StableHlo.TRef.unary main_call7.cst main_call7.v0 (broadcastInDim S50000x256 ![] bcast_S_S50000x256),
    StableHlo.TRef.binary (.of main_v156 : StableHlo.TRef sig ⟨S50000x256, .f32⟩) main_call7.v0 main_call7.v1 maximumf,
    StableHlo.binary main_v116 main_v157 main_v158 (addf : (⟨S50000x256, .f32⟩ : BufTy).Contents (Elt F) → (⟨S50000x256, .f32⟩ : BufTy).Contents (Elt F) → (⟨S50000x256, .f32⟩ : BufTy).Contents (Elt F)) ]

/-- The operations of the per-graph sums (%159 … %161). -/
def opsPool : List (HloOp τ sig (Elt F)) :=
  [ StableHlo.nullary main_cst_14 (constant S_ .f32 0x00000000#32),
    StableHlo.unary main_cst_14 main_v159 (broadcastInDim S2048x256 ![] bcast_S_S2048x256 : (⟨S_, .f32⟩ : BufTy).Contents (Elt F) → (⟨S2048x256, .f32⟩ : BufTy).Contents (Elt F)),
    StableHlo.unary main_arg2 main_v160 (broadcastInDim S50000x1 ![0] bcast_S50000_S50000x1_0 : (⟨S50000, .i32⟩ : BufTy).Contents (Elt F) → (⟨S50000x1, .i32⟩ : BufTy).Contents (Elt F)),
    StableHlo.ternary main_v159 main_v160 main_v158 main_v161 ((fun x i u => Host.scatterAdd scatter_S2048x256_S50000x1_S50000x256_1_0_0_1 x i u) : (⟨S2048x256, .f32⟩ : BufTy).Contents (Elt F) → (⟨S50000x1, .i32⟩ : BufTy).Contents (Elt F) → (⟨S50000x256, .f32⟩ : BufTy).Contents (Elt F) → (⟨S2048x256, .f32⟩ : BufTy).Contents (Elt F)) ]

/-- The operations of the protein projector (%162 … %184). -/
def opsProj : List (HloOp τ sig (Elt F)) :=
  [ StableHlo.binary main_arg3 main_arg16 main_v162 ((fun l r => Host.dotGeneral dot_S2048x480_S480x256_S2048x256_1_0_0_1_n_n none l r) : (⟨S2048x480, .f32⟩ : BufTy).Contents (Elt F) → (⟨S480x256, .f32⟩ : BufTy).Contents (Elt F) → (⟨S2048x256, .f32⟩ : BufTy).Contents (Elt F)),
    StableHlo.unary main_arg17 main_v163 (broadcastInDim S1x256 ![1] bcast_S256_S1x256_1 : (⟨S256, .f32⟩ : BufTy).Contents (Elt F) → (⟨S1x256, .f32⟩ : BufTy).Contents (Elt F)),
    StableHlo.unary main_v163 main_v164 (broadcastInDim S2048x256 ![0, 1] bcast_S1x256_S2048x256_0_1 : (⟨S1x256, .f32⟩ : BufTy).Contents (Elt F) → (⟨S2048x256, .f32⟩ : BufTy).Contents (Elt F)),
    StableHlo.binary main_v162 main_v164 main_v165 (addf : (⟨S2048x256, .f32⟩ : BufTy).Contents (Elt F) → (⟨S2048x256, .f32⟩ : BufTy).Contents (Elt F) → (⟨S2048x256, .f32⟩ : BufTy).Contents (Elt F)),
    StableHlo.nullary main_cst_15 (constant S_ .f32 0x00000000#32),
    StableHlo.binary main_v165 main_cst_15 main_v166 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v166 main_v167 (broadcastInDim S2048x1 ![0] bcast_S2048_S2048x1_0 : (⟨S2048, .f32⟩ : BufTy).Contents (Elt F) → (⟨S2048x1, .f32⟩ : BufTy).Contents (Elt F)),
    StableHlo.nullary main_cst_16 (constant S_ .f32 0x43800000#32),
    StableHlo.unary main_cst_16 main_v168 (broadcastInDim S2048x1 ![] bcast_S_S2048x1 : (⟨S_, .f32⟩ : BufTy).Contents (Elt F) → (⟨S2048x1, .f32⟩ : BufTy).Contents (Elt F)),
    StableHlo.binary main_v167 main_v168 main_v169 (Host.divf : (⟨S2048x1, .f32⟩ : BufTy).Contents (Elt F) → (⟨S2048x1, .f32⟩ : BufTy).Contents (Elt F) → (⟨S2048x1, .f32⟩ : BufTy).Contents (Elt F)),
    StableHlo.nullary main_c_17 (constantI S_ 32 0#32),
    StableHlo.TRef.nullary main_call8.cst (constant S_ .f32 0x00000000#32),
    StableHlo.TRef.binary (.of main_v165 : StableHlo.TRef sig ⟨S2048x256, .f32⟩) main_call8.cst main_call8.v0 (fun x v => Host.reduceAdd x v reducesTo_S2048x256_S2048_d1 h_S_),
    StableHlo.TRef.unary main_call8.v0 main_call8.v1 (broadcastInDim S2048x1 ![0] bcast_S2048_S2048x1_0),
    StableHlo.TRef.nullary main_call8.cst_0 (constant S_ .f32 0x43800000#32),
    StableHlo.TRef.unary main_call8.cst_0 main_call8.v2 (broadcastInDim S2048x1 ![] bcast_S_S2048x1),
    StableHlo.TRef.binary main_call8.v1 main_call8.v2 main_call8.v3 Host.divf,
    StableHlo.TRef.unary main_call8.v3 main_call8.v4 (broadcastInDim S2048x256 ![0, 1] bcast_S2048x1_S2048x256_0_1),
    StableHlo.TRef.binary (.of main_v165 : StableHlo.TRef sig ⟨S2048x256, .f32⟩) main_call8.v4 main_call8.v5 subf,
    StableHlo.TRef.binary main_call8.v5 main_call8.v5 main_call8.v6 mulf,
    StableHlo.TRef.unary (.of main_c_17 : StableHlo.TRef sig ⟨S_, .i32⟩) main_call8.v7 (sitofp .f32),
    StableHlo.TRef.nullary main_call8.cst_1 (constant S_ .f32 0x43800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S2048x256_S2048_d1 h_S_),
    StableHlo.TRef.unary main_call8.v9 main_call8.v10 (broadcastInDim S2048x1 ![0] bcast_S2048_S2048x1_0),
    StableHlo.TRef.unary main_call8.v8 main_call8.v11 (broadcastInDim S2048x1 ![] bcast_S_S2048x1),
    StableHlo.TRef.binary main_call8.v10 main_call8.v11 main_call8.v12 Host.divf,
    StableHlo.TRef.nullary main_call8.cst_3 (constant S_ .f32 0x00000000#32),
    StableHlo.TRef.binary main_call8.v8 main_call8.cst_3 main_call8.v13 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S2048x1 ![] bcast_S_S2048x1),
    StableHlo.TRef.ternary main_call8.v13 main_call8.v12 main_call8.call0.v1 main_call8.call0.v2 (fun p a b => select (broadcastInDim S2048x1 ![] bcast_S_S2048x1 p) a b),
    StableHlo.unary main_v169 main_v171 (broadcastInDim S2048x256 ![0, 1] bcast_S2048x1_S2048x256_0_1 : (⟨S2048x1, .f32⟩ : BufTy).Contents (Elt F) → (⟨S2048x256, .f32⟩ : BufTy).Contents (Elt F)),
    StableHlo.binary main_v165 main_v171 main_v172 (subf : (⟨S2048x256, .f32⟩ : BufTy).Contents (Elt F) → (⟨S2048x256, .f32⟩ : BufTy).Contents (Elt F) → (⟨S2048x256, .f32⟩ : BufTy).Contents (Elt F)),
    StableHlo.nullary main_cst_18 (constant S_ .f32 0x3727C5AC#32),
    StableHlo.unary main_cst_18 main_v173 (broadcastInDim S2048x1 ![] bcast_S_S2048x1 : (⟨S_, .f32⟩ : BufTy).Contents (Elt F) → (⟨S2048x1, .f32⟩ : BufTy).Contents (Elt F)),
    StableHlo.binary main_v170 main_v173 main_v174 (addf : (⟨S2048x1, .f32⟩ : BufTy).Contents (Elt F) → (⟨S2048x1, .f32⟩ : BufTy).Contents (Elt F) → (⟨S2048x1, .f32⟩ : BufTy).Contents (Elt F)),
    StableHlo.unary main_v174 main_v175 (Host.rsqrt : (⟨S2048x1, .f32⟩ : BufTy).Contents (Elt F) → (⟨S2048x1, .f32⟩ : BufTy).Contents (Elt F)),
    StableHlo.unary main_v175 main_v176 (broadcastInDim S2048x256 ![0, 1] bcast_S2048x1_S2048x256_0_1 : (⟨S2048x1, .f32⟩ : BufTy).Contents (Elt F) → (⟨S2048x256, .f32⟩ : BufTy).Contents (Elt F)),
    StableHlo.binary main_v172 main_v176 main_v177 (mulf : (⟨S2048x256, .f32⟩ : BufTy).Contents (Elt F) → (⟨S2048x256, .f32⟩ : BufTy).Contents (Elt F) → (⟨S2048x256, .f32⟩ : BufTy).Contents (Elt F)),
    StableHlo.unary main_arg18 main_v178 (broadcastInDim S1x256 ![1] bcast_S256_S1x256_1 : (⟨S256, .f32⟩ : BufTy).Contents (Elt F) → (⟨S1x256, .f32⟩ : BufTy).Contents (Elt F)),
    StableHlo.unary main_v178 main_v179 (broadcastInDim S2048x256 ![0, 1] bcast_S1x256_S2048x256_0_1 : (⟨S1x256, .f32⟩ : BufTy).Contents (Elt F) → (⟨S2048x256, .f32⟩ : BufTy).Contents (Elt F)),
    StableHlo.binary main_v177 main_v179 main_v180 (mulf : (⟨S2048x256, .f32⟩ : BufTy).Contents (Elt F) → (⟨S2048x256, .f32⟩ : BufTy).Contents (Elt F) → (⟨S2048x256, .f32⟩ : BufTy).Contents (Elt F)),
    StableHlo.unary main_arg19 main_v181 (broadcastInDim S1x256 ![1] bcast_S256_S1x256_1 : (⟨S256, .f32⟩ : BufTy).Contents (Elt F) → (⟨S1x256, .f32⟩ : BufTy).Contents (Elt F)),
    StableHlo.unary main_v181 main_v182 (broadcastInDim S2048x256 ![0, 1] bcast_S1x256_S2048x256_0_1 : (⟨S1x256, .f32⟩ : BufTy).Contents (Elt F) → (⟨S2048x256, .f32⟩ : BufTy).Contents (Elt F)),
    StableHlo.binary main_v180 main_v182 main_v183 (addf : (⟨S2048x256, .f32⟩ : BufTy).Contents (Elt F) → (⟨S2048x256, .f32⟩ : BufTy).Contents (Elt F) → (⟨S2048x256, .f32⟩ : BufTy).Contents (Elt F)),
    StableHlo.TRef.nullary main_call9.cst (constant S_ .f32 0x00000000#32),
    StableHlo.TRef.unary main_call9.cst main_call9.v0 (broadcastInDim S2048x256 ![] bcast_S_S2048x256),
    StableHlo.TRef.binary (.of main_v183 : StableHlo.TRef sig ⟨S2048x256, .f32⟩) main_call9.v0 main_call9.v1 maximumf ]

/-- The operations of the predictor (%185 … %199). -/
def opsPred : List (HloOp τ sig (Elt F)) :=
  [ StableHlo.binary main_v161 main_v184 main_v185 ((fun a b => concatenate S2048x512 1 [⟨S2048x256, a⟩, ⟨S2048x256, b⟩] concatenates_S2048x256_S2048x256_S2048x512_d1) : (⟨S2048x256, .f32⟩ : BufTy).Contents (Elt F) → (⟨S2048x256, .f32⟩ : BufTy).Contents (Elt F) → (⟨S2048x512, .f32⟩ : BufTy).Contents (Elt F)),
    StableHlo.binary main_v185 main_arg20 main_v186 ((fun l r => Host.dotGeneral dot_S2048x512_S512x1024_S2048x1024_1_0_0_1_n_n none l r) : (⟨S2048x512, .f32⟩ : BufTy).Contents (Elt F) → (⟨S512x1024, .f32⟩ : BufTy).Contents (Elt F) → (⟨S2048x1024, .f32⟩ : BufTy).Contents (Elt F)),
    StableHlo.unary main_arg21 main_v187 (broadcastInDim S1x1024 ![1] bcast_S1024_S1x1024_1 : (⟨S1024, .f32⟩ : BufTy).Contents (Elt F) → (⟨S1x1024, .f32⟩ : BufTy).Contents (Elt F)),
    StableHlo.unary main_v187 main_v188 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v186 main_v188 main_v189 (addf : (⟨S2048x1024, .f32⟩ : BufTy).Contents (Elt F) → (⟨S2048x1024, .f32⟩ : BufTy).Contents (Elt F) → (⟨S2048x1024, .f32⟩ : BufTy).Contents (Elt F)),
    StableHlo.TRef.nullary main_call10.cst (constant S_ .f32 0x00000000#32),
    StableHlo.TRef.unary main_call10.cst main_call10.v0 (broadcastInDim S2048x1024 ![] bcast_S_S2048x1024),
    StableHlo.TRef.binary (.of main_v189 : StableHlo.TRef sig ⟨S2048x1024, .f32⟩) main_call10.v0 main_call10.v1 maximumf,
    StableHlo.binary main_v190 main_arg22 main_v191 ((fun l r => Host.dotGeneral dot_S2048x1024_S1024x512_S2048x512_1_0_0_1_n_n none l r) : (⟨S2048x1024, .f32⟩ : BufTy).Contents (Elt F) → (⟨S1024x512, .f32⟩ : BufTy).Contents (Elt F) → (⟨S2048x512, .f32⟩ : BufTy).Contents (Elt F)),
    StableHlo.unary main_arg23 main_v192 (broadcastInDim S1x512 ![1] bcast_S512_S1x512_1 : (⟨S512, .f32⟩ : BufTy).Contents (Elt F) → (⟨S1x512, .f32⟩ : BufTy).Contents (Elt F)),
    StableHlo.unary main_v192 main_v193 (broadcastInDim S2048x512 ![0, 1] bcast_S1x512_S2048x512_0_1 : (⟨S1x512, .f32⟩ : BufTy).Contents (Elt F) → (⟨S2048x512, .f32⟩ : BufTy).Contents (Elt F)),
    StableHlo.binary main_v191 main_v193 main_v194 (addf : (⟨S2048x512, .f32⟩ : BufTy).Contents (Elt F) → (⟨S2048x512, .f32⟩ : BufTy).Contents (Elt F) → (⟨S2048x512, .f32⟩ : BufTy).Contents (Elt F)),
    StableHlo.TRef.nullary main_call11.cst (constant S_ .f32 0x00000000#32),
    StableHlo.TRef.unary main_call11.cst main_call11.v0 (broadcastInDim S2048x512 ![] bcast_S_S2048x512),
    StableHlo.TRef.binary (.of main_v194 : StableHlo.TRef sig ⟨S2048x512, .f32⟩) main_call11.v0 main_call11.v1 maximumf,
    StableHlo.binary main_v195 main_arg24 main_v196 ((fun l r => Host.dotGeneral dot_S2048x512_S512x1_S2048x1_1_0_0_1_n_n none l r) : (⟨S2048x512, .f32⟩ : BufTy).Contents (Elt F) → (⟨S512x1, .f32⟩ : BufTy).Contents (Elt F) → (⟨S2048x1, .f32⟩ : BufTy).Contents (Elt F)),
    StableHlo.unary main_arg25 main_v197 (broadcastInDim S1x1 ![1] bcast_S1_S1x1_1 : (⟨S1, .f32⟩ : BufTy).Contents (Elt F) → (⟨S1x1, .f32⟩ : BufTy).Contents (Elt F)),
    StableHlo.unary main_v197 main_v198 (broadcastInDim S2048x1 ![0, 1] bcast_S1x1_S2048x1_0_1 : (⟨S1x1, .f32⟩ : BufTy).Contents (Elt F) → (⟨S2048x1, .f32⟩ : BufTy).Contents (Elt F)),
    StableHlo.binary main_v196 main_v198 main_v199 (addf : (⟨S2048x1, .f32⟩ : BufTy).Contents (Elt F) → (⟨S2048x1, .f32⟩ : BufTy).Contents (Elt F) → (⟨S2048x1, .f32⟩ : BufTy).Contents (Elt F)) ]

end Cert.RefValue

end
-- ==== Proof.RefSplit.lean ====
/- The reference program's operation list as the concatenation of its seven stretches, and what every stretch leaves
   alone: no operation writes an argument buffer, so each stretch — and the whole list — ends with every argument buffer
   as it found it; the two residual layers in the middle do not write the edge rows computed by the first stretch, and the
   projector does not write the pooled sums. -/
import proofs.«153049_j20907900797458_1_alg».proof.Proof.RefRun
import proofs.«153049_j20907900797458_1_alg».proof.Proof.RefWin
import Idealize.ShloMosaic.PureOps.Ideal
import Idealize.ShloMosaic.Lib.Pipeline.Frame

noncomputable section

namespace Cert.RefValue

open Cert.ReferenceIdeal Cert.ReferenceIdeal.Gen Idealize.ShloMosaic Idealize.ShloMosaic.TcCoe Idealize.SL.Sem Idealize.ShloMosaic.StableHlo

set_option maxRecDepth 8192 in
/-- The list is its seven stretches in order. -/
theorem ops_split :
    (ops (F := Ideal)) = opsLayer0 ++ (opsLayer1 ++ (opsLayer2 ++ (opsLayer3 ++ (opsPool ++ (opsProj ++ opsPred))))) := rfl

/-- The fold over the whole list is the folds over the stretches, one after the other. -/
theorem after_ops (V : Valuation τ sig (Elt Ideal)) :
    after ops V
      = after opsPred (after opsProj (after opsPool (after opsLayer3 (after opsLayer2 (after opsLayer1 (after opsLayer0 V)))))) := by
  rw [ops_split, after_append, after_append, after_append, after_append, after_append, after_append]

/-- The argument buffers. -/
def argRefs : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22,
   main_arg23, main_arg24, main_arg25]

/-! Each stretch keeps every argument buffer: none of its operations writes one. -/

set_option maxRecDepth 8192 in
set_option maxHeartbeats 4000000 in
theorem keep_layer0 (V : Valuation τ sig (Elt Ideal)) :
    ∀ r ∈ argRefs, after opsLayer0 V (Proc.devRef .tc r) = V (Proc.devRef .tc r) := by
  rw [← List.forall_iff_forall_mem]
  simp only [argRefs, List.Forall]
  repeat' apply And.intro
  all_goals (unfold opsLayer0; after_results_simp)

set_option maxRecDepth 8192 in
set_option maxHeartbeats 4000000 in
theorem keep_layer1 (V : Valuation τ sig (Elt Ideal)) :
    ∀ r ∈ argRefs, after opsLayer1 V (Proc.devRef .tc r) = V (Proc.devRef .tc r) := by
  rw [← List.forall_iff_forall_mem]
  simp only [argRefs, List.Forall]
  repeat' apply And.intro
  all_goals (unfold opsLayer1; after_results_simp)

set_option maxRecDepth 8192 in
set_option maxHeartbeats 4000000 in
theorem keep_layer2 (V : Valuation τ sig (Elt Ideal)) :
    ∀ r ∈ argRefs, after opsLayer2 V (Proc.devRef .tc r) = V (Proc.devRef .tc r) := by
  rw [← List.forall_iff_forall_mem]
  simp only [argRefs, List.Forall]
  repeat' apply And.intro
  all_goals (unfold opsLayer2; after_results_simp)

set_option maxRecDepth 8192 in
set_option maxHeartbeats 4000000 in
theorem keep_layer3 (V : Valuation τ sig (Elt Ideal)) :
    ∀ r ∈ argRefs, after opsLayer3 V (Proc.devRef .tc r) = V (Proc.devRef .tc r) := by
  rw [← List.forall_iff_forall_mem]
  simp only [argRefs, List.Forall]
  repeat' apply And.intro
  all_goals (unfold opsLayer3; after_results_simp)

set_option maxRecDepth 8192 in
set_option maxHeartbeats 4000000 in
theorem keep_pool (V : Valuation τ sig (Elt Ideal)) :
    ∀ r ∈ argRefs, after opsPool V (Proc.devRef .tc r) = V (Proc.devRef .tc r) := by
  rw [← List.forall_iff_forall_mem]
  simp only [argRefs, List.Forall]
  repeat' apply And.intro
  all_goals (unfold opsPool; after_results_simp)

set_option maxRecDepth 8192 in
set_option maxHeartbeats 4000000 in
theorem keep_proj (V : Valuation τ sig (Elt Ideal)) :
    ∀ r ∈ argRefs, after opsProj V (Proc.devRef .tc r) = V (Proc.devRef .tc r) := by
  rw [← List.forall_iff_forall_mem]
  simp only [argRefs, List.Forall]
  repeat' apply And.intro
  all_goals (unfold opsProj; after_results_simp)

set_option maxRecDepth 8192 in
set_option maxHeartbeats 4000000 in
theorem keep_pred (V : Valuation τ sig (Elt Ideal)) :
    ∀ r ∈ argRefs, after opsPred V (Proc.devRef .tc r) = V (Proc.devRef .tc r) := by
  rw [← List.forall_iff_forall_mem]
  simp only [argRefs, List.Forall]
  repeat' apply And.intro
  all_goals (unfold opsPred; after_results_simp)

/-- The whole list keeps every argument buffer. -/
theorem args_ops (V : Valuation τ sig (Elt Ideal)) :
    ∀ r ∈ argRefs, after ops V (Proc.devRef .tc r) = V (Proc.devRef .tc r) := fun r hr => by
  rw [after_ops, keep_pred _ r hr, keep_proj _ r hr, keep_pool _ r hr, keep_layer3 _ r hr, keep_layer2 _ r hr, keep_layer1 _ r hr,
    keep_layer0 _ r hr]

set_option maxRecDepth 8192 in
set_option maxHeartbeats 4000000 in
/-- The residual layer on slab 0 keeps the edge rows. -/
theorem edges_layer1 (V : Valuation τ sig (Elt Ideal)) :
    after opsLayer1 V (main_v1 : DevRef τ sig) = V (main_v1 : DevRef τ sig)
      ∧ after opsLayer1 V (main_v3 : DevRef τ sig) = V (main_v3 : DevRef τ sig) := by
  constructor <;> (unfold opsLayer1; after_results_simp)

set_option maxRecDepth 8192 in
set_option maxHeartbeats 4000000 in
/-- The residual layer on slab 1 keeps the edge rows. -/
theorem edges_layer2 (V : Valuation τ sig (Elt Ideal)) :
    after opsLayer2 V (main_v1 : DevRef τ sig) = V (main_v1 : DevRef τ sig)
      ∧ after opsLayer2 V (main_v3 : DevRef τ sig) = V (main_v3 : DevRef τ sig) := by
  constructor <;> (unfold opsLayer2; after_results_simp)

set_option maxRecDepth 8192 in
set_option maxHeartbeats 4000000 in
/-- The projector keeps the pooled sums. -/
theorem pooled_proj (V : Valuation τ sig (Elt Ideal)) :
    after opsProj V (main_v161 : DevRef τ sig) = V (main_v161 : DevRef τ sig) := by
  unfold opsProj; after_results_simp

end Cert.RefValue

end
-- ==== Proof.RefDefs.lean ====
/-
  The reference program's host operations, composed stage by stage into pure functions of its argument arrays on the
  extended reals: the edge list's two rows, the wrap of negative node numbers, the neighbourhood sums and the per-graph
  sums (a lookup of rows accumulated into zeros), the slabs of the stacked parameters, the two kinds of dense layer, the
  protein projector with its row mean and row variance, the predictor, and the whole network. Definitions only.
-/
import proofs.«153049_j20907900797458_1_alg».proof.Proof.Gen.ReferenceIdeal
import proofs.«153049_j20907900797458_1_alg».proof.Proof.Net

noncomputable section

namespace Cert.RefValue

open Idealize.ShloMosaic Cert.ReferenceIdeal Cert.ReferenceIdeal.Gen
open Cert.Net (CI CR)

/-- Row 0 of the edge list: every edge's source node. -/
def srcOf (ei : CI S2x400000) : CI S400000 :=
  shapeCast S400000 (extractStridedSlice S1x400000 ![0, 0] ei slices_S2x400000_S1x400000_0_0) shapeCasts_S1x400000_S400000
/-- Row 1 of the edge list: every edge's target node. -/
def dstOf (ei : CI S2x400000) : CI S400000 :=
  shapeCast S400000 (extractStridedSlice S1x400000 ![1, 0] ei slices_S2x400000_S1x400000_1_0) shapeCasts_S1x400000_S400000
/-- A negative index counts from the end: `s < 0 ? s + 50000 : s`. -/
def wrapIdx (s : CI S400000) : CI S400000 :=
  select (cmpi .slt s (broadcastInDim S400000 ![] bcast_S_S400000 (constantI S_ 32 0#32)))
    (addi s (broadcastInDim S400000 ![] bcast_S_S400000 (constantI S_ 32 50000#32))) s

/-- The neighbourhood sums of 70-wide node features: rows looked up at the sources, accumulated at the targets into zeros. -/
def agg70 (x : CR S50000x70) (ei : CI S2x400000) : CR S50000x70 :=
  Host.scatterAdd (F := Ideal) (φ := .f32) scatter_S50000x70_S400000x1_S400000x70_1_0_0_1
    (broadcastInDim S50000x70 ![] bcast_S_S50000x70 (constant (F := Ideal) S_ .f32 0x00000000#32))
    (broadcastInDim S400000x1 ![0] bcast_S400000_S400000x1_0 (dstOf ei))
    (Host.gather gather_S50000x70_S400000x1_S400000x70_1_0_n_n_0_1_170 x
      (broadcastInDim S400000x1 ![0] bcast_S400000_S400000x1_0 (wrapIdx (srcOf ei))))
/-- The same on 256-wide node features. -/
def agg256 (h : CR S50000x256) (ei : CI S2x400000) : CR S50000x256 :=
  Host.scatterAdd (F := Ideal) (φ := .f32) scatter_S50000x256_S400000x1_S400000x256_1_0_0_1
    (broadcastInDim S50000x256 ![] bcast_S_S50000x256 (constant (F := Ideal) S_ .f32 0x00000000#32))
    (broadcastInDim S400000x1 ![0] bcast_S400000_S400000x1_0 (dstOf ei))
    (Host.gather gather_S50000x256_S400000x1_S400000x256_1_0_n_n_0_1_1256 h
      (broadcastInDim S400000x1 ![0] bcast_S400000_S400000x1_0 (wrapIdx (srcOf ei))))
/-- The per-graph sums of node rows. -/
def pool (h : CR S50000x256) (batch : CI S50000) : CR S2048x256 :=
  Host.scatterAdd (F := Ideal) (φ := .f32) scatter_S2048x256_S50000x1_S50000x256_1_0_0_1
    (broadcastInDim S2048x256 ![] bcast_S_S2048x256 (constant (F := Ideal) S_ .f32 0x00000000#32))
    (broadcastInDim S50000x1 ![0] bcast_S50000_S50000x1_0 batch) h

/-- One `[256, 256]` slab of the stacked weights. -/
def slabW (off : Fin 3 → ℕ) (hs : S3x256x256.Slices off S1x256x256) (X : CR S3x256x256) : CR S256x256 :=
  shapeCast S256x256 (extractStridedSlice S1x256x256 off X hs) shapeCasts_S1x256x256_S256x256
/-- One row of a stacked `[3, 256]` array, as a vector. -/
def slabV (off : Fin 2 → ℕ) (hs : S3x256.Slices off S1x256) (X : CR S3x256) : CR S256 :=
  shapeCast S256 (extractStridedSlice S1x256 off X hs) shapeCasts_S1x256_S256

/-- Layer 0 on the 70 atom features: `relu (((relu ((x + agg)·W₁ + b₁))·W₂ + b₂) · (γ / D) + β)`. -/
def dense0 (x agg : CR S50000x70) (w1 : CR S70x256) (b1 : CR S256) (w2 : CR S256x256) (b2 γ β : CR S256) : CR S50000x256 :=
  maximumf (F := Ideal) (φ := .f32)
    (addf (F := Ideal) (φ := .f32)
      (mulf (F := Ideal) (φ := .f32)
        (addf (F := Ideal) (φ := .f32)
          (Host.dotGeneral (F := Ideal) (φ₁ := .f32) (φ₂ := .f32) dot_S50000x256_S256x256_S50000x256_1_0_0_1_n_n none
            (maximumf (F := Ideal) (φ := .f32)
              (addf (F := Ideal) (φ := .f32) (Host.dotGeneral (F := Ideal) (φ₁ := .f32) (φ₂ := .f32) dot_S50000x70_S70x256_S50000x256_1_0_0_1_n_n none (addf (F := Ideal) (φ := .f32) x agg) w1)
                (broadcastInDim S50000x256 ![0, 1] bcast_S1x256_S50000x256_0_1 (broadcastInDim S1x256 ![1] bcast_S256_S1x256_1 b1)))
              (broadcastInDim S50000x256 ![] bcast_S_S50000x256 (constant (F := Ideal) S_ .f32 0x00000000#32)))
            w2)
          (broadcastInDim S50000x256 ![0, 1] bcast_S1x256_S50000x256_0_1 (broadcastInDim S1x256 ![1] bcast_S256_S1x256_1 b2)))
        (broadcastInDim S50000x256 ![0, 1] bcast_S1x256_S50000x256_0_1 (broadcastInDim S1x256 ![1] bcast_S256_S1x256_1
          (Host.divf (F := Ideal) (φ := .f32) γ (broadcastInDim S256 ![] bcast_S_S256 (constant (F := Ideal) S_ .f32 0x3F80002A#32))))))
      (broadcastInDim S50000x256 ![0, 1] bcast_S1x256_S50000x256_0_1 (broadcastInDim S1x256 ![1] bcast_S256_S1x256_1 β)))
    (broadcastInDim S50000x256 ![] bcast_S_S50000x256 (constant (F := Ideal) S_ .f32 0x00000000#32))

/-- A later layer on 256 features, with the residual: `h + relu (((relu ((h + agg)·W₁ + b₁))·W₂ + b₂) · (γ / D) + β)`. -/
def dense256 (h agg : CR S50000x256) (w1 : CR S256x256) (b1 : CR S256) (w2 : CR S256x256) (b2 γ β : CR S256) : CR S50000x256 :=
  addf (F := Ideal) (φ := .f32) h
    (maximumf (F := Ideal) (φ := .f32)
      (addf (F := Ideal) (φ := .f32)
        (mulf (F := Ideal) (φ := .f32)
          (addf (F := Ideal) (φ := .f32)
            (Host.dotGeneral (F := Ideal) (φ₁ := .f32) (φ₂ := .f32) dot_S50000x256_S256x256_S50000x256_1_0_0_1_n_n none
              (maximumf (F := Ideal) (φ := .f32)
                (addf (F := Ideal) (φ := .f32) (Host.dotGeneral (F := Ideal) (φ₁ := .f32) (φ₂ := .f32) dot_S50000x256_S256x256_S50000x256_1_0_0_1_n_n none (addf (F := Ideal) (φ := .f32) h agg) w1)
                  (broadcastInDim S50000x256 ![0, 1] bcast_S1x256_S50000x256_0_1 (broadcastInDim S1x256 ![1] bcast_S256_S1x256_1 b1)))
                (broadcastInDim S50000x256 ![] bcast_S_S50000x256 (constant (F := Ideal) S_ .f32 0x00000000#32)))
              w2)
            (broadcastInDim S50000x256 ![0, 1] bcast_S1x256_S50000x256_0_1 (broadcastInDim S1x256 ![1] bcast_S256_S1x256_1 b2)))
          (broadcastInDim S50000x256 ![0, 1] bcast_S1x256_S50000x256_0_1 (broadcastInDim S1x256 ![1] bcast_S256_S1x256_1
            (Host.divf (F := Ideal) (φ := .f32) γ (broadcastInDim S256 ![] bcast_S_S256 (constant (F := Ideal) S_ .f32 0x3F80002A#32))))))
        (broadcastInDim S50000x256 ![0, 1] bcast_S1x256_S50000x256_0_1 (broadcastInDim S1x256 ![1] bcast_S256_S1x256_1 β)))
      (broadcastInDim S50000x256 ![] bcast_S_S50000x256 (constant (F := Ideal) S_ .f32 0x00000000#32)))

/-- The projector's linear layer: `pe·Wp + bp`. -/
def projLin (pe : CR S2048x480) (wp : CR S480x256) (bp : CR S256) : CR S2048x256 :=
  addf (F := Ideal) (φ := .f32) (Host.dotGeneral (F := Ideal) (φ₁ := .f32) (φ₂ := .f32) dot_S2048x480_S480x256_S2048x256_1_0_0_1_n_n none pe wp)
    (broadcastInDim S2048x256 ![0, 1] bcast_S1x256_S2048x256_0_1 (broadcastInDim S1x256 ![1] bcast_S256_S1x256_1 bp))

/-- The row means as a column: `(0 + Σ_k z[p,k]) / 256`. -/
def meanCol (z : CR S2048x256) : CR S2048x1 :=
  Host.divf (F := Ideal) (φ := .f32)
    (broadcastInDim S2048x1 ![0] bcast_S2048_S2048x1_0
      (Host.reduceAdd (F := Ideal) (φ := .f32) z (constant (F := Ideal) S_ .f32 0x00000000#32) reducesTo_S2048x256_S2048_d1 h_S_))
    (broadcastInDim S2048x1 ![] bcast_S_S2048x1 (constant (F := Ideal) S_ .f32 0x43800000#32))

/-- The scalar the variance divides by: `256 − (float) 0`. -/
def varCount : CR S_ :=
  subf (F := Ideal) (φ := .f32) (constant (F := Ideal) S_ .f32 0x43800000#32) (sitofp .f32 (constantI S_ 32 0#32 : CI S_))

/-- The row variances as a column: the mean is recomputed, subtracted, the differences squared, summed and divided by
    `256 − 0`; the result is kept where `256 − 0 > 0` and is the NaN constant elsewhere. -/
def varCol (z : CR S2048x256) : CR S2048x1 :=
  select (broadcastInDim S2048x1 ![] bcast_S_S2048x1 (cmpf (F := Ideal) (φ := .f32) .ogt varCount (constant (F := Ideal) S_ .f32 0x00000000#32)))
    (Host.divf (F := Ideal) (φ := .f32)
      (broadcastInDim S2048x1 ![0] bcast_S2048_S2048x1_0
        (Host.reduceAdd (F := Ideal) (φ := .f32)
          (mulf (F := Ideal) (φ := .f32) (subf (F := Ideal) (φ := .f32) z (broadcastInDim S2048x256 ![0, 1] bcast_S2048x1_S2048x256_0_1 (meanCol z)))
            (subf (F := Ideal) (φ := .f32) z (broadcastInDim S2048x256 ![0, 1] bcast_S2048x1_S2048x256_0_1 (meanCol z))))
          (constant (F := Ideal) S_ .f32 0x00000000#32) reducesTo_S2048x256_S2048_d1 h_S_))
      (broadcastInDim S2048x1 ![] bcast_S_S2048x1 varCount))
    (broadcastInDim S2048x1 ![] bcast_S_S2048x1 (id (constant (F := Ideal) S_ .f32 0x7FC00000#32)))

/-- Layer normalisation of each row, scaled and shifted per column, then relu. -/
def lnRelu (z : CR S2048x256) (lng lnb : CR S256) : CR S2048x256 :=
  maximumf (F := Ideal) (φ := .f32)
    (addf (F := Ideal) (φ := .f32)
      (mulf (F := Ideal) (φ := .f32)
        (mulf (F := Ideal) (φ := .f32) (subf (F := Ideal) (φ := .f32) z (broadcastInDim S2048x256 ![0, 1] bcast_S2048x1_S2048x256_0_1 (meanCol z)))
          (broadcastInDim S2048x256 ![0, 1] bcast_S2048x1_S2048x256_0_1
            (Host.rsqrt (F := Ideal) (φ := .f32) (addf (F := Ideal) (φ := .f32) (varCol z)
              (broadcastInDim S2048x1 ![] bcast_S_S2048x1 (constant (F := Ideal) S_ .f32 0x3727C5AC#32))))))
        (broadcastInDim S2048x256 ![0, 1] bcast_S1x256_S2048x256_0_1 (broadcastInDim S1x256 ![1] bcast_S256_S1x256_1 lng)))
      (broadcastInDim S2048x256 ![0, 1] bcast_S1x256_S2048x256_0_1 (broadcastInDim S1x256 ![1] bcast_S256_S1x256_1 lnb)))
    (broadcastInDim S2048x256 ![] bcast_S_S2048x256 (constant (F := Ideal) S_ .f32 0x00000000#32))

/-- The protein projector: linear layer, layer normalisation, relu. -/
def proj (pe : CR S2048x480) (wp : CR S480x256) (bp lng lnb : CR S256) : CR S2048x256 :=
  lnRelu (projLin pe wp bp) lng lnb

/-- The predictor: the two inputs joined along columns, then three linear layers with relus between. -/
def pred (drug prt : CR S2048x256) (wpr1 : CR S512x1024) (bpr1 : CR S1024) (wpr2 : CR S1024x512) (bpr2 : CR S512)
    (wpr3 : CR S512x1) (bpr3 : CR S1) : CR S2048x1 :=
  addf (F := Ideal) (φ := .f32)
    (Host.dotGeneral (F := Ideal) (φ₁ := .f32) (φ₂ := .f32) dot_S2048x512_S512x1_S2048x1_1_0_0_1_n_n none
      (maximumf (F := Ideal) (φ := .f32)
        (addf (F := Ideal) (φ := .f32)
          (Host.dotGeneral (F := Ideal) (φ₁ := .f32) (φ₂ := .f32) dot_S2048x1024_S1024x512_S2048x512_1_0_0_1_n_n none
            (maximumf (F := Ideal) (φ := .f32)
              (addf (F := Ideal) (φ := .f32)
                (Host.dotGeneral (F := Ideal) (φ₁ := .f32) (φ₂ := .f32) dot_S2048x512_S512x1024_S2048x1024_1_0_0_1_n_n none
                  (concatenate S2048x512 1 [⟨S2048x256, drug⟩, ⟨S2048x256, prt⟩] concatenates_S2048x256_S2048x256_S2048x512_d1 : CR S2048x512)
                  wpr1)
                (broadcastInDim S2048x1024 ![0, 1] bcast_S1x1024_S2048x1024_0_1 (broadcastInDim S1x1024 ![1] bcast_S1024_S1x1024_1 bpr1)))
              (broadcastInDim S2048x1024 ![] bcast_S_S2048x1024 (constant (F := Ideal) S_ .f32 0x00000000#32)))
            wpr2)
          (broadcastInDim S2048x512 ![0, 1] bcast_S1x512_S2048x512_0_1 (broadcastInDim S1x512 ![1] bcast_S512_S1x512_1 bpr2)))
        (broadcastInDim S2048x512 ![] bcast_S_S2048x512 (constant (F := Ideal) S_ .f32 0x00000000#32)))
      wpr3)
    (broadcastInDim S2048x1 ![0, 1] bcast_S1x1_S2048x1_0_1 (broadcastInDim S1x1 ![1] bcast_S1_S1x1_1 bpr3))

/-- A residual layer on one slab of the stacked parameters. -/
def resLayer (offW : Fin 3 → ℕ) (hW : S3x256x256.Slices offW S1x256x256) (offV : Fin 2 → ℕ) (hV : S3x256.Slices offV S1x256)
    (h : CR S50000x256) (ei : CI S2x400000) (W1s : CR S3x256x256) (B1s : CR S3x256) (W2s : CR S3x256x256) (B2s Γs Βs : CR S3x256) :
    CR S50000x256 :=
  dense256 h (agg256 h ei) (slabW offW hW W1s) (slabV offV hV B1s) (slabW offW hW W2s)
    (slabV offV hV B2s) (slabV offV hV Γs) (slabV offV hV Βs)

/-- The node features after the four layers. -/
def nodes (x : CR S50000x70) (ei : CI S2x400000) (w1 : CR S70x256) (b1 : CR S256) (w2 : CR S256x256) (b2 γ β : CR S256)
    (W1s : CR S3x256x256) (B1s : CR S3x256) (W2s : CR S3x256x256) (B2s Γs Βs : CR S3x256) : CR S50000x256 :=
  resLayer ![2, 0, 0] slices_S3x256x256_S1x256x256_2_0_0 ![2, 0] slices_S3x256_S1x256_2_0
    (resLayer ![1, 0, 0] slices_S3x256x256_S1x256x256_1_0_0 ![1, 0] slices_S3x256_S1x256_1_0
      (resLayer ![0, 0, 0] slices_S3x256x256_S1x256x256_0_0_0 ![0, 0] slices_S3x256_S1x256_0_0
        (dense0 x (agg70 x ei) w1 b1 w2 b2 γ β) ei W1s B1s W2s B2s Γs Βs) ei W1s B1s W2s B2s Γs Βs) ei W1s B1s W2s B2s Γs Βs

/-- The network's result. -/
def out (x : CR S50000x70) (ei : CI S2x400000) (batch : CI S50000) (pe : CR S2048x480) (w1 : CR S70x256) (b1 : CR S256)
    (w2 : CR S256x256) (b2 γ β : CR S256) (W1s : CR S3x256x256) (B1s : CR S3x256) (W2s : CR S3x256x256) (B2s Γs Βs : CR S3x256)
    (wp : CR S480x256) (bp lng lnb : CR S256) (wpr1 : CR S512x1024) (bpr1 : CR S1024) (wpr2 : CR S1024x512) (bpr2 : CR S512)
    (wpr3 : CR S512x1) (bpr3 : CR S1) : CR S2048x1 :=
  pred (pool (nodes x ei w1 b1 w2 b2 γ β W1s B1s W2s B2s Γs Βs) batch) (proj pe wp bp lng lnb) wpr1 bpr1 wpr2 bpr2 wpr3 bpr3

end Cert.RefValue

end
-- ==== Proof.RefStages.lean ====
/- Each stretch of the reference program's operation list read back: from ANY buffer contents `V`, the buffer the stretch
   computes holds the corresponding stage function (the definitions of the stage module) of what `V` holds at the buffers
   the stretch reads. Each is the fold of the stretch's operations computed at that one buffer, and then the stage
   function's own definition. -/
import proofs.«153049_j20907900797458_1_alg».proof.Proof.RefRun
import proofs.«153049_j20907900797458_1_alg».proof.Proof.RefWin
import proofs.«153049_j20907900797458_1_alg».proof.Proof.RefDefs

noncomputable section

namespace Cert.RefValue

open Cert.ReferenceIdeal Cert.ReferenceIdeal.Gen Idealize.ShloMosaic Idealize.ShloMosaic.TcCoe Idealize.SL.Sem Idealize.ShloMosaic.StableHlo
open Cert.Net (CI CR)

set_option maxRecDepth 8192 in
set_option maxHeartbeats 4000000 in
/-- After the first stretch the edge sources are row 0 of the edge list. -/
theorem src_layer0 (V : Valuation τ sig (Elt Ideal)) :
    after opsLayer0 V (main_v1 : DevRef τ sig) = srcOf (V (main_arg1 : DevRef τ sig)) := by
  unfold opsLayer0; after_results_simp; rfl

set_option maxRecDepth 8192 in
set_option maxHeartbeats 4000000 in
/-- After the first stretch the edge targets are row 1 of the edge list. -/
theorem dst_layer0 (V : Valuation τ sig (Elt Ideal)) :
    after opsLayer0 V (main_v3 : DevRef τ sig) = dstOf (V (main_arg1 : DevRef τ sig)) := by
  unfold opsLayer0; after_results_simp; rfl

set_option maxRecDepth 8192 in
set_option maxHeartbeats 4000000 in
/-- Layer 0: the first stretch ends with the dense layer of the atom features and their neighbourhood sums. -/
theorem read_layer0 (V : Valuation τ sig (Elt Ideal)) :
    after opsLayer0 V (main_v32 : DevRef τ sig)
      = dense0 (V (main_arg0 : DevRef τ sig)) (agg70 (V (main_arg0 : DevRef τ sig)) (V (main_arg1 : DevRef τ sig)))
          (V (main_arg4 : DevRef τ sig)) (V (main_arg5 : DevRef τ sig)) (V (main_arg6 : DevRef τ sig)) (V (main_arg7 : DevRef τ sig))
          (V (main_arg8 : DevRef τ sig)) (V (main_arg9 : DevRef τ sig)) := by
  unfold opsLayer0; after_results_simp; rfl

set_option maxRecDepth 8192 in
set_option maxHeartbeats 4000000 in
/-- The residual layer on slab 0: from contents holding the edge rows of `ei`, the window ends with the layer's output of the
    node features it found and that slab of the stacked parameters. -/
theorem read_layer1 (V : Valuation τ sig (Elt Ideal)) (ei : CI S2x400000)
    (hs : V (main_v1 : DevRef τ sig) = srcOf ei) (hd : V (main_v3 : DevRef τ sig) = dstOf ei) :
    after opsLayer1 V (main_v74 : DevRef τ sig)
      = resLayer ![0, 0, 0] slices_S3x256x256_S1x256x256_0_0_0 ![0, 0] slices_S3x256_S1x256_0_0 (V (main_v32 : DevRef τ sig)) ei
          (V (main_arg10 : DevRef τ sig)) (V (main_arg11 : DevRef τ sig)) (V (main_arg12 : DevRef τ sig)) (V (main_arg13 : DevRef τ sig))
          (V (main_arg14 : DevRef τ sig)) (V (main_arg15 : DevRef τ sig)) := by
  unfold opsLayer1; after_results_simp; rw [hs, hd]; rfl

set_option maxRecDepth 8192 in
set_option maxHeartbeats 4000000 in
/-- The residual layer on slab 1: from contents holding the edge rows of `ei`, the window ends with the layer's output of the
    node features it found and that slab of the stacked parameters. -/
theorem read_layer2 (V : Valuation τ sig (Elt Ideal)) (ei : CI S2x400000)
    (hs : V (main_v1 : DevRef τ sig) = srcOf ei) (hd : V (main_v3 : DevRef τ sig) = dstOf ei) :
    after opsLayer2 V (main_v116 : DevRef τ sig)
      = resLayer ![1, 0, 0] slices_S3x256x256_S1x256x256_1_0_0 ![1, 0] slices_S3x256_S1x256_1_0 (V (main_v74 : DevRef τ sig)) ei
          (V (main_arg10 : DevRef τ sig)) (V (main_arg11 : DevRef τ sig)) (V (main_arg12 : DevRef τ sig)) (V (main_arg13 : DevRef τ sig))
          (V (main_arg14 : DevRef τ sig)) (V (main_arg15 : DevRef τ sig)) := by
  unfold opsLayer2; after_results_simp; rw [hs, hd]; rfl

set_option maxRecDepth 8192 in
set_option maxHeartbeats 4000000 in
/-- The residual layer on slab 2: from contents holding the edge rows of `ei`, the window ends with the layer's output of the
    node features it found and that slab of the stacked parameters. -/
theorem read_layer3 (V : Valuation τ sig (Elt Ideal)) (ei : CI S2x400000)
    (hs : V (main_v1 : DevRef τ sig) = srcOf ei) (hd : V (main_v3 : DevRef τ sig) = dstOf ei) :
    after opsLayer3 V (main_v158 : DevRef τ sig)
      = resLayer ![2, 0, 0] slices_S3x256x256_S1x256x256_2_0_0 ![2, 0] slices_S3x256_S1x256_2_0 (V (main_v116 : DevRef τ sig)) ei
          (V (main_arg10 : DevRef τ sig)) (V (main_arg11 : DevRef τ sig)) (V (main_arg12 : DevRef τ sig)) (V (main_arg13 : DevRef τ sig))
          (V (main_arg14 : DevRef τ sig)) (V (main_arg15 : DevRef τ sig)) := by
  unfold opsLayer3; after_results_simp; rw [hs, hd]; rfl

set_option maxRecDepth 8192 in
set_option maxHeartbeats 4000000 in
/-- The per-graph sums of the node rows found at the last layer's output. -/
theorem read_pool (V : Valuation τ sig (Elt Ideal)) :
    after opsPool V (main_v161 : DevRef τ sig) = pool (V (main_v158 : DevRef τ sig)) (V (main_arg2 : DevRef τ sig)) := by
  unfold opsPool; after_results_simp; rfl

set_option maxRecDepth 8192 in
set_option maxHeartbeats 4000000 in
/-- The protein projector: linear layer, layer normalisation (the variance function's lines and, inside it, the select
    function's in their calls' places), relu. -/
theorem read_proj (V : Valuation τ sig (Elt Ideal)) :
    after opsProj V (main_v184 : DevRef τ sig)
      = proj (V (main_arg3 : DevRef τ sig)) (V (main_arg16 : DevRef τ sig)) (V (main_arg17 : DevRef τ sig)) (V (main_arg18 : DevRef τ sig)) (V (main_arg19 : DevRef τ sig)) := by
  unfold opsProj; after_results_simp; rfl

set_option maxRecDepth 8192 in
set_option maxHeartbeats 4000000 in
/-- The predictor on the pooled drug vectors and the projected proteins it finds. -/
theorem read_pred (V : Valuation τ sig (Elt Ideal)) :
    after opsPred V (main_v199 : DevRef τ sig)
      = pred (V (main_v161 : DevRef τ sig)) (V (main_v184 : DevRef τ sig)) (V (main_arg20 : DevRef τ sig)) (V (main_arg21 : DevRef τ sig)) (V (main_arg22 : DevRef τ sig))
          (V (main_arg23 : DevRef τ sig)) (V (main_arg24 : DevRef τ sig)) (V (main_arg25 : DevRef τ sig)) := by
  unfold opsPred; after_results_simp; rfl

end Cert.RefValue

end
-- ==== Proof.RefRead.lean ====
/- The reference program's run, read back as the network function of the stage module: every weakly fair execution of
   the reference's @main ends with the result buffer holding `Cert.RefValue.out` of the argument arrays as launched, and the
   argument buffers unchanged. The fold of the 265 operations is taken stretch by stretch: at each boundary the buffer the
   next stretch reads is the stage function of what was launched (the stretch's own reading, then the earlier boundaries'
   facts substituted), the edge rows and the arguments carried along unchanged. -/
import proofs.«153049_j20907900797458_1_alg».proof.Proof.RefSplit
import proofs.«153049_j20907900797458_1_alg».proof.Proof.RefStages

noncomputable section

namespace Cert.RefValue

open Cert.ReferenceIdeal Cert.ReferenceIdeal.Gen Idealize.ShloMosaic Idealize.ShloMosaic.TcCoe Idealize.SL.Sem Idealize.ShloMosaic.StableHlo
open Cert.Net (CI CR)

/-- The fold of the whole list at the result buffer is the network function of the contents it started from. -/
theorem read_ops (V : Valuation τ sig (Elt Ideal)) :
    after ops V (main_v199 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig))
          (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig))
          (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) := by
  rw [after_ops]
  -- after layer 0: its output, the edge rows, the arguments
  have a1 := keep_layer0 V
  have s1 := src_layer0 V
  have d1 := dst_layer0 V
  have x1 := read_layer0 V
  generalize after opsLayer0 V = U1 at a1 s1 d1 x1 ⊢
  -- after the layer on slab 0
  have a2 : ∀ r ∈ argRefs, after opsLayer1 U1 (Proc.devRef .tc r) = V (Proc.devRef .tc r) :=
    fun r hr => (keep_layer1 U1 r hr).trans (a1 r hr)
  have s2 := (edges_layer1 U1).1.trans s1
  have d2 := (edges_layer1 U1).2.trans d1
  have x2 := read_layer1 U1 (V (main_arg1 : DevRef τ sig)) s1 d1
  rw [x1, a1 main_arg10 (by decide), a1 main_arg11 (by decide), a1 main_arg12 (by decide), a1 main_arg13 (by decide), a1 main_arg14 (by decide), a1 main_arg15 (by decide)] at x2
  generalize after opsLayer1 U1 = U2 at a2 s2 d2 x2 ⊢
  -- after the layer on slab 1
  have a3 : ∀ r ∈ argRefs, after opsLayer2 U2 (Proc.devRef .tc r) = V (Proc.devRef .tc r) :=
    fun r hr => (keep_layer2 U2 r hr).trans (a2 r hr)
  have s3 := (edges_layer2 U2).1.trans s2
  have d3 := (edges_layer2 U2).2.trans d2
  have x3 := read_layer2 U2 (V (main_arg1 : DevRef τ sig)) s2 d2
  rw [x2, a2 main_arg10 (by decide), a2 main_arg11 (by decide), a2 main_arg12 (by decide), a2 main_arg13 (by decide), a2 main_arg14 (by decide), a2 main_arg15 (by decide)] at x3
  generalize after opsLayer2 U2 = U3 at a3 s3 d3 x3 ⊢
  -- after the layer on slab 2
  have a4 : ∀ r ∈ argRefs, after opsLayer3 U3 (Proc.devRef .tc r) = V (Proc.devRef .tc r) :=
    fun r hr => (keep_layer3 U3 r hr).trans (a3 r hr)
  have x4 := read_layer3 U3 (V (main_arg1 : DevRef τ sig)) s3 d3
  rw [x3, a3 main_arg10 (by decide), a3 main_arg11 (by decide), a3 main_arg12 (by decide), a3 main_arg13 (by decide), a3 main_arg14 (by decide), a3 main_arg15 (by decide)] at x4
  generalize after opsLayer3 U3 = U4 at a4 x4 ⊢
  -- after the pooling
  have a5 : ∀ r ∈ argRefs, after opsPool U4 (Proc.devRef .tc r) = V (Proc.devRef .tc r) :=
    fun r hr => (keep_pool U4 r hr).trans (a4 r hr)
  have x5 := read_pool U4
  rw [x4, a4 main_arg2 (by decide)] at x5
  generalize after opsPool U4 = U5 at a5 x5 ⊢
  -- after the projector
  have a6 : ∀ r ∈ argRefs, after opsProj U5 (Proc.devRef .tc r) = V (Proc.devRef .tc r) :=
    fun r hr => (keep_proj U5 r hr).trans (a5 r hr)
  have x6 := (pooled_proj U5).trans x5
  have p6 := read_proj U5
  rw [a5 main_arg3 (by decide), a5 main_arg16 (by decide), a5 main_arg17 (by decide), a5 main_arg18 (by decide), a5 main_arg19 (by decide)] at p6
  generalize after opsProj U5 = U6 at a6 x6 p6 ⊢
  -- the predictor
  rw [read_pred U6, x6, p6, a6 main_arg20 (by decide), a6 main_arg21 (by decide), a6 main_arg22 (by decide), a6 main_arg23 (by decide), a6 main_arg24 (by decide), a6 main_arg25 (by decide)]
  rfl

/-- On every device, from any memory with zero counters: every weakly fair execution of the reference's @main terminates
    with the result buffer at the network function of the argument arrays as launched, and the argument buffers unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v199)
        = Cert.RefValue.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
            (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
            (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v199).trans (read_ops (launchContents m c)),
      (h c main_arg0).trans (args_ops (launchContents m c) main_arg0 (by decide)),
      (h c main_arg1).trans (args_ops (launchContents m c) main_arg1 (by decide)),
      (h c main_arg2).trans (args_ops (launchContents m c) main_arg2 (by decide)),
      (h c main_arg3).trans (args_ops (launchContents m c) main_arg3 (by decide)),
      (h c main_arg4).trans (args_ops (launchContents m c) main_arg4 (by decide)),
      (h c main_arg5).trans (args_ops (launchContents m c) main_arg5 (by decide)),
      (h c main_arg6).trans (args_ops (launchContents m c) main_arg6 (by decide)),
      (h c main_arg7).trans (args_ops (launchContents m c) main_arg7 (by decide)),
      (h c main_arg8).trans (args_ops (launchContents m c) main_arg8 (by decide)),
      (h c main_arg9).trans (args_ops (launchContents m c) main_arg9 (by decide)),
      (h c main_arg10).trans (args_ops (launchContents m c) main_arg10 (by decide)),
      (h c main_arg11).trans (args_ops (launchContents m c) main_arg11 (by decide)),
      (h c main_arg12).trans (args_ops (launchContents m c) main_arg12 (by decide)),
      (h c main_arg13).trans (args_ops (launchContents m c) main_arg13 (by decide)),
      (h c main_arg14).trans (args_ops (launchContents m c) main_arg14 (by decide)),
      (h c main_arg15).trans (args_ops (launchContents m c) main_arg15 (by decide)),
      (h c main_arg16).trans (args_ops (launchContents m c) main_arg16 (by decide)),
      (h c main_arg17).trans (args_ops (launchContents m c) main_arg17 (by decide)),
      (h c main_arg18).trans (args_ops (launchContents m c) main_arg18 (by decide)),
      (h c main_arg19).trans (args_ops (launchContents m c) main_arg19 (by decide)),
      (h c main_arg20).trans (args_ops (launchContents m c) main_arg20 (by decide)),
      (h c main_arg21).trans (args_ops (launchContents m c) main_arg21 (by decide)),
      (h c main_arg22).trans (args_ops (launchContents m c) main_arg22 (by decide)),
      (h c main_arg23).trans (args_ops (launchContents m c) main_arg23 (by decide)),
      (h c main_arg24).trans (args_ops (launchContents m c) main_arg24 (by decide)),
      (h c main_arg25).trans (args_ops (launchContents m c) main_arg25 (by decide))⟩)
    (run_raw m ρ)

end Cert.RefValue

end
-- ==== Proof.RefHostEq.lean ====
/-
  The reference's host-side stages are the pivot's own: both programs print the same lookups, accumulations, slices and
  reshapes, over dimension records with the same fields; the records are equal, and so are the stages built on them.
-/
import proofs.«153049_j20907900797458_1_alg».proof.Proof.RefDefs

noncomputable section

namespace Cert.RefValue

open Idealize.ShloMosaic
open Cert.Net (CI CR)

/-! ## The dimension records of the two programs are the same records -/

theorem gather70_rec : Cert.ReferenceIdeal.gather_S50000x70_S400000x1_S400000x70_1_0_n_n_0_1_170
    = Cert.KernelIdeal.gather_S50000x70_S400000x1_S400000x70_1_0_n_n_0_1_170 := rfl
theorem scatter70_rec : Cert.ReferenceIdeal.scatter_S50000x70_S400000x1_S400000x70_1_0_0_1
    = Cert.KernelIdeal.scatter_S50000x70_S400000x1_S400000x70_1_0_0_1 := rfl
theorem gather256_rec : Cert.ReferenceIdeal.gather_S50000x256_S400000x1_S400000x256_1_0_n_n_0_1_1256
    = Cert.KernelIdeal.gather_S50000x256_S400000x1_S400000x256_1_0_n_n_0_1_1256 := rfl
theorem scatter256_rec : Cert.ReferenceIdeal.scatter_S50000x256_S400000x1_S400000x256_1_0_0_1
    = Cert.KernelIdeal.scatter_S50000x256_S400000x1_S400000x256_1_0_0_1 := rfl
theorem scatterPool_rec : Cert.ReferenceIdeal.scatter_S2048x256_S50000x1_S50000x256_1_0_0_1
    = Cert.KernelIdeal.scatter_S2048x256_S50000x1_S50000x256_1_0_0_1 := rfl

/-! ## The stages -/

theorem srcOf_eq (ei : CI Cert.ReferenceIdeal.S2x400000) : srcOf ei = Cert.Net.srcOf ei := rfl
theorem dstOf_eq (ei : CI Cert.ReferenceIdeal.S2x400000) : dstOf ei = Cert.Net.dstOf ei := rfl
theorem wrapIdx_eq (s : CI Cert.ReferenceIdeal.S400000) : wrapIdx s = Cert.Net.wrapIdx s := rfl

theorem slabW_eq (off : Fin 3 → ℕ) (hs : Cert.ReferenceIdeal.S3x256x256.Slices off Cert.ReferenceIdeal.S1x256x256)
    (X : CR Cert.ReferenceIdeal.S3x256x256) : slabW off hs X = Cert.Net.slabW off hs X := rfl
theorem slabV_eq (off : Fin 2 → ℕ) (hs : Cert.ReferenceIdeal.S3x256.Slices off Cert.ReferenceIdeal.S1x256)
    (X : CR Cert.ReferenceIdeal.S3x256) : slabV off hs X = Cert.Net.slabV off hs X := rfl

theorem agg70_eq (x : CR Cert.ReferenceIdeal.S50000x70) (ei : CI Cert.ReferenceIdeal.S2x400000) :
    agg70 x ei = Cert.Net.agg70 x ei := by
  unfold agg70 Cert.Net.agg70
  rw [scatter70_rec, gather70_rec, srcOf_eq, dstOf_eq, wrapIdx_eq]

theorem agg256_eq (h : CR Cert.ReferenceIdeal.S50000x256) (ei : CI Cert.ReferenceIdeal.S2x400000) :
    agg256 h ei = Cert.Net.agg256 h ei := by
  unfold agg256 Cert.Net.agg256
  rw [scatter256_rec, gather256_rec, srcOf_eq, dstOf_eq, wrapIdx_eq]

theorem pool_eq (h : CR Cert.ReferenceIdeal.S50000x256) (batch : CI Cert.ReferenceIdeal.S50000) :
    pool h batch = Cert.Net.pool h batch := by
  unfold pool Cert.Net.pool
  rw [scatterPool_rec]

end Cert.RefValue

end
-- ==== Proof.RefConsts.lean ====
/-
  The float constants the reference spells, as the extended reals their words denote, and the scalar facts built on them:
  the batch normalisation divides by `D = 4194325/4194304`, which is multiplying by `4194304/4194325`; the row length of the
  projector is `256`; `256 − 0` is `256` and is positive.
-/
import Idealize.ShloMosaic.PureOps.Ideal.Laws
import proofs.«153049_j20907900797458_1_alg».proof.Proof.Spec

noncomputable section

namespace Cert.RefConsts

open Idealize.ShloMosaic

/-- The word `0x3F80002A` denotes `1 + 42·2⁻²³ = 4194325/4194304`. -/
theorem ofBits_bnD : Ideal.ofBits .f32 0x3F80002A#32 = ((4194325 / 4194304 : ℝ) : EReal) := by
  simp [Ideal.ofBits, Ideal.ieee, -EReal.coe_mul]; norm_num

/-- The word `0x43800000` denotes `256`. -/
theorem ofBits_256 : Ideal.ofBits .f32 0x43800000#32 = ((256 : ℝ) : EReal) := by
  simp [Ideal.ofBits, Ideal.ieee, -EReal.coe_mul]; norm_num

/-- Dividing by the standard deviation `D` is multiplying by its reciprocal, for every extended real. -/
theorem div_bnD (g : EReal) : Ideal.div g (Ideal.ofBits .f32 0x3F80002A#32) = g * Cert.Spec.invStd := by
  rw [ofBits_bnD, Ideal.div_coe (by norm_num)]
  have h : (1 / (4194325 / 4194304) : ℝ) = 4194304 / 4194325 := by norm_num
  rw [h]
  rfl

/-- The integer `0` converted to a float is `0`, so `256 − 0` is `256`. -/
theorem count_sub_zero :
    Ideal.ofBits .f32 0x43800000#32 - (((0#32 : BitVec 32).toInt : ℝ) : EReal) = Ideal.ofBits .f32 0x43800000#32 := by
  have h : (0#32 : BitVec 32).toInt = 0 := by decide
  rw [h, Int.cast_zero, EReal.coe_zero, sub_zero]

/-- `256 > 0`: the comparison's bit is set. -/
theorem count_pos : Ideal.cmp .ogt (Ideal.ofBits .f32 0x43800000#32) (Ideal.ofBits .f32 0x00000000#32) = 1#1 := by
  rw [ofBits_256, Ideal.ofBits_zero_f32]
  have h : (0 : EReal) < ((256 : ℝ) : EReal) := by exact_mod_cast (by norm_num : (0 : ℝ) < 256)
  simp [Ideal.cmp, h]

end Cert.RefConsts

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibBiasRows.lean ====
import Idealize.ShloMosaic.Lib.ValueIdx
import Idealize.ShloMosaic.Lib.Pipeline.Value
import proofs.«153049_j20907900797458_1_alg».proof.Proof.LibSlabs
import proofs.«153049_j20907900797458_1_alg».proof.Proof.LibAsRow

/-!
# Bias vectors and scalars spread over a matrix, read at an entry

General, program-free lemmas for the host's way of adding a bias: a vector `[n]` laid out as one row `[1, n]`
(`broadcast_in_dim` along axis 1) and repeated over `R` rows (`broadcast_in_dim` keeping both axes) reads, at
`(r, q)`, the vector's entry `q`; a scalar repeated over a matrix reads the scalar at every entry.
-/

noncomputable section

namespace Cert.Lib

open Idealize.ShloMosaic Idealize.ShloMosaic.ValueIdx

variable {α : Type}

/-- A scalar repeated over a matrix reads the scalar everywhere. -/
theorem splat2_apply {a b : ℕ} (x : (⟨0, ![]⟩ : Shape).Idx → α)
    (h0 : (⟨0, ![]⟩ : Shape).BroadcastsInDim ⟨2, ![a, b]⟩ (![] : Fin 0 → Fin 2)) (i : (⟨2, ![a, b]⟩ : Shape).Idx) :
    broadcastInDim ⟨2, ![a, b]⟩ ![] h0 x i = x ix0 :=
  broadcastInDim_apply _ h0 x i ix0 fun ax => ax.elim0

/-- A vector laid out as one row and repeated over `R` rows reads, at `(r, q)`, the vector's entry `q`. -/
theorem biasRows_apply {R n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (q : Fin n) :
    broadcastInDim ⟨2, ![R, n]⟩ ![0, 1] h2 (broadcastInDim ⟨2, ![1, n]⟩ ![1] h1 v) (ix2 r q) = v (ix1 q) := by
  rw [rows_of_oneRow h2 _ r q, broadcastInDim_eq_asRow v h1]
  rfl

end Cert.Lib

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.HostLayers.lean ====
/-
  The host's spelling of a dense layer, read as the specification's functions (any extents).

  A host program adds a bias vector by laying it out as one row and repeating the row; takes a relu as the larger of an
  array and a repeated zero word; applies the evaluation-mode batch normalisation by dividing the scale vector by the
  constant `D = 4194325/4194304` and multiplying; and feeds two arrays to one matrix product by joining them side by
  side. Each of these, as a whole array, is the corresponding function of `Cert.Spec` with the vectors given as rows.
-/
import Idealize.ShloMosaic.PureOps.Ideal.Laws
import Idealize.ShloMosaic.Lib.ValueIdx
import Idealize.ShloMosaic.Lib.ValueLayout
import Idealize.ShloMosaic.Lib.Pipeline.Value
import proofs.«153049_j20907900797458_1_alg».proof.Proof.Spec
import proofs.«153049_j20907900797458_1_alg».proof.Proof.RefConsts
import proofs.«153049_j20907900797458_1_alg».proof.Proof.LibMatDot
import proofs.«153049_j20907900797458_1_alg».proof.Proof.LibBiasRows
import proofs.«153049_j20907900797458_1_alg».proof.Proof.LibAsRow
import proofs.«153049_j20907900797458_1_alg».proof.Proof.LibPair
import proofs.«153049_j20907900797458_1_alg».proof.Proof.LibConcatCols

noncomputable section

namespace Cert.HostLayers

open Idealize.ShloMosaic Idealize.ShloMosaic.ValueIdx Cert.Lib Cert.Spec
open scoped BigOperators

variable {n K M : ℕ}

/-- The host's quotient at an index. -/
theorem hostDivf_apply {s : Shape} {φ : FTy} (a b : FVec Ideal s φ) (i : s.Idx) :
    Host.divf a b i = Ideal.div (a i) (b i) := rfl

/-- The larger of an array and the repeated zero word is the relu. -/
theorem relu_eq (Y : FVec Ideal ⟨2, ![n, M]⟩ .f32)
    (h0 : (⟨0, ![]⟩ : Shape).BroadcastsInDim ⟨2, ![n, M]⟩ (![] : Fin 0 → Fin 2)) :
    maximumf Y (broadcastInDim ⟨2, ![n, M]⟩ ![] h0 (constant (F := Ideal) ⟨0, ![]⟩ .f32 0x00000000#32)) = reluOf Y :=
  funext fun i => by rw [maximumf_apply, splat2_apply, constant_apply, reluOf_apply]

/-- A matrix product plus a bias vector laid as a row and repeated over the rows is the linear layer with the bias as a row. -/
theorem affine_eq (wf : DotDims.WF ⟨2, ![n, K]⟩ ⟨2, ![K, M]⟩ ⟨2, ![n, M]⟩ [1] [0] [0] [1] [] [])
    (X : FVec Ideal ⟨2, ![n, K]⟩ .f32) (W : FVec Ideal ⟨2, ![K, M]⟩ .f32) (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (hc : (⟨1, ![M]⟩ : Shape).ShapeCasts ⟨2, ![1, M]⟩) :
    addf (Host.dotGeneral (F := Ideal) (matDot wf) none X W)
        (broadcastInDim ⟨2, ![n, M]⟩ ![0, 1] h2 (broadcastInDim ⟨2, ![1, M]⟩ ![1] h1 b))
      = rowAffine (ψ := .f32) X W (shapeCast ⟨2, ![1, M]⟩ b hc) := by
  funext i
  obtain ⟨p, q, rfl⟩ : ∃ (p : Fin n) (q : Fin M), i = ix2 p q := ⟨i 0, i 1, eq_ix2 i⟩
  rw [addf_apply, rowAffine_apply, biasRows_apply, shapeCast_eq_asRow, asRow_apply]
  exact congrArg (· + b (ix1 q)) (dotGeneral_plain_apply wf none .single X W p q)

/-- Scaling by the scale vector divided by `D` and shifting, both vectors laid as rows and repeated, is the batch
    normalisation in evaluation mode. -/
theorem bn_eq (Z : FVec Ideal ⟨2, ![n, M]⟩ .f32) (γ β : FVec Ideal ⟨1, ![M]⟩ .f32)
    (h0 : (⟨0, ![]⟩ : Shape).BroadcastsInDim ⟨1, ![M]⟩ (![] : Fin 0 → Fin 1))
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (hc : (⟨1, ![M]⟩ : Shape).ShapeCasts ⟨2, ![1, M]⟩) :
    addf
        (mulf Z (broadcastInDim ⟨2, ![n, M]⟩ ![0, 1] h2 (broadcastInDim ⟨2, ![1, M]⟩ ![1] h1
          (Host.divf (F := Ideal) γ (broadcastInDim ⟨1, ![M]⟩ ![] h0 (constant (F := Ideal) ⟨0, ![]⟩ .f32 0x3F80002A#32))))))
        (broadcastInDim ⟨2, ![n, M]⟩ ![0, 1] h2 (broadcastInDim ⟨2, ![1, M]⟩ ![1] h1 β))
      = bnRows Z (shapeCast ⟨2, ![1, M]⟩ γ hc) (shapeCast ⟨2, ![1, M]⟩ β hc) := by
  funext i
  obtain ⟨p, q, rfl⟩ : ∃ (p : Fin n) (q : Fin M), i = ix2 p q := ⟨i 0, i 1, eq_ix2 i⟩
  rw [addf_apply, mulf_apply, bnRows_apply, biasRows_apply, biasRows_apply, shapeCast_eq_asRow, shapeCast_eq_asRow,
    asRow_apply, asRow_apply, hostDivf_apply, splat_apply, constant_apply, Cert.RefConsts.div_bnD]

/-- Two arrays joined side by side against one weight matrix, plus the bias, is the two-input layer on the upper and
    the lower half of the weights. -/
theorem twoAffine_eq {C : ℕ} (hC : K + K = C)
    (wf : DotDims.WF ⟨2, ![n, C]⟩ ⟨2, ![C, M]⟩ ⟨2, ![n, M]⟩ [1] [0] [0] [1] [] [])
    (x y : FVec Ideal ⟨2, ![n, K]⟩ .f32) (W : FVec Ideal ⟨2, ![C, M]⟩ .f32) (b : FVec Ideal ⟨1, ![M]⟩ .f32)
    (hcat : Shape.Concatenates [⟨2, ![n, K]⟩, ⟨2, ![n, K]⟩] ⟨2, ![n, C]⟩ 1)
    (hsa : (⟨2, ![C, M]⟩ : Shape).Slices ![0, 0] ⟨2, ![K, M]⟩) (hsb : (⟨2, ![C, M]⟩ : Shape).Slices ![K, 0] ⟨2, ![K, M]⟩)
    (h1 : (⟨1, ![M]⟩ : Shape).BroadcastsInDim ⟨2, ![1, M]⟩ (![1] : Fin 1 → Fin 2))
    (h2 : (⟨2, ![1, M]⟩ : Shape).BroadcastsInDim ⟨2, ![n, M]⟩ (![0, 1] : Fin 2 → Fin 2))
    (hc : (⟨1, ![M]⟩ : Shape).ShapeCasts ⟨2, ![1, M]⟩) :
    addf (Host.dotGeneral (F := Ideal) (matDot wf) none
          (concatenate ⟨2, ![n, C]⟩ 1 [⟨⟨2, ![n, K]⟩, x⟩, ⟨⟨2, ![n, K]⟩, y⟩] hcat : FVec Ideal ⟨2, ![n, C]⟩ .f32) W)
        (broadcastInDim ⟨2, ![n, M]⟩ ![0, 1] h2 (broadcastInDim ⟨2, ![1, M]⟩ ![1] h1 b))
      = twoAffine x y (extractStridedSlice ⟨2, ![K, M]⟩ ![0, 0] W hsa) (extractStridedSlice ⟨2, ![K, M]⟩ ![K, 0] W hsb)
          (shapeCast ⟨2, ![1, M]⟩ b hc) := by
  funext i
  obtain ⟨p, q, rfl⟩ : ∃ (p : Fin n) (q : Fin M), i = ix2 p q := ⟨i 0, i 1, eq_ix2 i⟩
  rw [addf_apply, twoAffine_apply, biasRows_apply, shapeCast_eq_asRow, asRow_apply]
  refine congrArg (· + b (ix1 q)) ((dotGeneral_plain_apply wf none .single _ W p q).trans ?_)
  rw [sum_fin_add hC]
  refine congrArg₂ (· + ·) (Finset.sum_congr rfl fun k _ => ?_) (Finset.sum_congr rfl fun k _ => ?_)
  · rw [pair_cols_left x y hcat p k, slice2_axis0_apply 0 W hsa k q ⟨k.val, by have := k.isLt; omega⟩ (Nat.zero_add _).symm]
  · rw [pair_cols_right x y hcat p k, slice2_axis0_apply K W hsb k q ⟨K + k.val, by have := k.isLt; omega⟩ rfl]

end Cert.HostLayers

end
-- ==== Proof.RefDense.lean ====
/-
  The reference's two kinds of dense layer are the specification's graph-isomorphism layers, the bias, scale and shift
  vectors read as rows: the products are plain row-by-column products, the relus are relus, and dividing the scale by the
  standard deviation is multiplying by its reciprocal; the later layers add the input back, on the other side of the sum.
-/
import proofs.«153049_j20907900797458_1_alg».proof.Proof.RefDefs
import proofs.«153049_j20907900797458_1_alg».proof.Proof.HostLayers

noncomputable section

namespace Cert.RefValue

open Idealize.ShloMosaic Cert.ReferenceIdeal Cert.ReferenceIdeal.Gen Cert.Lib Cert.Spec Cert.HostLayers
open Cert.Net (CI CR)

/-- The two products' dimension records are those of a plain product of rows with columns. -/
theorem dot70_rec : dot_S50000x70_S70x256_S50000x256_1_0_0_1_n_n
    = matDot dot_S50000x70_S70x256_S50000x256_1_0_0_1_n_n_wf := rfl
theorem dot256_rec : dot_S50000x256_S256x256_S50000x256_1_0_0_1_n_n
    = matDot dot_S50000x256_S256x256_S50000x256_1_0_0_1_n_n_wf := rfl

/-- Layer 0 is the specification's layer without residual. -/
theorem dense0_eq (x agg : CR S50000x70) (w1 : CR S70x256) (b1 : CR S256) (w2 : CR S256x256) (b2 γ β : CR S256) :
    dense0 x agg w1 b1 w2 b2 γ β
      = Cert.Spec.ginLayer x agg w1 (Cert.Net.row b1) w2 (Cert.Net.row b2) (Cert.Net.row γ) (Cert.Net.row β) := by
  unfold dense0 Cert.Spec.ginLayer Cert.Net.row
  rw [dot70_rec, dot256_rec,
    affine_eq (hc := Cert.KernelIdeal.Gen.shapeCasts_S256_S1x256),
    affine_eq (hc := Cert.KernelIdeal.Gen.shapeCasts_S256_S1x256),
    bn_eq (hc := Cert.KernelIdeal.Gen.shapeCasts_S256_S1x256), relu_eq, relu_eq]
  rfl

/-- A later layer is the specification's layer with the residual. -/
theorem dense256_eq (h agg : CR S50000x256) (w1 : CR S256x256) (b1 : CR S256) (w2 : CR S256x256) (b2 γ β : CR S256) :
    dense256 h agg w1 b1 w2 b2 γ β
      = Cert.Spec.ginLayerRes h agg w1 (Cert.Net.row b1) w2 (Cert.Net.row b2) (Cert.Net.row γ) (Cert.Net.row β) := by
  unfold dense256 Cert.Spec.ginLayerRes Cert.Spec.ginLayer Cert.Net.row
  rw [dot256_rec,
    affine_eq (hc := Cert.KernelIdeal.Gen.shapeCasts_S256_S1x256),
    affine_eq (hc := Cert.KernelIdeal.Gen.shapeCasts_S256_S1x256),
    bn_eq (hc := Cert.KernelIdeal.Gen.shapeCasts_S256_S1x256), relu_eq, relu_eq]
  funext i
  exact add_comm _ _

end Cert.RefValue

end
-- ==== Proof.LibSumColumn.lean ====
/-
  Row sums laid as a column, read at an index.

  The host sums each row of an `[R, K]` array from an initial value and lays the `R` sums out as an `[R, 1]` column. Read on
  the extended reals at `(r, 0)` this is the initial value plus the sum of row `r`'s `K` entries. The companion fact: an
  array of `R·K` numbers reshaped to `[R, K]`, from a flat vector or from a one-column matrix, has flat entry `K r + a` at
  `(r, a)`.
-/
import Idealize.ShloMosaic.PureOps.Ideal.Laws
import Idealize.ShloMosaic.Lib.ValueIdx
import Idealize.ShloMosaic.Lib.Pipeline.Value
import proofs.«153049_j20907900797458_1_alg».proof.Proof.LibRowSum

noncomputable section

namespace Cert.Lib

open Idealize.ShloMosaic Idealize.ShloMosaic.ValueIdx
open scoped BigOperators

variable {R K : ℕ}

/-- The column of row sums at `i`: the initial value plus the sum of row `i 0`. -/
theorem rowSums_column_apply {φ : FTy} {u : Shape} (O : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (hb : (⟨1, ![R]⟩ : Shape).BroadcastsInDim ⟨2, ![R, 1]⟩ (![0] : Fin 1 → Fin 2))
    (i : (⟨2, ![R, 1]⟩ : Shape).Idx) :
    broadcastInDim ⟨2, ![R, 1]⟩ ![0] hb (Host.reduceAdd O init h' hu) i
      = init (Shape.Idx.first hu) + ∑ k : Fin K, O (ix2 (i 0) k) := by
  refine (broadcastInDim_apply _ hb _ i (ix1 (i 0)) fun a => ?_).trans (hostReduceAdd_rows O init h' h hu (i 0))
  match a with
  | ⟨0, _⟩ =>
    show (i 0).val = if R = 1 then 0 else (i 0).val
    have hlt : (i 0).val < R := (i 0).isLt
    split
    · omega
    · rfl

/-- A flat vector of `R·K` entries reshaped to `[R, K]`: entry `(r, a)` is flat entry `K r + a`. -/
theorem reshape_flat_apply {α : Type} {n : ℕ} (x : (⟨1, ![n]⟩ : Shape).Idx → α)
    (h : (⟨1, ![n]⟩ : Shape).ShapeCasts ⟨2, ![R, K]⟩) (r : Fin R) (a : Fin K) (j : Fin n) (hj : j.val = r.val * K + a.val) :
    shapeCast ⟨2, ![R, K]⟩ x h (ix2 r a) = x (ix1 j) :=
  shapeCast_apply x h _ _ (by
    rw [Shape.rowMajor_val_two, Shape.rowMajor_val_one]
    exact hj)

/-- A one-column matrix of `R·K` rows reshaped to `[R, K]`: entry `(r, a)` is row `K r + a`. -/
theorem reshape_column_apply {α : Type} {n : ℕ} (x : (⟨2, ![n, 1]⟩ : Shape).Idx → α)
    (h : (⟨2, ![n, 1]⟩ : Shape).ShapeCasts ⟨2, ![R, K]⟩) (r : Fin R) (a : Fin K) (j : Fin n) (hj : j.val = r.val * K + a.val) :
    shapeCast ⟨2, ![R, K]⟩ x h (ix2 r a) = x (ix2 j (0 : Fin 1)) :=
  shapeCast_apply x h _ _ (by
    rw [Shape.rowMajor_val_two, Shape.rowMajor_val_two]
    show j.val * 1 + 0 = r.val * K + a.val
    omega)

end Cert.Lib

end
-- ==== Proof.LibColumnForms.lean ====
/-
  A column vector on the host: its two spellings, and its spread over a matrix.

  A vector of `a` entries becomes the column `[a, 1]` either by a reshape or by a broadcast that sends the vector's axis to
  the column's first axis: the two are one array, entry (i, 0) being the vector's entry i. A column `[R, 1]` broadcast to
  `[R, N]` with its axes kept in place reads, at (r, n), the column's entry r.
-/
import Idealize.ShloMosaic.Lib.ValueIdx
import Idealize.ShloMosaic.Lib.Pipeline.Value
import proofs.«153049_j20907900797458_1_alg».proof.Proof.LibColumn

noncomputable section

namespace Cert.Lib

open Idealize.ShloMosaic Idealize.ShloMosaic.ValueIdx

variable {α : Type}

/-- A column `[R, 1]` broadcast to `[R, N]` (axes kept in place) reads, at `(r, n)`, the column's entry `r`. -/
theorem cols_of_oneCol {R N : ℕ} (hb : (⟨2, ![R, 1]⟩ : Shape).BroadcastsInDim ⟨2, ![R, N]⟩ (![0, 1] : Fin 2 → Fin 2))
    (v : (⟨2, ![R, 1]⟩ : Shape).Idx → α) (r : Fin R) (n : Fin N) :
    broadcastInDim ⟨2, ![R, N]⟩ ![0, 1] hb v (ix2 r n) = v (ix2 r (0 : Fin 1)) :=
  broadcastInDim_apply _ hb v (ix2 r n) (ix2 r (0 : Fin 1)) (fun a => match a with
    | ⟨0, _⟩ => by
      show r.val = if R = 1 then 0 else r.val
      have h1 : r.val < R := r.isLt
      split
      · omega
      · rfl
    | ⟨1, _⟩ => by
      show (0 : ℕ) = if (1 : ℕ) = 1 then 0 else n.val
      rw [if_pos rfl])

/-- A vector reshaped to a column and the same vector broadcast into the column along the first axis are one array. -/
theorem shapeCast_eq_broadcastInDim_col {a : ℕ} (v : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ v h = broadcastInDim ⟨2, ![a, 1]⟩ ![0] hb v := by
  funext i
  refine ((congrArg (shapeCast ⟨2, ![a, 1]⟩ v h) (eq_ix2 i)).trans (shapeCast_a_a1_apply v h (i 0) (i 1))).trans ?_
  exact (broadcastInDim_apply _ hb v i (ix1 (i 0)) (fun ax => match ax with
    | ⟨0, _⟩ => by
      show (i 0).val = if a = 1 then 0 else (i 0).val
      have h1 : (i 0).val < a := (i 0).isLt
      split
      · omega
      · rfl)).symm

end Cert.Lib

end
-- ==== Proof.RefProj.lean ====
/-
  The reference's protein projector is the specification's: a linear layer, then per row the mean (the zero word plus the
  row's sum, over 256), the mean squared deviation (the mean recomputed, the differences squared and summed, over
  `256 − 0`, kept because `256 − 0 > 0`), the reciprocal square root of the variance plus epsilon, the per-column scale and
  shift given as vectors, and a relu.
-/
import proofs.«153049_j20907900797458_1_alg».proof.Proof.RefDefs
import proofs.«153049_j20907900797458_1_alg».proof.Proof.HostLayers
import proofs.«153049_j20907900797458_1_alg».proof.Proof.LibSumColumn
import proofs.«153049_j20907900797458_1_alg».proof.Proof.LibColumnForms

noncomputable section

namespace Cert.RefValue

open Idealize.ShloMosaic Idealize.ShloMosaic.ValueIdx Cert.ReferenceIdeal Cert.ReferenceIdeal.Gen Cert.Lib Cert.Spec
  Cert.HostLayers
open Cert.Net (CI CR)
open scoped BigOperators

theorem dotProj_rec : dot_S2048x480_S480x256_S2048x256_1_0_0_1_n_n
    = matDot dot_S2048x480_S480x256_S2048x256_1_0_0_1_n_n_wf := rfl

/-- The host's reciprocal square root at an index. -/
theorem hostRsqrt_apply {s : Shape} {φ : FTy} (a : FVec Ideal s φ) (i : s.Idx) : Host.rsqrt a i = Ideal.rsqrt (a i) := rfl

/-- The projector's linear layer. -/
theorem projLin_eq (pe : CR S2048x480) (wp : CR S480x256) (bp : CR S256) :
    projLin pe wp bp = rowAffine (ψ := .f32) pe wp (Cert.Net.row bp) := by
  unfold projLin Cert.Net.row
  rw [dotProj_rec, affine_eq (hc := Cert.KernelIdeal.Gen.shapeCasts_S256_S1x256)]

/-- The column of row means reads the row's mean. -/
theorem meanCol_apply (z : CR S2048x256) (p : Fin 2048) : meanCol z (ix2 p (0 : Fin 1)) = rowMean z p := by
  unfold meanCol
  rw [hostDivf_apply, rowSums_column_apply z _ reducesTo_S2048x256_S2048_d1 (by decide) h_S_ bcast_S2048_S2048x1_0,
    splat2_apply, constant_apply, constant_apply, Ideal.ofBits_zero_f32, zero_add]
  rfl

/-- The scalar the variance divides by is `256`. -/
theorem varCount_ix0 : varCount ix0 = Ideal.ofBits .f32 0x43800000#32 := Cert.RefConsts.count_sub_zero

/-- The column of row variances reads the row's mean squared deviation. -/
theorem varCol_apply (z : CR S2048x256) (p : Fin 2048) : varCol z (ix2 p (0 : Fin 1)) = rowVar z p := by
  unfold varCol
  rw [select_apply, splat2_apply, cmpf_apply, constant_apply, varCount_ix0, Ideal.cmpf_def, Cert.RefConsts.count_pos,
    select_one, hostDivf_apply,
    rowSums_column_apply _ _ reducesTo_S2048x256_S2048_d1 (by decide) h_S_ bcast_S2048_S2048x1_0,
    splat2_apply, varCount_ix0, constant_apply, Ideal.ofBits_zero_f32, zero_add]
  refine congrArg (Ideal.div · _) (Finset.sum_congr rfl fun k _ => ?_)
  rw [mulf_apply, subf_apply, cols_of_oneCol, meanCol_apply]

/-- Layer normalisation and relu, as the reference spells them, are the specification's. -/
theorem lnRelu_eq (z : CR S2048x256) (lng lnb : CR S256) :
    lnRelu z lng lnb = layerNormRelu z (Cert.Net.row lng) (Cert.Net.row lnb) := by
  funext i
  obtain ⟨p, q, rfl⟩ : ∃ (p : Fin 2048) (q : Fin 256), i = ix2 p q := ⟨i 0, i 1, eq_ix2 i⟩
  unfold lnRelu Cert.Net.row
  rw [layerNormRelu_apply, maximumf_apply, addf_apply, mulf_apply, mulf_apply, subf_apply, splat2_apply, constant_apply,
    biasRows_apply, biasRows_apply, cols_of_oneCol, cols_of_oneCol, meanCol_apply, hostRsqrt_apply, addf_apply,
    varCol_apply, splat2_apply, constant_apply, shapeCast_eq_asRow, shapeCast_eq_asRow, asRow_apply, asRow_apply]
  rfl

/-- The protein projector is the pivot's. -/
theorem proj_eq (pe : CR S2048x480) (wp : CR S480x256) (bp lng lnb : CR S256) :
    proj pe wp bp lng lnb = Cert.Net.prot pe wp bp lng lnb := by
  unfold proj Cert.Net.prot Cert.Spec.projLayer
  rw [lnRelu_eq, projLin_eq]

end Cert.RefValue

end
-- ==== Proof.RefPred.lean ====
/-
  The reference's predictor is the specification's: the pooled drug vectors and the protein vectors are joined side by
  side and multiplied by one weight matrix, which is the sum of the products of each with its half of the weights; two
  more linear layers follow, relus between.
-/
import proofs.«153049_j20907900797458_1_alg».proof.Proof.RefDefs
import proofs.«153049_j20907900797458_1_alg».proof.Proof.HostLayers

noncomputable section

namespace Cert.RefValue

open Idealize.ShloMosaic Cert.ReferenceIdeal Cert.ReferenceIdeal.Gen Cert.Lib Cert.Spec Cert.HostLayers
open Cert.Net (CI CR)

theorem dotPred1_rec : dot_S2048x512_S512x1024_S2048x1024_1_0_0_1_n_n
    = matDot dot_S2048x512_S512x1024_S2048x1024_1_0_0_1_n_n_wf := rfl
theorem dotPred2_rec : dot_S2048x1024_S1024x512_S2048x512_1_0_0_1_n_n
    = matDot dot_S2048x1024_S1024x512_S2048x512_1_0_0_1_n_n_wf := rfl
theorem dotPred3_rec : dot_S2048x512_S512x1_S2048x1_1_0_0_1_n_n
    = matDot dot_S2048x512_S512x1_S2048x1_1_0_0_1_n_n_wf := rfl

/-- The predictor is the pivot's. -/
theorem pred_eq (drug prt : CR S2048x256) (wpr1 : CR S512x1024) (bpr1 : CR S1024) (wpr2 : CR S1024x512) (bpr2 : CR S512)
    (wpr3 : CR S512x1) (bpr3 : CR S1) :
    pred drug prt wpr1 bpr1 wpr2 bpr2 wpr3 bpr3 = Cert.Net.pred drug prt wpr1 bpr1 wpr2 bpr2 wpr3 bpr3 := by
  unfold pred Cert.Net.pred Cert.Spec.predLayer
  rw [dotPred1_rec, dotPred2_rec, dotPred3_rec,
    twoAffine_eq (K := 256) (hC := rfl) (hsa := Cert.KernelIdeal.Gen.slices_S512x1024_S256x1024_0_0)
      (hsb := Cert.KernelIdeal.Gen.slices_S512x1024_S256x1024_256_0) (hc := Cert.KernelIdeal.Gen.shapeCasts_S1024_S1x1024),
    relu_eq,
    affine_eq (hc := Cert.KernelIdeal.Gen.shapeCasts_S512_S1x512),
    relu_eq,
    affine_eq (hc := Cert.KernelIdeal.Gen.shapeCasts_S1_S1x1)]

end Cert.RefValue

end
-- ==== Proof.RefBridge.lean ====
/-
  The reference's value is the pivot's: stage by stage the reference computes the specification's network — the host
  lookups and accumulations are the same operations, the dense layers, the projector and the predictor are the
  specification's — so the whole composition is, by congruence.
-/
import proofs.«153049_j20907900797458_1_alg».proof.Proof.RefHostEq
import proofs.«153049_j20907900797458_1_alg».proof.Proof.RefDense
import proofs.«153049_j20907900797458_1_alg».proof.Proof.RefProj
import proofs.«153049_j20907900797458_1_alg».proof.Proof.RefPred

noncomputable section

namespace Cert.RefValue

open Idealize.ShloMosaic Cert.ReferenceIdeal Cert.ReferenceIdeal.Gen
open Cert.Net (CI CR)

/-- A residual layer on one slab is the pivot's. -/
theorem resLayer_eq (offW : Fin 3 → ℕ) (hW : S3x256x256.Slices offW S1x256x256) (offV : Fin 2 → ℕ) (hV : S3x256.Slices offV S1x256)
    (h : CR S50000x256) (ei : CI S2x400000) (W1s : CR S3x256x256) (B1s : CR S3x256) (W2s : CR S3x256x256) (B2s Γs Βs : CR S3x256) :
    resLayer offW hW offV hV h ei W1s B1s W2s B2s Γs Βs = Cert.Net.resLayer offW hW offV hV h ei W1s B1s W2s B2s Γs Βs := by
  unfold resLayer Cert.Net.resLayer
  rw [dense256_eq, agg256_eq]
  rfl

/-- The node features after the four layers are the pivot's. -/
theorem nodes_eq (x : CR S50000x70) (ei : CI S2x400000) (w1 : CR S70x256) (b1 : CR S256) (w2 : CR S256x256) (b2 γ β : CR S256)
    (W1s : CR S3x256x256) (B1s : CR S3x256) (W2s : CR S3x256x256) (B2s Γs Βs : CR S3x256) :
    nodes x ei w1 b1 w2 b2 γ β W1s B1s W2s B2s Γs Βs = Cert.Net.nodes x ei w1 b1 w2 b2 γ β W1s B1s W2s B2s Γs Βs := by
  unfold nodes Cert.Net.nodes Cert.Net.layer0
  rw [resLayer_eq, resLayer_eq, resLayer_eq, dense0_eq, agg70_eq]

/-- The reference's result is the pivot's. -/
theorem out_eq (x : CR S50000x70) (ei : CI S2x400000) (batch : CI S50000) (pe : CR S2048x480) (w1 : CR S70x256) (b1 : CR S256)
    (w2 : CR S256x256) (b2 γ β : CR S256) (W1s : CR S3x256x256) (B1s : CR S3x256) (W2s : CR S3x256x256) (B2s Γs Βs : CR S3x256)
    (wp : CR S480x256) (bp lng lnb : CR S256) (wpr1 : CR S512x1024) (bpr1 : CR S1024) (wpr2 : CR S1024x512) (bpr2 : CR S512)
    (wpr3 : CR S512x1) (bpr3 : CR S1) :
    out x ei batch pe w1 b1 w2 b2 γ β W1s B1s W2s B2s Γs Βs wp bp lng lnb wpr1 bpr1 wpr2 bpr2 wpr3 bpr3
      = Cert.Net.out x ei batch pe w1 b1 w2 b2 γ β W1s B1s W2s B2s Γs Βs wp bp lng lnb wpr1 bpr1 wpr2 bpr2 wpr3 bpr3 := by
  unfold out Cert.Net.out
  rw [pred_eq, pool_eq, nodes_eq, proj_eq]

end Cert.RefValue

end
-- ==== Proof.lean ====
/-
  The certificate of the fused graph-network kernel against its reference.

  Both idealized programs end with `Cert.Net.out` of their argument arrays: four graph-isomorphism layers (neighbourhood sums on the
  host, then `relu (bn (relu ((h + agg)·W₁ + b₁)·W₂ + b₂))`, the last three with a residual), a per-graph pooling, a protein
  projector with layer normalisation, and a three-layer predictor. The kernel multiplies the batch-norm scale by the constant named
  `inv_bn_std`, the rational 4194304/4194325 at `Ideal`; the reference divides by the float 4194325/4194304: the same number on
  the extended reals for every scale, finite or not, so the precondition is never opened. The kernel program's value is read off its
  frame run segment by segment (`Cert.KernelIdeal.Chain.result_W12` over the six regions' closed forms), the reference's off its
  host run (`Cert.RefValue.run`, `Cert.RefValue.out_eq`).
-/
import proofs.«153049_j20907900797458_1_alg».proof.Defs
import proofs.«153049_j20907900797458_1_alg».proof.Proof.Gen.Kernel
import proofs.«153049_j20907900797458_1_alg».proof.Proof.Gen.Kernel.Frame
import proofs.«153049_j20907900797458_1_alg».proof.Proof.Gen.KernelIdeal
import proofs.«153049_j20907900797458_1_alg».proof.Proof.Gen.KernelIdeal.Frame
import proofs.«153049_j20907900797458_1_alg».proof.Proof.Gen.ReferenceIdeal
import proofs.«153049_j20907900797458_1_alg».proof.Proof.Gen.Pre_finite_inputs
import proofs.«153049_j20907900797458_1_alg».proof.Proof.KRun
import proofs.«153049_j20907900797458_1_alg».proof.Proof.KChain
import proofs.«153049_j20907900797458_1_alg».proof.Proof.RefRead
import proofs.«153049_j20907900797458_1_alg».proof.Proof.RefBridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefValue.run m ρ)

/-- The ledger's four entries are one statement: the certificate's table gives `"inv_bn_std"` the value 4194304/4194325, the
    reciprocal of the reference's divisor, and the printed constant is that value at `Ideal`. -/
theorem named : IdealRules.named_const.Statement Cert.KernelIdeal.κ "inv_bn_std" .f32 0x3F7FFFAC#32 ((4194304 / 4194325 : ℝ) : EReal) :=
  IdealRules.named_const.statement Cert.KernelIdeal.κ "inv_bn_std" .f32 0x3F7FFFAC#32 ((4194304 / 4194325 : ℝ) : EReal) rfl

theorem preserves : Cert.preserves_Kernel_KernelIdeal := ⟨named, named, named, named⟩

/-- Both runs end with the network's function of the (agreeing) argument arrays. -/
theorem algebraic : Cert.algebraic_KernelIdeal_ReferenceIdeal := by
  intro m ρ m' ρ' _ hagree
  refine ⟨fun c => Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)), ?_, ?_⟩
  · exact (θ_run Cert.KernelIdeal.defs _ _).mono
      (fun r h c => ⟨(h c).1.trans (Cert.KernelIdeal.Chain.result_W12 m ρ c), (h c).2⟩)
      (Cert.KernelIdeal.Result.run_result m ρ)
  · refine (θ_run Cert.ReferenceIdeal.defs _ _).mono (fun r h c => ⟨?_, (h c).2⟩) (Cert.RefValue.run m' ρ')
    obtain ⟨a0, a1, a2, a3, a4, a5, a6, a7, a8, a9, a10, a11, a12, a13, a14, a15, a16, a17, a18, a19, a20, a21, a22, a23, a24, a25⟩ := hagree c
    rw [(h c).1, Cert.RefValue.out_eq, a0, a1, a2, a3, a4, a5, a6, a7, a8, a9, a10, a11, a12, a13, a14, a15, a16, a17, a18, a19, a20, a21, a22, a23, a24, a25]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
